-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S2x1048576 : Shape := ⟨2, ![2, 1048576]⟩
abbrev S65536 : Shape := ⟨1, ![65536]⟩
abbrev S128x64 : Shape := ⟨2, ![128, 64]⟩
abbrev S64 : Shape := ⟨1, ![64]⟩
abbrev S64x64 : Shape := ⟨2, ![64, 64]⟩
abbrev S147x64 : Shape := ⟨2, ![147, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S147x64 : S_.BroadcastsInDim S147x64 (![] : Fin 0 → Fin S147x64.rank)
  reducesTo_S147x64_S_d0_1 : S147x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg18 : FVec F S32x1 .f32) (main_arg19 : FVec F S1 .f32) (main_v63 : IVec S_ 1) (main_v67 : IVec S_ 1) : IVec S_ 1 :=
  let main_v68 : IVec S_ 1 := andi main_v63 main_v67
  let main_v69 : FVec F S32x1 .f32 := Host.absf main_arg18
  let main_cst_26 : FVec F S_ .f32 := constant S_ .f32 0x7F800000#32
  let main_v70 : FVec F S32x1 .f32 := broadcastInDim S32x1 ![] bcast_S_S32x1 main_cst_26
  let main_v71 : IVec S32x1 1 := cmpf .olt main_v69 main_v70
  let main_c_27 : IVec S_ 1 := constantI S_ 1 1#1
  let main_v72 : IVec S_ 1 := (fun x v => Host.reduce IntOp.andi x v reducesTo_S32x1_S_d0_1 h_S_) main_v71 main_c_27
  let main_v73 : IVec S_ 1 := andi main_v68 main_v72
  let main_v74 : FVec F S1 .f32 := Host.absf main_arg19
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg15 : FVec F S64 .f32) (main_arg16 : FVec F S64x32 .f32) (main_arg17 : FVec F S32 .f32) (main_arg18 : FVec F S32x1 .f32) (main_arg19 : FVec F S1 .f32) (main_v48 : IVec S_ 1) (main_v49 : FVec F S147x64 .f32) (main_v50 : FVec F S147x64 .f32) : IVec S_ 1 :=
  let main_v51 : IVec S147x64 1 := cmpf .olt main_v49 main_v50
  let main_c_19 : IVec S_ 1 := constantI S_ 1 1#1
  let main_v52 : IVec S_ 1 := (fun x v => Host.reduce IntOp.andi x v reducesTo_S147x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg16
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg17
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg18 main_arg19 main_v63 main_v67

def fn_part2 {F : FTy → Type} [FloatOps F] (main_arg11 : FVec F S64 .f32) (main_arg12 : FVec F S64x64 .f32) (main_arg13 : FVec F S64 .f32) (main_arg14 : FVec F S147x64 .f32) (main_arg15 : FVec F S64 .f32) (main_arg16 : FVec F S64x32 .f32) (main_arg17 : FVec F S32 .f32) (main_arg18 : FVec F S32x1 .f32) (main_arg19 : FVec F S1 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S147x64 .f32 := Host.absf main_arg14
  let main_cst_18 : FVec F S_ .f32 := constant S_ .f32 0x7F800000#32
  let main_v50 : FVec F S147x64 .f32 := broadcastInDim S147x64 ![] bcast_S_S147x64 main_cst_18
  fn_part3 (F := F) main_arg15 main_arg16 main_arg17 main_arg18 main_arg19 main_v48 main_v49 main_v50

def fn_part1 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S147x64 .f32) (main_arg15 : FVec F S64 .f32) (main_arg16 : FVec F S64x32 .f32) (main_arg17 : FVec F S32 .f32) (main_arg18 : FVec F S32x1 .f32) (main_arg19 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg8
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : FVec F S65536x128 .f32) (main_arg1 : IVec S2x1048576 32) (main_arg2 : IVec S65536 32) (main_arg3 : FVec F S65536x128 .f32) (main_arg4 : IVec S2x1048576 32) (main_arg5 : IVec S65536 32) (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S147x64 .f32) (main_arg15 : FVec F S64 .f32) (main_arg16 : FVec F S64x32 .f32) (main_arg17 : FVec F S32 .f32) (main_arg18 : FVec F S32x1 .f32) (main_arg19 : FVec F S1 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S65536x128 .f32 := Host.absf main_arg3
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S128x64 .f32 := Host.absf main_arg6
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_arg16 main_arg17 main_arg18 main_arg19 main_v13 main_v16
-- ==== Kernel.lean ====
abbrev S65536x128 : Shape := ⟨2, ![65536, 128]⟩
abbrev S2x1048576 : Shape := ⟨2, ![2, 1048576]⟩
abbrev S65536 : Shape := ⟨1, ![65536]⟩
abbrev S128x64 : Shape := ⟨2, ![128, 64]⟩
abbrev S64 : Shape := ⟨1, ![64]⟩
abbrev S64x64 : Shape := ⟨2, ![64, 64]⟩
abbrev S147x64 : Shape := ⟨2, ![147, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S1048576x128 : Shape := ⟨2, ![1048576, 128]⟩
abbrev S65536x64 : Shape := ⟨2, ![65536, 64]⟩
abbrev S1x64 : Shape := ⟨2, ![1, 64]⟩
abbrev S1048576x64 : Shape := ⟨2, ![1048576, 64]⟩
abbrev S128x512x64 : Shape := ⟨3, ![128, 512, 64]⟩
abbrev S1x32 : Shape := ⟨2, ![1, 32]⟩
abbrev S1x1 : Shape := ⟨2, ![1, 1]⟩
abbrev S128x1 : Shape := ⟨2, ![128, 1]⟩
abbrev S8x512x64 : Shape := ⟨3, ![8, 512, 64]⟩
abbrev S8x1 : Shape := ⟨2, ![8, 1]⟩
abbrev S8x64 : Shape := ⟨2, ![8, 64]⟩
abbrev S8x512 : Shape := ⟨2, ![8, 512]⟩
abbrev S8x512x1 : Shape := ⟨3, ![8, 512, 1]⟩
abbrev S8x512x512 : Shape := ⟨3, ![8, 512, 512]⟩
abbrev S8 : Shape := ⟨1, ![8]⟩
abbrev S8x16 : Shape := ⟨2, ![8, 16]⟩
abbrev S8x3 : Shape := ⟨2, ![8, 3]⟩
abbrev S8x147 : Shape := ⟨2, ![8, 147]⟩
abbrev S8x32 : Shape := ⟨2, ![8, 32]⟩
abbrev S128 : Shape := ⟨1, ![128]⟩

abbrev nBuf : Space → Nat
  | .hbm => 147
  | .vmem => 12
  | .smem => 0
  | _ => 0

abbrev hbmTy0_0 (i : Nat) : BufTy := match i % 128 with
  | 0 => ⟨S65536x128, .f32⟩
  | 1 => ⟨S2x1048576, .i32⟩
  | 2 => ⟨S65536, .i32⟩
  | 3 => ⟨S65536x128, .f32⟩
  | 4 => ⟨S2x1048576, .i32⟩
  | 5 => ⟨S65536, .i32⟩
  | 6 => ⟨S128x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S147x64, .f32⟩
  | 15 => ⟨S64, .f32⟩
  | 16 => ⟨S64x32, .f32⟩
  | 17 => ⟨S32, .f32⟩
  | 18 => ⟨S32x1, .f32⟩
  | 19 => ⟨S1, .f32⟩
  | 20 => ⟨S1x1048576, .i32⟩
  | 21 => ⟨S1048576, .i32⟩
  | 22 => ⟨S1x1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S1048576x1, .i32⟩
  | 32 => ⟨S1048576x128, .f32⟩
  | 33 => ⟨S_, .f32⟩
  | 34 => ⟨S65536x128, .f32⟩
  | 35 => ⟨S1048576x1, .i32⟩
  | 36 => ⟨S65536x128, .f32⟩
  | 37 => ⟨S65536x128, .f32⟩
  | 38 => ⟨S65536x64, .f32⟩
  | 39 => ⟨S1x64, .f32⟩
  | 40 => ⟨S65536x64, .f32⟩
  | 41 => ⟨S65536x64, .f32⟩
  | 42 => ⟨S_, .f32⟩
  | 43 => ⟨S65536x64, .f32⟩
  | 44 => ⟨S65536x64, .f32⟩
  | 45 => ⟨S65536x64, .f32⟩
  | 46 => ⟨S1x64, .f32⟩
  | 47 => ⟨S65536x64, .f32⟩
  | 48 => ⟨S65536x64, .f32⟩
  | 49 => ⟨S_, .f32⟩
  | 50 => ⟨S65536x64, .f32⟩
  | 51 => ⟨S65536x64, .f32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i32⟩
  | 58 => ⟨S1048576, .i32⟩
  | 59 => ⟨S1048576x1, .i32⟩
  | 60 => ⟨S1048576x64, .f32⟩
  | 61 => ⟨S_, .f32⟩
  | 62 => ⟨S65536x64, .f32⟩
  | 63 => ⟨S1048576x1, .i32⟩
  | 64 => ⟨S65536x64, .f32⟩
  | 65 => ⟨S65536x64, .f32⟩
  | 66 => ⟨S65536x64, .f32⟩
  | 67 => ⟨S1x64, .f32⟩
  | 68 => ⟨S65536x64, .f32⟩
  | 69 => ⟨S65536x64, .f32⟩
  | 70 => ⟨S_, .f32⟩
  | 71 => ⟨S65536x64, .f32⟩
  | 72 => ⟨S65536x64, .f32⟩
  | 73 => ⟨S65536x64, .f32⟩
  | 74 => ⟨S1x64, .f32⟩
  | 75 => ⟨S65536x64, .f32⟩
  | 76 => ⟨S65536x64, .f32⟩
  | 77 => ⟨S_, .f32⟩
  | 78 => ⟨S65536x64, .f32⟩
  | 79 => ⟨S65536x64, .f32⟩
  | 80 => ⟨S1x1048576, .i32⟩
  | 81 => ⟨S1048576, .i32⟩
  | 82 => ⟨S1x1048576, .i32⟩
  | 83 => ⟨S1048576, .i32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S1048576x1, .i32⟩
  | 92 => ⟨S1048576x128, .f32⟩
  | 93 => ⟨S_, .f32⟩
  | 94 => ⟨S65536x128, .f32⟩
  | 95 => ⟨S1048576x1, .i32⟩
  | 96 => ⟨S65536x128, .f32⟩
  | 97 => ⟨S65536x128, .f32⟩
  | 98 => ⟨S65536x64, .f32⟩
  | 99 => ⟨S1x64, .f32⟩
  | 100 => ⟨S65536x64, .f32⟩
  | 101 => ⟨S65536x64, .f32⟩
  | 102 => ⟨S_, .f32⟩
  | 103 => ⟨S65536x64, .f32⟩
  | 104 => ⟨S65536x64, .f32⟩
  | 105 => ⟨S65536x64, .f32⟩
  | 106 => ⟨S1x64, .f32⟩
  | 107 => ⟨S65536x64, .f32⟩
  | 108 => ⟨S65536x64, .f32⟩
  | 109 => ⟨S_, .f32⟩
  | 110 => ⟨S65536x64, .f32⟩
  | 111 => ⟨S65536x64, .f32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S1048576x1, .i32⟩
  | 120 => ⟨S1048576x64, .f32⟩
  | 121 => ⟨S_, .f32⟩
  | 122 => ⟨S65536x64, .f32⟩
  | 123 => ⟨S1048576x1, .i32⟩
  | 124 => ⟨S65536x64, .f32⟩
  | 125 => ⟨S65536x64, .f32⟩
  | 126 => ⟨S65536x64, .f32⟩
  | 127 => ⟨S1x64, .f32⟩
  | _ => ⟨S65536x128, .f32⟩

abbrev hbmTy0_1 (i : Nat) : BufTy := match i % 128 with
  | 0 => ⟨S65536x64, .f32⟩
  | 1 => ⟨S65536x64, .f32⟩
  | 2 => ⟨S_, .f32⟩
  | 3 => ⟨S65536x64, .f32⟩
  | 4 => ⟨S65536x64, .f32⟩
  | 5 => ⟨S65536x64, .f32⟩
  | 6 => ⟨S1x64, .f32⟩
  | 7 => ⟨S65536x64, .f32⟩
  | 8 => ⟨S65536x64, .f32⟩
  | 9 => ⟨S_, .f32⟩
  | 10 => ⟨S65536x64, .f32⟩
  | 11 => ⟨S65536x64, .f32⟩
  | 12 => ⟨S128x512x64, .f32⟩
  | 13 => ⟨S128x512x64, .f32⟩
  | 14 => ⟨S1x64, .f32⟩
  | 15 => ⟨S1x32, .f32⟩
  | 16 => ⟨S1x1, .f32⟩
  | 17 => ⟨S128x1, .f32⟩
  | 18 => ⟨S128, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S147x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S32x1, .f32⟩
  | .local _ .vmem, ⟨9, _⟩ => ⟨S1x1, .f32⟩
  | .local _ .vmem, ⟨10, _⟩ => ⟨S8x1, .f32⟩
  | .local _ .vmem, ⟨11, _⟩ => ⟨S8x1, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_8 : Ref sig .tc := ⟨.hbm, 84, rfl⟩
abbrev main_v54 : Ref sig .tc := ⟨.hbm, 85, rfl⟩
abbrev main_v55 : Ref sig .tc := ⟨.hbm, 86, rfl⟩
abbrev main_c_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_c_13 : Ref sig .tc := ⟨.hbm, 112, rfl⟩
abbrev main_v77 : Ref sig .tc := ⟨.hbm, 113, rfl⟩
abbrev main_v78 : Ref sig .tc := ⟨.hbm, 114, rfl⟩
abbrev main_c_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_15 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_16 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_17 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S147x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x128 : S_.BroadcastsInDim S65536x128 (![] : Fin 0 → Fin S65536x128.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  shapeCasts_S65536x64_S128x512x64 : S65536x64.ShapeCasts S128x512x64
  shapeCasts_S64_S1x64 : S64.ShapeCasts S1x64
  shapeCasts_S32_S1x32 : S32.ShapeCasts S1x32
  shapeCasts_S1_S1x1 : S1.ShapeCasts S1x1
  inb_S8x512x64_S8x512x64_0_0_0 : ∀ a, (![0, 0, 0] : Fin 3 → Nat) a + S8x512x64.size a ≤ S8x512x64.size a
  h_S8x512x64 : 0 < S8x512x64.numel
  shapeCasts_S8x512x64_S8x512x64 : S8x512x64.ShapeCasts S8x512x64
  reduces_S8x512x64_S8x64 : S8x512x64.Reduces [1] S8x64
  reduces_S8x512x64_S8x512 : S8x512x64.Reduces [2] S8x512
  shapeCasts_S8x512_S8x512x1 : S8x512.ShapeCasts S8x512x1
  broadcasts_S8x512x1_S8x512x64 : S8x512x1.Broadcasts S8x512x64
  bitsLt_bf16_f32 : FTy.bits .bf16 < FTy.bits .f32
  reduces_S8x512x512_S8x512 : S8x512x512.Reduces [2] S8x512
  reduces_S8x512_S8 : S8x512.Reduces [1] S8
  natLt_1_32 : 1 < 32
  shapeCasts_S8_S8x1 : S8.ShapeCasts S8x1
  concatenates_S8x1_S8x1_S8x1_S8x1_S8x1_S8x1_S8x1_S8x1_S8x1_S8x1_S8x1_S8x1_S8x1_S8x1_S8x1_S8x1_S8x16_d1 : Shape.Concatenates [S8x1, S8x1, S8x1, S8x1, S8x1, S8x1, S8x1, S8x1, S8x1, S8x1, S8x1, S8x1, S8x1, S8x1, S8x1, S8x1] S8x16 1
  reduces_S8x16_S8 : S8x16.Reduces [1] S8
  broadcasts_S8x1_S8x16 : S8x1.Broadcasts S8x16
  concatenates_S8x1_S8x1_S8x1_S8x3_d1 : Shape.Concatenates [S8x1, S8x1, S8x1] S8x3 1
  concatenates_S8x64_S8x64_S8x16_S8x3_S8x147_d1 : Shape.Concatenates [S8x64, S8x64, S8x16, S8x3] S8x147 1
  inb_S147x64_S147x64_0_0 : ∀ a, (![0, 0] : Fin 2 → Nat) a + S147x64.size a ≤ S147x64.size a
  h_S147x64 : 0 < S147x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8x64 : S1x64.Broadcasts S8x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8x32 : S1x32.Broadcasts S8x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x1 : S1x1.Broadcasts S8x1
  inb_S8x1_S8x1_0_0 : ∀ a, (![0, 0] : Fin 2 → Nat) a + S8x1.size a ≤ S8x1.size a
  h_S8x1 : 0 < S8x1.numel
  shapeCasts_S128x1_S128 : S128x1.ShapeCasts S128
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1
  dot_S65536x128_S128x64_S65536x64_1_0_0_1_n_n_wf : DotDims.WF S65536x128 S128x64 S65536x64 [1] [0] [0] [1] [] []
  dot_S65536x64_S64x64_S65536x64_1_0_0_1_n_n_wf : DotDims.WF S65536x64 S64x64 S65536x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S8x512x64_S8x512x64_S8x512x512_2_2_1_1_0_0_wf : DotDims.WF S8x512x64 S8x512x64 S8x512x512 [2] [2] [1] [1] [0] [0]
  dot_S8x147_S147x64_S8x64_1_0_0_1_n_n_wf : DotDims.WF S8x147 S147x64 S8x64 [1] [0] [0] [1] [] []
  dot_S8x64_S64x32_S8x32_1_0_0_1_n_n_wf : DotDims.WF S8x64 S64x32 S8x32 [1] [0] [0] [1] [] []
  dot_S8x32_S32x1_S8x1_1_0_0_1_n_n_wf : DotDims.WF S8x32 S32x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x64.size a ≤ S128x512x64.size a
  hwx0_0 : ∀ i : grid0.Coords, EltTy.bits .f32 = 32 ∨ (Rect.block (s := S128x512x64) S8x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x64.size a ≤ S128x512x64.size a
  hwx0_1 : ∀ i : grid0.Coords, EltTy.bits .f32 = 32 ∨ (Rect.block (s := S128x512x64) S8x512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S147x64.size a ≤ S147x64.size a
  hwx0_2 : ∀ i : grid0.Coords, EltTy.bits .f32 = 32 ∨ (Rect.block (s := S147x64) S147x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x1.size a ≤ S128x1.size a
  hwx0_8 : ∀ i : grid0.Coords, EltTy.bits .f32 = 32 ∨ (Rect.block (s := S128x1) S8x1.size (cc0_transform_8 i) (hinb0_8 i)).WholeWords (EltTy.packing .f32)

variable [Facts₀]

def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S8x512x64_S8x512x64_S8x512x512_2_2_1_1_0_0 : DotDims S8x512x64 S8x512x64 S8x512x512 where
  lhsContracting := [2]
  rhsContracting := [2]
  lhsNonContracting := [1]
  rhsNonContracting := [1]
  lhsBatch := [0]
  rhsBatch := [0]
  wf := dot_S8x512x64_S8x512x64_S8x512x512_2_2_1_1_0_0_wf
def dot_S8x147_S147x64_S8x64_1_0_0_1_n_n : DotDims S8x147 S147x64 S8x64 where
  lhsContracting := [1]
  rhsContracting := [0]
  lhsNonContracting := [0]
  rhsNonContracting := [1]
  lhsBatch := []
  rhsBatch := []
  wf := dot_S8x147_S147x64_S8x64_1_0_0_1_n_n_wf
def dot_S8x64_S64x32_S8x32_1_0_0_1_n_n : DotDims S8x64 S64x32 S8x32 where
  lhsContracting := [1]
  rhsContracting := [0]
  lhsNonContracting := [0]
  rhsNonContracting := [1]
  lhsBatch := []
  rhsBatch := []
  wf := dot_S8x64_S64x32_S8x32_1_0_0_1_n_n_wf
def dot_S8x32_S32x1_S8x1_1_0_0_1_n_n : DotDims S8x32 S32x1 S8x1 where
  lhsContracting := [1]
  rhsContracting := [0]
  lhsNonContracting := [0]
  rhsNonContracting := [1]
  lhsBatch := []
  rhsBatch := []
  wf := dot_S8x32_S32x1_S8x1_1_0_0_1_n_n_wf

abbrev win0_0 : Pipeline.Window sig grid0 :=
  Pipeline.Window.ofSpec (Memref.whole main_v100) S8x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v101) S8x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg14) S147x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v102) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg16) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v103) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg18) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v104) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v105) S8x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x128 : Shape := ⟨2, ![65536, 128]⟩
abbrev S2x1048576 : Shape := ⟨2, ![2, 1048576]⟩
abbrev S65536 : Shape := ⟨1, ![65536]⟩
abbrev S128x64 : Shape := ⟨2, ![128, 64]⟩
abbrev S64 : Shape := ⟨1, ![64]⟩
abbrev S64x64 : Shape := ⟨2, ![64, 64]⟩
abbrev S147x64 : Shape := ⟨2, ![147, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1048576 : Shape := ⟨2, ![1, 1048576]⟩
abbrev S1048576 : Shape := ⟨1, ![1048576]⟩
abbrev S_ : Shape := ⟨0, ![]⟩
abbrev S1048576x1 : Shape := ⟨2, ![1048576, 1]⟩
abbrev S1048576x128 : Shape := ⟨2, ![1048576, 128]⟩
abbrev S65536x64 : Shape := ⟨2, ![65536, 64]⟩
abbrev S1x64 : Shape := ⟨2, ![1, 64]⟩
abbrev S1048576x64 : Shape := ⟨2, ![1048576, 64]⟩
abbrev S128x512x64 : Shape := ⟨3, ![128, 512, 64]⟩
abbrev S128x512 : Shape := ⟨2, ![128, 512]⟩
abbrev S128x512x1 : Shape := ⟨3, ![128, 512, 1]⟩
abbrev S128x512x512 : Shape := ⟨3, ![128, 512, 512]⟩
abbrev S128x262144 : Shape := ⟨2, ![128, 262144]⟩
abbrev S128 : Shape := ⟨1, ![128]⟩
abbrev S128x1 : Shape := ⟨2, ![128, 1]⟩
abbrev S33554432 : Shape := ⟨1, ![33554432]⟩
abbrev S2048 : Shape := ⟨1, ![2048]⟩
abbrev S33554432x1 : Shape := ⟨2, ![33554432, 1]⟩
abbrev S128x16 : Shape := ⟨2, ![128, 16]⟩
abbrev S128x3 : Shape := ⟨2, ![128, 3]⟩
abbrev S128x19 : Shape := ⟨2, ![128, 19]⟩
abbrev S128x147 : Shape := ⟨2, ![128, 147]⟩
abbrev S128x32 : Shape := ⟨2, ![128, 32]⟩
abbrev S1x32 : Shape := ⟨2, ![1, 32]⟩
abbrev S1x1 : Shape := ⟨2, ![1, 1]⟩

abbrev nBuf : Space → Nat
  | .hbm => 271
  | .vmem => 0
  | .smem => 0
  | _ => 0

abbrev hbmTy0_0 (i : Nat) : BufTy := match i % 128 with
  | 0 => ⟨S65536x128, .f32⟩
  | 1 => ⟨S2x1048576, .i32⟩
  | 2 => ⟨S65536, .i32⟩
  | 3 => ⟨S65536x128, .f32⟩
  | 4 => ⟨S2x1048576, .i32⟩
  | 5 => ⟨S65536, .i32⟩
  | 6 => ⟨S128x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S147x64, .f32⟩
  | 15 => ⟨S64, .f32⟩
  | 16 => ⟨S64x32, .f32⟩
  | 17 => ⟨S32, .f32⟩
  | 18 => ⟨S32x1, .f32⟩
  | 19 => ⟨S1, .f32⟩
  | 20 => ⟨S1x1048576, .i32⟩
  | 21 => ⟨S1048576, .i32⟩
  | 22 => ⟨S1x1048576, .i32⟩
  | 23 => ⟨S1048576, .i32⟩
  | 24 => ⟨S_, .i32⟩
  | 25 => ⟨S1048576, .i32⟩
  | 26 => ⟨S1048576, .i1⟩
  | 27 => ⟨S_, .i32⟩
  | 28 => ⟨S1048576, .i32⟩
  | 29 => ⟨S1048576, .i32⟩
  | 30 => ⟨S1048576, .i32⟩
  | 31 => ⟨S1048576x1, .i32⟩
  | 32 => ⟨S1048576x128, .f32⟩
  | 33 => ⟨S_, .f32⟩
  | 34 => ⟨S65536x128, .f32⟩
  | 35 => ⟨S1048576x1, .i32⟩
  | 36 => ⟨S65536x128, .f32⟩
  | 37 => ⟨S65536x128, .f32⟩
  | 38 => ⟨S65536x64, .f32⟩
  | 39 => ⟨S1x64, .f32⟩
  | 40 => ⟨S65536x64, .f32⟩
  | 41 => ⟨S65536x64, .f32⟩
  | 42 => ⟨S_, .f32⟩
  | 43 => ⟨S65536x64, .f32⟩
  | 44 => ⟨S65536x64, .f32⟩
  | 45 => ⟨S65536x64, .f32⟩
  | 46 => ⟨S1x64, .f32⟩
  | 47 => ⟨S65536x64, .f32⟩
  | 48 => ⟨S65536x64, .f32⟩
  | 49 => ⟨S_, .f32⟩
  | 50 => ⟨S65536x64, .f32⟩
  | 51 => ⟨S65536x64, .f32⟩
  | 52 => ⟨S_, .i32⟩
  | 53 => ⟨S1048576, .i32⟩
  | 54 => ⟨S1048576, .i1⟩
  | 55 => ⟨S_, .i32⟩
  | 56 => ⟨S1048576, .i32⟩
  | 57 => ⟨S1048576, .i32⟩
  | 58 => ⟨S1048576, .i32⟩
  | 59 => ⟨S1048576x1, .i32⟩
  | 60 => ⟨S1048576x64, .f32⟩
  | 61 => ⟨S_, .f32⟩
  | 62 => ⟨S65536x64, .f32⟩
  | 63 => ⟨S1048576x1, .i32⟩
  | 64 => ⟨S65536x64, .f32⟩
  | 65 => ⟨S65536x64, .f32⟩
  | 66 => ⟨S65536x64, .f32⟩
  | 67 => ⟨S1x64, .f32⟩
  | 68 => ⟨S65536x64, .f32⟩
  | 69 => ⟨S65536x64, .f32⟩
  | 70 => ⟨S_, .f32⟩
  | 71 => ⟨S65536x64, .f32⟩
  | 72 => ⟨S65536x64, .f32⟩
  | 73 => ⟨S65536x64, .f32⟩
  | 74 => ⟨S1x64, .f32⟩
  | 75 => ⟨S65536x64, .f32⟩
  | 76 => ⟨S65536x64, .f32⟩
  | 77 => ⟨S_, .f32⟩
  | 78 => ⟨S65536x64, .f32⟩
  | 79 => ⟨S65536x64, .f32⟩
  | 80 => ⟨S1x1048576, .i32⟩
  | 81 => ⟨S1048576, .i32⟩
  | 82 => ⟨S1x1048576, .i32⟩
  | 83 => ⟨S1048576, .i32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S1048576x1, .i32⟩
  | 92 => ⟨S1048576x128, .f32⟩
  | 93 => ⟨S_, .f32⟩
  | 94 => ⟨S65536x128, .f32⟩
  | 95 => ⟨S1048576x1, .i32⟩
  | 96 => ⟨S65536x128, .f32⟩
  | 97 => ⟨S65536x128, .f32⟩
  | 98 => ⟨S65536x64, .f32⟩
  | 99 => ⟨S1x64, .f32⟩
  | 100 => ⟨S65536x64, .f32⟩
  | 101 => ⟨S65536x64, .f32⟩
  | 102 => ⟨S_, .f32⟩
  | 103 => ⟨S65536x64, .f32⟩
  | 104 => ⟨S65536x64, .f32⟩
  | 105 => ⟨S65536x64, .f32⟩
  | 106 => ⟨S1x64, .f32⟩
  | 107 => ⟨S65536x64, .f32⟩
  | 108 => ⟨S65536x64, .f32⟩
  | 109 => ⟨S_, .f32⟩
  | 110 => ⟨S65536x64, .f32⟩
  | 111 => ⟨S65536x64, .f32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S1048576x1, .i32⟩
  | 120 => ⟨S1048576x64, .f32⟩
  | 121 => ⟨S_, .f32⟩
  | 122 => ⟨S65536x64, .f32⟩
  | 123 => ⟨S1048576x1, .i32⟩
  | 124 => ⟨S65536x64, .f32⟩
  | 125 => ⟨S65536x64, .f32⟩
  | 126 => ⟨S65536x64, .f32⟩
  | 127 => ⟨S1x64, .f32⟩
  | _ => ⟨S65536x128, .f32⟩

abbrev hbmTy0_1 (i : Nat) : BufTy := match i % 128 with
  | 0 => ⟨S65536x64, .f32⟩
  | 1 => ⟨S65536x64, .f32⟩
  | 2 => ⟨S_, .f32⟩
  | 3 => ⟨S65536x64, .f32⟩
  | 4 => ⟨S65536x64, .f32⟩
  | 5 => ⟨S65536x64, .f32⟩
  | 6 => ⟨S1x64, .f32⟩
  | 7 => ⟨S65536x64, .f32⟩
  | 8 => ⟨S65536x64, .f32⟩
  | 9 => ⟨S_, .f32⟩
  | 10 => ⟨S65536x64, .f32⟩
  | 11 => ⟨S65536x64, .f32⟩
  | 12 => ⟨S128x512x64, .f32⟩
  | 13 => ⟨S_, .f32⟩
  | 14 => ⟨S128x64, .f32⟩
  | 15 => ⟨S_, .f32⟩
  | 16 => ⟨S128x64, .f32⟩
  | 17 => ⟨S128x64, .f32⟩
  | 18 => ⟨S128x512x64, .f32⟩
  | 19 => ⟨S_, .f32⟩
  | 20 => ⟨S128x64, .f32⟩
  | 21 => ⟨S_, .f32⟩
  | 22 => ⟨S128x64, .f32⟩
  | 23 => ⟨S128x64, .f32⟩
  | 24 => ⟨S128x512x64, .f32⟩
  | 25 => ⟨S128x512x64, .f32⟩
  | 26 => ⟨S128x512x64, .f32⟩
  | 27 => ⟨S_, .f32⟩
  | 28 => ⟨S128x512, .f32⟩
  | 29 => ⟨S128x512x1, .f32⟩
  | 30 => ⟨S128x512x1, .f32⟩
  | 31 => ⟨S_, .f32⟩
  | 32 => ⟨S128x512x1, .f32⟩
  | 33 => ⟨S128x512x1, .f32⟩
  | 34 => ⟨S128x512x64, .f32⟩
  | 35 => ⟨S128x512x64, .f32⟩
  | 36 => ⟨S128x512x64, .f32⟩
  | 37 => ⟨S_, .f32⟩
  | 38 => ⟨S128x512, .f32⟩
  | 39 => ⟨S128x512x1, .f32⟩
  | 40 => ⟨S128x512x1, .f32⟩
  | 41 => ⟨S_, .f32⟩
  | 42 => ⟨S128x512x1, .f32⟩
  | 43 => ⟨S128x512x1, .f32⟩
  | 44 => ⟨S128x512x64, .f32⟩
  | 45 => ⟨S128x512x64, .f32⟩
  | 46 => ⟨S128x512x512, .f32⟩
  | 47 => ⟨S128x262144, .f32⟩
  | 48 => ⟨S_, .f32⟩
  | 49 => ⟨S128x262144, .f32⟩
  | 50 => ⟨S128x262144, .f32⟩
  | 51 => ⟨S_, .f32⟩
  | 52 => ⟨S128x262144, .f32⟩
  | 53 => ⟨S128x262144, .f32⟩
  | 54 => ⟨S128x262144, .f32⟩
  | 55 => ⟨S_, .i32⟩
  | 56 => ⟨S_, .i32⟩
  | 57 => ⟨S_, .f32⟩
  | 58 => ⟨S128x262144, .f32⟩
  | 59 => ⟨S128x262144, .f32⟩
  | 60 => ⟨S_, .f32⟩
  | 61 => ⟨S128x262144, .f32⟩
  | 62 => ⟨S128x262144, .f32⟩
  | 63 => ⟨S128x262144, .i32⟩
  | 64 => ⟨S128, .i32⟩
  | 65 => ⟨S128x1, .i32⟩
  | 66 => ⟨S_, .i32⟩
  | 67 => ⟨S128x1, .i32⟩
  | 68 => ⟨S128x1, .i32⟩
  | 69 => ⟨S128x262144, .i32⟩
  | 70 => ⟨S128x262144, .i32⟩
  | 71 => ⟨S33554432, .i32⟩
  | 72 => ⟨S_, .f32⟩
  | 73 => ⟨S33554432, .f32⟩
  | 74 => ⟨S_, .f32⟩
  | 75 => ⟨S2048, .f32⟩
  | 76 => ⟨S33554432x1, .i32⟩
  | 77 => ⟨S2048, .f32⟩
  | 78 => ⟨S128x16, .f32⟩
  | 79 => ⟨S_, .f32⟩
  | 80 => ⟨S128, .f32⟩
  | 81 => ⟨S128x1, .f32⟩
  | 82 => ⟨S_, .f32⟩
  | 83 => ⟨S128x1, .f32⟩
  | 84 => ⟨S128x1, .f32⟩
  | 85 => ⟨S128x16, .f32⟩
  | 86 => ⟨S128x16, .f32⟩
  | 87 => ⟨S_, .f32⟩
  | 88 => ⟨S128, .f32⟩
  | 89 => ⟨S_, .f32⟩
  | 90 => ⟨S128, .f32⟩
  | 91 => ⟨S128, .f32⟩
  | 92 => ⟨S_, .f32⟩
  | 93 => ⟨S128, .f32⟩
  | 94 => ⟨S_, .i32⟩
  | 95 => ⟨S_, .f32⟩
  | 96 => ⟨S128, .f32⟩
  | 97 => ⟨S128x1, .f32⟩
  | 98 => ⟨S_, .f32⟩
  | 99 => ⟨S128x1, .f32⟩
  | 100 => ⟨S128x1, .f32⟩
  | 101 => ⟨S128x262144, .f32⟩
  | 102 => ⟨S128x262144, .f32⟩
  | 103 => ⟨S128x262144, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S128, .f32⟩
  | 118 => ⟨S128x1, .f32⟩
  | 119 => ⟨S128x1, .f32⟩
  | 120 => ⟨S128x1, .f32⟩
  | 121 => ⟨S128x3, .f32⟩
  | 122 => ⟨S128x19, .f32⟩
  | 123 => ⟨S128x147, .f32⟩
  | 124 => ⟨S128x64, .f32⟩
  | 125 => ⟨S1x64, .f32⟩
  | 126 => ⟨S128x64, .f32⟩
  | 127 => ⟨S128x64, .f32⟩
  | _ => ⟨S65536x128, .f32⟩

abbrev hbmTy0_2 (i : Nat) : BufTy := match i % 128 with
  | 0 => ⟨S_, .f32⟩
  | 1 => ⟨S128x64, .f32⟩
  | 2 => ⟨S128x64, .f32⟩
  | 3 => ⟨S128x32, .f32⟩
  | 4 => ⟨S1x32, .f32⟩
  | 5 => ⟨S128x32, .f32⟩
  | 6 => ⟨S128x32, .f32⟩
  | 7 => ⟨S_, .f32⟩
  | 8 => ⟨S128x32, .f32⟩
  | 9 => ⟨S128x32, .f32⟩
  | 10 => ⟨S128x1, .f32⟩
  | 11 => ⟨S1x1, .f32⟩
  | 12 => ⟨S128x1, .f32⟩
  | 13 => ⟨S128x1, .f32⟩
  | 14 => ⟨S128, .f32⟩
  | _ => ⟨S65536x128, .f32⟩

abbrev hbmTy (i : Nat) : BufTy := match i / 128 with
  | 0 => hbmTy0_0 i
  | 1 => hbmTy0_1 i
  | 2 => hbmTy0_2 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_c_3 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_6 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_8 : Ref sig .tc := ⟨.hbm, 84, rfl⟩
abbrev main_v54 : Ref sig .tc := ⟨.hbm, 85, rfl⟩
abbrev main_v55 : Ref sig .tc := ⟨.hbm, 86, rfl⟩
abbrev main_c_9 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_c_13 : Ref sig .tc := ⟨.hbm, 112, rfl⟩
abbrev main_v77 : Ref sig .tc := ⟨.hbm, 113, rfl⟩
abbrev main_v78 : Ref sig .tc := ⟨.hbm, 114, rfl⟩
abbrev main_c_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_15 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_16 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_17 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_18 : Ref sig .tc := ⟨.hbm, 141, rfl⟩
abbrev main_v101 : Ref sig .tc := ⟨.hbm, 142, rfl⟩
abbrev main_cst_19 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_20 : Ref sig .tc := ⟨.hbm, 147, rfl⟩
abbrev main_v105 : Ref sig .tc := ⟨.hbm, 148, rfl⟩
abbrev main_cst_21 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_call0_v0 : Ref sig .tc := ⟨.hbm, 154, rfl⟩
abbrev main_call0_cst : Ref sig .tc := ⟨.hbm, 155, rfl⟩
abbrev main_call0_v1 : Ref sig .tc := ⟨.hbm, 156, rfl⟩
abbrev main_call0_v2 : Ref sig .tc := ⟨.hbm, 157, rfl⟩
abbrev main_v110 : Ref sig .tc := ⟨.hbm, 158, rfl⟩
abbrev main_cst_22 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_call1_v0 : Ref sig .tc := ⟨.hbm, 164, rfl⟩
abbrev main_call1_cst : Ref sig .tc := ⟨.hbm, 165, rfl⟩
abbrev main_call1_v1 : Ref sig .tc := ⟨.hbm, 166, rfl⟩
abbrev main_call1_v2 : Ref sig .tc := ⟨.hbm, 167, rfl⟩
abbrev main_v115 : Ref sig .tc := ⟨.hbm, 168, rfl⟩
abbrev main_cst_23 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_24 : Ref sig .tc := ⟨.hbm, 176, rfl⟩
abbrev main_v122 : Ref sig .tc := ⟨.hbm, 177, rfl⟩
abbrev main_v123 : Ref sig .tc := ⟨.hbm, 178, rfl⟩
abbrev main_cst_25 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_c_26 : Ref sig .tc := ⟨.hbm, 183, rfl⟩
abbrev main_c_27 : Ref sig .tc := ⟨.hbm, 184, rfl⟩
abbrev main_call2_v0 : Ref sig .tc := ⟨.hbm, 185, rfl⟩
abbrev main_call2_v1 : Ref sig .tc := ⟨.hbm, 186, rfl⟩
abbrev main_call2_v2 : Ref sig .tc := ⟨.hbm, 187, rfl⟩
abbrev main_call2_v3 : Ref sig .tc := ⟨.hbm, 188, rfl⟩
abbrev main_call2_v4 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_c_28 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_cst_29 : Ref sig .tc := ⟨.hbm, 200, rfl⟩
abbrev main_v136 : Ref sig .tc := ⟨.hbm, 201, rfl⟩
abbrev main_cst_30 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_cst_31 : Ref sig .tc := ⟨.hbm, 207, rfl⟩
abbrev main_v141 : Ref sig .tc := ⟨.hbm, 208, rfl⟩
abbrev main_v142 : Ref sig .tc := ⟨.hbm, 209, rfl⟩
abbrev main_cst_32 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_33 : Ref sig .tc := ⟨.hbm, 215, rfl⟩
abbrev main_v147 : Ref sig .tc := ⟨.hbm, 216, rfl⟩
abbrev main_cst_34 : Ref sig .tc := ⟨.hbm, 217, rfl⟩
abbrev main_v148 : Ref sig .tc := ⟨.hbm, 218, rfl⟩
abbrev main_v149 : Ref sig .tc := ⟨.hbm, 219, rfl⟩
abbrev main_cst_35 : Ref sig .tc := ⟨.hbm, 220, rfl⟩
abbrev main_v150 : Ref sig .tc := ⟨.hbm, 221, rfl⟩
abbrev main_c_36 : Ref sig .tc := ⟨.hbm, 222, rfl⟩
abbrev main_call3_call0_cst : Ref sig .tc := ⟨.hbm, 223, rfl⟩
abbrev main_call3_call0_v0 : Ref sig .tc := ⟨.hbm, 224, rfl⟩
abbrev main_call3_call0_v1 : Ref sig .tc := ⟨.hbm, 225, rfl⟩
abbrev main_call3_call0_cst_0 : Ref sig .tc := ⟨.hbm, 226, rfl⟩
abbrev main_call3_call0_v2 : Ref sig .tc := ⟨.hbm, 227, rfl⟩
abbrev main_call3_call0_v3 : Ref sig .tc := ⟨.hbm, 228, rfl⟩
abbrev main_call3_call0_v4 : Ref sig .tc := ⟨.hbm, 229, rfl⟩
abbrev main_call3_call0_v5 : Ref sig .tc := ⟨.hbm, 230, rfl⟩
abbrev main_call3_call0_v6 : Ref sig .tc := ⟨.hbm, 231, rfl⟩
abbrev main_call3_call0_v7 : Ref sig .tc := ⟨.hbm, 232, rfl⟩
abbrev main_call3_call0_cst_1 : Ref sig .tc := ⟨.hbm, 233, rfl⟩
abbrev main_call3_call0_v8 : Ref sig .tc := ⟨.hbm, 234, rfl⟩
abbrev main_call3_call0_cst_2 : Ref sig .tc := ⟨.hbm, 235, rfl⟩
abbrev main_call3_call0_v9 : Ref sig .tc := ⟨.hbm, 236, rfl⟩
abbrev main_call3_call0_v10 : Ref sig .tc := ⟨.hbm, 237, rfl⟩
abbrev main_call3_call0_v11 : Ref sig .tc := ⟨.hbm, 238, rfl⟩
abbrev main_call3_call0_cst_3 : Ref sig .tc := ⟨.hbm, 239, rfl⟩
abbrev main_call3_call0_v12 : Ref sig .tc := ⟨.hbm, 240, rfl⟩
abbrev main_call3_call0_cst_4 : Ref sig .tc := ⟨.hbm, 241, rfl⟩
abbrev main_call3_call0_call0_v0 : Ref sig .tc := ⟨.hbm, 242, rfl⟩
abbrev main_call3_call0_call0_v1 : Ref sig .tc := ⟨.hbm, 243, rfl⟩
abbrev main_call3_v0 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_cst_37 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_cst_38 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S65536x128 : S_.BroadcastsInDim S65536x128 (![] : Fin 0 → Fin S65536x128.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  shapeCasts_S65536x64_S128x512x64 : S65536x64.ShapeCasts S128x512x64
  reducesTo_S128x512x64_S128x64_d1 : S128x512x64.ReducesTo [1] S128x64
  h_S_ : 0 < S_.numel
  bcast_S_S128x64 : S_.BroadcastsInDim S128x64 (![] : Fin 0 → Fin S128x64.rank)
  reducesTo_S128x512x64_S128x512_d2 : S128x512x64.ReducesTo [2] S128x512
  bcast_S128x512_S128x512x1_0_1 : S128x512.BroadcastsInDim S128x512x1 (![0, 1] : Fin 2 → Fin S128x512x1.rank)
  bcast_S_S128x512x1 : S_.BroadcastsInDim S128x512x1 (![] : Fin 0 → Fin S128x512x1.rank)
  bcast_S128x512x1_S128x512x64_0_1_2 : S128x512x1.BroadcastsInDim S128x512x64 (![0, 1, 2] : Fin 3 → Fin S128x512x64.rank)
  shapeCasts_S128x512x512_S128x262144 : S128x512x512.ShapeCasts S128x262144
  bcast_S_S128x262144 : S_.BroadcastsInDim S128x262144 (![] : Fin 0 → Fin S128x262144.rank)
  bcast_S128_S128x1_0 : S128.BroadcastsInDim S128x1 (![0] : Fin 1 → Fin S128x1.rank)
  bcast_S_S128x1 : S_.BroadcastsInDim S128x1 (![] : Fin 0 → Fin S128x1.rank)
  bcast_S128x1_S128x262144_0_1 : S128x1.BroadcastsInDim S128x262144 (![0, 1] : Fin 2 → Fin S128x262144.rank)
  shapeCasts_S128x262144_S33554432 : S128x262144.ShapeCasts S33554432
  bcast_S_S33554432 : S_.BroadcastsInDim S33554432 (![] : Fin 0 → Fin S33554432.rank)
  bcast_S_S2048 : S_.BroadcastsInDim S2048 (![] : Fin 0 → Fin S2048.rank)
  bcast_S33554432_S33554432x1_0 : S33554432.BroadcastsInDim S33554432x1 (![0] : Fin 1 → Fin S33554432x1.rank)
  shapeCasts_S2048_S128x16 : S2048.ShapeCasts S128x16
  reducesTo_S128x16_S128_d1 : S128x16.ReducesTo [1] S128
  bcast_S128x1_S128x16_0_1 : S128x1.BroadcastsInDim S128x16 (![0, 1] : Fin 2 → Fin S128x16.rank)
  reducesTo_S128x262144_S128_d1 : S128x262144.ReducesTo [1] S128
  bcast_S_S128 : S_.BroadcastsInDim S128 (![] : Fin 0 → Fin S128.rank)
  concatenates_S128x1_S128x1_S128x1_S128x3_d1 : Shape.Concatenates [S128x1, S128x1, S128x1] S128x3 1
  concatenates_S128x16_S128x3_S128x19_d1 : Shape.Concatenates [S128x16, S128x3] S128x19 1
  concatenates_S128x64_S128x64_S128x19_S128x147_d1 : Shape.Concatenates [S128x64, S128x64, S128x19] S128x147 1
  bcast_S1x64_S128x64_0_1 : S1x64.BroadcastsInDim S128x64 (![0, 1] : Fin 2 → Fin S128x64.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  bcast_S_S128x32 : S_.BroadcastsInDim S128x32 (![] : Fin 0 → Fin S128x32.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1
  dot_S65536x128_S128x64_S65536x64_1_0_0_1_n_n_wf : DotDims.WF S65536x128 S128x64 S65536x64 [1] [0] [0] [1] [] []
  dot_S65536x64_S64x64_S65536x64_1_0_0_1_n_n_wf : DotDims.WF S65536x64 S64x64 S65536x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S128x512x64_S128x512x64_S128x512x512_2_2_1_1_0_0_wf : DotDims.WF S128x512x64 S128x512x64 S128x512x512 [2] [2] [1] [1] [0] [0]
  scatter_S2048_S33554432x1_S33554432_n_0_0_1_wf : ScatterDims.WF S2048 S33554432x1 S33554432 [] [0] [0] 1
  dot_S128x147_S147x64_S128x64_1_0_0_1_n_n_wf : DotDims.WF S128x147 S147x64 S128x64 [1] [0] [0] [1] [] []
  dot_S128x64_S64x32_S128x32_1_0_0_1_n_n_wf : DotDims.WF S128x64 S64x32 S128x32 [1] [0] [0] [1] [] []
  dot_S128x32_S32x1_S128x1_1_0_0_1_n_n_wf : DotDims.WF S128x32 S32x1 S128x1 [1] [0] [0] [1] [] []

variable [Facts₀]

def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S128x512x64_S128x512x64_S128x512x512_2_2_1_1_0_0 : DotDims S128x512x64 S128x512x64 S128x512x512 where
  lhsContracting := [2]
  rhsContracting := [2]
  lhsNonContracting := [1]
  rhsNonContracting := [1]
  lhsBatch := [0]
  rhsBatch := [0]
  wf := dot_S128x512x64_S128x512x64_S128x512x512_2_2_1_1_0_0_wf
def scatter_S2048_S33554432x1_S33554432_n_0_0_1 : ScatterDims S2048 S33554432x1 S33554432 where
  updateWindowDims := []
  insertedWindowDims := [0]
  scatterDimsToOperandDims := [0]
  indexVectorDim := 1
  wf := scatter_S2048_S33554432x1_S33554432_n_0_0_1_wf
def dot_S128x147_S147x64_S128x64_1_0_0_1_n_n : DotDims S128x147 S147x64 S128x64 where
  lhsContracting := [1]
  rhsContracting := [0]
  lhsNonContracting := [0]
  rhsNonContracting := [1]
  lhsBatch := []
  rhsBatch := []
  wf := dot_S128x147_S147x64_S128x64_1_0_0_1_n_n_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf
def dot_S128x32_S32x1_S128x1_1_0_0_1_n_n : DotDims S128x32 S32x1 S128x1 where
  lhsContracting := [1]
  rhsContracting := [0]
  lhsNonContracting := [0]
  rhsNonContracting := [1]
  lhsBatch := []
  rhsBatch := []
  wf := dot_S128x32_S32x1_S128x1_1_0_0_1_n_n_wf

class Facts : Prop extends Facts₀ where

variable [Facts]
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibDense.lean ====
/-
  GENERAL LEMMAS: an affine layer of a multi-layer perceptron, read one output at a time on the extended reals.

  Row `p` of a product of an M×K matrix with a K×N matrix, plus a bias row, depends on row `p` of the left matrix only:
  output `c` is `∑ k, x k · w k c + b c` (`lin`). The positive part (`relu`) and the joining of two rows end to end
  (`cat`) are pointwise in the row as well. The lemmas below read the two spellings of such a layer at an entry
  `(p, c)`: the vector program's (a product into the zero accumulator, the bias a `[1, N]` row broadcast down the rows,
  the positive part against a splat zero) and the host's (a `dot_general`, the bias an `[N]` array broadcast twice,
  the positive part against a broadcast scalar zero). Changes of float format are the identity on the extended reals.
  Also here: two blocks joined side by side read at an entry (`concat_cols_apply`), an `[N]` row broadcast over the rows
  (`rowBias_apply`) and an `[A]` column broadcast over the columns (`colBcast_apply`), each a double `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«115078_j84482006712593_1_alg».proof.Proof.LibPlainDot
import proofs.«115078_j84482006712593_1_alg».proof.Proof.LibConcatPair

noncomputable section

open scoped BigOperators

namespace Idealize.ShloMosaic.Dense

open Idealize.ShloMosaic Idealize.ShloMosaic.ValueIdx

/-- One output of an affine map: the row `x` against column `c` of `w`, plus the bias at `c`. -/
def lin {K N : Nat} (x : Fin K → EReal) (w : Fin K → Fin N → EReal) (b : Fin N → EReal) (c : Fin N) : EReal :=
  (∑ k : Fin K, x k * w k c) + b c

/-- The positive part, against the zero word (the same word on both sides: never evaluated). -/
def relu (v : EReal) : EReal := max v (Ideal.ofBits .f32 0x00000000#32)

/-- Two rows of lengths `a` and `b` joined end to end. -/
def cat {a b c : Nat} (hc : c = a + b) (u : Fin a → EReal) (v : Fin b → EReal) (j : Fin c) : EReal :=
  if h : j.val < a then u ⟨j.val, h⟩ else v ⟨j.val - a, by have := j.isLt; omega⟩

variable {M K N : Nat}

/-- Two blocks side by side, read at `(r, j)`: row `r` of the first joined with row `r` of the second. -/
theorem concat_cols_apply {n a b c : Nat} (hc : c = a + b) (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (r : Fin n) (j : Fin c) :
    concatenate ⟨2, ![n, c]⟩ (1 : Fin 2) [⟨⟨2, ![n, a]⟩, x₁⟩, ⟨⟨2, ![n, b]⟩, x₂⟩] h (ix2 r j)
      = cat hc (fun q => x₁ (ix2 r q)) (fun q => x₂ (ix2 r q)) j := by
  unfold cat
  split
  · rename_i hlt
    exact ConcatPair.cols_fst x₁ x₂ h r ⟨j.val, hlt⟩ j.isLt
  · rename_i hge
    have hj := j.isLt
    have hlt : a + (j.val - a) < c := by omega
    have e : j = ⟨a + (j.val - a), hlt⟩ := Fin.ext (by show j.val = a + (j.val - a); omega)
    refine (congrArg (fun q => concatenate ⟨2, ![n, c]⟩ (1 : Fin 2) [⟨⟨2, ![n, a]⟩, x₁⟩, ⟨⟨2, ![n, b]⟩, x₂⟩] h (ix2 r q)) e).trans ?_
    exact ConcatPair.cols_snd x₁ x₂ h r ⟨j.val - a, by omega⟩ hlt

/-! ## The vector program's spelling -/

/-- A product into the zero accumulator plus a `[1, N]` bias row broadcast down the rows. -/
theorem matmul_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    addf (matmul D none l r (constant (F := Ideal) ⟨2, ![M, N]⟩ .f32 0x00000000#32)) (broadcastTo ⟨2, ![M, N]⟩ b hb) (ix2 p c)
      = lin (fun k => l (ix2 p k)) (fun k n => r (ix2 k n)) (fun n => b (ix2 (0 : Fin 1) n)) c := by
  rw [addf_apply, PlainDot.matmul_zero_apply D hD none l r (ix2 p c), broadcastTo_1b_ab_apply b hb p c]
  rfl

/-- The same followed by the positive part against a splat zero. -/
theorem matmul_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    maximumf (addf (matmul D none l r (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p c)
      = relu (lin (fun k => l (ix2 p k)) (fun k n => r (ix2 k n)) (fun n => b (ix2 (0 : Fin 1) n)) c) := by
  rw [maximumf_apply, matmul_bias_apply D hD l r b hb p c]
  rfl

/-! ## The host's spelling -/

/-- An `[N]` bias broadcast to a `[1, N]` row and then down `M` rows reads, at `(p, c)`, the bias at `c`. -/
theorem rowBias_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    broadcastInDim ⟨2, ![M, N]⟩ ![0, 1] h2 (broadcastInDim ⟨2, ![1, N]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => show 0 = if (1 : Nat) = 1 then 0 else p.val; rw [if_pos rfl]
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A column `[A]` broadcast to `[A, 1]` and then over `B` columns reads, at `(e, q)`, the column at `e`. -/
theorem colBcast_apply {α : Type} {A B : Nat} (w : (⟨1, ![A]⟩ : Shape).Idx → α)
    (h1 : (⟨1, ![A]⟩ : Shape).BroadcastsInDim ⟨2, ![A, 1]⟩ ![0]) (h2 : (⟨2, ![A, 1]⟩ : Shape).BroadcastsInDim ⟨2, ![A, B]⟩ ![0, 1])
    (e : Fin A) (q : Fin B) :
    broadcastInDim ⟨2, ![A, B]⟩ ![0, 1] h2 (broadcastInDim ⟨2, ![A, 1]⟩ ![0] h1 w) (ix2 e q) = w (ix1 e) := by
  refine (broadcastInDim_apply _ h2 _ (ix2 e q) (ix2 e (0 : Fin 1)) fun a => ?_).trans
    (broadcastInDim_apply _ h1 w (ix2 e (0 : Fin 1)) (ix1 e) fun a => ?_)
  · match a with
    | ⟨0, _⟩ =>
      show e.val = if A = 1 then 0 else e.val
      split
      · have := e.isLt; omega
      · rfl
    | ⟨1, _⟩ => show 0 = if (1 : Nat) = 1 then 0 else q.val; rw [if_pos rfl]
  · match a with
    | ⟨0, _⟩ =>
      show e.val = if A = 1 then 0 else e.val
      split
      · have := e.isLt; omega
      · rfl

/-- A `dot_general` plus an `[N]` bias broadcast over the rows. -/
theorem hostDot_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    addf (Host.dotGeneral D none l r) (broadcastInDim ⟨2, ![M, N]⟩ ![0, 1] h2 (broadcastInDim ⟨2, ![1, N]⟩ ![1] h1 b)) (ix2 p c)
      = lin (fun k => l (ix2 p k)) (fun k n => r (ix2 k n)) (fun n => b (ix1 n)) c := by
  rw [addf_apply, PlainDot.hostDot_apply D hD none l r (ix2 p c), rowBias_apply b h1 h2 p c]
  rfl

/-- The same followed by the positive part against a broadcast scalar zero. -/
theorem hostDot_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (c : Fin N) :
    maximumf (addf (Host.dotGeneral D none l r) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p c)
      = relu (lin (fun k => l (ix2 p k)) (fun k n => r (ix2 k n)) (fun n => b (ix1 n)) c) := by
  rw [maximumf_apply, hostDot_bias_apply D hD l r b h1 h2 p c,
    broadcastInDim_apply _ h0 _ (ix2 p c) ix0 (fun a => a.elim0)]
  rfl

end Idealize.ShloMosaic.Dense

end
-- ==== Proof.Spec.lean ====
/-
  The function both programs compute, for ONE graph pair, in coordinates.

  A graph pair is two embeddings `h1 h2 : Fin 512 → Fin 64 → EReal` (512 nodes, 64 features). Each node's
  feature row is divided by its Euclidean length (floored at the small constant `eps`): the unit rows. The
  similarity of node `n` of the first graph and node `m` of the second is the inner product of their unit
  rows. From the 512 × 512 similarities come a 16-bin histogram (the bin of `s` is `⌊(s + 1)·8⌋` clamped to
  `[0, 15]`), normalized by its total floored at one, and the mean, the maximum and the standard deviation;
  together with the two graphs' mean feature rows they form 147 features, which a three-layer perceptron
  (147 → 64 → 32 → 1, the first two layers followed by a maximum with zero) maps to one number.
  All sums are written as the two-stage sums over `m` then `n`.
-/
import Idealize.ShloMosaic.PureOps.Ideal
import Idealize.ShloMosaic.PureOps.Vector
import proofs.«115078_j84482006712593_1_alg».proof.Proof.LibDense

noncomputable section

namespace Cert.SimGnn

open Idealize.ShloMosaic

/-- One graph's node embeddings. -/
abbrev Emb := Fin 512 → Fin 64 → EReal

/-- Graph `b`'s embedding inside the array of all 128 × 512 node embeddings (graph `b` owns rows `512 b … 512 b + 511`). -/
def embOf (h : (⟨2, ![65536, 64]⟩ : Shape).Idx → EReal) (b : Fin 128) : Emb :=
  fun n d => h (Idealize.ShloMosaic.ValueIdx.ix2 (⟨b.val * 512 + n.val, by have := b.isLt; have := n.isLt; omega⟩ : Fin 65536) d)

/-- The floor under a row's length. -/
def eps : EReal := Ideal.ofBits .f32 0x2B8CBCCC#32
def c0 : EReal := Ideal.ofBits .f32 0x00000000#32
def c1 : EReal := Ideal.ofBits .f32 0x3F800000#32
def c8 : EReal := Ideal.ofBits .f32 0x41000000#32
def c15 : EReal := Ideal.ofBits .f32 0x41700000#32
def c512 : EReal := Ideal.ofBits .f32 0x44000000#32
def cN : EReal := Ideal.ofBits .f32 0x48800000#32
def cBot : EReal := Ideal.ofBits .f32 0xFF800000#32

/-- A node's feature row divided by its length. -/
def unitRow (h : Emb) (n : Fin 512) (d : Fin 64) : EReal :=
  Ideal.div (h n d) (max (Ideal.sqrt (∑ d' : Fin 64, h n d' * h n d')) eps)

/-- Cosine similarity of node `n` of the first graph and node `m` of the second. -/
def sim (h1 h2 : Emb) (n m : Fin 512) : EReal := ∑ d : Fin 64, unitRow h1 n d * unitRow h2 m d

/-- A graph's mean feature row. -/
def gmean (h : Emb) (d : Fin 64) : EReal := Ideal.div (∑ n : Fin 512, h n d) c512

/-- The histogram bin of a similarity. -/
def binOf (s : EReal) : BitVec 32 := Ideal.fptosi 32 (min c15 (max c0 (FloatOps.floor (F := Ideal) (φ := .f32) ((s + c1) * c8))))

/-- The indicator of "bin `k`" as a float. -/
def ind (k : BitVec 32) (b : BitVec 32) : EReal := FloatOps.sitofp (F := Ideal) .f32 ((IntOp.cmpi .eq b k).setWidth 32)

/-- How many of the 512 × 512 similarities fall in bin `k`. -/
def hist (h1 h2 : Emb) (k : BitVec 32) : EReal := ∑ n : Fin 512, ∑ m : Fin 512, ind k (binOf (sim h1 h2 n m))

def histTotal (h1 h2 : Emb) : EReal := ∑ k : Fin 16, hist h1 h2 (BitVec.ofNat 32 k.val)

def histN (h1 h2 : Emb) (k : Fin 16) : EReal := Ideal.div (hist h1 h2 (BitVec.ofNat 32 k.val)) (max (histTotal h1 h2) c1)

def mean (h1 h2 : Emb) : EReal := Ideal.div (∑ n : Fin 512, ∑ m : Fin 512, sim h1 h2 n m) cN

def maxSim (h1 h2 : Emb) : EReal :=
  (Finset.univ : Finset (Fin 512)).fold max cBot fun n => (Finset.univ : Finset (Fin 512)).fold max cBot fun m => sim h1 h2 n m

def meanSq (h1 h2 : Emb) : EReal := Ideal.div (∑ n : Fin 512, ∑ m : Fin 512, sim h1 h2 n m * sim h1 h2 n m) cN

def std (h1 h2 : Emb) : EReal := Ideal.sqrt (max (meanSq h1 h2 - mean h1 h2 * mean h1 h2) c0)

/-- A feature row from its parts: 64 + 64 mean features, 16 histogram entries, then mean, maximum, deviation. -/
def featOf (g1 g2 : Fin 64 → EReal) (hn : Fin 16 → EReal) (mn mx sd : EReal) (j : Fin 147) : EReal :=
  if h : j.val < 64 then g1 ⟨j.val, h⟩
  else if h' : j.val < 128 then g2 ⟨j.val - 64, by omega⟩
  else if h'' : j.val < 144 then hn ⟨j.val - 128, by omega⟩
  else if j.val = 144 then mn
  else if j.val = 145 then mx
  else sd

/-- The 147 features of a graph pair. -/
def feat (h1 h2 : Emb) : Fin 147 → EReal :=
  featOf (gmean h1) (gmean h2) (histN h1 h2) (mean h1 h2) (maxSim h1 h2) (std h1 h2)

open Idealize.ShloMosaic.Dense in
/-- The perceptron on a feature row: two affine layers each followed by the positive part, then an affine layer
    with one output. -/
def mlp (f : Fin 147 → EReal) (w1 : Fin 147 → Fin 64 → EReal) (b1 : Fin 64 → EReal) (w2 : Fin 64 → Fin 32 → EReal)
    (b2 : Fin 32 → EReal) (w3 : Fin 32 → Fin 1 → EReal) (b3 : Fin 1 → EReal) : EReal :=
  lin (fun c => relu (lin (fun a => relu (lin f w1 b1 a)) w2 b2 c)) w3 b3 (0 : Fin 1)

/-- One graph pair's output. -/
def out (h1 h2 : Emb) (w1 : Fin 147 → Fin 64 → EReal) (b1 : Fin 64 → EReal) (w2 : Fin 64 → Fin 32 → EReal)
    (b2 : Fin 32 → EReal) (w3 : Fin 32 → Fin 1 → EReal) (b3 : Fin 1 → EReal) : EReal :=
  mlp (feat h1 h2) w1 b1 w2 b2 w3 b3

end Cert.SimGnn

end
-- ==== Proof.LibRank3.lean ====
/-
  Rank-3 arrays read by coordinates, at the exact-real instance: the keepdims forms of a rank-3 array
  ([a,b] → [a,b,1] cast, [a,b,1] → [a,b,c] broadcast), the sum and the maximum of a rank-3 array along its last
  or its middle axis read at `ix2`, the [a] → [a,1] column of maxima, and the batched product
  `out[g, p, q] = Σ_k l[g, p, k] · r[g, q, k]` (both operands contracted on their last axis, the first axis a
  batch axis) read at `ix3 g p q` as a sum over `k`.
-/
import Idealize.ShloMosaic.PureOps.Ideal.Laws
import Idealize.ShloMosaic.Lib.ValueIdx
import Idealize.ShloMosaic.Lib.Pipeline.Value

noncomputable section

open scoped BigOperators

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The sum of an `[a, b, c]` array along its last axis, accumulated from the zero word: at `(i, j)` the sum over `k`. -/
theorem multiReduction_add_axis2_of3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext d
  match d with
  | ⟨0, _⟩ => exact Fin.ext rfl
  | ⟨1, _⟩ => exact Fin.ext rfl
  | ⟨2, _⟩ => exact Fin.ext rfl

/-- The sum of an `[a, b, c]` array along its middle axis: at `(i, k)` the sum over `j`. -/
theorem multiReduction_add_axis1_of3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src ?_
  funext d
  match d with
  | ⟨0, _⟩ => exact Fin.ext rfl
  | ⟨1, _⟩ => exact Fin.ext rfl
  | ⟨2, _⟩ => exact Fin.ext rfl

/-- The maximum of an `[a, b, c]` array along its last axis: at `(i, j)` the fold of `max` over `k` from the accumulator's value. -/
theorem multiReduction_maximumf_axis2_of3_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) := by
  refine (Ideal.multiReduction_maximumf_single src acc h hφ hacc (ix2 i j)).trans ?_
  refine congrArg (fun f => Finset.fold max (Ideal.ofBits .f32 acc) f (Finset.univ : Finset (Fin c))) (funext fun k => congrArg src ?_)
  funext d
  match d with
  | ⟨0, _⟩ => exact Fin.ext rfl
  | ⟨1, _⟩ => exact Fin.ext rfl
  | ⟨2, _⟩ => exact Fin.ext rfl

/-! ### The same reductions with the accumulator word's equation typed as a printed program carries it (`w = w`), so
    that they rewrite a printed term directly. -/

theorem sum_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_axis2_of3_apply src h hφ hacc i j

theorem sum_axis1_of3 {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  multiReduction_add_axis1_of3_apply src h hφ hacc i k

theorem max_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (i : Fin a) (j : Fin b) :
    multiReduction .maximumf [2] ⟨2, ![a, b]⟩ src 0xFF800000#32 h hφ hacc (ix2 i j)
      = (Finset.univ : Finset (Fin c)).fold max (Ideal.ofBits .f32 0xFF800000#32) (fun k => src (ix3 i j k)) :=
  multiReduction_maximumf_axis2_of3_apply src 0xFF800000#32 h hφ hacc i j

/-- The sum of an `[a, b]` array along its last axis: at `i` the sum of row `i`. -/
theorem sum_axis1_of2 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext d
  match d with
  | ⟨0, _⟩ => exact Fin.ext rfl
  | ⟨1, _⟩ => exact Fin.ext rfl

/-- The maximum of an `[a, b]` array along its last axis: at `i` the fold of `max` over row `i`. -/
theorem max_axis1_of2 {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src 0xFF800000#32 h hφ hacc (ix1 i)).trans ?_
  refine congrArg (fun f => Finset.fold max (Ideal.ofBits .f32 0xFF800000#32) f (Finset.univ : Finset (Fin b))) (funext fun k => congrArg src ?_)
  funext d
  match d with
  | ⟨0, _⟩ => exact Fin.ext rfl
  | ⟨1, _⟩ => exact Fin.ext rfl

/-- An `[a]` array cast to the column `[a, 1]` reads, at `(i, u)`, the operand at `i`. -/
theorem col_of_vec {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

namespace Idealize.ShloMosaic.BatchRhsTDot

open Idealize.ShloMosaic Idealize.ShloMosaic.ValueIdx

variable {B M K N : Nat}

private theorem val_congr {n : Nat} {sz : Fin n → Nat} (j : (i : Fin n) → Fin (sz i)) (p q : Nat) (hp : p < n) (hq : q < n) (h : p = q) :
    (j ⟨p, hp⟩).val = (j ⟨q, hq⟩).val := by subst h; rfl

/-- The left operand is read on its batch axis at the entry's first coordinate. -/
theorem lhs_batch (D : DotDims ⟨3, ![B, M, K]⟩ ⟨3, ![B, N, K]⟩ ⟨3, ![B, M, N]⟩) (hlb : D.lhsBatch = [0])
    (j : (⟨3, ![B, M, N]⟩ : Shape).Idx) (s : D.contr.Idx) : (D.lhsIdx j s (0 : Fin 3)).val = (j (0 : Fin 3)).val := by
  unfold DotDims.lhsIdx
  rw [dif_pos (show (0 : Fin 3) ∈ D.lhsBatch by rw [hlb]; exact List.mem_singleton.mpr rfl)]
  simp only [Fin.val_cast]
  exact val_congr j _ _ _ _ (by simp [hlb])

/-- The left operand is read on its row axis at the entry's second coordinate. -/
theorem lhs_row (D : DotDims ⟨3, ![B, M, K]⟩ ⟨3, ![B, N, K]⟩ ⟨3, ![B, M, N]⟩) (hlb : D.lhsBatch = [0]) (hln : D.lhsNonContracting = [1])
    (j : (⟨3, ![B, M, N]⟩ : Shape).Idx) (s : D.contr.Idx) : (D.lhsIdx j s (1 : Fin 3)).val = (j (1 : Fin 3)).val := by
  unfold DotDims.lhsIdx
  rw [dif_neg (show ¬(1 : Fin 3) ∈ D.lhsBatch by rw [hlb]; simp),
    dif_pos (show (1 : Fin 3) ∈ D.lhsNonContracting by rw [hln]; exact List.mem_singleton.mpr rfl)]
  simp only [Fin.val_cast]
  exact val_congr j _ _ _ _ (by simp [hlb, hln])

/-- The right operand is read on its batch axis at the entry's first coordinate. -/
theorem rhs_batch (D : DotDims ⟨3, ![B, M, K]⟩ ⟨3, ![B, N, K]⟩ ⟨3, ![B, M, N]⟩) (hrb : D.rhsBatch = [0])
    (j : (⟨3, ![B, M, N]⟩ : Shape).Idx) (s : D.contr.Idx) : (D.rhsIdx j s (0 : Fin 3)).val = (j (0 : Fin 3)).val := by
  unfold DotDims.rhsIdx
  rw [dif_pos (show (0 : Fin 3) ∈ D.rhsBatch by rw [hrb]; exact List.mem_singleton.mpr rfl)]
  simp only [Fin.val_cast]
  exact val_congr j _ _ _ _ (by simp [hrb])

/-- The right operand is read on its row axis at the entry's third coordinate. -/
theorem rhs_row (D : DotDims ⟨3, ![B, M, K]⟩ ⟨3, ![B, N, K]⟩ ⟨3, ![B, M, N]⟩) (hlb : D.lhsBatch = [0]) (hln : D.lhsNonContracting = [1])
    (hrb : D.rhsBatch = [0]) (hrn : D.rhsNonContracting = [1])
    (j : (⟨3, ![B, M, N]⟩ : Shape).Idx) (s : D.contr.Idx) : (D.rhsIdx j s (1 : Fin 3)).val = (j (2 : Fin 3)).val := by
  unfold DotDims.rhsIdx
  rw [dif_neg (show ¬(1 : Fin 3) ∈ D.rhsBatch by rw [hrb]; simp),
    dif_pos (show (1 : Fin 3) ∈ D.rhsNonContracting by rw [hrn]; exact List.mem_singleton.mpr rfl)]
  simp only [Fin.val_cast]
  exact val_congr j _ _ _ _ (by simp [hlb, hln, hrn])

/-- The contraction of a batched product whose operands are both contracted on their last axis, re-indexed by the one
    contracted coordinate: stated for any dimension record with these axis lists. -/
theorem sum_eq (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (l : (⟨3, ![B, M, K]⟩ : Shape).Idx → EReal) (r : (⟨3, ![B, N, K]⟩ : Shape).Idx → EReal) (g : Fin B) (p : Fin M) (q : Fin N) :
    ∑ s : D.contr.Idx, l (D.lhsIdx (ix3 g p q) s) * r (D.rhsIdx (ix3 g p q) s) = ∑ k : Fin K, l (ix3 g p k) * r (ix3 g q k) := by
  have hr : D.contr.rank = 1 := by rw [DotDims.rank_contr, hlc]; rfl
  have hs : D.contr.size ⟨0, by omega⟩ = K := by
    have := D.size_contr 0 (by rw [hlc]; exact Nat.one_pos)
    simpa [hlc] using this
  rw [← Equiv.sum_comp (contrEquiv1 D K hr hs).symm]
  refine Finset.sum_congr rfl fun k _ => ?_
  have hk := contrEquiv1_symm_val D K hr hs k
  have el : D.lhsIdx (ix3 g p q) ((contrEquiv1 D K hr hs).symm k) = ix3 g p k :=
    funext fun a => Fin.ext (by
      match a with
      | ⟨0, _⟩ => exact lhs_batch D hlb _ _
      | ⟨1, _⟩ => exact lhs_row D hlb hln _ _
      | ⟨2, _⟩ => exact (D.lhsIdx_val_of_single hlc _ _).trans hk)
  have er : D.rhsIdx (ix3 g p q) ((contrEquiv1 D K hr hs).symm k) = ix3 g q k :=
    funext fun a => Fin.ext (by
      match a with
      | ⟨0, _⟩ => exact rhs_batch D hrb _ _
      | ⟨1, _⟩ => exact rhs_row D hlb hln hrb hrn _ _
      | ⟨2, _⟩ => exact (D.rhsIdx_val_of_single hrc _ _).trans hk)
  exact congrArg₂ (fun x y => l x * r y) el er

/-- A `tpu.matmul` of such a product into the zero accumulator, at an entry given by its coordinates. -/
theorem matmul_zero_ix3 {φ₁ φ₂ : FTy} (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (l : FVec Ideal ⟨3, ![B, M, K]⟩ φ₁) (r : FVec Ideal ⟨3, ![B, N, K]⟩ φ₂)
    (g : Fin B) (p : Fin M) (q : Fin N) :
    matmul D prec l r (constant (F := Ideal) ⟨3, ![B, M, N]⟩ .f32 0x00000000#32) (ix3 g p q)
      = ∑ k : Fin K, l (ix3 g p k) * r (ix3 g q k) := by
  simp only [matmul]
  rw [Ideal.matmul_constant_zero_apply]
  exact sum_eq D hlc hrc hln hrn hlb hrb l r g p q

/-- The host's `dot_general` of such a product, at an entry given by its coordinates. -/
theorem dotGeneral_ix3 {φ₁ φ₂ : FTy} (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (sched : HostSchedule) (l : FVec Ideal ⟨3, ![B, M, K]⟩ φ₁) (r : FVec Ideal ⟨3, ![B, N, K]⟩ φ₂)
    (g : Fin B) (p : Fin M) (q : Fin N) :
    FloatOps.dotGeneral D prec sched l r (ix3 g p q) = ∑ k : Fin K, l (ix3 g p k) * r (ix3 g q k) := by
  rw [Ideal.dotGeneral_apply]
  exact sum_eq D hlc hrc hln hrn hlb hrb l r g p q

end Idealize.ShloMosaic.BatchRhsTDot

end
-- ==== Proof.KBody1.lean ====
/-
  The kernel body's first stage read by coordinates: for the graph in row `r` of a block of eight, the mean feature
  row, the cosine similarities of its two node sets, and each similarity's histogram bin are the functions of
  `Spec.lean` of that graph's two embeddings.
-/
import proofs.«115078_j84482006712593_1_alg».proof.Proof.Gen.KernelIdeal.Skeleton
import proofs.«115078_j84482006712593_1_alg».proof.Proof.Spec
import proofs.«115078_j84482006712593_1_alg».proof.Proof.LibRank3

noncomputable section

namespace Cert.KernelIdeal.KVal

open Idealize.ShloMosaic Idealize.ShloMosaic.ValueIdx Cert.KernelIdeal Cert.KernelIdeal.Gen Cert.SimGnn

/-- Graph `r` of a block of eight embeddings. -/
def emb (x : FVec Ideal S8x512x64 .f32) (r : Fin 8) : Emb := fun n d => x (ix3 r n d)

theorem pay2_eq (v0 : Vec Ideal S8x512x64 .f32) : k0_pay2 (F := Ideal) v0 = v0 := shapeCast_self _ _
theorem pay3_eq (v2 : Vec Ideal S8x512x64 .f32) : k0_pay3 (F := Ideal) v2 = v2 := shapeCast_self _ _

/-- A block's rows divided by their lengths, at `(r, n, d)`. -/
theorem unit_apply (x : FVec Ideal S8x512x64 .f32) (r : Fin 8) (n : Fin 512) (d : Fin 64) :
    divf x (broadcastTo S8x512x64 (maximumf (sqrt (shapeCast S8x512x1 (multiReduction .add [2] S8x512 (mulf x x) 0x00000000#32
        reduces_S8x512x64_S8x512 (.inl rfl) rfl) shapeCasts_S8x512_S8x512x1)) (broadcast S8x512x1 (Scalar.ofBits .f32 0x2B8CBCCC#32)))
        broadcasts_S8x512x1_S8x512x64) (ix3 r n d)
      = unitRow (emb x r) n d := by
  rw [divf_apply, broadcastTo_ab1_abc_apply, maximumf_apply]
  show Ideal.div _ (max (Ideal.sqrt (shapeCast S8x512x1 _ _ (ix3 r n (0 : Fin 1)))) _) = _
  rw [shapeCast_ab_ab1_apply, sum_axis2_of3]
  rfl

/-- The mean feature row of graph `r`. -/
theorem pay4_apply (v0 : Vec Ideal S8x512x64 .f32) (r : Fin 8) (d : Fin 64) :
    k0_pay4 (F := Ideal) v0 (ix2 r d) = gmean (emb v0 r) d := by
  unfold k0_pay4
  rw [pay2_eq]
  dsimp only
  rw [divf_apply, sum_axis1_of3]
  rfl

theorem pay5_apply (v2 : Vec Ideal S8x512x64 .f32) (r : Fin 8) (d : Fin 64) :
    k0_pay5 (F := Ideal) v2 (ix2 r d) = gmean (emb v2 r) d := by
  unfold k0_pay5
  rw [pay3_eq]
  dsimp only
  rw [divf_apply, sum_axis1_of3]
  rfl

/-- The similarity of node `n` of the first graph and node `m` of the second, in graph pair `r`. -/
theorem pay6_apply (v0 v2 : Vec Ideal S8x512x64 .f32) (r : Fin 8) (n m : Fin 512) :
    k0_pay6 (F := Ideal) v0 v2 (ix3 r n m) = sim (emb v0 r) (emb v2 r) n m := by
  unfold k0_pay6
  rw [pay2_eq, pay3_eq]
  dsimp only
  rw [BatchRhsTDot.matmul_zero_ix3 _ rfl rfl rfl rfl rfl rfl]
  unfold sim
  refine Finset.sum_congr rfl fun d _ => ?_
  rw [truncf_apply, truncf_apply, unit_apply, unit_apply]

/-- The histogram bin of that similarity. -/
theorem pay7_apply (v0 v2 : Vec Ideal S8x512x64 .f32) (r : Fin 8) (n m : Fin 512) :
    k0_pay7 (F := Ideal) v0 v2 (ix3 r n m) = binOf (sim (emb v0 r) (emb v2 r) n m) := by
  unfold k0_pay7
  show Ideal.fptosi 32 (min _ (max _ (FloatOps.floor (F := Ideal) ((k0_pay6 (F := Ideal) v0 v2 (ix3 r n m) + _) * _)))) = _
  rw [pay6_apply]
  rfl

end Cert.KernelIdeal.KVal

end
-- ==== Proof.LibPointwise.lean ====
/-
  Pointwise vector operations read at an index, at the exact-real instance (each is the scalar operation at that index).
-/
import Idealize.ShloMosaic.PureOps.Ideal
import Idealize.ShloMosaic.PureOps.Vector
import Idealize.ShloMosaic.Lib.ValueIdx

noncomputable section

namespace Idealize.ShloMosaic.ValueIdx

open Idealize.ShloMosaic

variable {s : Shape} {φ : FTy}

theorem sqrt_apply (a : FVec Ideal s φ) (i : s.Idx) : sqrt a i = Ideal.sqrt (a i) := rfl
theorem floor_apply (a : FVec Ideal s φ) (i : s.Idx) : floor a i = FloatOps.floor (F := Ideal) (a i) := rfl
theorem fptosi_apply (w : Nat) (a : FVec Ideal s φ) (i : s.Idx) : fptosi w a i = Ideal.fptosi w (a i) := rfl
theorem cmpi_apply {w : Nat} (p : CmpIPredicate) (a b : IVec s w) (i : s.Idx) : cmpi p a b i = IntOp.cmpi p (a i) (b i) := rfl
theorem scalar_ofBits (b : BitVec φ.bits) : Scalar.ofBits (F := Ideal) φ b = Ideal.ofBits φ b := rfl

end Idealize.ShloMosaic.ValueIdx

end
-- ==== Proof.KBody2.lean ====
/-
  The kernel body's statistics read by coordinates: for row `r` of a block of eight 512 × 512 similarity tables,
  the mean, the maximum, the standard deviation, and for each bin `k` the number of entries whose bin is `k`
  (a two-stage sum of indicators).
-/
import proofs.«115078_j84482006712593_1_alg».proof.Proof.Gen.KernelIdeal.Skeleton
import proofs.«115078_j84482006712593_1_alg».proof.Proof.Spec
import proofs.«115078_j84482006712593_1_alg».proof.Proof.LibRank3
import proofs.«115078_j84482006712593_1_alg».proof.Proof.LibPointwise

noncomputable section

namespace Cert.KernelIdeal.KVal

open Idealize.ShloMosaic Idealize.ShloMosaic.ValueIdx Cert.KernelIdeal Cert.KernelIdeal.Gen Cert.SimGnn

/-- The mean of table `r`. -/
theorem pay8_apply (v28 : FVec Ideal S8x512x512 .f32) (r : Fin 8) :
    k0_pay8 (F := Ideal) v28 (ix1 r) = Ideal.div (∑ n : Fin 512, ∑ m : Fin 512, v28 (ix3 r n m)) cN := by
  unfold k0_pay8
  dsimp only
  rw [divf_apply, sum_axis1_of2]
  exact congrArg₂ Ideal.div (Finset.sum_congr rfl fun n _ => sum_axis2_of3 v28 _ _ _ r n) rfl

/-- The maximum of table `r`. -/
theorem pay9_apply (v28 : FVec Ideal S8x512x512 .f32) (r : Fin 8) :
    k0_pay9 (F := Ideal) v28 (ix1 r)
      = (Finset.univ : Finset (Fin 512)).fold max cBot fun n => (Finset.univ : Finset (Fin 512)).fold max cBot fun m => v28 (ix3 r n m) := by
  unfold k0_pay9
  dsimp only
  rw [max_axis1_of2]
  exact congrArg (fun f => Finset.fold max cBot f (Finset.univ : Finset (Fin 512))) (funext fun n => max_axis2_of3 v28 _ _ _ r n)

/-- The standard deviation of table `r`. -/
theorem pay10_apply (v28 : FVec Ideal S8x512x512 .f32) (r : Fin 8) :
    k0_pay10 (F := Ideal) v28 (ix1 r)
      = Ideal.sqrt (max (Ideal.div (∑ n : Fin 512, ∑ m : Fin 512, v28 (ix3 r n m) * v28 (ix3 r n m)) cN
          - Ideal.div (∑ n : Fin 512, ∑ m : Fin 512, v28 (ix3 r n m)) cN * Ideal.div (∑ n : Fin 512, ∑ m : Fin 512, v28 (ix3 r n m)) cN) c0) := by
  unfold k0_pay10
  dsimp only
  rw [sqrt_apply, maximumf_apply, subf_apply, mulf_apply, divf_apply, sum_axis1_of2, pay8_apply]
  refine congrArg Ideal.sqrt (congrArg₂ max (congrArg₂ (· - ·) (congrArg₂ Ideal.div (Finset.sum_congr rfl fun n _ => ?_) rfl) rfl) rfl)
  exact (sum_axis2_of3 (mulf v28 v28) _ _ _ r n).trans rfl

/-- A two-stage sum of a 512 × 512 table (over columns, then over rows), laid as a one-column block: at `(r, 0)` the double sum. -/
theorem colsum_apply (w : FVec Ideal S8x512x512 .f32) (r : Fin 8) (u : Fin 1) :
    shapeCast S8x1 (multiReduction .add [1] S8 (multiReduction .add [2] S8x512 w
        0x00000000#32 reduces_S8x512x512_S8x512 (.inl rfl) rfl) 0x00000000#32 reduces_S8x512_S8 (.inl rfl) rfl) shapeCasts_S8_S8x1 (ix2 r u)
      = ∑ n : Fin 512, ∑ m : Fin 512, w (ix3 r n m) := by
  rw [col_of_vec, sum_axis1_of2]
  exact Finset.sum_congr rfl fun n _ => sum_axis2_of3 w _ _ _ r n

/-- The number of entries of table `r` whose bin is `k`, as the kernel counts it: the indicator table summed. -/
theorem count_apply (k : BitVec 32) (v38 : IVec S8x512x512 32) (r : Fin 8) (u : Fin 1) (w : FVec Ideal S8x512x512 .f32)
    (hw : ∀ n m, w (ix3 r n m) = ind k (v38 (ix3 r n m))) :
    shapeCast S8x1 (multiReduction .add [1] S8 (multiReduction .add [2] S8x512 w
        0x00000000#32 reduces_S8x512x512_S8x512 (.inl rfl) rfl) 0x00000000#32 reduces_S8x512_S8 (.inl rfl) rfl) shapeCasts_S8_S8x1 (ix2 r u)
      = ∑ n : Fin 512, ∑ m : Fin 512, ind k (v38 (ix3 r n m)) :=
  (colsum_apply w r u).trans (Finset.sum_congr rfl fun n _ => Finset.sum_congr rfl fun m _ => hw n m)

theorem pay11_apply (v38 : IVec S8x512x512 32) (r : Fin 8) (u : Fin 1) :
    k0_pay11 (F := Ideal) v38 (ix2 r u) = ∑ n : Fin 512, ∑ m : Fin 512, ind 0#32 (v38 (ix3 r n m)) := count_apply 0#32 v38 r u _ (fun _ _ => rfl)
theorem pay12_apply (v38 : IVec S8x512x512 32) (r : Fin 8) (u : Fin 1) :
    k0_pay12 (F := Ideal) v38 (ix2 r u) = ∑ n : Fin 512, ∑ m : Fin 512, ind 1#32 (v38 (ix3 r n m)) := count_apply 1#32 v38 r u _ (fun _ _ => rfl)
theorem pay13_apply (v38 : IVec S8x512x512 32) (r : Fin 8) (u : Fin 1) :
    k0_pay13 (F := Ideal) v38 (ix2 r u) = ∑ n : Fin 512, ∑ m : Fin 512, ind 2#32 (v38 (ix3 r n m)) := count_apply 2#32 v38 r u _ (fun _ _ => rfl)
theorem pay15_apply (v38 : IVec S8x512x512 32) (r : Fin 8) (u : Fin 1) :
    k0_pay15 (F := Ideal) (k0_pay14 (F := Ideal) v38) (ix2 r u) = ∑ n : Fin 512, ∑ m : Fin 512, ind 3#32 (v38 (ix3 r n m)) := count_apply 3#32 v38 r u _ (fun _ _ => rfl)
theorem pay16_apply (v38 : IVec S8x512x512 32) (r : Fin 8) (u : Fin 1) :
    k0_pay16 (F := Ideal) v38 (ix2 r u) = ∑ n : Fin 512, ∑ m : Fin 512, ind 4#32 (v38 (ix3 r n m)) := count_apply 4#32 v38 r u _ (fun _ _ => rfl)
theorem pay17_apply (v38 : IVec S8x512x512 32) (r : Fin 8) (u : Fin 1) :
    k0_pay17 (F := Ideal) v38 (ix2 r u) = ∑ n : Fin 512, ∑ m : Fin 512, ind 5#32 (v38 (ix3 r n m)) := count_apply 5#32 v38 r u _ (fun _ _ => rfl)
theorem pay18_apply (v38 : IVec S8x512x512 32) (r : Fin 8) (u : Fin 1) :
    k0_pay18 (F := Ideal) v38 (ix2 r u) = ∑ n : Fin 512, ∑ m : Fin 512, ind 6#32 (v38 (ix3 r n m)) := count_apply 6#32 v38 r u _ (fun _ _ => rfl)
theorem pay19_apply (v38 : IVec S8x512x512 32) (r : Fin 8) (u : Fin 1) :
    k0_pay19 (F := Ideal) v38 (ix2 r u) = ∑ n : Fin 512, ∑ m : Fin 512, ind 7#32 (v38 (ix3 r n m)) := count_apply 7#32 v38 r u _ (fun _ _ => rfl)
theorem pay20_apply (v38 : IVec S8x512x512 32) (r : Fin 8) (u : Fin 1) :
    k0_pay20 (F := Ideal) v38 (ix2 r u) = ∑ n : Fin 512, ∑ m : Fin 512, ind 8#32 (v38 (ix3 r n m)) := count_apply 8#32 v38 r u _ (fun _ _ => rfl)
theorem pay22_apply (v38 : IVec S8x512x512 32) (r : Fin 8) (u : Fin 1) :
    k0_pay22 (F := Ideal) (k0_pay21 (F := Ideal) v38) (ix2 r u) = ∑ n : Fin 512, ∑ m : Fin 512, ind 9#32 (v38 (ix3 r n m)) := count_apply 9#32 v38 r u _ (fun _ _ => rfl)
theorem pay23_apply (v38 : IVec S8x512x512 32) (r : Fin 8) (u : Fin 1) :
    k0_pay23 (F := Ideal) v38 (ix2 r u) = ∑ n : Fin 512, ∑ m : Fin 512, ind 10#32 (v38 (ix3 r n m)) := count_apply 10#32 v38 r u _ (fun _ _ => rfl)
theorem pay24_apply (v38 : IVec S8x512x512 32) (r : Fin 8) (u : Fin 1) :
    k0_pay24 (F := Ideal) v38 (ix2 r u) = ∑ n : Fin 512, ∑ m : Fin 512, ind 11#32 (v38 (ix3 r n m)) := count_apply 11#32 v38 r u _ (fun _ _ => rfl)
theorem pay25_apply (v38 : IVec S8x512x512 32) (r : Fin 8) (u : Fin 1) :
    k0_pay25 (F := Ideal) v38 (ix2 r u) = ∑ n : Fin 512, ∑ m : Fin 512, ind 12#32 (v38 (ix3 r n m)) := count_apply 12#32 v38 r u _ (fun _ _ => rfl)
theorem pay26_apply (v38 : IVec S8x512x512 32) (r : Fin 8) (u : Fin 1) :
    k0_pay26 (F := Ideal) v38 (ix2 r u) = ∑ n : Fin 512, ∑ m : Fin 512, ind 13#32 (v38 (ix3 r n m)) := count_apply 13#32 v38 r u _ (fun _ _ => rfl)
theorem pay27_apply (v38 : IVec S8x512x512 32) (r : Fin 8) (u : Fin 1) :
    k0_pay27 (F := Ideal) v38 (ix2 r u) = ∑ n : Fin 512, ∑ m : Fin 512, ind 14#32 (v38 (ix3 r n m)) := count_apply 14#32 v38 r u _ (fun _ _ => rfl)

end Cert.KernelIdeal.KVal

end
-- ==== Proof.LibConcatCols.lean ====
/-
  Blocks laid side by side (a concatenation of rank-2 arrays along the second axis) read by coordinates: two, three
  and four blocks of any widths, and a family of one-column blocks.
-/
import Idealize.ShloMosaic.Lib.ValueIdx
import Idealize.ShloMosaic.Lib.Pipeline.Value

noncomputable section

namespace Idealize.ShloMosaic.ConcatCols

open Idealize.ShloMosaic Idealize.ShloMosaic.ValueIdx

variable {α : Type}

/-- Four blocks side by side, read at `(r, j)`: the block whose column span holds `j`. -/
theorem cols4_apply {n a b c d t : Nat} (x1 : (⟨2, ![n, a]⟩ : Shape).Idx → α) (x2 : (⟨2, ![n, b]⟩ : Shape).Idx → α) (x3 : (⟨2, ![n, c]⟩ : Shape).Idx → α) (x4 : (⟨2, ![n, d]⟩ : Shape).Idx → α)
    (h : Shape.Concatenates [(⟨2, ![n, a]⟩ : Shape), ⟨2, ![n, b]⟩, ⟨2, ![n, c]⟩, ⟨2, ![n, d]⟩] ⟨2, ![n, t]⟩ (1 : Fin 2))
    (ht : t = a + b + c + d) (r : Fin n) (j : Fin t) :
    concatenate ⟨2, ![n, t]⟩ (1 : Fin 2) [⟨⟨2, ![n, a]⟩, x1⟩, ⟨⟨2, ![n, b]⟩, x2⟩, ⟨⟨2, ![n, c]⟩, x3⟩, ⟨⟨2, ![n, d]⟩, x4⟩] h (ix2 r j)
      = if h1 : j.val < a then x1 (ix2 r ⟨j.val, h1⟩)
        else if h2 : j.val < a + b then x2 (ix2 r ⟨j.val - (a), by have := j.isLt; omega⟩)
        else if h3 : j.val < a + b + c then x3 (ix2 r ⟨j.val - (a + b), by have := j.isLt; omega⟩)
        else x4 (ix2 r ⟨j.val - (a + b + c), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 0 (by show 0 < 4; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    split
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 1 (by show 1 < 4; omega) _ x2 rfl rfl (a) rfl (ix2 r ⟨j.val - (a), by omega⟩) (fun b hb => ?_) (by show (a) + (j.val - (a)) = j.val; omega)
      match b with
      | ⟨0, _⟩ => rfl
      | ⟨1, _⟩ => exact absurd rfl hb
    · rename_i hc1
      split
      · rename_i hc2
        refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 2 (by show 2 < 4; omega) _ x3 rfl rfl (a + b) rfl (ix2 r ⟨j.val - (a + b), by omega⟩) (fun b hb => ?_) (by show (a + b) + (j.val - (a + b)) = j.val; omega)
        match b with
        | ⟨0, _⟩ => rfl
        | ⟨1, _⟩ => exact absurd rfl hb
      · rename_i hc2
        refine concatenate_apply_piece (t := ⟨2, ![n, t]⟩) (1 : Fin 2) [⟨⟨2, ![n, a]⟩, x1⟩, ⟨⟨2, ![n, b]⟩, x2⟩, ⟨⟨2, ![n, c]⟩, x3⟩, ⟨⟨2, ![n, d]⟩, x4⟩] h (ix2 r j) 3 (by show 3 < 4; omega) _ x4 rfl rfl (a + (b + c)) rfl (ix2 r ⟨j.val - (a + b + c), by omega⟩) (fun b hb => ?_) (by show (a + (b + c)) + (j.val - (a + b + c)) = j.val; omega)
        match b with
        | ⟨0, _⟩ => rfl
        | ⟨1, _⟩ => exact absurd rfl hb

/-- Three blocks side by side, read at `(r, j)`. -/
theorem cols3_apply {n a b c t : Nat} (x1 : (⟨2, ![n, a]⟩ : Shape).Idx → α) (x2 : (⟨2, ![n, b]⟩ : Shape).Idx → α) (x3 : (⟨2, ![n, c]⟩ : Shape).Idx → α)
    (h : Shape.Concatenates [(⟨2, ![n, a]⟩ : Shape), ⟨2, ![n, b]⟩, ⟨2, ![n, c]⟩] ⟨2, ![n, t]⟩ (1 : Fin 2))
    (ht : t = a + b + c) (r : Fin n) (j : Fin t) :
    concatenate ⟨2, ![n, t]⟩ (1 : Fin 2) [⟨⟨2, ![n, a]⟩, x1⟩, ⟨⟨2, ![n, b]⟩, x2⟩, ⟨⟨2, ![n, c]⟩, x3⟩] h (ix2 r j)
      = if h1 : j.val < a then x1 (ix2 r ⟨j.val, h1⟩)
        else if h2 : j.val < a + b then x2 (ix2 r ⟨j.val - (a), by have := j.isLt; omega⟩)
        else x3 (ix2 r ⟨j.val - (a + b), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 0 (by show 0 < 3; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    split
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 1 (by show 1 < 3; omega) _ x2 rfl rfl (a) rfl (ix2 r ⟨j.val - (a), by omega⟩) (fun b hb => ?_) (by show (a) + (j.val - (a)) = j.val; omega)
      match b with
      | ⟨0, _⟩ => rfl
      | ⟨1, _⟩ => exact absurd rfl hb
    · rename_i hc1
      refine concatenate_apply_piece (t := ⟨2, ![n, t]⟩) (1 : Fin 2) [⟨⟨2, ![n, a]⟩, x1⟩, ⟨⟨2, ![n, b]⟩, x2⟩, ⟨⟨2, ![n, c]⟩, x3⟩] h (ix2 r j) 2 (by show 2 < 3; omega) _ x3 rfl rfl (a + b) rfl (ix2 r ⟨j.val - (a + b), by omega⟩) (fun b hb => ?_) (by show (a + b) + (j.val - (a + b)) = j.val; omega)
      match b with
      | ⟨0, _⟩ => rfl
      | ⟨1, _⟩ => exact absurd rfl hb

/-- Two blocks side by side, read at `(r, j)`. -/
theorem cols2_apply {n a b t : Nat} (x1 : (⟨2, ![n, a]⟩ : Shape).Idx → α) (x2 : (⟨2, ![n, b]⟩ : Shape).Idx → α)
    (h : Shape.Concatenates [(⟨2, ![n, a]⟩ : Shape), ⟨2, ![n, b]⟩] ⟨2, ![n, t]⟩ (1 : Fin 2))
    (ht : t = a + b) (r : Fin n) (j : Fin t) :
    concatenate ⟨2, ![n, t]⟩ (1 : Fin 2) [⟨⟨2, ![n, a]⟩, x1⟩, ⟨⟨2, ![n, b]⟩, x2⟩] h (ix2 r j)
      = if h1 : j.val < a then x1 (ix2 r ⟨j.val, h1⟩)
        else x2 (ix2 r ⟨j.val - (a), by have := j.isLt; omega⟩) := by
  have hj := j.isLt
  split
  · rename_i hc0
    refine concatenate_apply_piece (t := ⟨2, ![n, t]⟩) (1 : Fin 2) [⟨⟨2, ![n, a]⟩, x1⟩, ⟨⟨2, ![n, b]⟩, x2⟩] h (ix2 r j) 0 (by show 0 < 2; omega) _ x1 rfl rfl (0) rfl (ix2 r ⟨j.val, by omega⟩) (fun b hb => ?_) (by show (0) + (j.val) = j.val; omega)
    match b with
    | ⟨0, _⟩ => rfl
    | ⟨1, _⟩ => exact absurd rfl hb
  · rename_i hc0
    refine concatenate_apply_piece (t := ⟨2, ![n, t]⟩) (1 : Fin 2) [⟨⟨2, ![n, a]⟩, x1⟩, ⟨⟨2, ![n, b]⟩, x2⟩] h (ix2 r j) 1 (by show 1 < 2; omega) _ x2 rfl rfl (a) rfl (ix2 r ⟨j.val - (a), by omega⟩) (fun b hb => ?_) (by show (a) + (j.val - (a)) = j.val; omega)
    match b with
    | ⟨0, _⟩ => rfl
    | ⟨1, _⟩ => exact absurd rfl hb

/-- `N` one-column blocks `[n,1]` side by side, given as a list built from a family: entry `(r, k)` is entry `r` of column `k`. -/
theorem unitCols_apply {n N : Nat} (f : Fin N → ((⟨2, ![n, 1]⟩ : Shape).Idx → α))
    (h : Shape.Concatenates ((List.ofFn fun k => (⟨⟨2, ![n, 1]⟩, f k⟩ : (s : Shape) × (s.Idx → α))).map (·.1)) ⟨2, ![n, N]⟩ (1 : Fin 2))
    (r : Fin n) (k : Fin N) :
    concatenate ⟨2, ![n, N]⟩ (1 : Fin 2) (List.ofFn fun k => (⟨⟨2, ![n, 1]⟩, f k⟩ : (s : Shape) × (s.Idx → α))) h (ix2 r k) = f k (ix2 r (0 : Fin 1)) := by
  refine concatenate_ofFn_unit_apply (t := ⟨2, ![n, N]⟩) (s₁ := ⟨2, ![n, 1]⟩) 1 f h rfl rfl (ix2 r k) k rfl
    (ix2 r (0 : Fin 1)) fun b hb => ?_
  match b with
  | ⟨0, _⟩ => rfl
  | ⟨1, _⟩ => exact absurd rfl hb

end Idealize.ShloMosaic.ConcatCols

end
-- ==== Proof.KBody3.lean ====
/-
  The kernel body's last stage read by coordinates: the sixteen bin counts laid side by side and divided by their
  total (floored at one), the three statistics laid side by side, the 147-entry feature row, and the three affine
  layers, for row `r` of a block of eight graph pairs.
-/
import proofs.«115078_j84482006712593_1_alg».proof.Proof.Gen.KernelIdeal.Skeleton
import proofs.«115078_j84482006712593_1_alg».proof.Proof.Spec
import proofs.«115078_j84482006712593_1_alg».proof.Proof.LibRank3
import proofs.«115078_j84482006712593_1_alg».proof.Proof.LibPointwise
import proofs.«115078_j84482006712593_1_alg».proof.Proof.LibConcatCols
import proofs.«115078_j84482006712593_1_alg».proof.Proof.LibDense

noncomputable section

namespace Cert.KernelIdeal.KVal

open Idealize.ShloMosaic Idealize.ShloMosaic.ValueIdx Idealize.ShloMosaic.Dense Cert.KernelIdeal Cert.KernelIdeal.Gen Cert.SimGnn

/-- Sixteen one-column blocks side by side, each entry divided by its row's total floored at one: at `(r, k)`. -/
theorem histn_apply (cols : Fin 16 → FVec Ideal S8x1 .f32)
    (hc : Shape.Concatenates [S8x1, S8x1, S8x1, S8x1, S8x1, S8x1, S8x1, S8x1, S8x1, S8x1, S8x1, S8x1, S8x1, S8x1, S8x1, S8x1] S8x16 (1 : Fin 2)) (r : Fin 8) (k : Fin 16) :
    divf (concatenate S8x16 1 [⟨S8x1, cols 0⟩, ⟨S8x1, cols 1⟩, ⟨S8x1, cols 2⟩, ⟨S8x1, cols 3⟩, ⟨S8x1, cols 4⟩, ⟨S8x1, cols 5⟩, ⟨S8x1, cols 6⟩, ⟨S8x1, cols 7⟩, ⟨S8x1, cols 8⟩, ⟨S8x1, cols 9⟩, ⟨S8x1, cols 10⟩, ⟨S8x1, cols 11⟩, ⟨S8x1, cols 12⟩, ⟨S8x1, cols 13⟩, ⟨S8x1, cols 14⟩, ⟨S8x1, cols 15⟩] hc)
        (broadcastTo S8x16 (maximumf (shapeCast S8x1 (multiReduction .add [1] S8
          (concatenate S8x16 1 [⟨S8x1, cols 0⟩, ⟨S8x1, cols 1⟩, ⟨S8x1, cols 2⟩, ⟨S8x1, cols 3⟩, ⟨S8x1, cols 4⟩, ⟨S8x1, cols 5⟩, ⟨S8x1, cols 6⟩, ⟨S8x1, cols 7⟩, ⟨S8x1, cols 8⟩, ⟨S8x1, cols 9⟩, ⟨S8x1, cols 10⟩, ⟨S8x1, cols 11⟩, ⟨S8x1, cols 12⟩, ⟨S8x1, cols 13⟩, ⟨S8x1, cols 14⟩, ⟨S8x1, cols 15⟩] hc) 0x00000000#32 reduces_S8x16_S8 (.inl rfl) rfl) shapeCasts_S8_S8x1)
          (broadcast S8x1 (Scalar.ofBits .f32 0x3F800000#32))) broadcasts_S8x1_S8x16) (ix2 r k)
      = Ideal.div (cols k (ix2 r (0 : Fin 1))) (max (∑ k' : Fin 16, cols k' (ix2 r (0 : Fin 1))) c1) := by
  have hcol : ∀ q : Fin 16, concatenate S8x16 1 [⟨S8x1, cols 0⟩, ⟨S8x1, cols 1⟩, ⟨S8x1, cols 2⟩, ⟨S8x1, cols 3⟩, ⟨S8x1, cols 4⟩, ⟨S8x1, cols 5⟩, ⟨S8x1, cols 6⟩, ⟨S8x1, cols 7⟩, ⟨S8x1, cols 8⟩, ⟨S8x1, cols 9⟩, ⟨S8x1, cols 10⟩, ⟨S8x1, cols 11⟩, ⟨S8x1, cols 12⟩, ⟨S8x1, cols 13⟩, ⟨S8x1, cols 14⟩, ⟨S8x1, cols 15⟩] hc (ix2 r q) = cols q (ix2 r (0 : Fin 1)) :=
    fun q => ConcatCols.unitCols_apply (n := 8) (N := 16) cols hc r q
  rw [divf_apply, bcast_col, maximumf_apply, col_of_vec, sum_axis1_of2, hcol k]
  exact congrArg₂ Ideal.div rfl (congrArg₂ max (Finset.sum_congr rfl fun q _ => hcol q) rfl)

/-- Three one-column blocks side by side, each the column of a length-8 vector: at `(r, k)`. -/
theorem stats_apply (a b c : FVec Ideal S8 .f32) (hc : Shape.Concatenates [S8x1, S8x1, S8x1] S8x3 (1 : Fin 2)) (r : Fin 8) (k : Fin 3) :
    concatenate S8x3 1 [⟨S8x1, shapeCast S8x1 a shapeCasts_S8_S8x1⟩, ⟨S8x1, shapeCast S8x1 b shapeCasts_S8_S8x1⟩, ⟨S8x1, shapeCast S8x1 c shapeCasts_S8_S8x1⟩] hc (ix2 r k)
      = if k.val = 0 then a (ix1 r) else if k.val = 1 then b (ix1 r) else c (ix1 r) := by
  refine (ConcatCols.unitCols_apply (n := 8) (N := 3) ![shapeCast S8x1 a shapeCasts_S8_S8x1, shapeCast S8x1 b shapeCasts_S8_S8x1, shapeCast S8x1 c shapeCasts_S8_S8x1] hc r k).trans ?_
  match k with
  | ⟨0, _⟩ => exact col_of_vec a _ r 0
  | ⟨1, _⟩ => exact col_of_vec b _ r 0
  | ⟨2, _⟩ => exact col_of_vec c _ r 0

/-- The 147-entry feature row: two 64-blocks, the 16-block, the 3-block side by side, at `(r, j)`. -/
theorem featrow_apply (g1 g2 : FVec Ideal S8x64 .f32) (hn : FVec Ideal S8x16 .f32) (st : FVec Ideal S8x3 .f32)
    (hc : Shape.Concatenates [S8x64, S8x64, S8x16, S8x3] S8x147 (1 : Fin 2)) (r : Fin 8) (j : Fin 147)
    (G1 G2 : Fin 64 → EReal) (HN : Fin 16 → EReal) (mn mx sd : EReal)
    (h1 : ∀ d, g1 (ix2 r d) = G1 d) (h2 : ∀ d, g2 (ix2 r d) = G2 d) (h3 : ∀ k, hn (ix2 r k) = HN k)
    (h4 : ∀ k : Fin 3, st (ix2 r k) = if k.val = 0 then mn else if k.val = 1 then mx else sd) :
    concatenate S8x147 1 [⟨S8x64, g1⟩, ⟨S8x64, g2⟩, ⟨S8x16, hn⟩, ⟨S8x3, st⟩] hc (ix2 r j) = featOf G1 G2 HN mn mx sd j := by
  refine (ConcatCols.cols4_apply (n := 8) (a := 64) (b := 64) (c := 16) (d := 3) g1 g2 hn st hc rfl r j).trans ?_
  unfold featOf
  have hj := j.isLt
  by_cases c1 : j.val < 64
  · rw [dif_pos c1, dif_pos c1]; exact h1 _
  · rw [dif_neg c1, dif_neg c1]
    by_cases c2 : j.val < 128
    · rw [dif_pos (by omega : j.val < 64 + 64), dif_pos c2]; exact h2 _
    · rw [dif_neg (by omega : ¬ j.val < 64 + 64), dif_neg c2]
      by_cases c3 : j.val < 144
      · rw [dif_pos (by omega : j.val < 64 + 64 + 16), dif_pos c3]; exact h3 _
      · rw [dif_neg (by omega : ¬ j.val < 64 + 64 + 16), dif_neg c3, h4]
        by_cases c4 : j.val = 144
        · rw [if_pos c4, if_pos (by show j.val - (64 + 64 + 16) = 0; omega)]
        · rw [if_neg c4, if_neg (by show ¬ j.val - (64 + 64 + 16) = 0; omega)]
          by_cases c5 : j.val = 145
          · rw [if_pos c5, if_pos (by show j.val - (64 + 64 + 16) = 1; omega)]
          · rw [if_neg c5, if_neg (by show ¬ j.val - (64 + 64 + 16) = 1; omega)]

/-- The sixteen count columns the body lays side by side: fifteen handed over, the last summed here. -/
def countCols (v61 v68 v75 v82 v89 v96 v103 v110 v117 v124 v131 v138 v145 v152 v159 : FVec Ideal S8x1 .f32) (v163 : FVec Ideal S8x512x512 .f32) : Fin 16 → FVec Ideal S8x1 .f32 :=
  ![v61, v68, v75, v82, v89, v96, v103, v110, v117, v124, v131, v138, v145, v152, v159, (shapeCast S8x1 (multiReduction .add [1] S8 (multiReduction .add [2] S8x512 v163 0x00000000#32 reduces_S8x512x512_S8x512 (.inl rfl) rfl) 0x00000000#32 reduces_S8x512_S8 (.inl rfl) rfl) shapeCasts_S8_S8x1)]

/-- The second hidden layer's activations for graph pair `r`: the feature row through two affine layers and positive parts. -/
theorem pay31_apply (v6 v9 : FVec Ideal S8x64 .f32) (v42 v44 v54 : FVec Ideal S8 .f32)
    (v61 v68 v75 v82 v89 v96 v103 v110 v117 v124 v131 v138 v145 v152 v159 : FVec Ideal S8x1 .f32) (v163 : FVec Ideal S8x512x512 .f32)
    (v179 : Vec Ideal S147x64 .f32) (v181 : Vec Ideal S1x64 .f32) (v189 : Vec Ideal S64x32 .f32) (v191 : Vec Ideal S1x32 .f32)
    (r : Fin 8) (c : Fin 32) (G1 G2 : Fin 64 → EReal) (H : Fin 16 → EReal)
    (h6 : ∀ d, v6 (ix2 r d) = G1 d) (h9 : ∀ d, v9 (ix2 r d) = G2 d)
    (hH : ∀ k : Fin 16, countCols v61 v68 v75 v82 v89 v96 v103 v110 v117 v124 v131 v138 v145 v152 v159 v163 k (ix2 r (0 : Fin 1)) = H k) :
    k0_pay31 (F := Ideal) v6 v9 v42 v44 v54 v61 v68 v75 v82 v89 v96 v103 v110 v117 v124 v131 v138 v145 v152 v159 v163 v179 v181 v189 v191 (ix2 r c)
      = relu (lin (fun a => relu (lin (featOf G1 G2 (fun k => Ideal.div (H k) (max (∑ k' : Fin 16, H k') c1)) (v42 (ix1 r)) (v44 (ix1 r)) (v54 (ix1 r)))
          (fun j a => v179 (ix2 j a)) (fun a => v181 (ix2 (0 : Fin 1) a)) a)) (fun a c => v189 (ix2 a c)) (fun c => v191 (ix2 (0 : Fin 1) c)) c) := by
  unfold k0_pay31
  try dsimp only
  rw [truncf_apply, shapeCast_self v191, shapeCast_self v181]
  refine (matmul_bias_relu_apply dot_S8x64_S64x32_S8x32_1_0_0_1_n_n rfl _ _ v191 _ r c).trans ?_
  refine congrArg relu (congrArg (fun x => lin x _ _ c) (funext fun a => ?_))
  rw [truncf_apply]
  refine (matmul_bias_relu_apply dot_S8x147_S147x64_S8x64_1_0_0_1_n_n rfl _ _ v181 _ r a).trans ?_
  refine congrArg relu (congrArg (fun x => lin x _ _ a) (funext fun j => ?_))
  rw [truncf_apply]
  refine featrow_apply v6 v9 _ _ _ r j G1 G2 _ _ _ _ h6 h9 (fun k => ?_) (fun k => stats_apply v42 v44 v54 _ r k)
  refine (histn_apply (countCols v61 v68 v75 v82 v89 v96 v103 v110 v117 v124 v131 v138 v145 v152 v159 v163) _ r k).trans ?_
  rw [hH k]
  exact congrArg₂ Ideal.div rfl (congrArg₂ max (Finset.sum_congr rfl fun q _ => hH q) rfl)

/-- The output layer for graph pair `r`: the second hidden layer's activations against the last weights, plus the bias. -/
theorem pay1_apply (v200 : FVec Ideal S32x1 .bf16) (v202 : FVec Ideal S1x1 .f32) (v203 : FVec Ideal S8x32 .bf16) (r : Fin 8) (u : Fin 1) :
    k0_pay1 (F := Ideal) v200 v202 v203 (constant S8x1 .f32 0x00000000#32) (ix2 r u)
      = lin (fun c => v203 (ix2 r c)) (fun c u => v200 (ix2 c u)) (fun u => v202 (ix2 (0 : Fin 1) u)) u := by
  unfold k0_pay1
  try dsimp only
  exact matmul_bias_apply dot_S8x32_S32x1_S8x1_1_0_0_1_n_n rfl v203 v200 v202 _ r u

end Cert.KernelIdeal.KVal

end
-- ==== Proof.KOut.lean ====
/-
  What the kernel body stores for row `r` of a block of eight graph pairs: the specification's output for that pair,
  as a function of the two embedding blocks and the six weight arrays the body loads.
-/
import proofs.«115078_j84482006712593_1_alg».proof.Proof.Gen.KernelIdeal.Frame
import proofs.«115078_j84482006712593_1_alg».proof.Proof.KBody1
import proofs.«115078_j84482006712593_1_alg».proof.Proof.KBody2
import proofs.«115078_j84482006712593_1_alg».proof.Proof.KBody3

noncomputable section

namespace Cert.KernelIdeal.KVal

open Idealize.ShloMosaic Idealize.ShloMosaic.ValueIdx Idealize.ShloMosaic.Dense Cert.KernelIdeal Cert.KernelIdeal.Gen Cert.SimGnn

theorem hz2 : (![0, 0] : Fin 2 → Nat) = fun _ => 0 := funext fun a => by fin_cases a <;> rfl
theorem hz3 : (![0, 0, 0] : Fin 3 → Nat) = fun _ => 0 := funext fun a => by fin_cases a <;> rfl

/-- The body's store, at `(r, 0)`. -/
theorem out_apply (x0 x1 : Vec Ideal S8x512x64 .f32) (x2 : Vec Ideal S147x64 .f32) (x3 : Vec Ideal S1x64 .f32) (x4 : Vec Ideal S64x32 .f32)
    (x5 : Vec Ideal S1x32 .f32) (x6 : Vec Ideal S32x1 .f32) (x7 : Vec Ideal S1x1 .f32) (r : Fin 8) :
    out0_8 (F := Ideal) x0 x1 x2 x3 x4 x5 x6 x7 (ix2 r (0 : Fin 1))
      = Cert.SimGnn.out (emb x0 r) (emb x1 r) (fun j a => x2 (ix2 j a)) (fun a => x3 (ix2 (0 : Fin 1) a)) (fun a c => x4 (ix2 a c))
          (fun c => x5 (ix2 (0 : Fin 1) c)) (fun c u => x6 (ix2 c u)) (fun u => x7 (ix2 (0 : Fin 1) u)) := by
  unfold out0_8
  rw [View.canon_unit_zero hz2]
  simp only [View.ld_unit_zero (S := S8x512x64) hz3, View.ld_unit_zero (S := S147x64) hz2, View.ld_unit_zero (S := S1x64) hz2,
    View.ld_unit_zero (S := S64x32) hz2, View.ld_unit_zero (S := S1x32) hz2, View.ld_unit_zero (S := S32x1) hz2, View.ld_unit_zero (S := S1x1) hz2]
  refine (pay1_apply _ _ _ r 0).trans ?_
  have e30 : k0_pay30 (F := Ideal) x7 = x7 := shapeCast_self _ _
  rw [e30]
  unfold Cert.SimGnn.out Cert.SimGnn.mlp
  refine congrArg (fun x => lin x (fun c u => x6 (ix2 c u)) (fun u => x7 (ix2 (0 : Fin 1) u)) (0 : Fin 1)) (funext fun c => ?_)
  have hsum : ∀ f : EReal → EReal, (∑ n : Fin 512, ∑ m : Fin 512, f (k0_pay6 (F := Ideal) x0 x1 (ix3 r n m)))
      = ∑ n : Fin 512, ∑ m : Fin 512, f (sim (emb x0 r) (emb x1 r) n m) := fun f =>
    Finset.sum_congr rfl fun n _ => Finset.sum_congr rfl fun m _ => congrArg f (pay6_apply x0 x1 r n m)
  have hbin : ∀ k : BitVec 32, (∑ n : Fin 512, ∑ m : Fin 512, ind k (k0_pay7 (F := Ideal) x0 x1 (ix3 r n m)))
      = hist (emb x0 r) (emb x1 r) k := fun k =>
    Finset.sum_congr rfl fun n _ => Finset.sum_congr rfl fun m _ => congrArg (ind k) (pay7_apply x0 x1 r n m)
  have hH : ∀ k : Fin 16, countCols (k0_pay11 (F := Ideal) (k0_pay7 (F := Ideal) x0 x1)) (k0_pay12 (F := Ideal) (k0_pay7 (F := Ideal) x0 x1)) (k0_pay13 (F := Ideal) (k0_pay7 (F := Ideal) x0 x1)) (k0_pay15 (F := Ideal) (k0_pay14 (F := Ideal) (k0_pay7 (F := Ideal) x0 x1))) (k0_pay16 (F := Ideal) (k0_pay7 (F := Ideal) x0 x1)) (k0_pay17 (F := Ideal) (k0_pay7 (F := Ideal) x0 x1)) (k0_pay18 (F := Ideal) (k0_pay7 (F := Ideal) x0 x1)) (k0_pay19 (F := Ideal) (k0_pay7 (F := Ideal) x0 x1)) (k0_pay20 (F := Ideal) (k0_pay7 (F := Ideal) x0 x1)) (k0_pay22 (F := Ideal) (k0_pay21 (F := Ideal) (k0_pay7 (F := Ideal) x0 x1))) (k0_pay23 (F := Ideal) (k0_pay7 (F := Ideal) x0 x1)) (k0_pay24 (F := Ideal) (k0_pay7 (F := Ideal) x0 x1)) (k0_pay25 (F := Ideal) (k0_pay7 (F := Ideal) x0 x1)) (k0_pay26 (F := Ideal) (k0_pay7 (F := Ideal) x0 x1)) (k0_pay27 (F := Ideal) (k0_pay7 (F := Ideal) x0 x1)) (k0_pay28 (F := Ideal) (k0_pay7 (F := Ideal) x0 x1)) k (ix2 r (0 : Fin 1))
      = hist (emb x0 r) (emb x1 r) (BitVec.ofNat 32 k.val) := fun k => by
    match k with
    | ⟨0, _⟩ => exact (pay11_apply (k0_pay7 (F := Ideal) x0 x1) r 0).trans (hbin _)
    | ⟨1, _⟩ => exact (pay12_apply (k0_pay7 (F := Ideal) x0 x1) r 0).trans (hbin _)
    | ⟨2, _⟩ => exact (pay13_apply (k0_pay7 (F := Ideal) x0 x1) r 0).trans (hbin _)
    | ⟨3, _⟩ => exact (pay15_apply (k0_pay7 (F := Ideal) x0 x1) r 0).trans (hbin _)
    | ⟨4, _⟩ => exact (pay16_apply (k0_pay7 (F := Ideal) x0 x1) r 0).trans (hbin _)
    | ⟨5, _⟩ => exact (pay17_apply (k0_pay7 (F := Ideal) x0 x1) r 0).trans (hbin _)
    | ⟨6, _⟩ => exact (pay18_apply (k0_pay7 (F := Ideal) x0 x1) r 0).trans (hbin _)
    | ⟨7, _⟩ => exact (pay19_apply (k0_pay7 (F := Ideal) x0 x1) r 0).trans (hbin _)
    | ⟨8, _⟩ => exact (pay20_apply (k0_pay7 (F := Ideal) x0 x1) r 0).trans (hbin _)
    | ⟨9, _⟩ => exact (pay22_apply (k0_pay7 (F := Ideal) x0 x1) r 0).trans (hbin _)
    | ⟨10, _⟩ => exact (pay23_apply (k0_pay7 (F := Ideal) x0 x1) r 0).trans (hbin _)
    | ⟨11, _⟩ => exact (pay24_apply (k0_pay7 (F := Ideal) x0 x1) r 0).trans (hbin _)
    | ⟨12, _⟩ => exact (pay25_apply (k0_pay7 (F := Ideal) x0 x1) r 0).trans (hbin _)
    | ⟨13, _⟩ => exact (pay26_apply (k0_pay7 (F := Ideal) x0 x1) r 0).trans (hbin _)
    | ⟨14, _⟩ => exact (pay27_apply (k0_pay7 (F := Ideal) x0 x1) r 0).trans (hbin _)
    | ⟨15, _⟩ => exact (count_apply 15#32 (k0_pay7 (F := Ideal) x0 x1) r 0 (k0_pay28 (F := Ideal) (k0_pay7 (F := Ideal) x0 x1)) (fun _ _ => rfl)).trans (hbin _)
    | ⟨n + 16, h⟩ => exact absurd h (by omega)
  refine (pay31_apply (k0_pay4 (F := Ideal) x0) (k0_pay5 (F := Ideal) x1) (k0_pay8 (F := Ideal) (k0_pay6 (F := Ideal) x0 x1))
    (k0_pay9 (F := Ideal) (k0_pay6 (F := Ideal) x0 x1)) (k0_pay10 (F := Ideal) (k0_pay6 (F := Ideal) x0 x1))
    (k0_pay11 (F := Ideal) (k0_pay7 (F := Ideal) x0 x1)) (k0_pay12 (F := Ideal) (k0_pay7 (F := Ideal) x0 x1)) (k0_pay13 (F := Ideal) (k0_pay7 (F := Ideal) x0 x1)) (k0_pay15 (F := Ideal) (k0_pay14 (F := Ideal) (k0_pay7 (F := Ideal) x0 x1))) (k0_pay16 (F := Ideal) (k0_pay7 (F := Ideal) x0 x1)) (k0_pay17 (F := Ideal) (k0_pay7 (F := Ideal) x0 x1)) (k0_pay18 (F := Ideal) (k0_pay7 (F := Ideal) x0 x1)) (k0_pay19 (F := Ideal) (k0_pay7 (F := Ideal) x0 x1)) (k0_pay20 (F := Ideal) (k0_pay7 (F := Ideal) x0 x1)) (k0_pay22 (F := Ideal) (k0_pay21 (F := Ideal) (k0_pay7 (F := Ideal) x0 x1))) (k0_pay23 (F := Ideal) (k0_pay7 (F := Ideal) x0 x1)) (k0_pay24 (F := Ideal) (k0_pay7 (F := Ideal) x0 x1)) (k0_pay25 (F := Ideal) (k0_pay7 (F := Ideal) x0 x1)) (k0_pay26 (F := Ideal) (k0_pay7 (F := Ideal) x0 x1)) (k0_pay27 (F := Ideal) (k0_pay7 (F := Ideal) x0 x1)) (k0_pay28 (F := Ideal) (k0_pay7 (F := Ideal) x0 x1)) x2 x3 x4 x5 r c
    (gmean (emb x0 r)) (gmean (emb x1 r)) (fun k => hist (emb x0 r) (emb x1 r) (BitVec.ofNat 32 k.val))
    (fun d => pay4_apply x0 r d) (fun d => pay5_apply x1 r d) hH).trans ?_
  have hmean : k0_pay8 (F := Ideal) (k0_pay6 (F := Ideal) x0 x1) (ix1 r) = mean (emb x0 r) (emb x1 r) :=
    (pay8_apply _ r).trans (congrArg (fun s => Ideal.div s cN) (hsum id))
  have hmax : k0_pay9 (F := Ideal) (k0_pay6 (F := Ideal) x0 x1) (ix1 r) = maxSim (emb x0 r) (emb x1 r) :=
    (pay9_apply _ r).trans (congrArg (fun f => Finset.fold max cBot f (Finset.univ : Finset (Fin 512)))
      (funext fun n => congrArg (fun f => Finset.fold max cBot f (Finset.univ : Finset (Fin 512))) (funext fun m => pay6_apply x0 x1 r n m)))
  have hs1 : (∑ n : Fin 512, ∑ m : Fin 512, k0_pay6 (F := Ideal) x0 x1 (ix3 r n m))
      = ∑ n : Fin 512, ∑ m : Fin 512, sim (emb x0 r) (emb x1 r) n m := hsum id
  have hs2 : (∑ n : Fin 512, ∑ m : Fin 512, k0_pay6 (F := Ideal) x0 x1 (ix3 r n m) * k0_pay6 (F := Ideal) x0 x1 (ix3 r n m))
      = ∑ n : Fin 512, ∑ m : Fin 512, sim (emb x0 r) (emb x1 r) n m * sim (emb x0 r) (emb x1 r) n m := hsum (fun x => x * x)
  have hstd : k0_pay10 (F := Ideal) (k0_pay6 (F := Ideal) x0 x1) (ix1 r) = std (emb x0 r) (emb x1 r) := by
    rw [pay10_apply, hs1, hs2]
    rfl
  rw [hmean, hmax, hstd]
  rfl

end Cert.KernelIdeal.KVal

end
-- ==== Proof.KFinal.lean ====
/-
  From what each grid point writes back to the whole result array: the point `t` writes rows `8 t … 8 t + 7`, the
  sixteen points cover the 128 rows, so the array the region leaves is, row by row, the specification's output for
  that row's graph pair; the host line after the region lays the column out as a vector.
-/
import proofs.«115078_j84482006712593_1_alg».proof.Proof.KOut

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.SimGnn
open Idealize.ShloMosaic.Pipeline (Dat Cfg Window)

variable (m : (ℓ : Loc nD τ sig) → Buf (Elt Ideal) ℓ) (ρ : Dev nD → PrngReg)

/-- The printed index maps over the sixteen points: the two embedding windows move with the output window along the graphs,
    every weight window stays put. -/
theorem idx_facts : ∀ t : Fin cfg0.N,
    win0_0.index t (0 : Fin 3) = win0_8.index t (0 : Fin 2) ∧ win0_0.index t (1 : Fin 3) = 0 ∧ win0_0.index t (2 : Fin 3) = 0
    ∧ win0_1.index t (0 : Fin 3) = win0_8.index t (0 : Fin 2) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (1 : Fin 2) = 0 ∧ win0_8.index t (0 : Fin 2) ≤ 15 :=
  (by decide +kernel : ∀ t : Fin grid0.N, _)

/-- Every block of eight rows is some point's. -/
theorem idx_onto : ∀ q : Fin 16, ∃ t : Fin cfg0.N, win0_8.index t = ![q.val, 0] :=
  (by decide +kernel : ∀ q : Fin 16, ∃ t : Fin grid0.N, win0_8.index t = ![q.val, 0])

/-- Graph `b`'s table inside an array of 128 tables. -/
def embA (A : S128x512x64.Idx → EReal) (b : Fin 128) : Emb := fun n d => A (ix3 b n d)

/-- The result column as one function of the arrays the region finds: row `b` is the specification's output for graph pair `b`. -/
def G8 (A0 A1 : S128x512x64.Idx → EReal) (A2 : S147x64.Idx → EReal) (A3 : S1x64.Idx → EReal) (A4 : S64x32.Idx → EReal)
    (A5 : S1x32.Idx → EReal) (A6 : S32x1.Idx → EReal) (A7 : S1x1.Idx → EReal) : S128x1.Idx → EReal :=
  fun i => Cert.SimGnn.out (embA A0 ⟨(i 0).val, (i 0).isLt⟩) (embA A1 ⟨(i 0).val, (i 0).isLt⟩) (fun j a => A2 (ix2 j a)) (fun a => A3 (ix2 (0 : Fin 1) a))
    (fun a c => A4 (ix2 a c)) (fun c => A5 (ix2 (0 : Fin 1) c)) (fun c u => A6 (ix2 c u)) (fun u => A7 (ix2 (0 : Fin 1) u))

set_option maxHeartbeats 2000000 in
/-- Row `r` of window 0's block at point `t` is the table of the graph the output block's row `r` belongs to. -/
theorem blk_emb0 (c : Dev nD) (t : Fin cfg0.N) (r : Fin 8) :
    emb (iblk m c 0 t) r = embA (V m c main_v100) ⟨((((cfg0.win 8).blk t).view.emb (ix2 r (0 : Fin 1))) 0).val, ((((cfg0.win 8).blk t).view.emb (ix2 r (0 : Fin 1))) 0).isLt⟩ := by
  obtain ⟨e00, e01, e02, e10, e11, e12, -⟩ := idx_facts t
  funext n d
  show V m c main_v100 (((cfg0.win 0).blk t).view.emb (ix3 r n d)) = V m c main_v100 (ix3 _ n d)
  refine congrArg (V m c main_v100) (funext fun a => Fin.ext ?_)
  match a with
  | ⟨0, _⟩ => show win0_0.index t (0 : Fin 3) * 8 + 1 * r.val = win0_8.index t (0 : Fin 2) * 8 + 1 * r.val; omega
  | ⟨1, _⟩ => show win0_0.index t (1 : Fin 3) * 512 + 1 * n.val = n.val; omega
  | ⟨2, _⟩ => show win0_0.index t (2 : Fin 3) * 64 + 1 * d.val = d.val; omega

set_option maxHeartbeats 2000000 in
/-- Row `r` of window 1's block at point `t` is the table of the graph the output block's row `r` belongs to. -/
theorem blk_emb1 (c : Dev nD) (t : Fin cfg0.N) (r : Fin 8) :
    emb (iblk m c 1 t) r = embA (V m c main_v101) ⟨((((cfg0.win 8).blk t).view.emb (ix2 r (0 : Fin 1))) 0).val, ((((cfg0.win 8).blk t).view.emb (ix2 r (0 : Fin 1))) 0).isLt⟩ := by
  obtain ⟨e00, e01, e02, e10, e11, e12, -⟩ := idx_facts t
  funext n d
  show V m c main_v101 (((cfg0.win 1).blk t).view.emb (ix3 r n d)) = V m c main_v101 (ix3 _ n d)
  refine congrArg (V m c main_v101) (funext fun a => Fin.ext ?_)
  match a with
  | ⟨0, _⟩ => show win0_1.index t (0 : Fin 3) * 8 + 1 * r.val = win0_8.index t (0 : Fin 2) * 8 + 1 * r.val; omega
  | ⟨1, _⟩ => show win0_1.index t (1 : Fin 3) * 512 + 1 * n.val = n.val; omega
  | ⟨2, _⟩ => show win0_1.index t (2 : Fin 3) * 64 + 1 * d.val = d.val; omega

set_option maxHeartbeats 2000000 in
/-- Window 2 holds its whole array at every point. -/
theorem blk_w2 (c : Dev nD) (t : Fin cfg0.N) (p : Fin 147) (q : Fin 64) :
    iblk m c 2 t (ix2 p q) = V m c main_arg14 (ix2 p q) := by
  obtain ⟨-, -, -, -, -, -, e20, e21, e30, e31, e40, e41, e50, e51, e60, e61, e70, e71, -⟩ := idx_facts t
  show V m c main_arg14 (((cfg0.win 2).blk t).view.emb (ix2 p q)) = V m c main_arg14 (ix2 p q)
  refine congrArg (V m c main_arg14) (funext fun a => Fin.ext ?_)
  match a with
  | ⟨0, _⟩ => show win0_2.index t (0 : Fin 2) * 147 + 1 * p.val = p.val; omega
  | ⟨1, _⟩ => show win0_2.index t (1 : Fin 2) * 64 + 1 * q.val = q.val; omega

set_option maxHeartbeats 2000000 in
/-- Window 3 holds its whole array at every point. -/
theorem blk_w3 (c : Dev nD) (t : Fin cfg0.N) (p : Fin 1) (q : Fin 64) :
    iblk m c 3 t (ix2 p q) = V m c main_v102 (ix2 p q) := by
  obtain ⟨-, -, -, -, -, -, e20, e21, e30, e31, e40, e41, e50, e51, e60, e61, e70, e71, -⟩ := idx_facts t
  show V m c main_v102 (((cfg0.win 3).blk t).view.emb (ix2 p q)) = V m c main_v102 (ix2 p q)
  refine congrArg (V m c main_v102) (funext fun a => Fin.ext ?_)
  match a with
  | ⟨0, _⟩ => show win0_3.index t (0 : Fin 2) * 1 + 1 * p.val = p.val; omega
  | ⟨1, _⟩ => show win0_3.index t (1 : Fin 2) * 64 + 1 * q.val = q.val; omega

set_option maxHeartbeats 2000000 in
/-- Window 4 holds its whole array at every point. -/
theorem blk_w4 (c : Dev nD) (t : Fin cfg0.N) (p : Fin 64) (q : Fin 32) :
    iblk m c 4 t (ix2 p q) = V m c main_arg16 (ix2 p q) := by
  obtain ⟨-, -, -, -, -, -, e20, e21, e30, e31, e40, e41, e50, e51, e60, e61, e70, e71, -⟩ := idx_facts t
  show V m c main_arg16 (((cfg0.win 4).blk t).view.emb (ix2 p q)) = V m c main_arg16 (ix2 p q)
  refine congrArg (V m c main_arg16) (funext fun a => Fin.ext ?_)
  match a with
  | ⟨0, _⟩ => show win0_4.index t (0 : Fin 2) * 64 + 1 * p.val = p.val; omega
  | ⟨1, _⟩ => show win0_4.index t (1 : Fin 2) * 32 + 1 * q.val = q.val; omega

set_option maxHeartbeats 2000000 in
/-- Window 5 holds its whole array at every point. -/
theorem blk_w5 (c : Dev nD) (t : Fin cfg0.N) (p : Fin 1) (q : Fin 32) :
    iblk m c 5 t (ix2 p q) = V m c main_v103 (ix2 p q) := by
  obtain ⟨-, -, -, -, -, -, e20, e21, e30, e31, e40, e41, e50, e51, e60, e61, e70, e71, -⟩ := idx_facts t
  show V m c main_v103 (((cfg0.win 5).blk t).view.emb (ix2 p q)) = V m c main_v103 (ix2 p q)
  refine congrArg (V m c main_v103) (funext fun a => Fin.ext ?_)
  match a with
  | ⟨0, _⟩ => show win0_5.index t (0 : Fin 2) * 1 + 1 * p.val = p.val; omega
  | ⟨1, _⟩ => show win0_5.index t (1 : Fin 2) * 32 + 1 * q.val = q.val; omega

set_option maxHeartbeats 2000000 in
/-- Window 6 holds its whole array at every point. -/
theorem blk_w6 (c : Dev nD) (t : Fin cfg0.N) (p : Fin 32) (q : Fin 1) :
    iblk m c 6 t (ix2 p q) = V m c main_arg18 (ix2 p q) := by
  obtain ⟨-, -, -, -, -, -, e20, e21, e30, e31, e40, e41, e50, e51, e60, e61, e70, e71, -⟩ := idx_facts t
  show V m c main_arg18 (((cfg0.win 6).blk t).view.emb (ix2 p q)) = V m c main_arg18 (ix2 p q)
  refine congrArg (V m c main_arg18) (funext fun a => Fin.ext ?_)
  match a with
  | ⟨0, _⟩ => show win0_6.index t (0 : Fin 2) * 32 + 1 * p.val = p.val; omega
  | ⟨1, _⟩ => show win0_6.index t (1 : Fin 2) * 1 + 1 * q.val = q.val; omega

set_option maxHeartbeats 2000000 in
/-- Window 7 holds its whole array at every point. -/
theorem blk_w7 (c : Dev nD) (t : Fin cfg0.N) (p : Fin 1) (q : Fin 1) :
    iblk m c 7 t (ix2 p q) = V m c main_v104 (ix2 p q) := by
  obtain ⟨-, -, -, -, -, -, e20, e21, e30, e31, e40, e41, e50, e51, e60, e61, e70, e71, -⟩ := idx_facts t
  show V m c main_v104 (((cfg0.win 7).blk t).view.emb (ix2 p q)) = V m c main_v104 (ix2 p q)
  refine congrArg (V m c main_v104) (funext fun a => Fin.ext ?_)
  match a with
  | ⟨0, _⟩ => show win0_7.index t (0 : Fin 2) * 1 + 1 * p.val = p.val; omega
  | ⟨1, _⟩ => show win0_7.index t (1 : Fin 2) * 1 + 1 * q.val = q.val; omega

set_option maxHeartbeats 2000000 in
/-- What point `t` writes back is block `t` of that function. -/
theorem flushed8_eq (c : Dev nD) (t : Fin cfg0.N) :
    (dats m 0 c).flushed 8 t = ((cfg0.win 8).blk t).view.read (Elt Ideal) (G8 (V m c main_v100) (V m c main_v101) (V m c main_arg14) (V m c main_v102) (V m c main_arg16) (V m c main_v103) (V m c main_arg18) (V m c main_v104)) := by
  show (cfg0.win 8).cut (grid0.coords t) ((dats m 0 c).after 8 t) = _
  rw [after0_8]
  funext y
  obtain ⟨r, u, rfl⟩ : ∃ (r : Fin 8) (u : Fin 1), y = ix2 r u := ⟨y 0, y 1, eq_ix2 y⟩
  obtain rfl : u = 0 := Subsingleton.elim _ _
  show out0_8 (iblk m c 0 t) (iblk m c 1 t) (iblk m c 2 t) (iblk m c 3 t) (iblk m c 4 t) (iblk m c 5 t) (iblk m c 6 t) (iblk m c 7 t) (ix2 r (0 : Fin 1)) = G8 (V m c main_v100) (V m c main_v101) (V m c main_arg14) (V m c main_v102) (V m c main_arg16) (V m c main_v103) (V m c main_arg18) (V m c main_v104) (((cfg0.win 8).blk t).view.emb (ix2 r (0 : Fin 1)))
  refine (out_apply (iblk m c 0 t) (iblk m c 1 t) (iblk m c 2 t) (iblk m c 3 t) (iblk m c 4 t) (iblk m c 5 t) (iblk m c 6 t) (iblk m c 7 t) r).trans ?_
  unfold G8
  rw [blk_emb0 m c t r, blk_emb1 m c t r]
  simp only [blk_w2 m c t, blk_w3 m c t, blk_w4 m c t, blk_w5 m c t, blk_w6 m c t, blk_w7 m c t]

/-- An index of the result column is in point `t`'s block iff its row is among the point's eight. -/
theorem mem_blk8 (t : Fin cfg0.N) (i : S128x1.Idx) :
    i ∈ ((cfg0.win 8).blk t).view.set ↔ ∀ a : Fin 2, win0_8.index t a * S8x1.size a ≤ (i a).val ∧ (i a).val < win0_8.index t a * S8x1.size a + S8x1.size a := by
  show i ∈ ((View.whole main_v105).slice (win0_8.rect t)).set ↔ _
  rw [View.set_slice_whole, Rect.mem_set_unit]
  exact Iff.rfl

/-- Every row is in some point's block: row `b` in point `b / 8`'s. -/
theorem cover8 (i : S128x1.Idx) : ∃ t : Fin cfg0.N, (cfg0.win 8).flush t = true ∧ i ∈ ((cfg0.win 8).blk t).view.set := by
  have hi0 : (i 0).val < 128 := (i 0).isLt
  have hi1 : (i 1).val < 1 := (i 1).isLt
  obtain ⟨t, ht⟩ := idx_onto ⟨(i 0).val / 8, by omega⟩
  have q0 : win0_8.index t (0 : Fin 2) = (i 0).val / 8 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 8 ≤ (i 0).val ∧ (i 0).val < win0_8.index t (0 : Fin 2) * 8 + 8; omega
  | ⟨1, _⟩ => show win0_8.index t (1 : Fin 2) * 1 ≤ (i 1).val ∧ (i 1).val < win0_8.index t (1 : Fin 2) * 1 + 1; omega

/-- The result column after the region. -/
theorem final8 (c : Dev nD) : (dats m 0 c).arrAt 8 cfg0.N = G8 (V m c main_v100) (V m c main_v101) (V m c main_arg14) (V m c main_v102) (V m c main_arg16) (V m c main_v103) (V m c main_arg18) (V m c main_v104) :=
  (dats m 0 c).arrAt_eq_of_cover 8 (G8 (V m c main_v100) (V m c main_v101) (V m c main_arg14) (V m c main_v102) (V m c main_arg16) (V m c main_v103) (V m c main_arg18) (V m c main_v104)) (fun t _ => flushed8_eq m c t) cover8

/-- The program's result: the column laid out as a vector by the host line after the region. -/
theorem tail_v106 (c : Dev nD) :
    Pipeline.afterTail₀ cfgs (dats m) 0 (V0 m) [hostOps1] c main_v106 = shapeCast S128 (G8 (V m c main_v100) (V m c main_v101) (V m c main_arg14) (V m c main_v102) (V m c main_arg16) (V m c main_v103) (V m c main_arg18) (V m c main_v104)) shapeCasts_S128x1_S128 := by
  unfold Pipeline.afterTail₀
  show StableHlo.after hostOps1 _ (Proc.devRef .tc main_v106) = _
  after_results
  exact congrArg (fun x => shapeCast S128 x shapeCasts_S128x1_S128) ((Pipeline.withArrays_arr spec0 launch0.win.arr_inj c _ _ 8).trans (final8 m c))

end Cert.KernelIdeal.KVal

end
-- ==== Proof.KHost.lean ====
/-
  The host lines before the kernel's region, read back: both node-embedding arrays are one function `enc` (two rounds of
  neighbour aggregation, each followed by a two-layer perceptron) of a graph batch's features, edges and the shared
  weights, reshaped to one 512 × 64 table per graph; the three bias vectors are reshaped to rows.
-/
import proofs.«115078_j84482006712593_1_alg».proof.Proof.Gen.KernelIdeal.Frame

noncomputable section

namespace Cert.KernelIdeal.KVal

open Cert.KernelIdeal Cert.KernelIdeal.Gen Idealize.ShloMosaic Idealize.ShloMosaic.TcCoe Idealize.SL.Sem Idealize.ShloMosaic.StableHlo

variable {F : FTy → Type} [FloatOps F]

/-- The encoder: a batch's node features through two rounds of "add the sum of the in-neighbours' rows, then a two-layer
    perceptron with positive parts". -/
def enc (x : (⟨S65536x128, .f32⟩ : BufTy).Contents (Elt F)) (e : (⟨S2x1048576, .i32⟩ : BufTy).Contents (Elt F)) (w1 : (⟨S128x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F)) (w3 : (⟨S64x64, .f32⟩ : BufTy).Contents (Elt F)) (b3 : (⟨S64, .f32⟩ : BufTy).Contents (Elt F)) (w4 : (⟨S64x64, .f32⟩ : BufTy).Contents (Elt F)) (b4 : (⟨S64, .f32⟩ : BufTy).Contents (Elt F)) :
    (⟨S65536x64, .f32⟩ : BufTy).Contents (Elt F) :=
  let v1 : (⟨S1048576, .i32⟩ : BufTy).Contents (Elt F) := (shapeCast S1048576 (((extractStridedSlice S1x1048576 ![0, 0] · slices_S2x1048576_S1x1048576_0_0) : (⟨S2x1048576, .i32⟩ : BufTy).Contents (Elt F) → (⟨S1x1048576, .i32⟩ : BufTy).Contents (Elt F)) e) shapeCasts_S1x1048576_S1048576 : (⟨S1048576, .i32⟩ : BufTy).Contents (Elt F))
  let v3 : (⟨S1048576, .i32⟩ : BufTy).Contents (Elt F) := (shapeCast S1048576 (((extractStridedSlice S1x1048576 ![1, 0] · slices_S2x1048576_S1x1048576_1_0) : (⟨S2x1048576, .i32⟩ : BufTy).Contents (Elt F) → (⟨S1x1048576, .i32⟩ : BufTy).Contents (Elt F)) e) shapeCasts_S1x1048576_S1048576 : (⟨S1048576, .i32⟩ : BufTy).Contents (Elt F))
  let v26 : (⟨S65536x64, .f32⟩ : BufTy).Contents (Elt F) := ((maximumf : (⟨S65536x64, .f32⟩ : BufTy).Contents (Elt F) → (⟨S65536x64, .f32⟩ : BufTy).Contents (Elt F) → (⟨S65536x64, .f32⟩ : BufTy).Contents (Elt F)) ((addf : (⟨S65536x64, .f32⟩ : BufTy).Contents (Elt F) → (⟨S65536x64, .f32⟩ : BufTy).Contents (Elt F) → (⟨S65536x64, .f32⟩ : BufTy).Contents (Elt F)) (((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)) ((maximumf : (⟨S65536x64, .f32⟩ : BufTy).Contents (Elt F) → (⟨S65536x64, .f32⟩ : BufTy).Contents (Elt F) → (⟨S65536x64, .f32⟩ : BufTy).Contents (Elt F)) ((addf : (⟨S65536x64, .f32⟩ : BufTy).Contents (Elt F) → (⟨S65536x64, .f32⟩ : BufTy).Contents (Elt F) → (⟨S65536x64, .f32⟩ : BufTy).Contents (Elt F)) (((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)) ((addf : (⟨S65536x128, .f32⟩ : BufTy).Contents (Elt F) → (⟨S65536x128, .f32⟩ : BufTy).Contents (Elt F) → (⟨S65536x128, .f32⟩ : BufTy).Contents (Elt F)) x (((fun x i u => Host.scatterAdd scatter_S65536x128_S1048576x1_S1048576x128_1_0_0_1 x i u) : (⟨S65536x128, .f32⟩ : BufTy).Contents (Elt F) → (⟨S1048576x1, .i32⟩ : BufTy).Contents (Elt F) → (⟨S1048576x128, .f32⟩ : BufTy).Contents (Elt F) → (⟨S65536x128, .f32⟩ : BufTy).Contents (Elt F)) ((broadcastInDim S65536x128 ![] bcast_S_S65536x128 : (⟨S_, .f32⟩ : BufTy).Contents (Elt F) → (⟨S65536x128, .f32⟩ : BufTy).Contents (Elt F)) (constant S_ .f32 0x00000000#32 : (⟨S_, .f32⟩ : BufTy).Contents (Elt F))) ((broadcastInDim S1048576x1 ![0] bcast_S1048576_S1048576x1_0 : (⟨S1048576, .i32⟩ : BufTy).Contents (Elt F) → (⟨S1048576x1, .i32⟩ : BufTy).Contents (Elt F)) v3) (((fun x i => Host.gather gather_S65536x128_S1048576x1_S1048576x128_1_0_n_n_0_1_1128 x i) : (⟨S65536x128, .f32⟩ : BufTy).Contents (Elt F) → (⟨S1048576x1, .i32⟩ : BufTy).Contents (Elt F) → (⟨S1048576x128, .f32⟩ : BufTy).Contents (Elt F)) x ((broadcastInDim S1048576x1 ![0] bcast_S1048576_S1048576x1_0 : (⟨S1048576, .i32⟩ : BufTy).Contents (Elt F) → (⟨S1048576x1, .i32⟩ : BufTy).Contents (Elt F)) ((select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ((cmpi .slt : (⟨S1048576, .i32⟩ : BufTy).Contents (Elt F) → (⟨S1048576, .i32⟩ : BufTy).Contents (Elt F) → (⟨S1048576, .i1⟩ : BufTy).Contents (Elt F)) v1 ((broadcastInDim S1048576 ![] bcast_S_S1048576 : (⟨S_, .i32⟩ : BufTy).Contents (Elt F) → (⟨S1048576, .i32⟩ : BufTy).Contents (Elt F)) (constantI S_ 32 0#32 : (⟨S_, .i32⟩ : BufTy).Contents (Elt F)))) ((addi : (⟨S1048576, .i32⟩ : BufTy).Contents (Elt F) → (⟨S1048576, .i32⟩ : BufTy).Contents (Elt F) → (⟨S1048576, .i32⟩ : BufTy).Contents (Elt F)) v1 ((broadcastInDim S1048576 ![] bcast_S_S1048576 : (⟨S_, .i32⟩ : BufTy).Contents (Elt F) → (⟨S1048576, .i32⟩ : BufTy).Contents (Elt F)) (constantI S_ 32 65536#32 : (⟨S_, .i32⟩ : BufTy).Contents (Elt F)))) v1))))) w1) ((broadcastInDim S65536x64 ![0, 1] bcast_S1x64_S65536x64_0_1 : (⟨S1x64, .f32⟩ : BufTy).Contents (Elt F) → (⟨S65536x64, .f32⟩ : BufTy).Contents (Elt F)) ((broadcastInDim S1x64 ![1] bcast_S64_S1x64_1 : (⟨S64, .f32⟩ : BufTy).Contents (Elt F) → (⟨S1x64, .f32⟩ : BufTy).Contents (Elt F)) b1))) ((broadcastInDim S65536x64 ![] bcast_S_S65536x64 : (⟨S_, .f32⟩ : BufTy).Contents (Elt F) → (⟨S65536x64, .f32⟩ : BufTy).Contents (Elt F)) (constant S_ .f32 0x00000000#32 : (⟨S_, .f32⟩ : BufTy).Contents (Elt F)))) w2) ((broadcastInDim S65536x64 ![0, 1] bcast_S1x64_S65536x64_0_1 : (⟨S1x64, .f32⟩ : BufTy).Contents (Elt F) → (⟨S65536x64, .f32⟩ : BufTy).Contents (Elt F)) ((broadcastInDim S1x64 ![1] bcast_S64_S1x64_1 : (⟨S64, .f32⟩ : BufTy).Contents (Elt F) → (⟨S1x64, .f32⟩ : BufTy).Contents (Elt F)) b2))) ((broadcastInDim S65536x64 ![] bcast_S_S65536x64 : (⟨S_, .f32⟩ : BufTy).Contents (Elt F) → (⟨S65536x64, .f32⟩ : BufTy).Contents (Elt F)) (constant S_ .f32 0x00000000#32 : (⟨S_, .f32⟩ : BufTy).Contents (Elt F))))
  ((maximumf : (⟨S65536x64, .f32⟩ : BufTy).Contents (Elt F) → (⟨S65536x64, .f32⟩ : BufTy).Contents (Elt F) → (⟨S65536x64, .f32⟩ : BufTy).Contents (Elt F)) ((addf : (⟨S65536x64, .f32⟩ : BufTy).Contents (Elt F) → (⟨S65536x64, .f32⟩ : BufTy).Contents (Elt F) → (⟨S65536x64, .f32⟩ : BufTy).Contents (Elt F)) (((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)) ((maximumf : (⟨S65536x64, .f32⟩ : BufTy).Contents (Elt F) → (⟨S65536x64, .f32⟩ : BufTy).Contents (Elt F) → (⟨S65536x64, .f32⟩ : BufTy).Contents (Elt F)) ((addf : (⟨S65536x64, .f32⟩ : BufTy).Contents (Elt F) → (⟨S65536x64, .f32⟩ : BufTy).Contents (Elt F) → (⟨S65536x64, .f32⟩ : BufTy).Contents (Elt F)) (((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)) ((addf : (⟨S65536x64, .f32⟩ : BufTy).Contents (Elt F) → (⟨S65536x64, .f32⟩ : BufTy).Contents (Elt F) → (⟨S65536x64, .f32⟩ : BufTy).Contents (Elt F)) v26 (((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)) ((broadcastInDim S65536x64 ![] bcast_S_S65536x64 : (⟨S_, .f32⟩ : BufTy).Contents (Elt F) → (⟨S65536x64, .f32⟩ : BufTy).Contents (Elt F)) (constant S_ .f32 0x00000000#32 : (⟨S_, .f32⟩ : BufTy).Contents (Elt F))) ((broadcastInDim S1048576x1 ![0] bcast_S1048576_S1048576x1_0 : (⟨S1048576, .i32⟩ : BufTy).Contents (Elt F) → (⟨S1048576x1, .i32⟩ : BufTy).Contents (Elt F)) v3) (((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)) v26 ((broadcastInDim S1048576x1 ![0] bcast_S1048576_S1048576x1_0 : (⟨S1048576, .i32⟩ : BufTy).Contents (Elt F) → (⟨S1048576x1, .i32⟩ : BufTy).Contents (Elt F)) ((select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ((cmpi .slt : (⟨S1048576, .i32⟩ : BufTy).Contents (Elt F) → (⟨S1048576, .i32⟩ : BufTy).Contents (Elt F) → (⟨S1048576, .i1⟩ : BufTy).Contents (Elt F)) v1 ((broadcastInDim S1048576 ![] bcast_S_S1048576 : (⟨S_, .i32⟩ : BufTy).Contents (Elt F) → (⟨S1048576, .i32⟩ : BufTy).Contents (Elt F)) (constantI S_ 32 0#32 : (⟨S_, .i32⟩ : BufTy).Contents (Elt F)))) ((addi : (⟨S1048576, .i32⟩ : BufTy).Contents (Elt F) → (⟨S1048576, .i32⟩ : BufTy).Contents (Elt F) → (⟨S1048576, .i32⟩ : BufTy).Contents (Elt F)) v1 ((broadcastInDim S1048576 ![] bcast_S_S1048576 : (⟨S_, .i32⟩ : BufTy).Contents (Elt F) → (⟨S1048576, .i32⟩ : BufTy).Contents (Elt F)) (constantI S_ 32 65536#32 : (⟨S_, .i32⟩ : BufTy).Contents (Elt F)))) v1))))) w3) ((broadcastInDim S65536x64 ![0, 1] bcast_S1x64_S65536x64_0_1 : (⟨S1x64, .f32⟩ : BufTy).Contents (Elt F) → (⟨S65536x64, .f32⟩ : BufTy).Contents (Elt F)) ((broadcastInDim S1x64 ![1] bcast_S64_S1x64_1 : (⟨S64, .f32⟩ : BufTy).Contents (Elt F) → (⟨S1x64, .f32⟩ : BufTy).Contents (Elt F)) b3))) ((broadcastInDim S65536x64 ![] bcast_S_S65536x64 : (⟨S_, .f32⟩ : BufTy).Contents (Elt F) → (⟨S65536x64, .f32⟩ : BufTy).Contents (Elt F)) (constant S_ .f32 0x00000000#32 : (⟨S_, .f32⟩ : BufTy).Contents (Elt F)))) w4) ((broadcastInDim S65536x64 ![0, 1] bcast_S1x64_S65536x64_0_1 : (⟨S1x64, .f32⟩ : BufTy).Contents (Elt F) → (⟨S65536x64, .f32⟩ : BufTy).Contents (Elt F)) ((broadcastInDim S1x64 ![1] bcast_S64_S1x64_1 : (⟨S64, .f32⟩ : BufTy).Contents (Elt F) → (⟨S1x64, .f32⟩ : BufTy).Contents (Elt F)) b4))) ((broadcastInDim S65536x64 ![] bcast_S_S65536x64 : (⟨S_, .f32⟩ : BufTy).Contents (Elt F) → (⟨S65536x64, .f32⟩ : BufTy).Contents (Elt F)) (constant S_ .f32 0x00000000#32 : (⟨S_, .f32⟩ : BufTy).Contents (Elt F))))

set_option maxRecDepth 8192 in
set_option maxHeartbeats 4000000 in
theorem read_p0 (W : Valuation τ sig (Elt F)) :
    after main_part0_ops0 W (no_index (Proc.devRef .tc main_v49)) = enc (W (Proc.devRef .tc main_arg0)) (W (Proc.devRef .tc main_arg1)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  simp only [main_part0_ops0]
  after_results_simp <;> rfl

set_option maxRecDepth 8192 in
set_option maxHeartbeats 4000000 in
theorem read_p1 (W : Valuation τ sig (Elt F)) :
    after main_part1_ops0 W (no_index (Proc.devRef .tc main_v99)) = enc (W (Proc.devRef .tc main_arg3)) (W (Proc.devRef .tc main_arg4)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) := by
  simp only [main_part1_ops0]
  after_results_simp <;> rfl

theorem read_p2_v100 (W : Valuation τ sig (Elt F)) :
    after main_part2_ops0 W (no_index (Proc.devRef .tc main_v100)) = shapeCast S128x512x64 (W (Proc.devRef .tc main_v49)) shapeCasts_S65536x64_S128x512x64 := by
  simp only [main_part2_ops0]
  after_results_simp <;> rfl
theorem read_p2_v101 (W : Valuation τ sig (Elt F)) :
    after main_part2_ops0 W (no_index (Proc.devRef .tc main_v101)) = shapeCast S128x512x64 (W (Proc.devRef .tc main_v99)) shapeCasts_S65536x64_S128x512x64 := by
  simp only [main_part2_ops0]
  after_results_simp <;> rfl
theorem read_p2_v102 (W : Valuation τ sig (Elt F)) :
    after main_part2_ops0 W (no_index (Proc.devRef .tc main_v102)) = shapeCast S1x64 (W (Proc.devRef .tc main_arg15)) shapeCasts_S64_S1x64 := by
  simp only [main_part2_ops0]
  after_results_simp <;> rfl
theorem read_p2_v103 (W : Valuation τ sig (Elt F)) :
    after main_part2_ops0 W (no_index (Proc.devRef .tc main_v103)) = shapeCast S1x32 (W (Proc.devRef .tc main_arg17)) shapeCasts_S32_S1x32 := by
  simp only [main_part2_ops0]
  after_results_simp <;> rfl
theorem read_p2_v104 (W : Valuation τ sig (Elt F)) :
    after main_part2_ops0 W (no_index (Proc.devRef .tc main_v104)) = shapeCast S1x1 (W (Proc.devRef .tc main_arg19)) shapeCasts_S1_S1x1 := by
  simp only [main_part2_ops0]
  after_results_simp <;> rfl

theorem keep_p0_main_arg3 (W : Valuation τ sig (Elt F)) :
    after main_part0_ops0 W (Proc.devRef .tc main_arg3) = W (Proc.devRef .tc main_arg3) :=
  StableHlo.after_of_forall_not_mem (b := Proc.devRef .tc main_arg3) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg4 (W : Valuation τ sig (Elt F)) :
    after main_part0_ops0 W (Proc.devRef .tc main_arg4) = W (Proc.devRef .tc main_arg4) :=
  StableHlo.after_of_forall_not_mem (b := Proc.devRef .tc main_arg4) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg6 (W : Valuation τ sig (Elt F)) :
    after main_part0_ops0 W (Proc.devRef .tc main_arg6) = W (Proc.devRef .tc main_arg6) :=
  StableHlo.after_of_forall_not_mem (b := Proc.devRef .tc main_arg6) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg7 (W : Valuation τ sig (Elt F)) :
    after main_part0_ops0 W (Proc.devRef .tc main_arg7) = W (Proc.devRef .tc main_arg7) :=
  StableHlo.after_of_forall_not_mem (b := Proc.devRef .tc main_arg7) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg8 (W : Valuation τ sig (Elt F)) :
    after main_part0_ops0 W (Proc.devRef .tc main_arg8) = W (Proc.devRef .tc main_arg8) :=
  StableHlo.after_of_forall_not_mem (b := Proc.devRef .tc main_arg8) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg9 (W : Valuation τ sig (Elt F)) :
    after main_part0_ops0 W (Proc.devRef .tc main_arg9) = W (Proc.devRef .tc main_arg9) :=
  StableHlo.after_of_forall_not_mem (b := Proc.devRef .tc main_arg9) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg10 (W : Valuation τ sig (Elt F)) :
    after main_part0_ops0 W (Proc.devRef .tc main_arg10) = W (Proc.devRef .tc main_arg10) :=
  StableHlo.after_of_forall_not_mem (b := Proc.devRef .tc main_arg10) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg11 (W : Valuation τ sig (Elt F)) :
    after main_part0_ops0 W (Proc.devRef .tc main_arg11) = W (Proc.devRef .tc main_arg11) :=
  StableHlo.after_of_forall_not_mem (b := Proc.devRef .tc main_arg11) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg12 (W : Valuation τ sig (Elt F)) :
    after main_part0_ops0 W (Proc.devRef .tc main_arg12) = W (Proc.devRef .tc main_arg12) :=
  StableHlo.after_of_forall_not_mem (b := Proc.devRef .tc main_arg12) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg13 (W : Valuation τ sig (Elt F)) :
    after main_part0_ops0 W (Proc.devRef .tc main_arg13) = W (Proc.devRef .tc main_arg13) :=
  StableHlo.after_of_forall_not_mem (b := Proc.devRef .tc main_arg13) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg15 (W : Valuation τ sig (Elt F)) :
    after main_part0_ops0 W (Proc.devRef .tc main_arg15) = W (Proc.devRef .tc main_arg15) :=
  StableHlo.after_of_forall_not_mem (b := Proc.devRef .tc main_arg15) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg17 (W : Valuation τ sig (Elt F)) :
    after main_part0_ops0 W (Proc.devRef .tc main_arg17) = W (Proc.devRef .tc main_arg17) :=
  StableHlo.after_of_forall_not_mem (b := Proc.devRef .tc main_arg17) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p0_main_arg19 (W : Valuation τ sig (Elt F)) :
    after main_part0_ops0 W (Proc.devRef .tc main_arg19) = W (Proc.devRef .tc main_arg19) :=
  StableHlo.after_of_forall_not_mem (b := Proc.devRef .tc main_arg19) _ _ (List.forall_iff_forall_mem.mp (by
    simp only [main_part0_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p1_main_v49 (W : Valuation τ sig (Elt F)) :
    after main_part1_ops0 W (Proc.devRef .tc main_v49) = W (Proc.devRef .tc main_v49) :=
  StableHlo.after_of_forall_not_mem (b := Proc.devRef .tc main_v49) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p1_main_arg15 (W : Valuation τ sig (Elt F)) :
    after main_part1_ops0 W (Proc.devRef .tc main_arg15) = W (Proc.devRef .tc main_arg15) :=
  StableHlo.after_of_forall_not_mem (b := Proc.devRef .tc main_arg15) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p1_main_arg17 (W : Valuation τ sig (Elt F)) :
    after main_part1_ops0 W (Proc.devRef .tc main_arg17) = W (Proc.devRef .tc main_arg17) :=
  StableHlo.after_of_forall_not_mem (b := Proc.devRef .tc main_arg17) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_p1_main_arg19 (W : Valuation τ sig (Elt F)) :
    after main_part1_ops0 W (Proc.devRef .tc main_arg19) = W (Proc.devRef .tc main_arg19) :=
  StableHlo.after_of_forall_not_mem (b := Proc.devRef .tc main_arg19) _ _ (List.forall_iff_forall_mem.mp (by
    simp only [main_part1_ops0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The contents after a list of lines followed by another are those after the second from those after the first. -/
theorem after_append' {Val : EltTy → Type} (l₁ l₂ : List (HloOp τ sig Val)) (W : Valuation τ sig Val) :
    after (l₁ ++ l₂) W = after l₂ (after l₁ W) := by
  induction l₁ generalizing W with
  | nil => rfl
  | cons op l ih => exact ih _

theorem hostOps0_split : (hostOps0 : List (HloOp τ sig (Elt F))) = main_part0_ops0 ++ (main_part1_ops0 ++ main_part2_ops0) := rfl

variable (m : (ℓ : Loc nD τ sig) → Buf (Elt F) ℓ)

theorem V_eq (c : Dev nD) (b : Ref sig .tc) :
    V m c b = after main_part2_ops0 (after main_part1_ops0 (after main_part0_ops0 (fun b => m (c, b)))) (Proc.devRef .tc b) := by
  show after (List.flatten [hostOps0]) (fun b => m (c, b)) (Proc.devRef .tc b) = _
  simp only [List.flatten_cons, List.flatten_nil, List.append_nil]
  rw [hostOps0_split, after_append', after_append']

/-- The first graph batch's node embeddings, one table per graph, as the region finds them. -/
theorem V_v100 (c : Dev nD) : V m c main_v100 = shapeCast S128x512x64
    (enc (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) shapeCasts_S65536x64_S128x512x64 := by
  rw [V_eq, read_p2_v100, keep_p1_main_v49, read_p0]

/-- The second graph batch's. -/
theorem V_v101 (c : Dev nD) : V m c main_v101 = shapeCast S128x512x64
    (enc (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) shapeCasts_S65536x64_S128x512x64 := by
  rw [V_eq, read_p2_v101, read_p1, keep_p0_main_arg3, keep_p0_main_arg4, keep_p0_main_arg6, keep_p0_main_arg7, keep_p0_main_arg8, keep_p0_main_arg9, keep_p0_main_arg10, keep_p0_main_arg11, keep_p0_main_arg12, keep_p0_main_arg13]

theorem V_v102 (c : Dev nD) : V m c main_v102 = shapeCast S1x64 (m ((c : Thread nD τ).loc main_arg15)) shapeCasts_S64_S1x64 := by
  rw [V_eq, read_p2_v102, keep_p1_main_arg15, keep_p0_main_arg15]
theorem V_v103 (c : Dev nD) : V m c main_v103 = shapeCast S1x32 (m ((c : Thread nD τ).loc main_arg17)) shapeCasts_S32_S1x32 := by
  rw [V_eq, read_p2_v103, keep_p1_main_arg17, keep_p0_main_arg17]
theorem V_v104 (c : Dev nD) : V m c main_v104 = shapeCast S1x1 (m ((c : Thread nD τ).loc main_arg19)) shapeCasts_S1_S1x1 := by
  rw [V_eq, read_p2_v104, keep_p1_main_arg19, keep_p0_main_arg19]

end Cert.KernelIdeal.KVal

end
-- ==== Proof.KRun.lean ====
/-
  The kernel program's run with its result named, and that result read at a graph: entry `b` of the result vector is
  the specification's output for graph pair `b`, of the two encoder outputs and the perceptron's weights.
-/
import proofs.«115078_j84482006712593_1_alg».proof.Proof.KFinal
import proofs.«115078_j84482006712593_1_alg».proof.Proof.KHost
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem Cert.KernelIdeal Cert.KernelIdeal.Gen Cert.SimGnn

variable (m : (ℓ : Loc nD τ sig) → Buf (Elt Ideal) ℓ) (ρ : Dev nD → PrngReg)

/-- The program's result vector. -/
def kres (c : Dev nD) : S128.Idx → EReal := shapeCast S128 (G8 (V m c main_v100) (V m c main_v101) (V m c main_arg14) (V m c main_v102) (V m c main_arg16) (V m c main_v103) (V m c main_arg18) (V m c main_v104)) shapeCasts_S128x1_S128

/-- Every weakly fair run ends with the result at `kres` and the arguments as launched. -/
theorem krun : θ_run defs (onTc (τ := τ) (main (F := Ideal))) ⟨m, fun _ => 0, ρ⟩ (fun r => ∀ c : Dev nD,
      r.2.mem ((c.tc : Thread nD τ).loc main_v106) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_v106 (Pipeline.mem_restRefs_of main_v106 (by decide) (by decide))).trans (tail_v106 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      ((h c).1 2).trans ((((dats m) 0 c).arrAt_in 2 rfl _).trans ((A_eq m c 2).trans (V_main_arg14 m c))),
      (((h c).2 main_arg15 (Pipeline.mem_restRefs_of main_arg15 (by decide) (by decide))).trans (W_main_arg15 m (dats m) c)),
      ((h c).1 4).trans ((((dats m) 0 c).arrAt_in 4 rfl _).trans ((A_eq m c 4).trans (V_main_arg16 m c))),
      (((h c).2 main_arg17 (Pipeline.mem_restRefs_of main_arg17 (by decide) (by decide))).trans (W_main_arg17 m (dats m) c)),
      ((h c).1 6).trans ((((dats m) 0 c).arrAt_in 6 rfl _).trans ((A_eq m c 6).trans (V_main_arg18 m c))),
      (((h c).2 main_arg19 (Pipeline.mem_restRefs_of main_arg19 (by decide) (by decide))).trans (W_main_arg19 m (dats m) c))⟩) (run_main m ρ)

/-- A table of node embeddings cut into one table per graph: graph `b`'s table is `embOf` of the whole. -/
theorem embA_reshape (h : S65536x64.Idx → EReal) (b : Fin 128) :
    embA (shapeCast S128x512x64 h shapeCasts_S65536x64_S128x512x64) b = embOf h b := by
  funext n d
  refine shapeCast_apply h _ _ _ ?_
  rw [Shape.rowMajor_val_two, Shape.rowMajor_val_three]
  show (b.val * 512 + n.val) * 64 + d.val = (b.val * 512 + n.val) * 64 + d.val
  rfl

/-- Entry `b` of the result. -/
theorem kres_apply (c : Dev nD) (b : Fin 128) :
    kres m c (ix1 b) = Cert.SimGnn.out (embOf (enc (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) b) (embOf (enc (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) b)
      (fun j a => (m ((c : Thread nD τ).loc main_arg14)) (ix2 j a)) (fun a => (m ((c : Thread nD τ).loc main_arg15)) (ix1 a)) (fun a c' => (m ((c : Thread nD τ).loc main_arg16)) (ix2 a c')) (fun c' => (m ((c : Thread nD τ).loc main_arg17)) (ix1 c'))
      (fun c' u => (m ((c : Thread nD τ).loc main_arg18)) (ix2 c' u)) (fun u => (m ((c : Thread nD τ).loc main_arg19)) (ix1 u)) := by
  unfold kres
  have hcast : shapeCast S128 (G8 (V m c main_v100) (V m c main_v101) (V m c main_arg14) (V m c main_v102) (V m c main_arg16) (V m c main_v103) (V m c main_arg18) (V m c main_v104)) shapeCasts_S128x1_S128 (ix1 b) = G8 (V m c main_v100) (V m c main_v101) (V m c main_arg14) (V m c main_v102) (V m c main_arg16) (V m c main_v103) (V m c main_arg18) (V m c main_v104) (ix2 b (0 : Fin 1)) :=
    shapeCast_apply _ _ _ _ (by
      rw [Shape.rowMajor_val_two, Shape.rowMajor_val_one]
      show b.val * 1 + 0 = b.val
      omega)
  rw [hcast]
  unfold G8
  rw [V_v100, V_v101, V_v102, V_v103, V_v104, V_main_arg14, V_main_arg16, V_main_arg18, embA_reshape, embA_reshape]
  simp only [shapeCast_a_1a_apply]

end Cert.KernelIdeal.KVal

end
-- ==== Proof.RefRunOps.lean ====
/-
  The reference program's @main as a list of its 251 host operations, each outlined function's
  operations written at its call site over that call's buffers, cut into consecutive segments
  (one per stage of the computation), and the proof that @main is the sequence of that list.
-/
import proofs.«115078_j84482006712593_1_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 60 operations ending at `main_v49`. -/
abbrev ops_enc1 : List (HloOp τ sig (Elt F)) :=
  [ StableHlo.unary main_arg1 main_v0 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v0 main_v1 rfl shapeCasts_S1x1048576_S1048576,
    StableHlo.unary main_arg1 main_v2 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v2 main_v3 rfl shapeCasts_S1x1048576_S1048576,
    StableHlo.nullary main_c (constantI S_ 32 0#32),
    StableHlo.unary main_c main_v4 (broadcastInDim S1048576 ![] bcast_S_S1048576 : (⟨S_, .i32⟩ : BufTy).Contents (Elt F) → (⟨S1048576, .i32⟩ : BufTy).Contents (Elt F)),
    StableHlo.binary main_v1 main_v4 main_v5 (cmpi .slt : (⟨S1048576, .i32⟩ : BufTy).Contents (Elt F) → (⟨S1048576, .i32⟩ : BufTy).Contents (Elt F) → (⟨S1048576, .i1⟩ : BufTy).Contents (Elt F)),
    StableHlo.nullary main_c_0 (constantI S_ 32 65536#32),
    StableHlo.unary main_c_0 main_v6 (broadcastInDim S1048576 ![] bcast_S_S1048576 : (⟨S_, .i32⟩ : BufTy).Contents (Elt F) → (⟨S1048576, .i32⟩ : BufTy).Contents (Elt F)),
    StableHlo.binary main_v1 main_v6 main_v7 (addi : (⟨S1048576, .i32⟩ : BufTy).Contents (Elt F) → (⟨S1048576, .i32⟩ : BufTy).Contents (Elt F) → (⟨S1048576, .i32⟩ : BufTy).Contents (Elt F)),
    StableHlo.ternary main_v5 main_v7 main_v1 main_v8 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v8 main_v9 (broadcastInDim S1048576x1 ![0] bcast_S1048576_S1048576x1_0 : (⟨S1048576, .i32⟩ : BufTy).Contents (Elt F) → (⟨S1048576x1, .i32⟩ : BufTy).Contents (Elt F)),
    StableHlo.binary main_arg0 main_v9 main_v10 ((fun x i => Host.gather gather_S65536x128_S1048576x1_S1048576x128_1_0_n_n_0_1_1128 x i) : (⟨S65536x128, .f32⟩ : BufTy).Contents (Elt F) → (⟨S1048576x1, .i32⟩ : BufTy).Contents (Elt F) → (⟨S1048576x128, .f32⟩ : BufTy).Contents (Elt F)),
    StableHlo.nullary main_cst (constant S_ .f32 0x00000000#32),
    StableHlo.unary main_cst main_v11 (broadcastInDim S65536x128 ![] bcast_S_S65536x128 : (⟨S_, .f32⟩ : BufTy).Contents (Elt F) → (⟨S65536x128, .f32⟩ : BufTy).Contents (Elt F)),
    StableHlo.unary main_v3 main_v12 (broadcastInDim S1048576x1 ![0] bcast_S1048576_S1048576x1_0 : (⟨S1048576, .i32⟩ : BufTy).Contents (Elt F) → (⟨S1048576x1, .i32⟩ : BufTy).Contents (Elt F)),
    StableHlo.ternary main_v11 main_v12 main_v10 main_v13 ((fun x i u => Host.scatterAdd scatter_S65536x128_S1048576x1_S1048576x128_1_0_0_1 x i u) : (⟨S65536x128, .f32⟩ : BufTy).Contents (Elt F) → (⟨S1048576x1, .i32⟩ : BufTy).Contents (Elt F) → (⟨S1048576x128, .f32⟩ : BufTy).Contents (Elt F) → (⟨S65536x128, .f32⟩ : BufTy).Contents (Elt F)),
    StableHlo.binary main_arg0 main_v13 main_v14 (addf : (⟨S65536x128, .f32⟩ : BufTy).Contents (Elt F) → (⟨S65536x128, .f32⟩ : BufTy).Contents (Elt F) → (⟨S65536x128, .f32⟩ : BufTy).Contents (Elt F)),
    StableHlo.binary main_v14 main_arg6 main_v15 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    StableHlo.unary main_arg7 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S65536x64 ![0, 1] bcast_S1x64_S65536x64_0_1 : (⟨S1x64, .f32⟩ : BufTy).Contents (Elt F) → (⟨S65536x64, .f32⟩ : BufTy).Contents (Elt F)),
    StableHlo.binary main_v15 main_v17 main_v18 (addf : (⟨S65536x64, .f32⟩ : BufTy).Contents (Elt F) → (⟨S65536x64, .f32⟩ : BufTy).Contents (Elt F) → (⟨S65536x64, .f32⟩ : BufTy).Contents (Elt F)),
    StableHlo.nullary main_cst_1 (constant S_ .f32 0x00000000#32),
    StableHlo.unary main_cst_1 main_v19 (broadcastInDim S65536x64 ![] bcast_S_S65536x64 : (⟨S_, .f32⟩ : BufTy).Contents (Elt F) → (⟨S65536x64, .f32⟩ : BufTy).Contents (Elt F)),
    StableHlo.binary main_v18 main_v19 main_v20 (maximumf : (⟨S65536x64, .f32⟩ : BufTy).Contents (Elt F) → (⟨S65536x64, .f32⟩ : BufTy).Contents (Elt F) → (⟨S65536x64, .f32⟩ : BufTy).Contents (Elt F)),
    StableHlo.binary main_v20 main_arg8 main_v21 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    StableHlo.unary main_arg9 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S65536x64 ![0, 1] bcast_S1x64_S65536x64_0_1 : (⟨S1x64, .f32⟩ : BufTy).Contents (Elt F) → (⟨S65536x64, .f32⟩ : BufTy).Contents (Elt F)),
    StableHlo.binary main_v21 main_v23 main_v24 (addf : (⟨S65536x64, .f32⟩ : BufTy).Contents (Elt F) → (⟨S65536x64, .f32⟩ : BufTy).Contents (Elt F) → (⟨S65536x64, .f32⟩ : BufTy).Contents (Elt F)),
    StableHlo.nullary main_cst_2 (constant S_ .f32 0x00000000#32),
    StableHlo.unary main_cst_2 main_v25 (broadcastInDim S65536x64 ![] bcast_S_S65536x64 : (⟨S_, .f32⟩ : BufTy).Contents (Elt F) → (⟨S65536x64, .f32⟩ : BufTy).Contents (Elt F)),
    StableHlo.binary main_v24 main_v25 main_v26 (maximumf : (⟨S65536x64, .f32⟩ : BufTy).Contents (Elt F) → (⟨S65536x64, .f32⟩ : BufTy).Contents (Elt F) → (⟨S65536x64, .f32⟩ : BufTy).Contents (Elt F)),
    StableHlo.nullary main_c_3 (constantI S_ 32 0#32),
    StableHlo.unary main_c_3 main_v27 (broadcastInDim S1048576 ![] bcast_S_S1048576 : (⟨S_, .i32⟩ : BufTy).Contents (Elt F) → (⟨S1048576, .i32⟩ : BufTy).Contents (Elt F)),
    StableHlo.binary main_v1 main_v27 main_v28 (cmpi .slt : (⟨S1048576, .i32⟩ : BufTy).Contents (Elt F) → (⟨S1048576, .i32⟩ : BufTy).Contents (Elt F) → (⟨S1048576, .i1⟩ : BufTy).Contents (Elt F)),
    StableHlo.nullary main_c_4 (constantI S_ 32 65536#32),
    StableHlo.unary main_c_4 main_v29 (broadcastInDim S1048576 ![] bcast_S_S1048576 : (⟨S_, .i32⟩ : BufTy).Contents (Elt F) → (⟨S1048576, .i32⟩ : BufTy).Contents (Elt F)),
    StableHlo.binary main_v1 main_v29 main_v30 (addi : (⟨S1048576, .i32⟩ : BufTy).Contents (Elt F) → (⟨S1048576, .i32⟩ : BufTy).Contents (Elt F) → (⟨S1048576, .i32⟩ : BufTy).Contents (Elt F)),
    StableHlo.ternary main_v28 main_v30 main_v1 main_v31 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v31 main_v32 (broadcastInDim S1048576x1 ![0] bcast_S1048576_S1048576x1_0 : (⟨S1048576, .i32⟩ : BufTy).Contents (Elt F) → (⟨S1048576x1, .i32⟩ : BufTy).Contents (Elt F)),
    StableHlo.binary main_v26 main_v32 main_v33 ((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)),
    StableHlo.nullary main_cst_5 (constant S_ .f32 0x00000000#32),
    StableHlo.unary main_cst_5 main_v34 (broadcastInDim S65536x64 ![] bcast_S_S65536x64 : (⟨S_, .f32⟩ : BufTy).Contents (Elt F) → (⟨S65536x64, .f32⟩ : BufTy).Contents (Elt F)),
    StableHlo.unary main_v3 main_v35 (broadcastInDim S1048576x1 ![0] bcast_S1048576_S1048576x1_0 : (⟨S1048576, .i32⟩ : BufTy).Contents (Elt F) → (⟨S1048576x1, .i32⟩ : BufTy).Contents (Elt F)),
    StableHlo.ternary main_v34 main_v35 main_v33 main_v36 ((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)),
    StableHlo.binary main_v26 main_v36 main_v37 (addf : (⟨S65536x64, .f32⟩ : BufTy).Contents (Elt F) → (⟨S65536x64, .f32⟩ : BufTy).Contents (Elt F) → (⟨S65536x64, .f32⟩ : BufTy).Contents (Elt F)),
    StableHlo.binary main_v37 main_arg10 main_v38 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    StableHlo.unary main_arg11 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S65536x64 ![0, 1] bcast_S1x64_S65536x64_0_1 : (⟨S1x64, .f32⟩ : BufTy).Contents (Elt F) → (⟨S65536x64, .f32⟩ : BufTy).Contents (Elt F)),
    StableHlo.binary main_v38 main_v40 main_v41 (addf : (⟨S65536x64, .f32⟩ : BufTy).Contents (Elt F) → (⟨S65536x64, .f32⟩ : BufTy).Contents (Elt F) → (⟨S65536x64, .f32⟩ : BufTy).Contents (Elt F)),
    StableHlo.nullary main_cst_6 (constant S_ .f32 0x00000000#32),
    StableHlo.unary main_cst_6 main_v42 (broadcastInDim S65536x64 ![] bcast_S_S65536x64 : (⟨S_, .f32⟩ : BufTy).Contents (Elt F) → (⟨S65536x64, .f32⟩ : BufTy).Contents (Elt F)),
    StableHlo.binary main_v41 main_v42 main_v43 (maximumf : (⟨S65536x64, .f32⟩ : BufTy).Contents (Elt F) → (⟨S65536x64, .f32⟩ : BufTy).Contents (Elt F) → (⟨S65536x64, .f32⟩ : BufTy).Contents (Elt F)),
    StableHlo.binary main_v43 main_arg12 main_v44 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    StableHlo.unary main_arg13 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S65536x64 ![0, 1] bcast_S1x64_S65536x64_0_1 : (⟨S1x64, .f32⟩ : BufTy).Contents (Elt F) → (⟨S65536x64, .f32⟩ : BufTy).Contents (Elt F)),
    StableHlo.binary main_v44 main_v46 main_v47 (addf : (⟨S65536x64, .f32⟩ : BufTy).Contents (Elt F) → (⟨S65536x64, .f32⟩ : BufTy).Contents (Elt F) → (⟨S65536x64, .f32⟩ : BufTy).Contents (Elt F)),
    StableHlo.nullary main_cst_7 (constant S_ .f32 0x00000000#32),
    StableHlo.unary main_cst_7 main_v48 (broadcastInDim S65536x64 ![] bcast_S_S65536x64 : (⟨S_, .f32⟩ : BufTy).Contents (Elt F) → (⟨S65536x64, .f32⟩ : BufTy).Contents (Elt F)),
    StableHlo.binary main_v47 main_v48 main_v49 (maximumf : (⟨S65536x64, .f32⟩ : BufTy).Contents (Elt F) → (⟨S65536x64, .f32⟩ : BufTy).Contents (Elt F) → (⟨S65536x64, .f32⟩ : BufTy).Contents (Elt F)) ]

/-- The 60 operations ending at `main_v99`. -/
abbrev ops_enc2 : List (HloOp τ sig (Elt F)) :=
  [ StableHlo.unary main_arg4 main_v50 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v50 main_v51 rfl shapeCasts_S1x1048576_S1048576,
    StableHlo.unary main_arg4 main_v52 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v52 main_v53 rfl shapeCasts_S1x1048576_S1048576,
    StableHlo.nullary main_c_8 (constantI S_ 32 0#32),
    StableHlo.unary main_c_8 main_v54 (broadcastInDim S1048576 ![] bcast_S_S1048576 : (⟨S_, .i32⟩ : BufTy).Contents (Elt F) → (⟨S1048576, .i32⟩ : BufTy).Contents (Elt F)),
    StableHlo.binary main_v51 main_v54 main_v55 (cmpi .slt : (⟨S1048576, .i32⟩ : BufTy).Contents (Elt F) → (⟨S1048576, .i32⟩ : BufTy).Contents (Elt F) → (⟨S1048576, .i1⟩ : BufTy).Contents (Elt F)),
    StableHlo.nullary main_c_9 (constantI S_ 32 65536#32),
    StableHlo.unary main_c_9 main_v56 (broadcastInDim S1048576 ![] bcast_S_S1048576 : (⟨S_, .i32⟩ : BufTy).Contents (Elt F) → (⟨S1048576, .i32⟩ : BufTy).Contents (Elt F)),
    StableHlo.binary main_v51 main_v56 main_v57 (addi : (⟨S1048576, .i32⟩ : BufTy).Contents (Elt F) → (⟨S1048576, .i32⟩ : BufTy).Contents (Elt F) → (⟨S1048576, .i32⟩ : BufTy).Contents (Elt F)),
    StableHlo.ternary main_v55 main_v57 main_v51 main_v58 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v58 main_v59 (broadcastInDim S1048576x1 ![0] bcast_S1048576_S1048576x1_0 : (⟨S1048576, .i32⟩ : BufTy).Contents (Elt F) → (⟨S1048576x1, .i32⟩ : BufTy).Contents (Elt F)),
    StableHlo.binary main_arg3 main_v59 main_v60 ((fun x i => Host.gather gather_S65536x128_S1048576x1_S1048576x128_1_0_n_n_0_1_1128 x i) : (⟨S65536x128, .f32⟩ : BufTy).Contents (Elt F) → (⟨S1048576x1, .i32⟩ : BufTy).Contents (Elt F) → (⟨S1048576x128, .f32⟩ : BufTy).Contents (Elt F)),
    StableHlo.nullary main_cst_10 (constant S_ .f32 0x00000000#32),
    StableHlo.unary main_cst_10 main_v61 (broadcastInDim S65536x128 ![] bcast_S_S65536x128 : (⟨S_, .f32⟩ : BufTy).Contents (Elt F) → (⟨S65536x128, .f32⟩ : BufTy).Contents (Elt F)),
    StableHlo.unary main_v53 main_v62 (broadcastInDim S1048576x1 ![0] bcast_S1048576_S1048576x1_0 : (⟨S1048576, .i32⟩ : BufTy).Contents (Elt F) → (⟨S1048576x1, .i32⟩ : BufTy).Contents (Elt F)),
    StableHlo.ternary main_v61 main_v62 main_v60 main_v63 ((fun x i u => Host.scatterAdd scatter_S65536x128_S1048576x1_S1048576x128_1_0_0_1 x i u) : (⟨S65536x128, .f32⟩ : BufTy).Contents (Elt F) → (⟨S1048576x1, .i32⟩ : BufTy).Contents (Elt F) → (⟨S1048576x128, .f32⟩ : BufTy).Contents (Elt F) → (⟨S65536x128, .f32⟩ : BufTy).Contents (Elt F)),
    StableHlo.binary main_arg3 main_v63 main_v64 (addf : (⟨S65536x128, .f32⟩ : BufTy).Contents (Elt F) → (⟨S65536x128, .f32⟩ : BufTy).Contents (Elt F) → (⟨S65536x128, .f32⟩ : BufTy).Contents (Elt F)),
    StableHlo.binary main_v64 main_arg6 main_v65 ((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)),
    StableHlo.unary main_arg7 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S65536x64 ![0, 1] bcast_S1x64_S65536x64_0_1 : (⟨S1x64, .f32⟩ : BufTy).Contents (Elt F) → (⟨S65536x64, .f32⟩ : BufTy).Contents (Elt F)),
    StableHlo.binary main_v65 main_v67 main_v68 (addf : (⟨S65536x64, .f32⟩ : BufTy).Contents (Elt F) → (⟨S65536x64, .f32⟩ : BufTy).Contents (Elt F) → (⟨S65536x64, .f32⟩ : BufTy).Contents (Elt F)),
    StableHlo.nullary main_cst_11 (constant S_ .f32 0x00000000#32),
    StableHlo.unary main_cst_11 main_v69 (broadcastInDim S65536x64 ![] bcast_S_S65536x64 : (⟨S_, .f32⟩ : BufTy).Contents (Elt F) → (⟨S65536x64, .f32⟩ : BufTy).Contents (Elt F)),
    StableHlo.binary main_v68 main_v69 main_v70 (maximumf : (⟨S65536x64, .f32⟩ : BufTy).Contents (Elt F) → (⟨S65536x64, .f32⟩ : BufTy).Contents (Elt F) → (⟨S65536x64, .f32⟩ : BufTy).Contents (Elt F)),
    StableHlo.binary main_v70 main_arg8 main_v71 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    StableHlo.unary main_arg9 main_v72 (broadcastInDim S1x64 ![1] bcast_S64_S1x64_1 : (⟨S64, .f32⟩ : BufTy).Contents (Elt F) → (⟨S1x64, .f32⟩ : BufTy).Contents (Elt F)),
    StableHlo.unary main_v72 main_v73 (broadcastInDim S65536x64 ![0, 1] bcast_S1x64_S65536x64_0_1 : (⟨S1x64, .f32⟩ : BufTy).Contents (Elt F) → (⟨S65536x64, .f32⟩ : BufTy).Contents (Elt F)),
    StableHlo.binary main_v71 main_v73 main_v74 (addf : (⟨S65536x64, .f32⟩ : BufTy).Contents (Elt F) → (⟨S65536x64, .f32⟩ : BufTy).Contents (Elt F) → (⟨S65536x64, .f32⟩ : BufTy).Contents (Elt F)),
    StableHlo.nullary main_cst_12 (constant S_ .f32 0x00000000#32),
    StableHlo.unary main_cst_12 main_v75 (broadcastInDim S65536x64 ![] bcast_S_S65536x64 : (⟨S_, .f32⟩ : BufTy).Contents (Elt F) → (⟨S65536x64, .f32⟩ : BufTy).Contents (Elt F)),
    StableHlo.binary main_v74 main_v75 main_v76 (maximumf : (⟨S65536x64, .f32⟩ : BufTy).Contents (Elt F) → (⟨S65536x64, .f32⟩ : BufTy).Contents (Elt F) → (⟨S65536x64, .f32⟩ : BufTy).Contents (Elt F)),
    StableHlo.nullary main_c_13 (constantI S_ 32 0#32),
    StableHlo.unary main_c_13 main_v77 (broadcastInDim S1048576 ![] bcast_S_S1048576 : (⟨S_, .i32⟩ : BufTy).Contents (Elt F) → (⟨S1048576, .i32⟩ : BufTy).Contents (Elt F)),
    StableHlo.binary main_v51 main_v77 main_v78 (cmpi .slt : (⟨S1048576, .i32⟩ : BufTy).Contents (Elt F) → (⟨S1048576, .i32⟩ : BufTy).Contents (Elt F) → (⟨S1048576, .i1⟩ : BufTy).Contents (Elt F)),
    StableHlo.nullary main_c_14 (constantI S_ 32 65536#32),
    StableHlo.unary main_c_14 main_v79 (broadcastInDim S1048576 ![] bcast_S_S1048576 : (⟨S_, .i32⟩ : BufTy).Contents (Elt F) → (⟨S1048576, .i32⟩ : BufTy).Contents (Elt F)),
    StableHlo.binary main_v51 main_v79 main_v80 (addi : (⟨S1048576, .i32⟩ : BufTy).Contents (Elt F) → (⟨S1048576, .i32⟩ : BufTy).Contents (Elt F) → (⟨S1048576, .i32⟩ : BufTy).Contents (Elt F)),
    StableHlo.ternary main_v78 main_v80 main_v51 main_v81 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    StableHlo.unary main_v81 main_v82 (broadcastInDim S1048576x1 ![0] bcast_S1048576_S1048576x1_0 : (⟨S1048576, .i32⟩ : BufTy).Contents (Elt F) → (⟨S1048576x1, .i32⟩ : BufTy).Contents (Elt F)),
    StableHlo.binary main_v76 main_v82 main_v83 ((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)),
    StableHlo.nullary main_cst_15 (constant S_ .f32 0x00000000#32),
    StableHlo.unary main_cst_15 main_v84 (broadcastInDim S65536x64 ![] bcast_S_S65536x64 : (⟨S_, .f32⟩ : BufTy).Contents (Elt F) → (⟨S65536x64, .f32⟩ : BufTy).Contents (Elt F)),
    StableHlo.unary main_v53 main_v85 (broadcastInDim S1048576x1 ![0] bcast_S1048576_S1048576x1_0 : (⟨S1048576, .i32⟩ : BufTy).Contents (Elt F) → (⟨S1048576x1, .i32⟩ : BufTy).Contents (Elt F)),
    StableHlo.ternary main_v84 main_v85 main_v83 main_v86 ((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)),
    StableHlo.binary main_v76 main_v86 main_v87 (addf : (⟨S65536x64, .f32⟩ : BufTy).Contents (Elt F) → (⟨S65536x64, .f32⟩ : BufTy).Contents (Elt F) → (⟨S65536x64, .f32⟩ : BufTy).Contents (Elt F)),
    StableHlo.binary main_v87 main_arg10 main_v88 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    StableHlo.unary main_arg11 main_v89 (broadcastInDim S1x64 ![1] bcast_S64_S1x64_1 : (⟨S64, .f32⟩ : BufTy).Contents (Elt F) → (⟨S1x64, .f32⟩ : BufTy).Contents (Elt F)),
    StableHlo.unary main_v89 main_v90 (broadcastInDim S65536x64 ![0, 1] bcast_S1x64_S65536x64_0_1 : (⟨S1x64, .f32⟩ : BufTy).Contents (Elt F) → (⟨S65536x64, .f32⟩ : BufTy).Contents (Elt F)),
    StableHlo.binary main_v88 main_v90 main_v91 (addf : (⟨S65536x64, .f32⟩ : BufTy).Contents (Elt F) → (⟨S65536x64, .f32⟩ : BufTy).Contents (Elt F) → (⟨S65536x64, .f32⟩ : BufTy).Contents (Elt F)),
    StableHlo.nullary main_cst_16 (constant S_ .f32 0x00000000#32),
    StableHlo.unary main_cst_16 main_v92 (broadcastInDim S65536x64 ![] bcast_S_S65536x64 : (⟨S_, .f32⟩ : BufTy).Contents (Elt F) → (⟨S65536x64, .f32⟩ : BufTy).Contents (Elt F)),
    StableHlo.binary main_v91 main_v92 main_v93 (maximumf : (⟨S65536x64, .f32⟩ : BufTy).Contents (Elt F) → (⟨S65536x64, .f32⟩ : BufTy).Contents (Elt F) → (⟨S65536x64, .f32⟩ : BufTy).Contents (Elt F)),
    StableHlo.binary main_v93 main_arg12 main_v94 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    StableHlo.unary main_arg13 main_v95 (broadcastInDim S1x64 ![1] bcast_S64_S1x64_1 : (⟨S64, .f32⟩ : BufTy).Contents (Elt F) → (⟨S1x64, .f32⟩ : BufTy).Contents (Elt F)),
    StableHlo.unary main_v95 main_v96 (broadcastInDim S65536x64 ![0, 1] bcast_S1x64_S65536x64_0_1 : (⟨S1x64, .f32⟩ : BufTy).Contents (Elt F) → (⟨S65536x64, .f32⟩ : BufTy).Contents (Elt F)),
    StableHlo.binary main_v94 main_v96 main_v97 (addf : (⟨S65536x64, .f32⟩ : BufTy).Contents (Elt F) → (⟨S65536x64, .f32⟩ : BufTy).Contents (Elt F) → (⟨S65536x64, .f32⟩ : BufTy).Contents (Elt F)),
    StableHlo.nullary main_cst_17 (constant S_ .f32 0x00000000#32),
    StableHlo.unary main_cst_17 main_v98 (broadcastInDim S65536x64 ![] bcast_S_S65536x64 : (⟨S_, .f32⟩ : BufTy).Contents (Elt F) → (⟨S65536x64, .f32⟩ : BufTy).Contents (Elt F)),
    StableHlo.binary main_v97 main_v98 main_v99 (maximumf : (⟨S65536x64, .f32⟩ : BufTy).Contents (Elt F) → (⟨S65536x64, .f32⟩ : BufTy).Contents (Elt F) → (⟨S65536x64, .f32⟩ : BufTy).Contents (Elt F)) ]

/-- The 6 operations ending at `main_v103`. -/
abbrev ops_gm1 : List (HloOp τ sig (Elt F)) :=
  [ StableHlo.reshape main_v49 main_v100 rfl shapeCasts_S65536x64_S128x512x64,
    StableHlo.nullary main_cst_18 (constant S_ .f32 0x00000000#32),
    StableHlo.binary main_v100 main_cst_18 main_v101 ((fun x v => Host.reduceAdd x v reducesTo_S128x512x64_S128x64_d1 h_S_) : (⟨S128x512x64, .f32⟩ : BufTy).Contents (Elt F) → (⟨S_, .f32⟩ : BufTy).Contents (Elt F) → (⟨S128x64, .f32⟩ : BufTy).Contents (Elt F)),
    StableHlo.nullary main_cst_19 (constant S_ .f32 0x44000000#32),
    StableHlo.unary main_cst_19 main_v102 (broadcastInDim S128x64 ![] bcast_S_S128x64 : (⟨S_, .f32⟩ : BufTy).Contents (Elt F) → (⟨S128x64, .f32⟩ : BufTy).Contents (Elt F)),
    StableHlo.binary main_v101 main_v102 main_v103 (Host.divf : (⟨S128x64, .f32⟩ : BufTy).Contents (Elt F) → (⟨S128x64, .f32⟩ : BufTy).Contents (Elt F) → (⟨S128x64, .f32⟩ : BufTy).Contents (Elt F)) ]

/-- The 6 operations ending at `main_v107`. -/
abbrev ops_gm2 : List (HloOp τ sig (Elt F)) :=
  [ StableHlo.reshape main_v99 main_v104 rfl shapeCasts_S65536x64_S128x512x64,
    StableHlo.nullary main_cst_20 (constant S_ .f32 0x00000000#32),
    StableHlo.binary main_v104 main_cst_20 main_v105 ((fun x v => Host.reduceAdd x v reducesTo_S128x512x64_S128x64_d1 h_S_) : (⟨S128x512x64, .f32⟩ : BufTy).Contents (Elt F) → (⟨S_, .f32⟩ : BufTy).Contents (Elt F) → (⟨S128x64, .f32⟩ : BufTy).Contents (Elt F)),
    StableHlo.nullary main_cst_21 (constant S_ .f32 0x44000000#32),
    StableHlo.unary main_cst_21 main_v106 (broadcastInDim S128x64 ![] bcast_S_S128x64 : (⟨S_, .f32⟩ : BufTy).Contents (Elt F) → (⟨S128x64, .f32⟩ : BufTy).Contents (Elt F)),
    StableHlo.binary main_v105 main_v106 main_v107 (Host.divf : (⟨S128x64, .f32⟩ : BufTy).Contents (Elt F) → (⟨S128x64, .f32⟩ : BufTy).Contents (Elt F) → (⟨S128x64, .f32⟩ : BufTy).Contents (Elt F)) ]

/-- The 24 operations ending at `main_v121`. -/
abbrev ops_sim : List (HloOp τ sig (Elt F)) :=
  [ StableHlo.reshape main_v49 main_v108 rfl shapeCasts_S65536x64_S128x512x64,
    StableHlo.reshape main_v99 main_v109 rfl shapeCasts_S65536x64_S128x512x64,
    StableHlo.TRef.binary (.of main_v108 : StableHlo.TRef sig ⟨S128x512x64, .f32⟩) (.of main_v108 : StableHlo.TRef sig ⟨S128x512x64, .f32⟩) main_call0.v0 mulf,
    StableHlo.TRef.nullary main_call0.cst (constant S_ .f32 0x00000000#32),
    StableHlo.TRef.binary main_call0.v0 main_call0.cst main_call0.v1 (fun x v => Host.reduceAdd x v reducesTo_S128x512x64_S128x512_d2 h_S_),
    StableHlo.TRef.unary main_call0.v1 main_call0.v2 (broadcastInDim S128x512x1 ![0, 1] bcast_S128x512_S128x512x1_0_1),
    StableHlo.TRef.unary main_call0.v2 main_call0.v3 Host.sqrt,
    StableHlo.nullary main_cst_22 (constant S_ .f32 0x2B8CBCCC#32),
    StableHlo.unary main_cst_22 main_v111 (broadcastInDim S128x512x1 ![] bcast_S_S128x512x1 : (⟨S_, .f32⟩ : BufTy).Contents (Elt F) → (⟨S128x512x1, .f32⟩ : BufTy).Contents (Elt F)),
    StableHlo.binary main_v110 main_v111 main_v112 (maximumf : (⟨S128x512x1, .f32⟩ : BufTy).Contents (Elt F) → (⟨S128x512x1, .f32⟩ : BufTy).Contents (Elt F) → (⟨S128x512x1, .f32⟩ : BufTy).Contents (Elt F)),
    StableHlo.unary main_v112 main_v113 (broadcastInDim S128x512x64 ![0, 1, 2] bcast_S128x512x1_S128x512x64_0_1_2 : (⟨S128x512x1, .f32⟩ : BufTy).Contents (Elt F) → (⟨S128x512x64, .f32⟩ : BufTy).Contents (Elt F)),
    StableHlo.binary main_v108 main_v113 main_v114 (Host.divf : (⟨S128x512x64, .f32⟩ : BufTy).Contents (Elt F) → (⟨S128x512x64, .f32⟩ : BufTy).Contents (Elt F) → (⟨S128x512x64, .f32⟩ : BufTy).Contents (Elt F)),
    StableHlo.TRef.binary (.of main_v109 : StableHlo.TRef sig ⟨S128x512x64, .f32⟩) (.of main_v109 : StableHlo.TRef sig ⟨S128x512x64, .f32⟩) main_call1.v0 mulf,
    StableHlo.TRef.nullary main_call1.cst (constant S_ .f32 0x00000000#32),
    StableHlo.TRef.binary main_call1.v0 main_call1.cst main_call1.v1 (fun x v => Host.reduceAdd x v reducesTo_S128x512x64_S128x512_d2 h_S_),
    StableHlo.TRef.unary main_call1.v1 main_call1.v2 (broadcastInDim S128x512x1 ![0, 1] bcast_S128x512_S128x512x1_0_1),
    StableHlo.TRef.unary main_call1.v2 main_call1.v3 Host.sqrt,
    StableHlo.nullary main_cst_23 (constant S_ .f32 0x2B8CBCCC#32),
    StableHlo.unary main_cst_23 main_v116 (broadcastInDim S128x512x1 ![] bcast_S_S128x512x1 : (⟨S_, .f32⟩ : BufTy).Contents (Elt F) → (⟨S128x512x1, .f32⟩ : BufTy).Contents (Elt F)),
    StableHlo.binary main_v115 main_v116 main_v117 (maximumf : (⟨S128x512x1, .f32⟩ : BufTy).Contents (Elt F) → (⟨S128x512x1, .f32⟩ : BufTy).Contents (Elt F) → (⟨S128x512x1, .f32⟩ : BufTy).Contents (Elt F)),
    StableHlo.unary main_v117 main_v118 (broadcastInDim S128x512x64 ![0, 1, 2] bcast_S128x512x1_S128x512x64_0_1_2 : (⟨S128x512x1, .f32⟩ : BufTy).Contents (Elt F) → (⟨S128x512x64, .f32⟩ : BufTy).Contents (Elt F)),
    StableHlo.binary main_v109 main_v118 main_v119 (Host.divf : (⟨S128x512x64, .f32⟩ : BufTy).Contents (Elt F) → (⟨S128x512x64, .f32⟩ : BufTy).Contents (Elt F) → (⟨S128x512x64, .f32⟩ : BufTy).Contents (Elt F)),
    StableHlo.binary main_v114 main_v119 main_v120 ((fun l r => Host.dotGeneral dot_S128x512x64_S128x512x64_S128x512x512_2_2_1_1_0_0 none l r) : (⟨S128x512x64, .f32⟩ : BufTy).Contents (Elt F) → (⟨S128x512x64, .f32⟩ : BufTy).Contents (Elt F) → (⟨S128x512x512, .f32⟩ : BufTy).Contents (Elt F)),
    StableHlo.reshape main_v120 main_v121 rfl shapeCasts_S128x512x512_S128x262144 ]

/-- The 16 operations ending at `main_v128`. -/
abbrev ops_bin : List (HloOp τ sig (Elt F)) :=
  [ StableHlo.nullary main_cst_24 (constant S_ .f32 0x3F800000#32),
    StableHlo.unary main_cst_24 main_v122 (broadcastInDim S128x262144 ![] bcast_S_S128x262144 : (⟨S_, .f32⟩ : BufTy).Contents (Elt F) → (⟨S128x262144, .f32⟩ : BufTy).Contents (Elt F)),
    StableHlo.binary main_v121 main_v122 main_v123 (addf : (⟨S128x262144, .f32⟩ : BufTy).Contents (Elt F) → (⟨S128x262144, .f32⟩ : BufTy).Contents (Elt F) → (⟨S128x262144, .f32⟩ : BufTy).Contents (Elt F)),
    StableHlo.nullary main_cst_25 (constant S_ .f32 0x41000000#32),
    StableHlo.unary main_cst_25 main_v124 (broadcastInDim S128x262144 ![] bcast_S_S128x262144 : (⟨S_, .f32⟩ : BufTy).Contents (Elt F) → (⟨S128x262144, .f32⟩ : BufTy).Contents (Elt F)),
    StableHlo.binary main_v123 main_v124 main_v125 (mulf : (⟨S128x262144, .f32⟩ : BufTy).Contents (Elt F) → (⟨S128x262144, .f32⟩ : BufTy).Contents (Elt F) → (⟨S128x262144, .f32⟩ : BufTy).Contents (Elt F)),
    StableHlo.unary main_v125 main_v126 (Host.floor : (⟨S128x262144, .f32⟩ : BufTy).Contents (Elt F) → (⟨S128x262144, .f32⟩ : BufTy).Contents (Elt F)),
    StableHlo.nullary main_c_26 (constantI S_ 32 0#32),
    StableHlo.nullary main_c_27 (constantI S_ 32 15#32),
    StableHlo.TRef.unary (.of main_c_26 : StableHlo.TRef sig ⟨S_, .i32⟩) main_call2.v0 (sitofp .f32),
    StableHlo.TRef.unary main_call2.v0 main_call2.v1 (broadcastInDim S128x262144 ![] bcast_S_S128x262144),
    StableHlo.TRef.binary main_call2.v1 (.of main_v126 : StableHlo.TRef sig ⟨S128x262144, .f32⟩) main_call2.v2 maximumf,
    StableHlo.TRef.unary (.of main_c_27 : StableHlo.TRef sig ⟨S_, .i32⟩) main_call2.v3 (sitofp .f32),
    StableHlo.TRef.unary main_call2.v3 main_call2.v4 (broadcastInDim S128x262144 ![] bcast_S_S128x262144),
    StableHlo.TRef.binary main_call2.v4 main_call2.v2 main_call2.v5 minimumf,
    StableHlo.unary main_v127 main_v128 (fptosi 32 : (⟨S128x262144, .f32⟩ : BufTy).Contents (Elt F) → (⟨S128x262144, .i32⟩ : BufTy).Contents (Elt F)) ]

/-- The 21 operations ending at `main_v144`. -/
abbrev ops_hista : List (HloOp τ sig (Elt F)) :=
  [ StableHlo.nullary main_v129 (iotaInDim S128 32 0),
    StableHlo.unary main_v129 main_v130 (broadcastInDim S128x1 ![0] bcast_S128_S128x1_0 : (⟨S128, .i32⟩ : BufTy).Contents (Elt F) → (⟨S128x1, .i32⟩ : BufTy).Contents (Elt F)),
    StableHlo.nullary main_c_28 (constantI S_ 32 16#32),
    StableHlo.unary main_c_28 main_v131 (broadcastInDim S128x1 ![] bcast_S_S128x1 : (⟨S_, .i32⟩ : BufTy).Contents (Elt F) → (⟨S128x1, .i32⟩ : BufTy).Contents (Elt F)),
    StableHlo.binary main_v130 main_v131 main_v132 (muli : (⟨S128x1, .i32⟩ : BufTy).Contents (Elt F) → (⟨S128x1, .i32⟩ : BufTy).Contents (Elt F) → (⟨S128x1, .i32⟩ : BufTy).Contents (Elt F)),
    StableHlo.unary main_v132 main_v133 (broadcastInDim S128x262144 ![0, 1] bcast_S128x1_S128x262144_0_1 : (⟨S128x1, .i32⟩ : BufTy).Contents (Elt F) → (⟨S128x262144, .i32⟩ : BufTy).Contents (Elt F)),
    StableHlo.binary main_v133 main_v128 main_v134 (addi : (⟨S128x262144, .i32⟩ : BufTy).Contents (Elt F) → (⟨S128x262144, .i32⟩ : BufTy).Contents (Elt F) → (⟨S128x262144, .i32⟩ : BufTy).Contents (Elt F)),
    StableHlo.reshape main_v134 main_v135 rfl shapeCasts_S128x262144_S33554432,
    StableHlo.nullary main_cst_29 (constant S_ .f32 0x3F800000#32),
    StableHlo.unary main_cst_29 main_v136 (broadcastInDim S33554432 ![] bcast_S_S33554432 : (⟨S_, .f32⟩ : BufTy).Contents (Elt F) → (⟨S33554432, .f32⟩ : BufTy).Contents (Elt F)),
    StableHlo.nullary main_cst_30 (constant S_ .f32 0x00000000#32),
    StableHlo.unary main_cst_30 main_v137 (broadcastInDim S2048 ![] bcast_S_S2048 : (⟨S_, .f32⟩ : BufTy).Contents (Elt F) → (⟨S2048, .f32⟩ : BufTy).Contents (Elt F)),
    StableHlo.unary main_v135 main_v138 (broadcastInDim S33554432x1 ![0] bcast_S33554432_S33554432x1_0 : (⟨S33554432, .i32⟩ : BufTy).Contents (Elt F) → (⟨S33554432x1, .i32⟩ : BufTy).Contents (Elt F)),
    StableHlo.ternary main_v137 main_v138 main_v136 main_v139 ((fun x i u => Host.scatterAdd scatter_S2048_S33554432x1_S33554432_n_0_0_1 x i u) : (⟨S2048, .f32⟩ : BufTy).Contents (Elt F) → (⟨S33554432x1, .i32⟩ : BufTy).Contents (Elt F) → (⟨S33554432, .f32⟩ : BufTy).Contents (Elt F) → (⟨S2048, .f32⟩ : BufTy).Contents (Elt F)),
    StableHlo.reshape main_v139 main_v140 rfl shapeCasts_S2048_S128x16,
    StableHlo.nullary main_cst_31 (constant S_ .f32 0x00000000#32),
    StableHlo.binary main_v140 main_cst_31 main_v141 ((fun x v => Host.reduceAdd x v reducesTo_S128x16_S128_d1 h_S_) : (⟨S128x16, .f32⟩ : BufTy).Contents (Elt F) → (⟨S_, .f32⟩ : BufTy).Contents (Elt F) → (⟨S128, .f32⟩ : BufTy).Contents (Elt F)),
    StableHlo.unary main_v141 main_v142 (broadcastInDim S128x1 ![0] bcast_S128_S128x1_0 : (⟨S128, .f32⟩ : BufTy).Contents (Elt F) → (⟨S128x1, .f32⟩ : BufTy).Contents (Elt F)),
    StableHlo.nullary main_cst_32 (constant S_ .f32 0x3F800000#32),
    StableHlo.unary main_cst_32 main_v143 (broadcastInDim S128x1 ![] bcast_S_S128x1 : (⟨S_, .f32⟩ : BufTy).Contents (Elt F) → (⟨S128x1, .f32⟩ : BufTy).Contents (Elt F)),
    StableHlo.binary main_v142 main_v143 main_v144 (maximumf : (⟨S128x1, .f32⟩ : BufTy).Contents (Elt F) → (⟨S128x1, .f32⟩ : BufTy).Contents (Elt F) → (⟨S128x1, .f32⟩ : BufTy).Contents (Elt F)) ]

/-- The 2 operations ending at `main_v146`. -/
abbrev ops_histb : List (HloOp τ sig (Elt F)) :=
  [ StableHlo.unary main_v144 main_v145 (broadcastInDim S128x16 ![0, 1] bcast_S128x1_S128x16_0_1 : (⟨S128x1, .f32⟩ : BufTy).Contents (Elt F) → (⟨S128x16, .f32⟩ : BufTy).Contents (Elt F)),
    StableHlo.binary main_v140 main_v145 main_v146 (Host.divf : (⟨S128x16, .f32⟩ : BufTy).Contents (Elt F) → (⟨S128x16, .f32⟩ : BufTy).Contents (Elt F) → (⟨S128x16, .f32⟩ : BufTy).Contents (Elt F)) ]

/-- The 5 operations ending at `main_v149`. -/
abbrev ops_mean : List (HloOp τ sig (Elt F)) :=
  [ StableHlo.nullary main_cst_33 (constant S_ .f32 0x00000000#32),
    StableHlo.binary main_v121 main_cst_33 main_v147 ((fun x v => Host.reduceAdd x v reducesTo_S128x262144_S128_d1 h_S_) : (⟨S128x262144, .f32⟩ : BufTy).Contents (Elt F) → (⟨S_, .f32⟩ : BufTy).Contents (Elt F) → (⟨S128, .f32⟩ : BufTy).Contents (Elt F)),
    StableHlo.nullary main_cst_34 (constant S_ .f32 0x48800000#32),
    StableHlo.unary main_cst_34 main_v148 (broadcastInDim S128 ![] bcast_S_S128 : (⟨S_, .f32⟩ : BufTy).Contents (Elt F) → (⟨S128, .f32⟩ : BufTy).Contents (Elt F)),
    StableHlo.binary main_v147 main_v148 main_v149 (Host.divf : (⟨S128, .f32⟩ : BufTy).Contents (Elt F) → (⟨S128, .f32⟩ : BufTy).Contents (Elt F) → (⟨S128, .f32⟩ : BufTy).Contents (Elt F)) ]

/-- The 2 operations ending at `main_v150`. -/
abbrev ops_max : List (HloOp τ sig (Elt F)) :=
  [ StableHlo.nullary main_cst_35 (constant S_ .f32 0xFF800000#32),
    StableHlo.binary main_v121 main_cst_35 main_v150 ((fun x v => Host.reduce FloatOps.maximumf x v reducesTo_S128x262144_S128_d1 h_S_) : (⟨S128x262144, .f32⟩ : BufTy).Contents (Elt F) → (⟨S_, .f32⟩ : BufTy).Contents (Elt F) → (⟨S128, .f32⟩ : BufTy).Contents (Elt F)) ]

/-- The 24 operations ending at `main_v151`. -/
abbrev ops_std : List (HloOp τ sig (Elt F)) :=
  [ StableHlo.nullary main_c_36 (constantI S_ 32 0#32),
    StableHlo.TRef.nullary main_call3.call0.cst (constant S_ .f32 0x00000000#32),
    StableHlo.TRef.binary (.of main_v121 : StableHlo.TRef sig ⟨S128x262144, .f32⟩) main_call3.call0.cst main_call3.call0.v0 (fun x v => Host.reduceAdd x v reducesTo_S128x262144_S128_d1 h_S_),
    StableHlo.TRef.unary main_call3.call0.v0 main_call3.call0.v1 (broadcastInDim S128x1 ![0] bcast_S128_S128x1_0),
    StableHlo.TRef.nullary main_call3.call0.cst_0 (constant S_ .f32 0x48800000#32),
    StableHlo.TRef.unary main_call3.call0.cst_0 main_call3.call0.v2 (broadcastInDim S128x1 ![] bcast_S_S128x1),
    StableHlo.TRef.binary main_call3.call0.v1 main_call3.call0.v2 main_call3.call0.v3 Host.divf,
    StableHlo.TRef.unary main_call3.call0.v3 main_call3.call0.v4 (broadcastInDim S128x262144 ![0, 1] bcast_S128x1_S128x262144_0_1),
    StableHlo.TRef.binary (.of main_v121 : StableHlo.TRef sig ⟨S128x262144, .f32⟩) main_call3.call0.v4 main_call3.call0.v5 subf,
    StableHlo.TRef.binary main_call3.call0.v5 main_call3.call0.v5 main_call3.call0.v6 mulf,
    StableHlo.TRef.unary (.of main_c_36 : StableHlo.TRef sig ⟨S_, .i32⟩) main_call3.call0.v7 (sitofp .f32),
    StableHlo.TRef.nullary main_call3.call0.cst_1 (constant S_ .f32 0x48800000#32),
    StableHlo.TRef.binary main_call3.call0.cst_1 main_call3.call0.v7 main_call3.call0.v8 subf,
    StableHlo.TRef.nullary main_call3.call0.cst_2 (constant S_ .f32 0x00000000#32),
    StableHlo.TRef.binary main_call3.call0.v6 main_call3.call0.cst_2 main_call3.call0.v9 (fun x v => Host.reduceAdd x v reducesTo_S128x262144_S128_d1 h_S_),
    StableHlo.TRef.unary main_call3.call0.v8 main_call3.call0.v10 (broadcastInDim S128 ![] bcast_S_S128),
    StableHlo.TRef.binary main_call3.call0.v9 main_call3.call0.v10 main_call3.call0.v11 Host.divf,
    StableHlo.TRef.nullary main_call3.call0.cst_3 (constant S_ .f32 0x00000000#32),
    StableHlo.TRef.binary main_call3.call0.v8 main_call3.call0.cst_3 main_call3.call0.v12 (cmpf .ogt),
    StableHlo.TRef.nullary main_call3.call0.cst_4 (constant S_ .f32 0x7FC00000#32),
    StableHlo.TRef.unary main_call3.call0.cst_4 main_call3.call0.call0.v0 id,
    StableHlo.TRef.unary main_call3.call0.call0.v0 main_call3.call0.call0.v1 (broadcastInDim S128 ![] bcast_S_S128),
    StableHlo.TRef.ternary main_call3.call0.v12 main_call3.call0.v11 main_call3.call0.call0.v1 main_call3.call0.call0.v2 (fun p a b => select (broadcastInDim S128 ![] bcast_S_S128 p) a b),
    StableHlo.TRef.unary main_call3.call0.call0.v2 main_call3.v1 Host.sqrt ]

/-- The 6 operations ending at `main_v157`. -/
abbrev ops_feat : List (HloOp τ sig (Elt F)) :=
  [ StableHlo.unary main_v149 main_v152 (broadcastInDim S128x1 ![0] bcast_S128_S128x1_0 : (⟨S128, .f32⟩ : BufTy).Contents (Elt F) → (⟨S128x1, .f32⟩ : BufTy).Contents (Elt F)),
    StableHlo.unary main_v150 main_v153 (broadcastInDim S128x1 ![0] bcast_S128_S128x1_0 : (⟨S128, .f32⟩ : BufTy).Contents (Elt F) → (⟨S128x1, .f32⟩ : BufTy).Contents (Elt F)),
    StableHlo.unary main_v151 main_v154 (broadcastInDim S128x1 ![0] bcast_S128_S128x1_0 : (⟨S128, .f32⟩ : BufTy).Contents (Elt F) → (⟨S128x1, .f32⟩ : BufTy).Contents (Elt F)),
    StableHlo.nary ![main_v152, main_v153, main_v154] main_v155 (fun u => concatenate S128x3 1 [⟨S128x1, u 0⟩, ⟨S128x1, u 1⟩, ⟨S128x1, u 2⟩] concatenates_S128x1_S128x1_S128x1_S128x3_d1),
    StableHlo.binary main_v146 main_v155 main_v156 ((fun a b => concatenate S128x19 1 [⟨S128x16, a⟩, ⟨S128x3, b⟩] concatenates_S128x16_S128x3_S128x19_d1) : (⟨S128x16, .f32⟩ : BufTy).Contents (Elt F) → (⟨S128x3, .f32⟩ : BufTy).Contents (Elt F) → (⟨S128x19, .f32⟩ : BufTy).Contents (Elt F)),
    StableHlo.nary ![main_v103, main_v107, main_v156] main_v157 (fun u => concatenate S128x147 1 [⟨S128x64, u 0⟩, ⟨S128x64, u 1⟩, ⟨S128x19, u 2⟩] concatenates_S128x64_S128x64_S128x19_S128x147_d1) ]

/-- The 19 operations ending at `main_v174`. -/
abbrev ops_mlp : List (HloOp τ sig (Elt F)) :=
  [ StableHlo.binary main_v157 main_arg14 main_v158 ((fun l r => Host.dotGeneral dot_S128x147_S147x64_S128x64_1_0_0_1_n_n none l r) : (⟨S128x147, .f32⟩ : BufTy).Contents (Elt F) → (⟨S147x64, .f32⟩ : BufTy).Contents (Elt F) → (⟨S128x64, .f32⟩ : BufTy).Contents (Elt F)),
    StableHlo.unary main_arg15 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S128x64 ![0, 1] bcast_S1x64_S128x64_0_1 : (⟨S1x64, .f32⟩ : BufTy).Contents (Elt F) → (⟨S128x64, .f32⟩ : BufTy).Contents (Elt F)),
    StableHlo.binary main_v158 main_v160 main_v161 (addf : (⟨S128x64, .f32⟩ : BufTy).Contents (Elt F) → (⟨S128x64, .f32⟩ : BufTy).Contents (Elt F) → (⟨S128x64, .f32⟩ : BufTy).Contents (Elt F)),
    StableHlo.nullary main_cst_37 (constant S_ .f32 0x00000000#32),
    StableHlo.unary main_cst_37 main_v162 (broadcastInDim S128x64 ![] bcast_S_S128x64 : (⟨S_, .f32⟩ : BufTy).Contents (Elt F) → (⟨S128x64, .f32⟩ : BufTy).Contents (Elt F)),
    StableHlo.binary main_v161 main_v162 main_v163 (maximumf : (⟨S128x64, .f32⟩ : BufTy).Contents (Elt F) → (⟨S128x64, .f32⟩ : BufTy).Contents (Elt F) → (⟨S128x64, .f32⟩ : BufTy).Contents (Elt F)),
    StableHlo.binary main_v163 main_arg16 main_v164 ((fun l r => Host.dotGeneral dot_S128x64_S64x32_S128x32_1_0_0_1_n_n none l r) : (⟨S128x64, .f32⟩ : BufTy).Contents (Elt F) → (⟨S64x32, .f32⟩ : BufTy).Contents (Elt F) → (⟨S128x32, .f32⟩ : BufTy).Contents (Elt F)),
    StableHlo.unary main_arg17 main_v165 (broadcastInDim S1x32 ![1] bcast_S32_S1x32_1 : (⟨S32, .f32⟩ : BufTy).Contents (Elt F) → (⟨S1x32, .f32⟩ : BufTy).Contents (Elt F)),
    StableHlo.unary main_v165 main_v166 (broadcastInDim S128x32 ![0, 1] bcast_S1x32_S128x32_0_1 : (⟨S1x32, .f32⟩ : BufTy).Contents (Elt F) → (⟨S128x32, .f32⟩ : BufTy).Contents (Elt F)),
    StableHlo.binary main_v164 main_v166 main_v167 (addf : (⟨S128x32, .f32⟩ : BufTy).Contents (Elt F) → (⟨S128x32, .f32⟩ : BufTy).Contents (Elt F) → (⟨S128x32, .f32⟩ : BufTy).Contents (Elt F)),
    StableHlo.nullary main_cst_38 (constant S_ .f32 0x00000000#32),
    StableHlo.unary main_cst_38 main_v168 (broadcastInDim S128x32 ![] bcast_S_S128x32 : (⟨S_, .f32⟩ : BufTy).Contents (Elt F) → (⟨S128x32, .f32⟩ : BufTy).Contents (Elt F)),
    StableHlo.binary main_v167 main_v168 main_v169 (maximumf : (⟨S128x32, .f32⟩ : BufTy).Contents (Elt F) → (⟨S128x32, .f32⟩ : BufTy).Contents (Elt F) → (⟨S128x32, .f32⟩ : BufTy).Contents (Elt F)),
    StableHlo.binary main_v169 main_arg18 main_v170 ((fun l r => Host.dotGeneral dot_S128x32_S32x1_S128x1_1_0_0_1_n_n none l r) : (⟨S128x32, .f32⟩ : BufTy).Contents (Elt F) → (⟨S32x1, .f32⟩ : BufTy).Contents (Elt F) → (⟨S128x1, .f32⟩ : BufTy).Contents (Elt F)),
    StableHlo.unary main_arg19 main_v171 (broadcastInDim S1x1 ![1] bcast_S1_S1x1_1 : (⟨S1, .f32⟩ : BufTy).Contents (Elt F) → (⟨S1x1, .f32⟩ : BufTy).Contents (Elt F)),
    StableHlo.unary main_v171 main_v172 (broadcastInDim S128x1 ![0, 1] bcast_S1x1_S128x1_0_1 : (⟨S1x1, .f32⟩ : BufTy).Contents (Elt F) → (⟨S128x1, .f32⟩ : BufTy).Contents (Elt F)),
    StableHlo.binary main_v170 main_v172 main_v173 (addf : (⟨S128x1, .f32⟩ : BufTy).Contents (Elt F) → (⟨S128x1, .f32⟩ : BufTy).Contents (Elt F) → (⟨S128x1, .f32⟩ : BufTy).Contents (Elt F)),
    StableHlo.reshape main_v173 main_v174 rfl shapeCasts_S128x1_S128 ]

/-- @main's 251 operations, in order. -/
abbrev ops : List (HloOp τ sig (Elt F)) :=
  ops_enc1 ++ (ops_enc2 ++ (ops_gm1 ++ (ops_gm2 ++ (ops_sim ++ (ops_bin ++ (ops_hista ++ (ops_histb ++ (ops_mean ++ (ops_max ++ (ops_std ++ (ops_feat ++ (ops_mlp))))))))))))

set_option maxRecDepth 8192 in
theorem main_part0_eq (c : Dev nD) : main_part0 (F := F) c = seq (ops_enc1) := rfl

set_option maxRecDepth 8192 in
theorem main_part1_eq (c : Dev nD) : main_part1 (F := F) c = seq (ops_enc2) := rfl

set_option maxRecDepth 8192 in
theorem main_part2_eq (c : Dev nD) : main_part2 (F := F) c = seq (ops_gm1 ++ (ops_gm2 ++ (ops_sim ++ (ops_bin ++ (ops_hista))))) := rfl

set_option maxRecDepth 8192 in
theorem main_part3_eq (c : Dev nD) : main_part3 (F := F) c = seq (ops_histb ++ (ops_mean ++ (ops_max ++ (ops_std ++ (ops_feat ++ (ops_mlp)))))) := rfl

set_option maxRecDepth 8192 in
theorem main_eq (c : Dev nD) : main (F := F) c = seq ops := by
  simp only [main, main_part0_eq c, main_part1_eq c, main_part2_eq c, main_part3_eq c, ops, seq_append, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_enc1_sub : (ops_enc1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
theorem ops_enc2_sub : (ops_enc2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
theorem ops_gm1_sub : (ops_gm1 : List (HloOp τ sig (Elt F))).Forall fun op => op.bufs ⊆ tcRefs τ sig :=
  ⟨reshape_bufs_sub .., nullary_bufs_sub .., binary_bufs_sub .., nullary_bufs_sub .., unary_bufs_sub .., binary_bufs_sub ..⟩

set_option maxRecDepth 8192 in
theorem ops_gm2_sub : (ops_gm2 : List (HloOp τ sig (Elt F))).Forall fun op => op.bufs ⊆ tcRefs τ sig :=
  ⟨reshape_bufs_sub .., nullary_bufs_sub .., binary_bufs_sub .., nullary_bufs_sub .., unary_bufs_sub .., binary_bufs_sub ..⟩

set_option maxRecDepth 8192 in
theorem ops_sim_sub : (ops_sim : List (HloOp τ sig (Elt F))).Forall fun op => op.bufs ⊆ tcRefs τ sig :=
  ⟨reshape_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., reshape_bufs_sub ..⟩

set_option maxRecDepth 8192 in
theorem ops_bin_sub : (ops_bin : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub ..⟩

set_option maxRecDepth 8192 in
theorem ops_hista_sub : (ops_hista : List (HloOp τ sig (Elt F))).Forall fun op => op.bufs ⊆ tcRefs τ sig :=
  ⟨nullary_bufs_sub .., unary_bufs_sub .., nullary_bufs_sub .., unary_bufs_sub .., binary_bufs_sub .., unary_bufs_sub .., binary_bufs_sub .., reshape_bufs_sub .., nullary_bufs_sub .., unary_bufs_sub .., nullary_bufs_sub .., unary_bufs_sub .., unary_bufs_sub .., ternary_bufs_sub .., reshape_bufs_sub .., nullary_bufs_sub .., binary_bufs_sub .., unary_bufs_sub .., nullary_bufs_sub .., unary_bufs_sub .., binary_bufs_sub ..⟩

set_option maxRecDepth 8192 in
theorem ops_histb_sub : (ops_histb : List (HloOp τ sig (Elt F))).Forall fun op => op.bufs ⊆ tcRefs τ sig :=
  ⟨unary_bufs_sub .., binary_bufs_sub ..⟩

set_option maxRecDepth 8192 in
theorem ops_mean_sub : (ops_mean : List (HloOp τ sig (Elt F))).Forall fun op => op.bufs ⊆ tcRefs τ sig :=
  ⟨nullary_bufs_sub .., binary_bufs_sub .., nullary_bufs_sub .., unary_bufs_sub .., binary_bufs_sub ..⟩

set_option maxRecDepth 8192 in
theorem ops_max_sub : (ops_max : List (HloOp τ sig (Elt F))).Forall fun op => op.bufs ⊆ tcRefs τ sig :=
  ⟨nullary_bufs_sub .., binary_bufs_sub ..⟩

set_option maxRecDepth 8192 in
theorem ops_std_sub : (ops_std : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩

set_option maxRecDepth 8192 in
theorem ops_feat_sub : (ops_feat : List (HloOp τ sig (Elt F))).Forall fun op => op.bufs ⊆ tcRefs τ sig :=
  ⟨unary_bufs_sub .., unary_bufs_sub .., unary_bufs_sub .., nary_bufs_sub .., binary_bufs_sub .., nary_bufs_sub ..⟩

set_option maxRecDepth 8192 in
theorem ops_mlp_sub : (ops_mlp : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp ops_enc1_sub op h, List.forall_iff_forall_mem.mp ops_enc2_sub op h, List.forall_iff_forall_mem.mp ops_gm1_sub op h, List.forall_iff_forall_mem.mp ops_gm2_sub op h, List.forall_iff_forall_mem.mp ops_sim_sub op h, List.forall_iff_forall_mem.mp ops_bin_sub op h, List.forall_iff_forall_mem.mp ops_hista_sub op h, List.forall_iff_forall_mem.mp ops_histb_sub op h, List.forall_iff_forall_mem.mp ops_mean_sub op h, List.forall_iff_forall_mem.mp ops_max_sub op h, List.forall_iff_forall_mem.mp ops_std_sub op h, List.forall_iff_forall_mem.mp ops_feat_sub op h, List.forall_iff_forall_mem.mp ops_mlp_sub op h]

end Cert.ReferenceIdeal.RefRun

end
-- ==== Proof.RefRunWrites.lean ====
/-
  For each segment of @main's operation list, the list of buffers its operations write, and the
  proof that every operation of the segment writes only buffers of that list.
-/
import proofs.«115078_j84482006712593_1_alg».proof.Proof.RefRunOps

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers that segment `ops_enc1` writes. -/
abbrev ops_enc1_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_cst_1, main_v19, main_v20, main_v21, main_v22, main_v23, main_v24, main_cst_2, main_v25, main_v26, main_c_3, main_v27, main_v28, main_c_4, main_v29, main_v30, main_v31, main_v32, main_v33, main_cst_5, main_v34, main_v35, main_v36, main_v37, main_v38, main_v39, main_v40, main_v41, main_cst_6, main_v42, main_v43, main_v44, main_v45, main_v46, main_v47, main_cst_7, main_v48, main_v49]
set_option maxRecDepth 8192 in
theorem ops_enc1_writes : (ops_enc1 : List (HloOp τ sig (Elt F))).Forall fun op => op.writes ⊆ (ops_enc1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_enc2` writes. -/
abbrev ops_enc2_W : List (Ref sig .tc) := [main_v50, main_v51, main_v52, main_v53, main_c_8, main_v54, main_v55, main_c_9, main_v56, main_v57, main_v58, main_v59, main_v60, main_cst_10, main_v61, main_v62, main_v63, main_v64, main_v65, main_v66, main_v67, main_v68, main_cst_11, main_v69, main_v70, main_v71, main_v72, main_v73, main_v74, main_cst_12, main_v75, main_v76, main_c_13, main_v77, main_v78, main_c_14, main_v79, main_v80, main_v81, main_v82, main_v83, main_cst_15, main_v84, main_v85, main_v86, main_v87, main_v88, main_v89, main_v90, main_v91, main_cst_16, main_v92, main_v93, main_v94, main_v95, main_v96, main_v97, main_cst_17, main_v98, main_v99]
set_option maxRecDepth 8192 in
theorem ops_enc2_writes : (ops_enc2 : List (HloOp τ sig (Elt F))).Forall fun op => op.writes ⊆ (ops_enc2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_gm1` writes. -/
abbrev ops_gm1_W : List (Ref sig .tc) := [main_v100, main_cst_18, main_v101, main_cst_19, main_v102, main_v103]
set_option maxRecDepth 8192 in
theorem ops_gm1_writes : (ops_gm1 : List (HloOp τ sig (Elt F))).Forall fun op => op.writes ⊆ (ops_gm1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_gm2` writes. -/
abbrev ops_gm2_W : List (Ref sig .tc) := [main_v104, main_cst_20, main_v105, main_cst_21, main_v106, main_v107]
set_option maxRecDepth 8192 in
theorem ops_gm2_writes : (ops_gm2 : List (HloOp τ sig (Elt F))).Forall fun op => op.writes ⊆ (ops_gm2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_sim` writes. -/
abbrev ops_sim_W : List (Ref sig .tc) := [main_v108, main_v109, main_call0_v0, main_call0_cst, main_call0_v1, main_call0_v2, main_v110, main_cst_22, main_v111, main_v112, main_v113, main_v114, main_call1_v0, main_call1_cst, main_call1_v1, main_call1_v2, main_v115, main_cst_23, main_v116, main_v117, main_v118, main_v119, main_v120, main_v121]
set_option maxRecDepth 8192 in
theorem ops_sim_writes : (ops_sim : List (HloOp τ sig (Elt F))).Forall fun op => op.writes ⊆ (ops_sim_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_bin` writes. -/
abbrev ops_bin_W : List (Ref sig .tc) := [main_cst_24, main_v122, main_v123, main_cst_25, main_v124, main_v125, main_v126, main_c_26, main_c_27, main_call2_v0, main_call2_v1, main_call2_v2, main_call2_v3, main_call2_v4, main_v127, main_v128]
set_option maxRecDepth 8192 in
theorem ops_bin_writes : (ops_bin : List (HloOp τ sig (Elt F))).Forall fun op => op.writes ⊆ (ops_bin_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_hista` writes. -/
abbrev ops_hista_W : List (Ref sig .tc) := [main_v129, main_v130, main_c_28, main_v131, main_v132, main_v133, main_v134, main_v135, main_cst_29, main_v136, main_cst_30, main_v137, main_v138, main_v139, main_v140, main_cst_31, main_v141, main_v142, main_cst_32, main_v143, main_v144]
set_option maxRecDepth 8192 in
theorem ops_hista_writes : (ops_hista : List (HloOp τ sig (Elt F))).Forall fun op => op.writes ⊆ (ops_hista_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_histb` writes. -/
abbrev ops_histb_W : List (Ref sig .tc) := [main_v145, main_v146]
set_option maxRecDepth 8192 in
theorem ops_histb_writes : (ops_histb : List (HloOp τ sig (Elt F))).Forall fun op => op.writes ⊆ (ops_histb_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_mean` writes. -/
abbrev ops_mean_W : List (Ref sig .tc) := [main_cst_33, main_v147, main_cst_34, main_v148, main_v149]
set_option maxRecDepth 8192 in
theorem ops_mean_writes : (ops_mean : List (HloOp τ sig (Elt F))).Forall fun op => op.writes ⊆ (ops_mean_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_max` writes. -/
abbrev ops_max_W : List (Ref sig .tc) := [main_cst_35, main_v150]
set_option maxRecDepth 8192 in
theorem ops_max_writes : (ops_max : List (HloOp τ sig (Elt F))).Forall fun op => op.writes ⊆ (ops_max_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_std` writes. -/
abbrev ops_std_W : List (Ref sig .tc) := [main_c_36, main_call3_call0_cst, main_call3_call0_v0, main_call3_call0_v1, main_call3_call0_cst_0, main_call3_call0_v2, main_call3_call0_v3, main_call3_call0_v4, main_call3_call0_v5, main_call3_call0_v6, main_call3_call0_v7, main_call3_call0_cst_1, main_call3_call0_v8, main_call3_call0_cst_2, main_call3_call0_v9, main_call3_call0_v10, main_call3_call0_v11, main_call3_call0_cst_3, main_call3_call0_v12, main_call3_call0_cst_4, main_call3_call0_call0_v0, main_call3_call0_call0_v1, main_call3_v0, main_v151]
set_option maxRecDepth 8192 in
theorem ops_std_writes : (ops_std : List (HloOp τ sig (Elt F))).Forall fun op => op.writes ⊆ (ops_std_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_feat` writes. -/
abbrev ops_feat_W : List (Ref sig .tc) := [main_v152, main_v153, main_v154, main_v155, main_v156, main_v157]
set_option maxRecDepth 8192 in
theorem ops_feat_writes : (ops_feat : List (HloOp τ sig (Elt F))).Forall fun op => op.writes ⊆ (ops_feat_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that segment `ops_mlp` writes. -/
abbrev ops_mlp_W : List (Ref sig .tc) := [main_v158, main_v159, main_v160, main_v161, main_cst_37, main_v162, main_v163, main_v164, main_v165, main_v166, main_v167, main_cst_38, main_v168, main_v169, main_v170, main_v171, main_v172, main_v173, main_v174]
set_option maxRecDepth 8192 in
theorem ops_mlp_writes : (ops_mlp : List (HloOp τ sig (Elt F))).Forall fun op => op.writes ⊆ (ops_mlp_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RefRun

end
-- ==== Proof.RefRunStages.lean ====
/-
  The reference computation as named pure functions: each is the composition, in order, of the
  host operations of one stage of @main (an outlined function's operations taken at its call),
  with the same shape witnesses. A value read more than once inside a stage is bound by `let`.
-/
import proofs.«115078_j84482006712593_1_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-- The two-layer graph encoder: per layer, the rows gathered at the (wrapped) source indices are scatter-added at the destination indices, added to the input, and passed through two dense layers each followed by max(·, 0). -/
def enc (x : (⟨S65536x128, .f32⟩ : BufTy).Contents (Elt F)) (e : (⟨S2x1048576, .i32⟩ : BufTy).Contents (Elt F)) (w1 : (⟨S128x64, .f32⟩ : BufTy).Contents (Elt F)) (b1 : (⟨S64, .f32⟩ : BufTy).Contents (Elt F)) (w2 : (⟨S64x64, .f32⟩ : BufTy).Contents (Elt F)) (b2 : (⟨S64, .f32⟩ : BufTy).Contents (Elt F)) (w3 : (⟨S64x64, .f32⟩ : BufTy).Contents (Elt F)) (b3 : (⟨S64, .f32⟩ : BufTy).Contents (Elt F)) (w4 : (⟨S64x64, .f32⟩ : BufTy).Contents (Elt F)) (b4 : (⟨S64, .f32⟩ : BufTy).Contents (Elt F)) :
    (⟨S65536x64, .f32⟩ : BufTy).Contents (Elt F) :=
  let v1 : (⟨S1048576, .i32⟩ : BufTy).Contents (Elt F) := (shapeCast S1048576 (((extractStridedSlice S1x1048576 ![0, 0] · slices_S2x1048576_S1x1048576_0_0) : (⟨S2x1048576, .i32⟩ : BufTy).Contents (Elt F) → (⟨S1x1048576, .i32⟩ : BufTy).Contents (Elt F)) e) shapeCasts_S1x1048576_S1048576 : (⟨S1048576, .i32⟩ : BufTy).Contents (Elt F))
  let v3 : (⟨S1048576, .i32⟩ : BufTy).Contents (Elt F) := (shapeCast S1048576 (((extractStridedSlice S1x1048576 ![1, 0] · slices_S2x1048576_S1x1048576_1_0) : (⟨S2x1048576, .i32⟩ : BufTy).Contents (Elt F) → (⟨S1x1048576, .i32⟩ : BufTy).Contents (Elt F)) e) shapeCasts_S1x1048576_S1048576 : (⟨S1048576, .i32⟩ : BufTy).Contents (Elt F))
  let v26 : (⟨S65536x64, .f32⟩ : BufTy).Contents (Elt F) := ((maximumf : (⟨S65536x64, .f32⟩ : BufTy).Contents (Elt F) → (⟨S65536x64, .f32⟩ : BufTy).Contents (Elt F) → (⟨S65536x64, .f32⟩ : BufTy).Contents (Elt F)) ((addf : (⟨S65536x64, .f32⟩ : BufTy).Contents (Elt F) → (⟨S65536x64, .f32⟩ : BufTy).Contents (Elt F) → (⟨S65536x64, .f32⟩ : BufTy).Contents (Elt F)) (((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)) ((maximumf : (⟨S65536x64, .f32⟩ : BufTy).Contents (Elt F) → (⟨S65536x64, .f32⟩ : BufTy).Contents (Elt F) → (⟨S65536x64, .f32⟩ : BufTy).Contents (Elt F)) ((addf : (⟨S65536x64, .f32⟩ : BufTy).Contents (Elt F) → (⟨S65536x64, .f32⟩ : BufTy).Contents (Elt F) → (⟨S65536x64, .f32⟩ : BufTy).Contents (Elt F)) (((fun l r => Host.dotGeneral dot_S65536x128_S128x64_S65536x64_1_0_0_1_n_n none l r) : (⟨S65536x128, .f32⟩ : BufTy).Contents (Elt F) → (⟨S128x64, .f32⟩ : BufTy).Contents (Elt F) → (⟨S65536x64, .f32⟩ : BufTy).Contents (Elt F)) ((addf : (⟨S65536x128, .f32⟩ : BufTy).Contents (Elt F) → (⟨S65536x128, .f32⟩ : BufTy).Contents (Elt F) → (⟨S65536x128, .f32⟩ : BufTy).Contents (Elt F)) x (((fun x i u => Host.scatterAdd scatter_S65536x128_S1048576x1_S1048576x128_1_0_0_1 x i u) : (⟨S65536x128, .f32⟩ : BufTy).Contents (Elt F) → (⟨S1048576x1, .i32⟩ : BufTy).Contents (Elt F) → (⟨S1048576x128, .f32⟩ : BufTy).Contents (Elt F) → (⟨S65536x128, .f32⟩ : BufTy).Contents (Elt F)) ((broadcastInDim S65536x128 ![] bcast_S_S65536x128 : (⟨S_, .f32⟩ : BufTy).Contents (Elt F) → (⟨S65536x128, .f32⟩ : BufTy).Contents (Elt F)) (constant S_ .f32 0x00000000#32 : (⟨S_, .f32⟩ : BufTy).Contents (Elt F))) ((broadcastInDim S1048576x1 ![0] bcast_S1048576_S1048576x1_0 : (⟨S1048576, .i32⟩ : BufTy).Contents (Elt F) → (⟨S1048576x1, .i32⟩ : BufTy).Contents (Elt F)) v3) (((fun x i => Host.gather gather_S65536x128_S1048576x1_S1048576x128_1_0_n_n_0_1_1128 x i) : (⟨S65536x128, .f32⟩ : BufTy).Contents (Elt F) → (⟨S1048576x1, .i32⟩ : BufTy).Contents (Elt F) → (⟨S1048576x128, .f32⟩ : BufTy).Contents (Elt F)) x ((broadcastInDim S1048576x1 ![0] bcast_S1048576_S1048576x1_0 : (⟨S1048576, .i32⟩ : BufTy).Contents (Elt F) → (⟨S1048576x1, .i32⟩ : BufTy).Contents (Elt F)) ((select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ((cmpi .slt : (⟨S1048576, .i32⟩ : BufTy).Contents (Elt F) → (⟨S1048576, .i32⟩ : BufTy).Contents (Elt F) → (⟨S1048576, .i1⟩ : BufTy).Contents (Elt F)) v1 ((broadcastInDim S1048576 ![] bcast_S_S1048576 : (⟨S_, .i32⟩ : BufTy).Contents (Elt F) → (⟨S1048576, .i32⟩ : BufTy).Contents (Elt F)) (constantI S_ 32 0#32 : (⟨S_, .i32⟩ : BufTy).Contents (Elt F)))) ((addi : (⟨S1048576, .i32⟩ : BufTy).Contents (Elt F) → (⟨S1048576, .i32⟩ : BufTy).Contents (Elt F) → (⟨S1048576, .i32⟩ : BufTy).Contents (Elt F)) v1 ((broadcastInDim S1048576 ![] bcast_S_S1048576 : (⟨S_, .i32⟩ : BufTy).Contents (Elt F) → (⟨S1048576, .i32⟩ : BufTy).Contents (Elt F)) (constantI S_ 32 65536#32 : (⟨S_, .i32⟩ : BufTy).Contents (Elt F)))) v1))))) w1) ((broadcastInDim S65536x64 ![0, 1] bcast_S1x64_S65536x64_0_1 : (⟨S1x64, .f32⟩ : BufTy).Contents (Elt F) → (⟨S65536x64, .f32⟩ : BufTy).Contents (Elt F)) ((broadcastInDim S1x64 ![1] bcast_S64_S1x64_1 : (⟨S64, .f32⟩ : BufTy).Contents (Elt F) → (⟨S1x64, .f32⟩ : BufTy).Contents (Elt F)) b1))) ((broadcastInDim S65536x64 ![] bcast_S_S65536x64 : (⟨S_, .f32⟩ : BufTy).Contents (Elt F) → (⟨S65536x64, .f32⟩ : BufTy).Contents (Elt F)) (constant S_ .f32 0x00000000#32 : (⟨S_, .f32⟩ : BufTy).Contents (Elt F)))) w2) ((broadcastInDim S65536x64 ![0, 1] bcast_S1x64_S65536x64_0_1 : (⟨S1x64, .f32⟩ : BufTy).Contents (Elt F) → (⟨S65536x64, .f32⟩ : BufTy).Contents (Elt F)) ((broadcastInDim S1x64 ![1] bcast_S64_S1x64_1 : (⟨S64, .f32⟩ : BufTy).Contents (Elt F) → (⟨S1x64, .f32⟩ : BufTy).Contents (Elt F)) b2))) ((broadcastInDim S65536x64 ![] bcast_S_S65536x64 : (⟨S_, .f32⟩ : BufTy).Contents (Elt F) → (⟨S65536x64, .f32⟩ : BufTy).Contents (Elt F)) (constant S_ .f32 0x00000000#32 : (⟨S_, .f32⟩ : BufTy).Contents (Elt F))))
  ((maximumf : (⟨S65536x64, .f32⟩ : BufTy).Contents (Elt F) → (⟨S65536x64, .f32⟩ : BufTy).Contents (Elt F) → (⟨S65536x64, .f32⟩ : BufTy).Contents (Elt F)) ((addf : (⟨S65536x64, .f32⟩ : BufTy).Contents (Elt F) → (⟨S65536x64, .f32⟩ : BufTy).Contents (Elt F) → (⟨S65536x64, .f32⟩ : BufTy).Contents (Elt F)) (((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)) ((maximumf : (⟨S65536x64, .f32⟩ : BufTy).Contents (Elt F) → (⟨S65536x64, .f32⟩ : BufTy).Contents (Elt F) → (⟨S65536x64, .f32⟩ : BufTy).Contents (Elt F)) ((addf : (⟨S65536x64, .f32⟩ : BufTy).Contents (Elt F) → (⟨S65536x64, .f32⟩ : BufTy).Contents (Elt F) → (⟨S65536x64, .f32⟩ : BufTy).Contents (Elt F)) (((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)) ((addf : (⟨S65536x64, .f32⟩ : BufTy).Contents (Elt F) → (⟨S65536x64, .f32⟩ : BufTy).Contents (Elt F) → (⟨S65536x64, .f32⟩ : BufTy).Contents (Elt F)) v26 (((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)) ((broadcastInDim S65536x64 ![] bcast_S_S65536x64 : (⟨S_, .f32⟩ : BufTy).Contents (Elt F) → (⟨S65536x64, .f32⟩ : BufTy).Contents (Elt F)) (constant S_ .f32 0x00000000#32 : (⟨S_, .f32⟩ : BufTy).Contents (Elt F))) ((broadcastInDim S1048576x1 ![0] bcast_S1048576_S1048576x1_0 : (⟨S1048576, .i32⟩ : BufTy).Contents (Elt F) → (⟨S1048576x1, .i32⟩ : BufTy).Contents (Elt F)) v3) (((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)) v26 ((broadcastInDim S1048576x1 ![0] bcast_S1048576_S1048576x1_0 : (⟨S1048576, .i32⟩ : BufTy).Contents (Elt F) → (⟨S1048576x1, .i32⟩ : BufTy).Contents (Elt F)) ((select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)) ((cmpi .slt : (⟨S1048576, .i32⟩ : BufTy).Contents (Elt F) → (⟨S1048576, .i32⟩ : BufTy).Contents (Elt F) → (⟨S1048576, .i1⟩ : BufTy).Contents (Elt F)) v1 ((broadcastInDim S1048576 ![] bcast_S_S1048576 : (⟨S_, .i32⟩ : BufTy).Contents (Elt F) → (⟨S1048576, .i32⟩ : BufTy).Contents (Elt F)) (constantI S_ 32 0#32 : (⟨S_, .i32⟩ : BufTy).Contents (Elt F)))) ((addi : (⟨S1048576, .i32⟩ : BufTy).Contents (Elt F) → (⟨S1048576, .i32⟩ : BufTy).Contents (Elt F) → (⟨S1048576, .i32⟩ : BufTy).Contents (Elt F)) v1 ((broadcastInDim S1048576 ![] bcast_S_S1048576 : (⟨S_, .i32⟩ : BufTy).Contents (Elt F) → (⟨S1048576, .i32⟩ : BufTy).Contents (Elt F)) (constantI S_ 32 65536#32 : (⟨S_, .i32⟩ : BufTy).Contents (Elt F)))) v1))))) w3) ((broadcastInDim S65536x64 ![0, 1] bcast_S1x64_S65536x64_0_1 : (⟨S1x64, .f32⟩ : BufTy).Contents (Elt F) → (⟨S65536x64, .f32⟩ : BufTy).Contents (Elt F)) ((broadcastInDim S1x64 ![1] bcast_S64_S1x64_1 : (⟨S64, .f32⟩ : BufTy).Contents (Elt F) → (⟨S1x64, .f32⟩ : BufTy).Contents (Elt F)) b3))) ((broadcastInDim S65536x64 ![] bcast_S_S65536x64 : (⟨S_, .f32⟩ : BufTy).Contents (Elt F) → (⟨S65536x64, .f32⟩ : BufTy).Contents (Elt F)) (constant S_ .f32 0x00000000#32 : (⟨S_, .f32⟩ : BufTy).Contents (Elt F)))) w4) ((broadcastInDim S65536x64 ![0, 1] bcast_S1x64_S65536x64_0_1 : (⟨S1x64, .f32⟩ : BufTy).Contents (Elt F) → (⟨S65536x64, .f32⟩ : BufTy).Contents (Elt F)) ((broadcastInDim S1x64 ![1] bcast_S64_S1x64_1 : (⟨S64, .f32⟩ : BufTy).Contents (Elt F) → (⟨S1x64, .f32⟩ : BufTy).Contents (Elt F)) b4))) ((broadcastInDim S65536x64 ![] bcast_S_S65536x64 : (⟨S_, .f32⟩ : BufTy).Contents (Elt F) → (⟨S65536x64, .f32⟩ : BufTy).Contents (Elt F)) (constant S_ .f32 0x00000000#32 : (⟨S_, .f32⟩ : BufTy).Contents (Elt F))))

/-- Per-graph mean of the node rows: the sum over the 512 nodes of each of the 128 graphs, divided by 512. -/
def gmean (h : (⟨S65536x64, .f32⟩ : BufTy).Contents (Elt F)) :
    (⟨S128x64, .f32⟩ : BufTy).Contents (Elt F) :=
  ((Host.divf : (⟨S128x64, .f32⟩ : BufTy).Contents (Elt F) → (⟨S128x64, .f32⟩ : BufTy).Contents (Elt F) → (⟨S128x64, .f32⟩ : BufTy).Contents (Elt F)) (((fun x v => Host.reduceAdd x v reducesTo_S128x512x64_S128x64_d1 h_S_) : (⟨S128x512x64, .f32⟩ : BufTy).Contents (Elt F) → (⟨S_, .f32⟩ : BufTy).Contents (Elt F) → (⟨S128x64, .f32⟩ : BufTy).Contents (Elt F)) (shapeCast S128x512x64 h shapeCasts_S65536x64_S128x512x64 : (⟨S128x512x64, .f32⟩ : BufTy).Contents (Elt F)) (constant S_ .f32 0x00000000#32 : (⟨S_, .f32⟩ : BufTy).Contents (Elt F))) ((broadcastInDim S128x64 ![] bcast_S_S128x64 : (⟨S_, .f32⟩ : BufTy).Contents (Elt F) → (⟨S128x64, .f32⟩ : BufTy).Contents (Elt F)) (constant S_ .f32 0x44000000#32 : (⟨S_, .f32⟩ : BufTy).Contents (Elt F))))

/-- Cosine similarities: both node tables reshaped to [128,512,64], each row divided by max(‖row‖₂, 1e-12), the batched product of the two, flattened to [128,262144]. -/
def simFlat (h1 : (⟨S65536x64, .f32⟩ : BufTy).Contents (Elt F)) (h2 : (⟨S65536x64, .f32⟩ : BufTy).Contents (Elt F)) :
    (⟨S128x262144, .f32⟩ : BufTy).Contents (Elt F) :=
  let v108 : (⟨S128x512x64, .f32⟩ : BufTy).Contents (Elt F) := (shapeCast S128x512x64 h1 shapeCasts_S65536x64_S128x512x64 : (⟨S128x512x64, .f32⟩ : BufTy).Contents (Elt F))
  let v109 : (⟨S128x512x64, .f32⟩ : BufTy).Contents (Elt F) := (shapeCast S128x512x64 h2 shapeCasts_S65536x64_S128x512x64 : (⟨S128x512x64, .f32⟩ : BufTy).Contents (Elt F))
  (shapeCast S128x262144 (((fun l r => Host.dotGeneral dot_S128x512x64_S128x512x64_S128x512x512_2_2_1_1_0_0 none l r) : (⟨S128x512x64, .f32⟩ : BufTy).Contents (Elt F) → (⟨S128x512x64, .f32⟩ : BufTy).Contents (Elt F) → (⟨S128x512x512, .f32⟩ : BufTy).Contents (Elt F)) ((Host.divf : (⟨S128x512x64, .f32⟩ : BufTy).Contents (Elt F) → (⟨S128x512x64, .f32⟩ : BufTy).Contents (Elt F) → (⟨S128x512x64, .f32⟩ : BufTy).Contents (Elt F)) v108 ((broadcastInDim S128x512x64 ![0, 1, 2] bcast_S128x512x1_S128x512x64_0_1_2 : (⟨S128x512x1, .f32⟩ : BufTy).Contents (Elt F) → (⟨S128x512x64, .f32⟩ : BufTy).Contents (Elt F)) ((maximumf : (⟨S128x512x1, .f32⟩ : BufTy).Contents (Elt F) → (⟨S128x512x1, .f32⟩ : BufTy).Contents (Elt F) → (⟨S128x512x1, .f32⟩ : BufTy).Contents (Elt F)) ((Host.sqrt : (⟨S128x512x1, .f32⟩ : BufTy).Contents (Elt F) → (⟨S128x512x1, .f32⟩ : BufTy).Contents (Elt F)) ((broadcastInDim S128x512x1 ![0, 1] bcast_S128x512_S128x512x1_0_1 : (⟨S128x512, .f32⟩ : BufTy).Contents (Elt F) → (⟨S128x512x1, .f32⟩ : BufTy).Contents (Elt F)) ((fun x v => Host.reduceAdd x v reducesTo_S128x512x64_S128x512_d2 h_S_ : (⟨S128x512x64, .f32⟩ : BufTy).Contents (Elt F) → (⟨S_, .f32⟩ : BufTy).Contents (Elt F) → (⟨S128x512, .f32⟩ : BufTy).Contents (Elt F)) ((mulf : (⟨S128x512x64, .f32⟩ : BufTy).Contents (Elt F) → (⟨S128x512x64, .f32⟩ : BufTy).Contents (Elt F) → (⟨S128x512x64, .f32⟩ : BufTy).Contents (Elt F)) v108 v108) (constant S_ .f32 0x00000000#32 : (⟨S_, .f32⟩ : BufTy).Contents (Elt F))))) ((broadcastInDim S128x512x1 ![] bcast_S_S128x512x1 : (⟨S_, .f32⟩ : BufTy).Contents (Elt F) → (⟨S128x512x1, .f32⟩ : BufTy).Contents (Elt F)) (constant S_ .f32 0x2B8CBCCC#32 : (⟨S_, .f32⟩ : BufTy).Contents (Elt F)))))) ((Host.divf : (⟨S128x512x64, .f32⟩ : BufTy).Contents (Elt F) → (⟨S128x512x64, .f32⟩ : BufTy).Contents (Elt F) → (⟨S128x512x64, .f32⟩ : BufTy).Contents (Elt F)) v109 ((broadcastInDim S128x512x64 ![0, 1, 2] bcast_S128x512x1_S128x512x64_0_1_2 : (⟨S128x512x1, .f32⟩ : BufTy).Contents (Elt F) → (⟨S128x512x64, .f32⟩ : BufTy).Contents (Elt F)) ((maximumf : (⟨S128x512x1, .f32⟩ : BufTy).Contents (Elt F) → (⟨S128x512x1, .f32⟩ : BufTy).Contents (Elt F) → (⟨S128x512x1, .f32⟩ : BufTy).Contents (Elt F)) ((Host.sqrt : (⟨S128x512x1, .f32⟩ : BufTy).Contents (Elt F) → (⟨S128x512x1, .f32⟩ : BufTy).Contents (Elt F)) ((broadcastInDim S128x512x1 ![0, 1] bcast_S128x512_S128x512x1_0_1 : (⟨S128x512, .f32⟩ : BufTy).Contents (Elt F) → (⟨S128x512x1, .f32⟩ : BufTy).Contents (Elt F)) ((fun x v => Host.reduceAdd x v reducesTo_S128x512x64_S128x512_d2 h_S_ : (⟨S128x512x64, .f32⟩ : BufTy).Contents (Elt F) → (⟨S_, .f32⟩ : BufTy).Contents (Elt F) → (⟨S128x512, .f32⟩ : BufTy).Contents (Elt F)) ((mulf : (⟨S128x512x64, .f32⟩ : BufTy).Contents (Elt F) → (⟨S128x512x64, .f32⟩ : BufTy).Contents (Elt F) → (⟨S128x512x64, .f32⟩ : BufTy).Contents (Elt F)) v109 v109) (constant S_ .f32 0x00000000#32 : (⟨S_, .f32⟩ : BufTy).Contents (Elt F))))) ((broadcastInDim S128x512x1 ![] bcast_S_S128x512x1 : (⟨S_, .f32⟩ : BufTy).Contents (Elt F) → (⟨S128x512x1, .f32⟩ : BufTy).Contents (Elt F)) (constant S_ .f32 0x2B8CBCCC#32 : (⟨S_, .f32⟩ : BufTy).Contents (Elt F))))))) shapeCasts_S128x512x512_S128x262144 : (⟨S128x262144, .f32⟩ : BufTy).Contents (Elt F))

/-- The bin of each similarity: floor((s+1)·8) clamped to [0,15], as a 32-bit integer. -/
def binIdx (flat : (⟨S128x262144, .f32⟩ : BufTy).Contents (Elt F)) :
    (⟨S128x262144, .i32⟩ : BufTy).Contents (Elt F) :=
  ((fptosi 32 : (⟨S128x262144, .f32⟩ : BufTy).Contents (Elt F) → (⟨S128x262144, .i32⟩ : BufTy).Contents (Elt F)) ((minimumf : (⟨S128x262144, .f32⟩ : BufTy).Contents (Elt F) → (⟨S128x262144, .f32⟩ : BufTy).Contents (Elt F) → (⟨S128x262144, .f32⟩ : BufTy).Contents (Elt F)) ((broadcastInDim S128x262144 ![] bcast_S_S128x262144 : (⟨S_, .f32⟩ : BufTy).Contents (Elt F) → (⟨S128x262144, .f32⟩ : BufTy).Contents (Elt F)) ((sitofp .f32 : (⟨S_, .i32⟩ : BufTy).Contents (Elt F) → (⟨S_, .f32⟩ : BufTy).Contents (Elt F)) (constantI S_ 32 15#32 : (⟨S_, .i32⟩ : BufTy).Contents (Elt F)))) ((maximumf : (⟨S128x262144, .f32⟩ : BufTy).Contents (Elt F) → (⟨S128x262144, .f32⟩ : BufTy).Contents (Elt F) → (⟨S128x262144, .f32⟩ : BufTy).Contents (Elt F)) ((broadcastInDim S128x262144 ![] bcast_S_S128x262144 : (⟨S_, .f32⟩ : BufTy).Contents (Elt F) → (⟨S128x262144, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F)))) ((Host.floor : (⟨S128x262144, .f32⟩ : BufTy).Contents (Elt F) → (⟨S128x262144, .f32⟩ : BufTy).Contents (Elt F)) ((mulf : (⟨S128x262144, .f32⟩ : BufTy).Contents (Elt F) → (⟨S128x262144, .f32⟩ : BufTy).Contents (Elt F) → (⟨S128x262144, .f32⟩ : BufTy).Contents (Elt F)) ((addf : (⟨S128x262144, .f32⟩ : BufTy).Contents (Elt F) → (⟨S128x262144, .f32⟩ : BufTy).Contents (Elt F) → (⟨S128x262144, .f32⟩ : BufTy).Contents (Elt F)) flat ((broadcastInDim S128x262144 ![] bcast_S_S128x262144 : (⟨S_, .f32⟩ : BufTy).Contents (Elt F) → (⟨S128x262144, .f32⟩ : BufTy).Contents (Elt F)) (constant S_ .f32 0x3F800000#32 : (⟨S_, .f32⟩ : BufTy).Contents (Elt F)))) ((broadcastInDim S128x262144 ![] bcast_S_S128x262144 : (⟨S_, .f32⟩ : BufTy).Contents (Elt F) → (⟨S128x262144, .f32⟩ : BufTy).Contents (Elt F)) (constant S_ .f32 0x41000000#32 : (⟨S_, .f32⟩ : BufTy).Contents (Elt F))))))))

/-- Counts per (graph, bin): ones scatter-added into 2048 cells keyed graph·16 + bin, reshaped to [128,16]. -/
def histRaw (b : (⟨S128x262144, .i32⟩ : BufTy).Contents (Elt F)) :
    (⟨S128x16, .f32⟩ : BufTy).Contents (Elt F) :=
  (shapeCast S128x16 (((fun x i u => Host.scatterAdd scatter_S2048_S33554432x1_S33554432_n_0_0_1 x i u) : (⟨S2048, .f32⟩ : BufTy).Contents (Elt F) → (⟨S33554432x1, .i32⟩ : BufTy).Contents (Elt F) → (⟨S33554432, .f32⟩ : BufTy).Contents (Elt F) → (⟨S2048, .f32⟩ : BufTy).Contents (Elt F)) ((broadcastInDim S2048 ![] bcast_S_S2048 : (⟨S_, .f32⟩ : BufTy).Contents (Elt F) → (⟨S2048, .f32⟩ : BufTy).Contents (Elt F)) (constant S_ .f32 0x00000000#32 : (⟨S_, .f32⟩ : BufTy).Contents (Elt F))) ((broadcastInDim S33554432x1 ![0] bcast_S33554432_S33554432x1_0 : (⟨S33554432, .i32⟩ : BufTy).Contents (Elt F) → (⟨S33554432x1, .i32⟩ : BufTy).Contents (Elt F)) (shapeCast S33554432 ((addi : (⟨S128x262144, .i32⟩ : BufTy).Contents (Elt F) → (⟨S128x262144, .i32⟩ : BufTy).Contents (Elt F) → (⟨S128x262144, .i32⟩ : BufTy).Contents (Elt F)) ((broadcastInDim S128x262144 ![0, 1] bcast_S128x1_S128x262144_0_1 : (⟨S128x1, .i32⟩ : BufTy).Contents (Elt F) → (⟨S128x262144, .i32⟩ : BufTy).Contents (Elt F)) ((muli : (⟨S128x1, .i32⟩ : BufTy).Contents (Elt F) → (⟨S128x1, .i32⟩ : BufTy).Contents (Elt F) → (⟨S128x1, .i32⟩ : BufTy).Contents (Elt F)) ((broadcastInDim S128x1 ![0] bcast_S128_S128x1_0 : (⟨S128, .i32⟩ : BufTy).Contents (Elt F) → (⟨S128x1, .i32⟩ : BufTy).Contents (Elt F)) (iotaInDim S128 32 0 : (⟨S128, .i32⟩ : BufTy).Contents (Elt F))) ((broadcastInDim S128x1 ![] bcast_S_S128x1 : (⟨S_, .i32⟩ : BufTy).Contents (Elt F) → (⟨S128x1, .i32⟩ : BufTy).Contents (Elt F)) (constantI S_ 32 16#32 : (⟨S_, .i32⟩ : BufTy).Contents (Elt F))))) b) shapeCasts_S128x262144_S33554432 : (⟨S33554432, .i32⟩ : BufTy).Contents (Elt F))) ((broadcastInDim S33554432 ![] bcast_S_S33554432 : (⟨S_, .f32⟩ : BufTy).Contents (Elt F) → (⟨S33554432, .f32⟩ : BufTy).Contents (Elt F)) (constant S_ .f32 0x3F800000#32 : (⟨S_, .f32⟩ : BufTy).Contents (Elt F)))) shapeCasts_S2048_S128x16 : (⟨S128x16, .f32⟩ : BufTy).Contents (Elt F))

/-- The normalizer of each graph's histogram: max(row sum, 1), as a column. -/
def histDen (b : (⟨S128x262144, .i32⟩ : BufTy).Contents (Elt F)) :
    (⟨S128x1, .f32⟩ : BufTy).Contents (Elt F) :=
  ((maximumf : (⟨S128x1, .f32⟩ : BufTy).Contents (Elt F) → (⟨S128x1, .f32⟩ : BufTy).Contents (Elt F) → (⟨S128x1, .f32⟩ : BufTy).Contents (Elt F)) ((broadcastInDim S128x1 ![0] bcast_S128_S128x1_0 : (⟨S128, .f32⟩ : BufTy).Contents (Elt F) → (⟨S128x1, .f32⟩ : BufTy).Contents (Elt F)) (((fun x v => Host.reduceAdd x v reducesTo_S128x16_S128_d1 h_S_) : (⟨S128x16, .f32⟩ : BufTy).Contents (Elt F) → (⟨S_, .f32⟩ : BufTy).Contents (Elt F) → (⟨S128, .f32⟩ : BufTy).Contents (Elt F)) (histRaw b) (constant S_ .f32 0x00000000#32 : (⟨S_, .f32⟩ : BufTy).Contents (Elt F)))) ((broadcastInDim S128x1 ![] bcast_S_S128x1 : (⟨S_, .f32⟩ : BufTy).Contents (Elt F) → (⟨S128x1, .f32⟩ : BufTy).Contents (Elt F)) (constant S_ .f32 0x3F800000#32 : (⟨S_, .f32⟩ : BufTy).Contents (Elt F))))

/-- A table of counts divided, row by row, by its normalizer column. -/
def histFin (r : (⟨S128x16, .f32⟩ : BufTy).Contents (Elt F)) (d : (⟨S128x1, .f32⟩ : BufTy).Contents (Elt F)) :
    (⟨S128x16, .f32⟩ : BufTy).Contents (Elt F) :=
  ((Host.divf : (⟨S128x16, .f32⟩ : BufTy).Contents (Elt F) → (⟨S128x16, .f32⟩ : BufTy).Contents (Elt F) → (⟨S128x16, .f32⟩ : BufTy).Contents (Elt F)) r ((broadcastInDim S128x16 ![0, 1] bcast_S128x1_S128x16_0_1 : (⟨S128x1, .f32⟩ : BufTy).Contents (Elt F) → (⟨S128x16, .f32⟩ : BufTy).Contents (Elt F)) d))

/-- The normalized histogram of a table of bins. -/
def histB (b : (⟨S128x262144, .i32⟩ : BufTy).Contents (Elt F)) :
    (⟨S128x16, .f32⟩ : BufTy).Contents (Elt F) :=
  histFin (histRaw b) (histDen b)

/-- The normalized 16-bin histogram of each graph's similarities. -/
def histN (flat : (⟨S128x262144, .f32⟩ : BufTy).Contents (Elt F)) :
    (⟨S128x16, .f32⟩ : BufTy).Contents (Elt F) :=
  histB (binIdx flat)

/-- The mean of each graph's 262144 similarities. -/
def meanF (flat : (⟨S128x262144, .f32⟩ : BufTy).Contents (Elt F)) :
    (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S128x262144_S128_d1 h_S_) : (⟨S128x262144, .f32⟩ : BufTy).Contents (Elt F) → (⟨S_, .f32⟩ : BufTy).Contents (Elt F) → (⟨S128, .f32⟩ : BufTy).Contents (Elt F)) flat (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) (constant S_ .f32 0x48800000#32 : (⟨S_, .f32⟩ : BufTy).Contents (Elt F))))

/-- The maximum of each graph's similarities (the fold of max from -∞). -/
def maxF (flat : (⟨S128x262144, .f32⟩ : BufTy).Contents (Elt F)) :
    (⟨S128, .f32⟩ : BufTy).Contents (Elt F) :=
  (((fun x v => Host.reduce FloatOps.maximumf x v reducesTo_S128x262144_S128_d1 h_S_) : (⟨S128x262144, .f32⟩ : BufTy).Contents (Elt F) → (⟨S_, .f32⟩ : BufTy).Contents (Elt F) → (⟨S128, .f32⟩ : BufTy).Contents (Elt F)) flat (constant S_ .f32 0xFF800000#32 : (⟨S_, .f32⟩ : BufTy).Contents (Elt F)))

/-- The standard deviation of each graph's similarities: the square root of the mean squared deviation over 262144 - 0 terms, selected against the quiet-NaN literal where that divisor is not positive. -/
def stdF (flat : (⟨S128x262144, .f32⟩ : BufTy).Contents (Elt F)) :
    (⟨S128, .f32⟩ : BufTy).Contents (Elt F) :=
  let call3_call0_v5 : (⟨S128x262144, .f32⟩ : BufTy).Contents (Elt F) := ((subf : (⟨S128x262144, .f32⟩ : BufTy).Contents (Elt F) → (⟨S128x262144, .f32⟩ : BufTy).Contents (Elt F) → (⟨S128x262144, .f32⟩ : BufTy).Contents (Elt F)) flat ((broadcastInDim S128x262144 ![0, 1] bcast_S128x1_S128x262144_0_1 : (⟨S128x1, .f32⟩ : BufTy).Contents (Elt F) → (⟨S128x262144, .f32⟩ : BufTy).Contents (Elt F)) ((Host.divf : (⟨S128x1, .f32⟩ : BufTy).Contents (Elt F) → (⟨S128x1, .f32⟩ : BufTy).Contents (Elt F) → (⟨S128x1, .f32⟩ : BufTy).Contents (Elt F)) ((broadcastInDim S128x1 ![0] bcast_S128_S128x1_0 : (⟨S128, .f32⟩ : BufTy).Contents (Elt F) → (⟨S128x1, .f32⟩ : BufTy).Contents (Elt F)) ((fun x v => Host.reduceAdd x v reducesTo_S128x262144_S128_d1 h_S_ : (⟨S128x262144, .f32⟩ : BufTy).Contents (Elt F) → (⟨S_, .f32⟩ : BufTy).Contents (Elt F) → (⟨S128, .f32⟩ : BufTy).Contents (Elt F)) flat (constant S_ .f32 0x00000000#32 : (⟨S_, .f32⟩ : BufTy).Contents (Elt F)))) ((broadcastInDim S128x1 ![] bcast_S_S128x1 : (⟨S_, .f32⟩ : BufTy).Contents (Elt F) → (⟨S128x1, .f32⟩ : BufTy).Contents (Elt F)) (constant S_ .f32 0x48800000#32 : (⟨S_, .f32⟩ : BufTy).Contents (Elt F))))))
  let call3_call0_v8 : (⟨S_, .f32⟩ : BufTy).Contents (Elt F) := ((subf : (⟨S_, .f32⟩ : BufTy).Contents (Elt F) → (⟨S_, .f32⟩ : BufTy).Contents (Elt F) → (⟨S_, .f32⟩ : BufTy).Contents (Elt F)) (constant S_ .f32 0x48800000#32 : (⟨S_, .f32⟩ : BufTy).Contents (Elt F)) ((sitofp .f32 : (⟨S_, .i32⟩ : BufTy).Contents (Elt F) → (⟨S_, .f32⟩ : BufTy).Contents (Elt F)) (constantI S_ 32 0#32 : (⟨S_, .i32⟩ : BufTy).Contents (Elt F))))
  ((Host.sqrt : (⟨S128, .f32⟩ : BufTy).Contents (Elt F) → (⟨S128, .f32⟩ : BufTy).Contents (Elt F)) ((fun p a b => select (broadcastInDim S128 ![] bcast_S_S128 p) a b : (⟨S_, .i1⟩ : BufTy).Contents (Elt F) → (⟨S128, .f32⟩ : BufTy).Contents (Elt F) → (⟨S128, .f32⟩ : BufTy).Contents (Elt F) → (⟨S128, .f32⟩ : BufTy).Contents (Elt F)) ((cmpf .ogt : (⟨S_, .f32⟩ : BufTy).Contents (Elt F) → (⟨S_, .f32⟩ : BufTy).Contents (Elt F) → (⟨S_, .i1⟩ : BufTy).Contents (Elt F)) call3_call0_v8 (constant S_ .f32 0x00000000#32 : (⟨S_, .f32⟩ : BufTy).Contents (Elt F))) ((Host.divf : (⟨S128, .f32⟩ : BufTy).Contents (Elt F) → (⟨S128, .f32⟩ : BufTy).Contents (Elt F) → (⟨S128, .f32⟩ : BufTy).Contents (Elt F)) ((fun x v => Host.reduceAdd x v reducesTo_S128x262144_S128_d1 h_S_ : (⟨S128x262144, .f32⟩ : BufTy).Contents (Elt F) → (⟨S_, .f32⟩ : BufTy).Contents (Elt F) → (⟨S128, .f32⟩ : BufTy).Contents (Elt F)) ((mulf : (⟨S128x262144, .f32⟩ : BufTy).Contents (Elt F) → (⟨S128x262144, .f32⟩ : BufTy).Contents (Elt F) → (⟨S128x262144, .f32⟩ : BufTy).Contents (Elt F)) call3_call0_v5 call3_call0_v5) (constant S_ .f32 0x00000000#32 : (⟨S_, .f32⟩ : BufTy).Contents (Elt F))) ((broadcastInDim S128 ![] bcast_S_S128 : (⟨S_, .f32⟩ : BufTy).Contents (Elt F) → (⟨S128, .f32⟩ : BufTy).Contents (Elt F)) call3_call0_v8)) ((broadcastInDim S128 ![] bcast_S_S128 : (⟨S_, .f32⟩ : BufTy).Contents (Elt F) → (⟨S128, .f32⟩ : BufTy).Contents (Elt F)) ((id : (⟨S_, .f32⟩ : BufTy).Contents (Elt F) → (⟨S_, .f32⟩ : BufTy).Contents (Elt F)) (constant S_ .f32 0x7FC00000#32 : (⟨S_, .f32⟩ : BufTy).Contents (Elt F))))))

/-- The feature rows: [g1 | g2 | histogram | mean, max, std], 147 columns. -/
def feat (g1 : (⟨S128x64, .f32⟩ : BufTy).Contents (Elt F)) (g2 : (⟨S128x64, .f32⟩ : BufTy).Contents (Elt F)) (hist : (⟨S128x16, .f32⟩ : BufTy).Contents (Elt F)) (mean : (⟨S128, .f32⟩ : BufTy).Contents (Elt F)) (mx : (⟨S128, .f32⟩ : BufTy).Contents (Elt F)) (sd : (⟨S128, .f32⟩ : BufTy).Contents (Elt F)) :
    (⟨S128x147, .f32⟩ : BufTy).Contents (Elt F) :=
  (concatenate S128x147 1 [⟨S128x64, g1⟩, ⟨S128x64, g2⟩, ⟨S128x19, (((fun a b => concatenate S128x19 1 [⟨S128x16, a⟩, ⟨S128x3, b⟩] concatenates_S128x16_S128x3_S128x19_d1) : (⟨S128x16, .f32⟩ : BufTy).Contents (Elt F) → (⟨S128x3, .f32⟩ : BufTy).Contents (Elt F) → (⟨S128x19, .f32⟩ : BufTy).Contents (Elt F)) hist (concatenate S128x3 1 [⟨S128x1, ((broadcastInDim S128x1 ![0] bcast_S128_S128x1_0 : (⟨S128, .f32⟩ : BufTy).Contents (Elt F) → (⟨S128x1, .f32⟩ : BufTy).Contents (Elt F)) mean)⟩, ⟨S128x1, ((broadcastInDim S128x1 ![0] bcast_S128_S128x1_0 : (⟨S128, .f32⟩ : BufTy).Contents (Elt F) → (⟨S128x1, .f32⟩ : BufTy).Contents (Elt F)) mx)⟩, ⟨S128x1, ((broadcastInDim S128x1 ![0] bcast_S128_S128x1_0 : (⟨S128, .f32⟩ : BufTy).Contents (Elt F) → (⟨S128x1, .f32⟩ : BufTy).Contents (Elt F)) sd)⟩] concatenates_S128x1_S128x1_S128x1_S128x3_d1 : (⟨S128x3, .f32⟩ : BufTy).Contents (Elt F)))⟩] concatenates_S128x64_S128x64_S128x19_S128x147_d1 : (⟨S128x147, .f32⟩ : BufTy).Contents (Elt F))

/-- Three dense layers (max(·, 0) after the first two), the last of width one, reshaped to a vector. -/
def mlp (f : (⟨S128x147, .f32⟩ : BufTy).Contents (Elt F)) (w1 : (⟨S147x64, .f32⟩ : BufTy).Contents (Elt F)) (b1 : (⟨S64, .f32⟩ : BufTy).Contents (Elt F)) (w2 : (⟨S64x32, .f32⟩ : BufTy).Contents (Elt F)) (b2 : (⟨S32, .f32⟩ : BufTy).Contents (Elt F)) (w3 : (⟨S32x1, .f32⟩ : BufTy).Contents (Elt F)) (b3 : (⟨S1, .f32⟩ : BufTy).Contents (Elt F)) :
    (⟨S128, .f32⟩ : BufTy).Contents (Elt F) :=
  (shapeCast S128 ((addf : (⟨S128x1, .f32⟩ : BufTy).Contents (Elt F) → (⟨S128x1, .f32⟩ : BufTy).Contents (Elt F) → (⟨S128x1, .f32⟩ : BufTy).Contents (Elt F)) (((fun l r => Host.dotGeneral dot_S128x32_S32x1_S128x1_1_0_0_1_n_n none l r) : (⟨S128x32, .f32⟩ : BufTy).Contents (Elt F) → (⟨S32x1, .f32⟩ : BufTy).Contents (Elt F) → (⟨S128x1, .f32⟩ : BufTy).Contents (Elt F)) ((maximumf : (⟨S128x32, .f32⟩ : BufTy).Contents (Elt F) → (⟨S128x32, .f32⟩ : BufTy).Contents (Elt F) → (⟨S128x32, .f32⟩ : BufTy).Contents (Elt F)) ((addf : (⟨S128x32, .f32⟩ : BufTy).Contents (Elt F) → (⟨S128x32, .f32⟩ : BufTy).Contents (Elt F) → (⟨S128x32, .f32⟩ : BufTy).Contents (Elt F)) (((fun l r => Host.dotGeneral dot_S128x64_S64x32_S128x32_1_0_0_1_n_n none l r) : (⟨S128x64, .f32⟩ : BufTy).Contents (Elt F) → (⟨S64x32, .f32⟩ : BufTy).Contents (Elt F) → (⟨S128x32, .f32⟩ : BufTy).Contents (Elt F)) ((maximumf : (⟨S128x64, .f32⟩ : BufTy).Contents (Elt F) → (⟨S128x64, .f32⟩ : BufTy).Contents (Elt F) → (⟨S128x64, .f32⟩ : BufTy).Contents (Elt F)) ((addf : (⟨S128x64, .f32⟩ : BufTy).Contents (Elt F) → (⟨S128x64, .f32⟩ : BufTy).Contents (Elt F) → (⟨S128x64, .f32⟩ : BufTy).Contents (Elt F)) (((fun l r => Host.dotGeneral dot_S128x147_S147x64_S128x64_1_0_0_1_n_n none l r) : (⟨S128x147, .f32⟩ : BufTy).Contents (Elt F) → (⟨S147x64, .f32⟩ : BufTy).Contents (Elt F) → (⟨S128x64, .f32⟩ : BufTy).Contents (Elt F)) f w1) ((broadcastInDim S128x64 ![0, 1] bcast_S1x64_S128x64_0_1 : (⟨S1x64, .f32⟩ : BufTy).Contents (Elt F) → (⟨S128x64, .f32⟩ : BufTy).Contents (Elt F)) ((broadcastInDim S1x64 ![1] bcast_S64_S1x64_1 : (⟨S64, .f32⟩ : BufTy).Contents (Elt F) → (⟨S1x64, .f32⟩ : BufTy).Contents (Elt F)) b1))) ((broadcastInDim S128x64 ![] bcast_S_S128x64 : (⟨S_, .f32⟩ : BufTy).Contents (Elt F) → (⟨S128x64, .f32⟩ : BufTy).Contents (Elt F)) (constant S_ .f32 0x00000000#32 : (⟨S_, .f32⟩ : BufTy).Contents (Elt F)))) w2) ((broadcastInDim S128x32 ![0, 1] bcast_S1x32_S128x32_0_1 : (⟨S1x32, .f32⟩ : BufTy).Contents (Elt F) → (⟨S128x32, .f32⟩ : BufTy).Contents (Elt F)) ((broadcastInDim S1x32 ![1] bcast_S32_S1x32_1 : (⟨S32, .f32⟩ : BufTy).Contents (Elt F) → (⟨S1x32, .f32⟩ : BufTy).Contents (Elt F)) b2))) ((broadcastInDim S128x32 ![] bcast_S_S128x32 : (⟨S_, .f32⟩ : BufTy).Contents (Elt F) → (⟨S128x32, .f32⟩ : BufTy).Contents (Elt F)) (constant S_ .f32 0x00000000#32 : (⟨S_, .f32⟩ : BufTy).Contents (Elt F)))) w3) ((broadcastInDim S128x1 ![0, 1] bcast_S1x1_S128x1_0_1 : (⟨S1x1, .f32⟩ : BufTy).Contents (Elt F) → (⟨S128x1, .f32⟩ : BufTy).Contents (Elt F)) ((broadcastInDim S1x1 ![1] bcast_S1_S1x1_1 : (⟨S1, .f32⟩ : BufTy).Contents (Elt F) → (⟨S1x1, .f32⟩ : BufTy).Contents (Elt F)) b3))) shapeCasts_S128x1_S128 : (⟨S128, .f32⟩ : BufTy).Contents (Elt F))

/-- The reference's result as a function of the arguments it reads. -/
def result (a0 : (⟨S65536x128, .f32⟩ : BufTy).Contents (Elt F)) (a1 : (⟨S2x1048576, .i32⟩ : BufTy).Contents (Elt F)) (a3 : (⟨S65536x128, .f32⟩ : BufTy).Contents (Elt F)) (a4 : (⟨S2x1048576, .i32⟩ : BufTy).Contents (Elt F)) (a6 : (⟨S128x64, .f32⟩ : BufTy).Contents (Elt F)) (a7 : (⟨S64, .f32⟩ : BufTy).Contents (Elt F)) (a8 : (⟨S64x64, .f32⟩ : BufTy).Contents (Elt F)) (a9 : (⟨S64, .f32⟩ : BufTy).Contents (Elt F)) (a10 : (⟨S64x64, .f32⟩ : BufTy).Contents (Elt F)) (a11 : (⟨S64, .f32⟩ : BufTy).Contents (Elt F)) (a12 : (⟨S64x64, .f32⟩ : BufTy).Contents (Elt F)) (a13 : (⟨S64, .f32⟩ : BufTy).Contents (Elt F)) (a14 : (⟨S147x64, .f32⟩ : BufTy).Contents (Elt F)) (a15 : (⟨S64, .f32⟩ : BufTy).Contents (Elt F)) (a16 : (⟨S64x32, .f32⟩ : BufTy).Contents (Elt F)) (a17 : (⟨S32, .f32⟩ : BufTy).Contents (Elt F)) (a18 : (⟨S32x1, .f32⟩ : BufTy).Contents (Elt F)) (a19 : (⟨S1, .f32⟩ : BufTy).Contents (Elt F)) :
    (⟨S128, .f32⟩ : BufTy).Contents (Elt F) :=
  let h1 := enc a0 a1 a6 a7 a8 a9 a10 a11 a12 a13
  let h2 := enc a3 a4 a6 a7 a8 a9 a10 a11 a12 a13
  let flat := simFlat h1 h2
  mlp (feat (gmean h1) (gmean h2) (histN flat) (meanF flat) (maxF flat) (stdF flat)) a14 a15 a16 a17 a18 a19

end Cert.ReferenceIdeal.RefRun

end
-- ==== Proof.RefRunReads.lean ====
/-
  Each segment of @main's operation list read back: from any buffer contents, the contents of the
  segment's result buffer after the segment are the stage's pure function of the contents of the
  buffers the segment reads.
-/
import proofs.«115078_j84482006712593_1_alg».proof.Proof.RefRunOps
import proofs.«115078_j84482006712593_1_alg».proof.Proof.RefRunStages

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem read_enc1 (V : Valuation τ sig (Elt F)) :
    after ops_enc1 V (no_index (Proc.devRef .tc main_v49)) = enc (V (Proc.devRef .tc main_arg0)) (V (Proc.devRef .tc main_arg1)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [ops_enc1]
  after_results_simp <;> rfl

set_option maxRecDepth 8192 in
set_option maxHeartbeats 4000000 in
theorem read_enc2 (V : Valuation τ sig (Elt F)) :
    after ops_enc2 V (no_index (Proc.devRef .tc main_v99)) = enc (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  simp only [ops_enc2]
  after_results_simp <;> rfl

set_option maxRecDepth 8192 in
set_option maxHeartbeats 4000000 in
theorem read_gm1 (V : Valuation τ sig (Elt F)) :
    after ops_gm1 V (no_index (Proc.devRef .tc main_v103)) = gmean (V (Proc.devRef .tc main_v49)) := by
  simp only [ops_gm1]
  after_results_simp <;> rfl

set_option maxRecDepth 8192 in
set_option maxHeartbeats 4000000 in
theorem read_gm2 (V : Valuation τ sig (Elt F)) :
    after ops_gm2 V (no_index (Proc.devRef .tc main_v107)) = gmean (V (Proc.devRef .tc main_v99)) := by
  simp only [ops_gm2]
  after_results_simp <;> rfl

set_option maxRecDepth 8192 in
set_option maxHeartbeats 4000000 in
theorem read_sim (V : Valuation τ sig (Elt F)) :
    after ops_sim V (no_index (Proc.devRef .tc main_v121)) = simFlat (V (Proc.devRef .tc main_v49)) (V (Proc.devRef .tc main_v99)) := by
  simp only [ops_sim]
  after_results_simp <;> rfl

set_option maxRecDepth 8192 in
set_option maxHeartbeats 4000000 in
theorem read_bin (V : Valuation τ sig (Elt F)) :
    after ops_bin V (no_index (Proc.devRef .tc main_v128)) = binIdx (V (Proc.devRef .tc main_v121)) := by
  simp only [ops_bin]
  after_results_simp <;> rfl

set_option maxRecDepth 8192 in
set_option maxHeartbeats 4000000 in
theorem read_hista_raw (V : Valuation τ sig (Elt F)) :
    after ops_hista V (no_index (Proc.devRef .tc main_v140)) = histRaw (V (Proc.devRef .tc main_v128)) := by
  simp only [ops_hista]
  after_results_simp <;> rfl

set_option maxRecDepth 8192 in
set_option maxHeartbeats 4000000 in
theorem read_hista_den (V : Valuation τ sig (Elt F)) :
    after ops_hista V (no_index (Proc.devRef .tc main_v144)) = histDen (V (Proc.devRef .tc main_v128)) := by
  simp only [ops_hista]
  after_results_simp <;> rfl

set_option maxRecDepth 8192 in
set_option maxHeartbeats 4000000 in
theorem read_histb (V : Valuation τ sig (Elt F)) :
    after ops_histb V (no_index (Proc.devRef .tc main_v146)) = histFin (V (Proc.devRef .tc main_v140)) (V (Proc.devRef .tc main_v144)) := by
  simp only [ops_histb]
  after_results_simp <;> rfl

set_option maxRecDepth 8192 in
set_option maxHeartbeats 4000000 in
theorem read_mean (V : Valuation τ sig (Elt F)) :
    after ops_mean V (no_index (Proc.devRef .tc main_v149)) = meanF (V (Proc.devRef .tc main_v121)) := by
  simp only [ops_mean]
  after_results_simp <;> rfl

set_option maxRecDepth 8192 in
set_option maxHeartbeats 4000000 in
theorem read_max (V : Valuation τ sig (Elt F)) :
    after ops_max V (no_index (Proc.devRef .tc main_v150)) = maxF (V (Proc.devRef .tc main_v121)) := by
  simp only [ops_max]
  after_results_simp <;> rfl

set_option maxRecDepth 8192 in
set_option maxHeartbeats 4000000 in
theorem read_std (V : Valuation τ sig (Elt F)) :
    after ops_std V (no_index (Proc.devRef .tc main_v151)) = stdF (V (Proc.devRef .tc main_v121)) := by
  simp only [ops_std]
  after_results_simp <;> rfl

set_option maxRecDepth 8192 in
set_option maxHeartbeats 4000000 in
theorem read_feat (V : Valuation τ sig (Elt F)) :
    after ops_feat V (no_index (Proc.devRef .tc main_v157)) = feat (V (Proc.devRef .tc main_v103)) (V (Proc.devRef .tc main_v107)) (V (Proc.devRef .tc main_v146)) (V (Proc.devRef .tc main_v149)) (V (Proc.devRef .tc main_v150)) (V (Proc.devRef .tc main_v151)) := by
  simp only [ops_feat]
  after_results_simp <;> rfl

set_option maxRecDepth 8192 in
set_option maxHeartbeats 4000000 in
theorem read_mlp (V : Valuation τ sig (Elt F)) :
    after ops_mlp V (no_index (Proc.devRef .tc main_v174)) = mlp (V (Proc.devRef .tc main_v157)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  simp only [ops_mlp]
  after_results_simp <;> rfl

end Cert.ReferenceIdeal.RefRun

end
-- ==== Proof.RefRunVals.lean ====
/-
  The buffer contents after each segment of @main's operation list, from launch contents V0, and
  what the buffers later segments read hold there: an argument its launch contents, a stage's
  result buffer the stage's function of the earlier named results.
-/
import proofs.«115078_j84482006712593_1_alg».proof.Proof.RefRunWrites
import proofs.«115078_j84482006712593_1_alg».proof.Proof.RefRunReads

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `main_v49`'s value as a function of the launch contents. -/
def res_main_v49 (V0 : Valuation τ sig (Elt F)) : (⟨S65536x64, .f32⟩ : BufTy).Contents (Elt F) :=
  enc (V0 (Proc.devRef .tc main_arg0)) (V0 (Proc.devRef .tc main_arg1)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))

/-- `main_v99`'s value as a function of the launch contents. -/
def res_main_v99 (V0 : Valuation τ sig (Elt F)) : (⟨S65536x64, .f32⟩ : BufTy).Contents (Elt F) :=
  enc (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))

/-- `main_v103`'s value as a function of the launch contents. -/
def res_main_v103 (V0 : Valuation τ sig (Elt F)) : (⟨S128x64, .f32⟩ : BufTy).Contents (Elt F) :=
  gmean (res_main_v49 V0)

/-- `main_v107`'s value as a function of the launch contents. -/
def res_main_v107 (V0 : Valuation τ sig (Elt F)) : (⟨S128x64, .f32⟩ : BufTy).Contents (Elt F) :=
  gmean (res_main_v99 V0)

/-- `main_v121`'s value as a function of the launch contents. -/
def res_main_v121 (V0 : Valuation τ sig (Elt F)) : (⟨S128x262144, .f32⟩ : BufTy).Contents (Elt F) :=
  simFlat (res_main_v49 V0) (res_main_v99 V0)

/-- `main_v128`'s value as a function of the launch contents. -/
def res_main_v128 (V0 : Valuation τ sig (Elt F)) : (⟨S128x262144, .i32⟩ : BufTy).Contents (Elt F) :=
  binIdx (res_main_v121 V0)

/-- `main_v140`'s value as a function of the launch contents. -/
def res_main_v140 (V0 : Valuation τ sig (Elt F)) : (⟨S128x16, .f32⟩ : BufTy).Contents (Elt F) :=
  histRaw (res_main_v128 V0)

/-- `main_v144`'s value as a function of the launch contents. -/
def res_main_v144 (V0 : Valuation τ sig (Elt F)) : (⟨S128x1, .f32⟩ : BufTy).Contents (Elt F) :=
  histDen (res_main_v128 V0)

/-- `main_v146`'s value as a function of the launch contents. -/
def res_main_v146 (V0 : Valuation τ sig (Elt F)) : (⟨S128x16, .f32⟩ : BufTy).Contents (Elt F) :=
  histFin (res_main_v140 V0) (res_main_v144 V0)

/-- `main_v149`'s value as a function of the launch contents. -/
def res_main_v149 (V0 : Valuation τ sig (Elt F)) : (⟨S128, .f32⟩ : BufTy).Contents (Elt F) :=
  meanF (res_main_v121 V0)

/-- `main_v150`'s value as a function of the launch contents. -/
def res_main_v150 (V0 : Valuation τ sig (Elt F)) : (⟨S128, .f32⟩ : BufTy).Contents (Elt F) :=
  maxF (res_main_v121 V0)

/-- `main_v151`'s value as a function of the launch contents. -/
def res_main_v151 (V0 : Valuation τ sig (Elt F)) : (⟨S128, .f32⟩ : BufTy).Contents (Elt F) :=
  stdF (res_main_v121 V0)

/-- `main_v157`'s value as a function of the launch contents. -/
def res_main_v157 (V0 : Valuation τ sig (Elt F)) : (⟨S128x147, .f32⟩ : BufTy).Contents (Elt F) :=
  feat (res_main_v103 V0) (res_main_v107 V0) (res_main_v146 V0) (res_main_v149 V0) (res_main_v150 V0) (res_main_v151 V0)

/-- `main_v174`'s value as a function of the launch contents. -/
def res_main_v174 (V0 : Valuation τ sig (Elt F)) : (⟨S128, .f32⟩ : BufTy).Contents (Elt F) :=
  mlp (res_main_v157 V0) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19))

/-- The buffer contents before the first segment. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl
theorem val0_main_arg11 (V0 : Valuation τ sig (Elt F)) : val0 V0 (no_index (Proc.devRef .tc main_arg11)) = V0 (Proc.devRef .tc main_arg11) := rfl
theorem val0_main_arg12 (V0 : Valuation τ sig (Elt F)) : val0 V0 (no_index (Proc.devRef .tc main_arg12)) = V0 (Proc.devRef .tc main_arg12) := rfl
theorem val0_main_arg13 (V0 : Valuation τ sig (Elt F)) : val0 V0 (no_index (Proc.devRef .tc main_arg13)) = V0 (Proc.devRef .tc main_arg13) := rfl
theorem val0_main_arg14 (V0 : Valuation τ sig (Elt F)) : val0 V0 (no_index (Proc.devRef .tc main_arg14)) = V0 (Proc.devRef .tc main_arg14) := rfl
theorem val0_main_arg15 (V0 : Valuation τ sig (Elt F)) : val0 V0 (no_index (Proc.devRef .tc main_arg15)) = V0 (Proc.devRef .tc main_arg15) := rfl
theorem val0_main_arg16 (V0 : Valuation τ sig (Elt F)) : val0 V0 (no_index (Proc.devRef .tc main_arg16)) = V0 (Proc.devRef .tc main_arg16) := rfl
theorem val0_main_arg17 (V0 : Valuation τ sig (Elt F)) : val0 V0 (no_index (Proc.devRef .tc main_arg17)) = V0 (Proc.devRef .tc main_arg17) := rfl
theorem val0_main_arg18 (V0 : Valuation τ sig (Elt F)) : val0 V0 (no_index (Proc.devRef .tc main_arg18)) = V0 (Proc.devRef .tc main_arg18) := rfl
theorem val0_main_arg19 (V0 : Valuation τ sig (Elt F)) : val0 V0 (no_index (Proc.devRef .tc main_arg19)) = V0 (Proc.devRef .tc main_arg19) := rfl

/-- The buffer contents after the first 1 segment. -/
def val1 (V0 : Valuation τ sig (Elt F)) : Valuation τ sig (Elt F) := after ops_enc1 (val0 V0)
theorem val1_keep (V0 : Valuation τ sig (Elt F)) (r : Ref sig .tc) (h : r ∉ ops_enc1_W) :
    val1 V0 (Proc.devRef .tc r) = val0 V0 (Proc.devRef .tc r) :=
  after_of_writes_sub ops_enc1 _ ops_enc1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
theorem val1_main_arg11 (V0 : Valuation τ sig (Elt F)) : val1 V0 (no_index (Proc.devRef .tc main_arg11)) = V0 (Proc.devRef .tc main_arg11) :=
  (val1_keep V0 main_arg11 (by decide)).trans (val0_main_arg11 V0)
theorem val1_main_arg12 (V0 : Valuation τ sig (Elt F)) : val1 V0 (no_index (Proc.devRef .tc main_arg12)) = V0 (Proc.devRef .tc main_arg12) :=
  (val1_keep V0 main_arg12 (by decide)).trans (val0_main_arg12 V0)
theorem val1_main_arg13 (V0 : Valuation τ sig (Elt F)) : val1 V0 (no_index (Proc.devRef .tc main_arg13)) = V0 (Proc.devRef .tc main_arg13) :=
  (val1_keep V0 main_arg13 (by decide)).trans (val0_main_arg13 V0)
theorem val1_main_arg14 (V0 : Valuation τ sig (Elt F)) : val1 V0 (no_index (Proc.devRef .tc main_arg14)) = V0 (Proc.devRef .tc main_arg14) :=
  (val1_keep V0 main_arg14 (by decide)).trans (val0_main_arg14 V0)
theorem val1_main_arg15 (V0 : Valuation τ sig (Elt F)) : val1 V0 (no_index (Proc.devRef .tc main_arg15)) = V0 (Proc.devRef .tc main_arg15) :=
  (val1_keep V0 main_arg15 (by decide)).trans (val0_main_arg15 V0)
theorem val1_main_arg16 (V0 : Valuation τ sig (Elt F)) : val1 V0 (no_index (Proc.devRef .tc main_arg16)) = V0 (Proc.devRef .tc main_arg16) :=
  (val1_keep V0 main_arg16 (by decide)).trans (val0_main_arg16 V0)
theorem val1_main_arg17 (V0 : Valuation τ sig (Elt F)) : val1 V0 (no_index (Proc.devRef .tc main_arg17)) = V0 (Proc.devRef .tc main_arg17) :=
  (val1_keep V0 main_arg17 (by decide)).trans (val0_main_arg17 V0)
theorem val1_main_arg18 (V0 : Valuation τ sig (Elt F)) : val1 V0 (no_index (Proc.devRef .tc main_arg18)) = V0 (Proc.devRef .tc main_arg18) :=
  (val1_keep V0 main_arg18 (by decide)).trans (val0_main_arg18 V0)
theorem val1_main_arg19 (V0 : Valuation τ sig (Elt F)) : val1 V0 (no_index (Proc.devRef .tc main_arg19)) = V0 (Proc.devRef .tc main_arg19) :=
  (val1_keep V0 main_arg19 (by decide)).trans (val0_main_arg19 V0)
theorem val1_main_v49 (V0 : Valuation τ sig (Elt F)) : val1 V0 (no_index (Proc.devRef .tc main_v49)) = res_main_v49 V0 := by
  unfold val1
  rw [read_enc1]
  simp only [val0_main_arg0, val0_main_arg1, val0_main_arg6, val0_main_arg7, val0_main_arg8, val0_main_arg9, val0_main_arg10, val0_main_arg11, val0_main_arg12, val0_main_arg13] <;> rfl

/-- The buffer contents after the first 2 segments. -/
def val2 (V0 : Valuation τ sig (Elt F)) : Valuation τ sig (Elt F) := after ops_enc2 (val1 V0)
theorem val2_keep (V0 : Valuation τ sig (Elt F)) (r : Ref sig .tc) (h : r ∉ ops_enc2_W) :
    val2 V0 (Proc.devRef .tc r) = val1 V0 (Proc.devRef .tc r) :=
  after_of_writes_sub ops_enc2 _ ops_enc2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
theorem val2_main_arg11 (V0 : Valuation τ sig (Elt F)) : val2 V0 (no_index (Proc.devRef .tc main_arg11)) = V0 (Proc.devRef .tc main_arg11) :=
  (val2_keep V0 main_arg11 (by decide)).trans (val1_main_arg11 V0)
theorem val2_main_arg12 (V0 : Valuation τ sig (Elt F)) : val2 V0 (no_index (Proc.devRef .tc main_arg12)) = V0 (Proc.devRef .tc main_arg12) :=
  (val2_keep V0 main_arg12 (by decide)).trans (val1_main_arg12 V0)
theorem val2_main_arg13 (V0 : Valuation τ sig (Elt F)) : val2 V0 (no_index (Proc.devRef .tc main_arg13)) = V0 (Proc.devRef .tc main_arg13) :=
  (val2_keep V0 main_arg13 (by decide)).trans (val1_main_arg13 V0)
theorem val2_main_arg14 (V0 : Valuation τ sig (Elt F)) : val2 V0 (no_index (Proc.devRef .tc main_arg14)) = V0 (Proc.devRef .tc main_arg14) :=
  (val2_keep V0 main_arg14 (by decide)).trans (val1_main_arg14 V0)
theorem val2_main_arg15 (V0 : Valuation τ sig (Elt F)) : val2 V0 (no_index (Proc.devRef .tc main_arg15)) = V0 (Proc.devRef .tc main_arg15) :=
  (val2_keep V0 main_arg15 (by decide)).trans (val1_main_arg15 V0)
theorem val2_main_arg16 (V0 : Valuation τ sig (Elt F)) : val2 V0 (no_index (Proc.devRef .tc main_arg16)) = V0 (Proc.devRef .tc main_arg16) :=
  (val2_keep V0 main_arg16 (by decide)).trans (val1_main_arg16 V0)
theorem val2_main_arg17 (V0 : Valuation τ sig (Elt F)) : val2 V0 (no_index (Proc.devRef .tc main_arg17)) = V0 (Proc.devRef .tc main_arg17) :=
  (val2_keep V0 main_arg17 (by decide)).trans (val1_main_arg17 V0)
theorem val2_main_arg18 (V0 : Valuation τ sig (Elt F)) : val2 V0 (no_index (Proc.devRef .tc main_arg18)) = V0 (Proc.devRef .tc main_arg18) :=
  (val2_keep V0 main_arg18 (by decide)).trans (val1_main_arg18 V0)
theorem val2_main_arg19 (V0 : Valuation τ sig (Elt F)) : val2 V0 (no_index (Proc.devRef .tc main_arg19)) = V0 (Proc.devRef .tc main_arg19) :=
  (val2_keep V0 main_arg19 (by decide)).trans (val1_main_arg19 V0)
theorem val2_main_v49 (V0 : Valuation τ sig (Elt F)) : val2 V0 (no_index (Proc.devRef .tc main_v49)) = res_main_v49 V0 :=
  (val2_keep V0 main_v49 (by decide)).trans (val1_main_v49 V0)
theorem val2_main_v99 (V0 : Valuation τ sig (Elt F)) : val2 V0 (no_index (Proc.devRef .tc main_v99)) = res_main_v99 V0 := by
  unfold val2
  rw [read_enc2]
  simp only [val1_main_arg3, val1_main_arg4, val1_main_arg6, val1_main_arg7, val1_main_arg8, val1_main_arg9, val1_main_arg10, val1_main_arg11, val1_main_arg12, val1_main_arg13] <;> rfl

/-- The buffer contents after the first 3 segments. -/
def val3 (V0 : Valuation τ sig (Elt F)) : Valuation τ sig (Elt F) := after ops_gm1 (val2 V0)
theorem val3_keep (V0 : Valuation τ sig (Elt F)) (r : Ref sig .tc) (h : r ∉ ops_gm1_W) :
    val3 V0 (Proc.devRef .tc r) = val2 V0 (Proc.devRef .tc r) :=
  after_of_writes_sub ops_gm1 _ ops_gm1_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
theorem val3_main_arg11 (V0 : Valuation τ sig (Elt F)) : val3 V0 (no_index (Proc.devRef .tc main_arg11)) = V0 (Proc.devRef .tc main_arg11) :=
  (val3_keep V0 main_arg11 (by decide)).trans (val2_main_arg11 V0)
theorem val3_main_arg12 (V0 : Valuation τ sig (Elt F)) : val3 V0 (no_index (Proc.devRef .tc main_arg12)) = V0 (Proc.devRef .tc main_arg12) :=
  (val3_keep V0 main_arg12 (by decide)).trans (val2_main_arg12 V0)
theorem val3_main_arg13 (V0 : Valuation τ sig (Elt F)) : val3 V0 (no_index (Proc.devRef .tc main_arg13)) = V0 (Proc.devRef .tc main_arg13) :=
  (val3_keep V0 main_arg13 (by decide)).trans (val2_main_arg13 V0)
theorem val3_main_arg14 (V0 : Valuation τ sig (Elt F)) : val3 V0 (no_index (Proc.devRef .tc main_arg14)) = V0 (Proc.devRef .tc main_arg14) :=
  (val3_keep V0 main_arg14 (by decide)).trans (val2_main_arg14 V0)
theorem val3_main_arg15 (V0 : Valuation τ sig (Elt F)) : val3 V0 (no_index (Proc.devRef .tc main_arg15)) = V0 (Proc.devRef .tc main_arg15) :=
  (val3_keep V0 main_arg15 (by decide)).trans (val2_main_arg15 V0)
theorem val3_main_arg16 (V0 : Valuation τ sig (Elt F)) : val3 V0 (no_index (Proc.devRef .tc main_arg16)) = V0 (Proc.devRef .tc main_arg16) :=
  (val3_keep V0 main_arg16 (by decide)).trans (val2_main_arg16 V0)
theorem val3_main_arg17 (V0 : Valuation τ sig (Elt F)) : val3 V0 (no_index (Proc.devRef .tc main_arg17)) = V0 (Proc.devRef .tc main_arg17) :=
  (val3_keep V0 main_arg17 (by decide)).trans (val2_main_arg17 V0)
theorem val3_main_arg18 (V0 : Valuation τ sig (Elt F)) : val3 V0 (no_index (Proc.devRef .tc main_arg18)) = V0 (Proc.devRef .tc main_arg18) :=
  (val3_keep V0 main_arg18 (by decide)).trans (val2_main_arg18 V0)
theorem val3_main_arg19 (V0 : Valuation τ sig (Elt F)) : val3 V0 (no_index (Proc.devRef .tc main_arg19)) = V0 (Proc.devRef .tc main_arg19) :=
  (val3_keep V0 main_arg19 (by decide)).trans (val2_main_arg19 V0)
theorem val3_main_v49 (V0 : Valuation τ sig (Elt F)) : val3 V0 (no_index (Proc.devRef .tc main_v49)) = res_main_v49 V0 :=
  (val3_keep V0 main_v49 (by decide)).trans (val2_main_v49 V0)
theorem val3_main_v99 (V0 : Valuation τ sig (Elt F)) : val3 V0 (no_index (Proc.devRef .tc main_v99)) = res_main_v99 V0 :=
  (val3_keep V0 main_v99 (by decide)).trans (val2_main_v99 V0)
theorem val3_main_v103 (V0 : Valuation τ sig (Elt F)) : val3 V0 (no_index (Proc.devRef .tc main_v103)) = res_main_v103 V0 := by
  unfold val3
  rw [read_gm1]
  simp only [val2_main_v49] <;> rfl

/-- The buffer contents after the first 4 segments. -/
def val4 (V0 : Valuation τ sig (Elt F)) : Valuation τ sig (Elt F) := after ops_gm2 (val3 V0)
theorem val4_keep (V0 : Valuation τ sig (Elt F)) (r : Ref sig .tc) (h : r ∉ ops_gm2_W) :
    val4 V0 (Proc.devRef .tc r) = val3 V0 (Proc.devRef .tc r) :=
  after_of_writes_sub ops_gm2 _ ops_gm2_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
theorem val4_main_arg11 (V0 : Valuation τ sig (Elt F)) : val4 V0 (no_index (Proc.devRef .tc main_arg11)) = V0 (Proc.devRef .tc main_arg11) :=
  (val4_keep V0 main_arg11 (by decide)).trans (val3_main_arg11 V0)
theorem val4_main_arg12 (V0 : Valuation τ sig (Elt F)) : val4 V0 (no_index (Proc.devRef .tc main_arg12)) = V0 (Proc.devRef .tc main_arg12) :=
  (val4_keep V0 main_arg12 (by decide)).trans (val3_main_arg12 V0)
theorem val4_main_arg13 (V0 : Valuation τ sig (Elt F)) : val4 V0 (no_index (Proc.devRef .tc main_arg13)) = V0 (Proc.devRef .tc main_arg13) :=
  (val4_keep V0 main_arg13 (by decide)).trans (val3_main_arg13 V0)
theorem val4_main_arg14 (V0 : Valuation τ sig (Elt F)) : val4 V0 (no_index (Proc.devRef .tc main_arg14)) = V0 (Proc.devRef .tc main_arg14) :=
  (val4_keep V0 main_arg14 (by decide)).trans (val3_main_arg14 V0)
theorem val4_main_arg15 (V0 : Valuation τ sig (Elt F)) : val4 V0 (no_index (Proc.devRef .tc main_arg15)) = V0 (Proc.devRef .tc main_arg15) :=
  (val4_keep V0 main_arg15 (by decide)).trans (val3_main_arg15 V0)
theorem val4_main_arg16 (V0 : Valuation τ sig (Elt F)) : val4 V0 (no_index (Proc.devRef .tc main_arg16)) = V0 (Proc.devRef .tc main_arg16) :=
  (val4_keep V0 main_arg16 (by decide)).trans (val3_main_arg16 V0)
theorem val4_main_arg17 (V0 : Valuation τ sig (Elt F)) : val4 V0 (no_index (Proc.devRef .tc main_arg17)) = V0 (Proc.devRef .tc main_arg17) :=
  (val4_keep V0 main_arg17 (by decide)).trans (val3_main_arg17 V0)
theorem val4_main_arg18 (V0 : Valuation τ sig (Elt F)) : val4 V0 (no_index (Proc.devRef .tc main_arg18)) = V0 (Proc.devRef .tc main_arg18) :=
  (val4_keep V0 main_arg18 (by decide)).trans (val3_main_arg18 V0)
theorem val4_main_arg19 (V0 : Valuation τ sig (Elt F)) : val4 V0 (no_index (Proc.devRef .tc main_arg19)) = V0 (Proc.devRef .tc main_arg19) :=
  (val4_keep V0 main_arg19 (by decide)).trans (val3_main_arg19 V0)
theorem val4_main_v49 (V0 : Valuation τ sig (Elt F)) : val4 V0 (no_index (Proc.devRef .tc main_v49)) = res_main_v49 V0 :=
  (val4_keep V0 main_v49 (by decide)).trans (val3_main_v49 V0)
theorem val4_main_v99 (V0 : Valuation τ sig (Elt F)) : val4 V0 (no_index (Proc.devRef .tc main_v99)) = res_main_v99 V0 :=
  (val4_keep V0 main_v99 (by decide)).trans (val3_main_v99 V0)
theorem val4_main_v103 (V0 : Valuation τ sig (Elt F)) : val4 V0 (no_index (Proc.devRef .tc main_v103)) = res_main_v103 V0 :=
  (val4_keep V0 main_v103 (by decide)).trans (val3_main_v103 V0)
theorem val4_main_v107 (V0 : Valuation τ sig (Elt F)) : val4 V0 (no_index (Proc.devRef .tc main_v107)) = res_main_v107 V0 := by
  unfold val4
  rw [read_gm2]
  simp only [val3_main_v99] <;> rfl

/-- The buffer contents after the first 5 segments. -/
def val5 (V0 : Valuation τ sig (Elt F)) : Valuation τ sig (Elt F) := after ops_sim (val4 V0)
theorem val5_keep (V0 : Valuation τ sig (Elt F)) (r : Ref sig .tc) (h : r ∉ ops_sim_W) :
    val5 V0 (Proc.devRef .tc r) = val4 V0 (Proc.devRef .tc r) :=
  after_of_writes_sub ops_sim _ ops_sim_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
theorem val5_main_arg11 (V0 : Valuation τ sig (Elt F)) : val5 V0 (no_index (Proc.devRef .tc main_arg11)) = V0 (Proc.devRef .tc main_arg11) :=
  (val5_keep V0 main_arg11 (by decide)).trans (val4_main_arg11 V0)
theorem val5_main_arg12 (V0 : Valuation τ sig (Elt F)) : val5 V0 (no_index (Proc.devRef .tc main_arg12)) = V0 (Proc.devRef .tc main_arg12) :=
  (val5_keep V0 main_arg12 (by decide)).trans (val4_main_arg12 V0)
theorem val5_main_arg13 (V0 : Valuation τ sig (Elt F)) : val5 V0 (no_index (Proc.devRef .tc main_arg13)) = V0 (Proc.devRef .tc main_arg13) :=
  (val5_keep V0 main_arg13 (by decide)).trans (val4_main_arg13 V0)
theorem val5_main_arg14 (V0 : Valuation τ sig (Elt F)) : val5 V0 (no_index (Proc.devRef .tc main_arg14)) = V0 (Proc.devRef .tc main_arg14) :=
  (val5_keep V0 main_arg14 (by decide)).trans (val4_main_arg14 V0)
theorem val5_main_arg15 (V0 : Valuation τ sig (Elt F)) : val5 V0 (no_index (Proc.devRef .tc main_arg15)) = V0 (Proc.devRef .tc main_arg15) :=
  (val5_keep V0 main_arg15 (by decide)).trans (val4_main_arg15 V0)
theorem val5_main_arg16 (V0 : Valuation τ sig (Elt F)) : val5 V0 (no_index (Proc.devRef .tc main_arg16)) = V0 (Proc.devRef .tc main_arg16) :=
  (val5_keep V0 main_arg16 (by decide)).trans (val4_main_arg16 V0)
theorem val5_main_arg17 (V0 : Valuation τ sig (Elt F)) : val5 V0 (no_index (Proc.devRef .tc main_arg17)) = V0 (Proc.devRef .tc main_arg17) :=
  (val5_keep V0 main_arg17 (by decide)).trans (val4_main_arg17 V0)
theorem val5_main_arg18 (V0 : Valuation τ sig (Elt F)) : val5 V0 (no_index (Proc.devRef .tc main_arg18)) = V0 (Proc.devRef .tc main_arg18) :=
  (val5_keep V0 main_arg18 (by decide)).trans (val4_main_arg18 V0)
theorem val5_main_arg19 (V0 : Valuation τ sig (Elt F)) : val5 V0 (no_index (Proc.devRef .tc main_arg19)) = V0 (Proc.devRef .tc main_arg19) :=
  (val5_keep V0 main_arg19 (by decide)).trans (val4_main_arg19 V0)
theorem val5_main_v103 (V0 : Valuation τ sig (Elt F)) : val5 V0 (no_index (Proc.devRef .tc main_v103)) = res_main_v103 V0 :=
  (val5_keep V0 main_v103 (by decide)).trans (val4_main_v103 V0)
theorem val5_main_v107 (V0 : Valuation τ sig (Elt F)) : val5 V0 (no_index (Proc.devRef .tc main_v107)) = res_main_v107 V0 :=
  (val5_keep V0 main_v107 (by decide)).trans (val4_main_v107 V0)
theorem val5_main_v121 (V0 : Valuation τ sig (Elt F)) : val5 V0 (no_index (Proc.devRef .tc main_v121)) = res_main_v121 V0 := by
  unfold val5
  rw [read_sim]
  simp only [val4_main_v49, val4_main_v99] <;> rfl

/-- The buffer contents after the first 6 segments. -/
def val6 (V0 : Valuation τ sig (Elt F)) : Valuation τ sig (Elt F) := after ops_bin (val5 V0)
theorem val6_keep (V0 : Valuation τ sig (Elt F)) (r : Ref sig .tc) (h : r ∉ ops_bin_W) :
    val6 V0 (Proc.devRef .tc r) = val5 V0 (Proc.devRef .tc r) :=
  after_of_writes_sub ops_bin _ ops_bin_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
theorem val6_main_arg11 (V0 : Valuation τ sig (Elt F)) : val6 V0 (no_index (Proc.devRef .tc main_arg11)) = V0 (Proc.devRef .tc main_arg11) :=
  (val6_keep V0 main_arg11 (by decide)).trans (val5_main_arg11 V0)
theorem val6_main_arg12 (V0 : Valuation τ sig (Elt F)) : val6 V0 (no_index (Proc.devRef .tc main_arg12)) = V0 (Proc.devRef .tc main_arg12) :=
  (val6_keep V0 main_arg12 (by decide)).trans (val5_main_arg12 V0)
theorem val6_main_arg13 (V0 : Valuation τ sig (Elt F)) : val6 V0 (no_index (Proc.devRef .tc main_arg13)) = V0 (Proc.devRef .tc main_arg13) :=
  (val6_keep V0 main_arg13 (by decide)).trans (val5_main_arg13 V0)
theorem val6_main_arg14 (V0 : Valuation τ sig (Elt F)) : val6 V0 (no_index (Proc.devRef .tc main_arg14)) = V0 (Proc.devRef .tc main_arg14) :=
  (val6_keep V0 main_arg14 (by decide)).trans (val5_main_arg14 V0)
theorem val6_main_arg15 (V0 : Valuation τ sig (Elt F)) : val6 V0 (no_index (Proc.devRef .tc main_arg15)) = V0 (Proc.devRef .tc main_arg15) :=
  (val6_keep V0 main_arg15 (by decide)).trans (val5_main_arg15 V0)
theorem val6_main_arg16 (V0 : Valuation τ sig (Elt F)) : val6 V0 (no_index (Proc.devRef .tc main_arg16)) = V0 (Proc.devRef .tc main_arg16) :=
  (val6_keep V0 main_arg16 (by decide)).trans (val5_main_arg16 V0)
theorem val6_main_arg17 (V0 : Valuation τ sig (Elt F)) : val6 V0 (no_index (Proc.devRef .tc main_arg17)) = V0 (Proc.devRef .tc main_arg17) :=
  (val6_keep V0 main_arg17 (by decide)).trans (val5_main_arg17 V0)
theorem val6_main_arg18 (V0 : Valuation τ sig (Elt F)) : val6 V0 (no_index (Proc.devRef .tc main_arg18)) = V0 (Proc.devRef .tc main_arg18) :=
  (val6_keep V0 main_arg18 (by decide)).trans (val5_main_arg18 V0)
theorem val6_main_arg19 (V0 : Valuation τ sig (Elt F)) : val6 V0 (no_index (Proc.devRef .tc main_arg19)) = V0 (Proc.devRef .tc main_arg19) :=
  (val6_keep V0 main_arg19 (by decide)).trans (val5_main_arg19 V0)
theorem val6_main_v103 (V0 : Valuation τ sig (Elt F)) : val6 V0 (no_index (Proc.devRef .tc main_v103)) = res_main_v103 V0 :=
  (val6_keep V0 main_v103 (by decide)).trans (val5_main_v103 V0)
theorem val6_main_v107 (V0 : Valuation τ sig (Elt F)) : val6 V0 (no_index (Proc.devRef .tc main_v107)) = res_main_v107 V0 :=
  (val6_keep V0 main_v107 (by decide)).trans (val5_main_v107 V0)
theorem val6_main_v121 (V0 : Valuation τ sig (Elt F)) : val6 V0 (no_index (Proc.devRef .tc main_v121)) = res_main_v121 V0 :=
  (val6_keep V0 main_v121 (by decide)).trans (val5_main_v121 V0)
theorem val6_main_v128 (V0 : Valuation τ sig (Elt F)) : val6 V0 (no_index (Proc.devRef .tc main_v128)) = res_main_v128 V0 := by
  unfold val6
  rw [read_bin]
  simp only [val5_main_v121] <;> rfl

/-- The buffer contents after the first 7 segments. -/
def val7 (V0 : Valuation τ sig (Elt F)) : Valuation τ sig (Elt F) := after ops_hista (val6 V0)
theorem val7_keep (V0 : Valuation τ sig (Elt F)) (r : Ref sig .tc) (h : r ∉ ops_hista_W) :
    val7 V0 (Proc.devRef .tc r) = val6 V0 (Proc.devRef .tc r) :=
  after_of_writes_sub ops_hista _ ops_hista_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
theorem val7_main_arg11 (V0 : Valuation τ sig (Elt F)) : val7 V0 (no_index (Proc.devRef .tc main_arg11)) = V0 (Proc.devRef .tc main_arg11) :=
  (val7_keep V0 main_arg11 (by decide)).trans (val6_main_arg11 V0)
theorem val7_main_arg12 (V0 : Valuation τ sig (Elt F)) : val7 V0 (no_index (Proc.devRef .tc main_arg12)) = V0 (Proc.devRef .tc main_arg12) :=
  (val7_keep V0 main_arg12 (by decide)).trans (val6_main_arg12 V0)
theorem val7_main_arg13 (V0 : Valuation τ sig (Elt F)) : val7 V0 (no_index (Proc.devRef .tc main_arg13)) = V0 (Proc.devRef .tc main_arg13) :=
  (val7_keep V0 main_arg13 (by decide)).trans (val6_main_arg13 V0)
theorem val7_main_arg14 (V0 : Valuation τ sig (Elt F)) : val7 V0 (no_index (Proc.devRef .tc main_arg14)) = V0 (Proc.devRef .tc main_arg14) :=
  (val7_keep V0 main_arg14 (by decide)).trans (val6_main_arg14 V0)
theorem val7_main_arg15 (V0 : Valuation τ sig (Elt F)) : val7 V0 (no_index (Proc.devRef .tc main_arg15)) = V0 (Proc.devRef .tc main_arg15) :=
  (val7_keep V0 main_arg15 (by decide)).trans (val6_main_arg15 V0)
theorem val7_main_arg16 (V0 : Valuation τ sig (Elt F)) : val7 V0 (no_index (Proc.devRef .tc main_arg16)) = V0 (Proc.devRef .tc main_arg16) :=
  (val7_keep V0 main_arg16 (by decide)).trans (val6_main_arg16 V0)
theorem val7_main_arg17 (V0 : Valuation τ sig (Elt F)) : val7 V0 (no_index (Proc.devRef .tc main_arg17)) = V0 (Proc.devRef .tc main_arg17) :=
  (val7_keep V0 main_arg17 (by decide)).trans (val6_main_arg17 V0)
theorem val7_main_arg18 (V0 : Valuation τ sig (Elt F)) : val7 V0 (no_index (Proc.devRef .tc main_arg18)) = V0 (Proc.devRef .tc main_arg18) :=
  (val7_keep V0 main_arg18 (by decide)).trans (val6_main_arg18 V0)
theorem val7_main_arg19 (V0 : Valuation τ sig (Elt F)) : val7 V0 (no_index (Proc.devRef .tc main_arg19)) = V0 (Proc.devRef .tc main_arg19) :=
  (val7_keep V0 main_arg19 (by decide)).trans (val6_main_arg19 V0)
theorem val7_main_v103 (V0 : Valuation τ sig (Elt F)) : val7 V0 (no_index (Proc.devRef .tc main_v103)) = res_main_v103 V0 :=
  (val7_keep V0 main_v103 (by decide)).trans (val6_main_v103 V0)
theorem val7_main_v107 (V0 : Valuation τ sig (Elt F)) : val7 V0 (no_index (Proc.devRef .tc main_v107)) = res_main_v107 V0 :=
  (val7_keep V0 main_v107 (by decide)).trans (val6_main_v107 V0)
theorem val7_main_v121 (V0 : Valuation τ sig (Elt F)) : val7 V0 (no_index (Proc.devRef .tc main_v121)) = res_main_v121 V0 :=
  (val7_keep V0 main_v121 (by decide)).trans (val6_main_v121 V0)
theorem val7_main_v140 (V0 : Valuation τ sig (Elt F)) : val7 V0 (no_index (Proc.devRef .tc main_v140)) = res_main_v140 V0 := by
  unfold val7
  rw [read_hista_raw]
  simp only [val6_main_v128] <;> rfl
theorem val7_main_v144 (V0 : Valuation τ sig (Elt F)) : val7 V0 (no_index (Proc.devRef .tc main_v144)) = res_main_v144 V0 := by
  unfold val7
  rw [read_hista_den]
  simp only [val6_main_v128] <;> rfl

/-- The buffer contents after the first 8 segments. -/
def val8 (V0 : Valuation τ sig (Elt F)) : Valuation τ sig (Elt F) := after ops_histb (val7 V0)
theorem val8_keep (V0 : Valuation τ sig (Elt F)) (r : Ref sig .tc) (h : r ∉ ops_histb_W) :
    val8 V0 (Proc.devRef .tc r) = val7 V0 (Proc.devRef .tc r) :=
  after_of_writes_sub ops_histb _ ops_histb_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
theorem val8_main_arg11 (V0 : Valuation τ sig (Elt F)) : val8 V0 (no_index (Proc.devRef .tc main_arg11)) = V0 (Proc.devRef .tc main_arg11) :=
  (val8_keep V0 main_arg11 (by decide)).trans (val7_main_arg11 V0)
theorem val8_main_arg12 (V0 : Valuation τ sig (Elt F)) : val8 V0 (no_index (Proc.devRef .tc main_arg12)) = V0 (Proc.devRef .tc main_arg12) :=
  (val8_keep V0 main_arg12 (by decide)).trans (val7_main_arg12 V0)
theorem val8_main_arg13 (V0 : Valuation τ sig (Elt F)) : val8 V0 (no_index (Proc.devRef .tc main_arg13)) = V0 (Proc.devRef .tc main_arg13) :=
  (val8_keep V0 main_arg13 (by decide)).trans (val7_main_arg13 V0)
theorem val8_main_arg14 (V0 : Valuation τ sig (Elt F)) : val8 V0 (no_index (Proc.devRef .tc main_arg14)) = V0 (Proc.devRef .tc main_arg14) :=
  (val8_keep V0 main_arg14 (by decide)).trans (val7_main_arg14 V0)
theorem val8_main_arg15 (V0 : Valuation τ sig (Elt F)) : val8 V0 (no_index (Proc.devRef .tc main_arg15)) = V0 (Proc.devRef .tc main_arg15) :=
  (val8_keep V0 main_arg15 (by decide)).trans (val7_main_arg15 V0)
theorem val8_main_arg16 (V0 : Valuation τ sig (Elt F)) : val8 V0 (no_index (Proc.devRef .tc main_arg16)) = V0 (Proc.devRef .tc main_arg16) :=
  (val8_keep V0 main_arg16 (by decide)).trans (val7_main_arg16 V0)
theorem val8_main_arg17 (V0 : Valuation τ sig (Elt F)) : val8 V0 (no_index (Proc.devRef .tc main_arg17)) = V0 (Proc.devRef .tc main_arg17) :=
  (val8_keep V0 main_arg17 (by decide)).trans (val7_main_arg17 V0)
theorem val8_main_arg18 (V0 : Valuation τ sig (Elt F)) : val8 V0 (no_index (Proc.devRef .tc main_arg18)) = V0 (Proc.devRef .tc main_arg18) :=
  (val8_keep V0 main_arg18 (by decide)).trans (val7_main_arg18 V0)
theorem val8_main_arg19 (V0 : Valuation τ sig (Elt F)) : val8 V0 (no_index (Proc.devRef .tc main_arg19)) = V0 (Proc.devRef .tc main_arg19) :=
  (val8_keep V0 main_arg19 (by decide)).trans (val7_main_arg19 V0)
theorem val8_main_v103 (V0 : Valuation τ sig (Elt F)) : val8 V0 (no_index (Proc.devRef .tc main_v103)) = res_main_v103 V0 :=
  (val8_keep V0 main_v103 (by decide)).trans (val7_main_v103 V0)
theorem val8_main_v107 (V0 : Valuation τ sig (Elt F)) : val8 V0 (no_index (Proc.devRef .tc main_v107)) = res_main_v107 V0 :=
  (val8_keep V0 main_v107 (by decide)).trans (val7_main_v107 V0)
theorem val8_main_v121 (V0 : Valuation τ sig (Elt F)) : val8 V0 (no_index (Proc.devRef .tc main_v121)) = res_main_v121 V0 :=
  (val8_keep V0 main_v121 (by decide)).trans (val7_main_v121 V0)
theorem val8_main_v146 (V0 : Valuation τ sig (Elt F)) : val8 V0 (no_index (Proc.devRef .tc main_v146)) = res_main_v146 V0 := by
  unfold val8
  rw [read_histb]
  simp only [val7_main_v140, val7_main_v144] <;> rfl

/-- The buffer contents after the first 9 segments. -/
def val9 (V0 : Valuation τ sig (Elt F)) : Valuation τ sig (Elt F) := after ops_mean (val8 V0)
theorem val9_keep (V0 : Valuation τ sig (Elt F)) (r : Ref sig .tc) (h : r ∉ ops_mean_W) :
    val9 V0 (Proc.devRef .tc r) = val8 V0 (Proc.devRef .tc r) :=
  after_of_writes_sub ops_mean _ ops_mean_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
theorem val9_main_arg11 (V0 : Valuation τ sig (Elt F)) : val9 V0 (no_index (Proc.devRef .tc main_arg11)) = V0 (Proc.devRef .tc main_arg11) :=
  (val9_keep V0 main_arg11 (by decide)).trans (val8_main_arg11 V0)
theorem val9_main_arg12 (V0 : Valuation τ sig (Elt F)) : val9 V0 (no_index (Proc.devRef .tc main_arg12)) = V0 (Proc.devRef .tc main_arg12) :=
  (val9_keep V0 main_arg12 (by decide)).trans (val8_main_arg12 V0)
theorem val9_main_arg13 (V0 : Valuation τ sig (Elt F)) : val9 V0 (no_index (Proc.devRef .tc main_arg13)) = V0 (Proc.devRef .tc main_arg13) :=
  (val9_keep V0 main_arg13 (by decide)).trans (val8_main_arg13 V0)
theorem val9_main_arg14 (V0 : Valuation τ sig (Elt F)) : val9 V0 (no_index (Proc.devRef .tc main_arg14)) = V0 (Proc.devRef .tc main_arg14) :=
  (val9_keep V0 main_arg14 (by decide)).trans (val8_main_arg14 V0)
theorem val9_main_arg15 (V0 : Valuation τ sig (Elt F)) : val9 V0 (no_index (Proc.devRef .tc main_arg15)) = V0 (Proc.devRef .tc main_arg15) :=
  (val9_keep V0 main_arg15 (by decide)).trans (val8_main_arg15 V0)
theorem val9_main_arg16 (V0 : Valuation τ sig (Elt F)) : val9 V0 (no_index (Proc.devRef .tc main_arg16)) = V0 (Proc.devRef .tc main_arg16) :=
  (val9_keep V0 main_arg16 (by decide)).trans (val8_main_arg16 V0)
theorem val9_main_arg17 (V0 : Valuation τ sig (Elt F)) : val9 V0 (no_index (Proc.devRef .tc main_arg17)) = V0 (Proc.devRef .tc main_arg17) :=
  (val9_keep V0 main_arg17 (by decide)).trans (val8_main_arg17 V0)
theorem val9_main_arg18 (V0 : Valuation τ sig (Elt F)) : val9 V0 (no_index (Proc.devRef .tc main_arg18)) = V0 (Proc.devRef .tc main_arg18) :=
  (val9_keep V0 main_arg18 (by decide)).trans (val8_main_arg18 V0)
theorem val9_main_arg19 (V0 : Valuation τ sig (Elt F)) : val9 V0 (no_index (Proc.devRef .tc main_arg19)) = V0 (Proc.devRef .tc main_arg19) :=
  (val9_keep V0 main_arg19 (by decide)).trans (val8_main_arg19 V0)
theorem val9_main_v103 (V0 : Valuation τ sig (Elt F)) : val9 V0 (no_index (Proc.devRef .tc main_v103)) = res_main_v103 V0 :=
  (val9_keep V0 main_v103 (by decide)).trans (val8_main_v103 V0)
theorem val9_main_v107 (V0 : Valuation τ sig (Elt F)) : val9 V0 (no_index (Proc.devRef .tc main_v107)) = res_main_v107 V0 :=
  (val9_keep V0 main_v107 (by decide)).trans (val8_main_v107 V0)
theorem val9_main_v121 (V0 : Valuation τ sig (Elt F)) : val9 V0 (no_index (Proc.devRef .tc main_v121)) = res_main_v121 V0 :=
  (val9_keep V0 main_v121 (by decide)).trans (val8_main_v121 V0)
theorem val9_main_v146 (V0 : Valuation τ sig (Elt F)) : val9 V0 (no_index (Proc.devRef .tc main_v146)) = res_main_v146 V0 :=
  (val9_keep V0 main_v146 (by decide)).trans (val8_main_v146 V0)
theorem val9_main_v149 (V0 : Valuation τ sig (Elt F)) : val9 V0 (no_index (Proc.devRef .tc main_v149)) = res_main_v149 V0 := by
  unfold val9
  rw [read_mean]
  simp only [val8_main_v121] <;> rfl

/-- The buffer contents after the first 10 segments. -/
def val10 (V0 : Valuation τ sig (Elt F)) : Valuation τ sig (Elt F) := after ops_max (val9 V0)
theorem val10_keep (V0 : Valuation τ sig (Elt F)) (r : Ref sig .tc) (h : r ∉ ops_max_W) :
    val10 V0 (Proc.devRef .tc r) = val9 V0 (Proc.devRef .tc r) :=
  after_of_writes_sub ops_max _ ops_max_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
theorem val10_main_arg11 (V0 : Valuation τ sig (Elt F)) : val10 V0 (no_index (Proc.devRef .tc main_arg11)) = V0 (Proc.devRef .tc main_arg11) :=
  (val10_keep V0 main_arg11 (by decide)).trans (val9_main_arg11 V0)
theorem val10_main_arg12 (V0 : Valuation τ sig (Elt F)) : val10 V0 (no_index (Proc.devRef .tc main_arg12)) = V0 (Proc.devRef .tc main_arg12) :=
  (val10_keep V0 main_arg12 (by decide)).trans (val9_main_arg12 V0)
theorem val10_main_arg13 (V0 : Valuation τ sig (Elt F)) : val10 V0 (no_index (Proc.devRef .tc main_arg13)) = V0 (Proc.devRef .tc main_arg13) :=
  (val10_keep V0 main_arg13 (by decide)).trans (val9_main_arg13 V0)
theorem val10_main_arg14 (V0 : Valuation τ sig (Elt F)) : val10 V0 (no_index (Proc.devRef .tc main_arg14)) = V0 (Proc.devRef .tc main_arg14) :=
  (val10_keep V0 main_arg14 (by decide)).trans (val9_main_arg14 V0)
theorem val10_main_arg15 (V0 : Valuation τ sig (Elt F)) : val10 V0 (no_index (Proc.devRef .tc main_arg15)) = V0 (Proc.devRef .tc main_arg15) :=
  (val10_keep V0 main_arg15 (by decide)).trans (val9_main_arg15 V0)
theorem val10_main_arg16 (V0 : Valuation τ sig (Elt F)) : val10 V0 (no_index (Proc.devRef .tc main_arg16)) = V0 (Proc.devRef .tc main_arg16) :=
  (val10_keep V0 main_arg16 (by decide)).trans (val9_main_arg16 V0)
theorem val10_main_arg17 (V0 : Valuation τ sig (Elt F)) : val10 V0 (no_index (Proc.devRef .tc main_arg17)) = V0 (Proc.devRef .tc main_arg17) :=
  (val10_keep V0 main_arg17 (by decide)).trans (val9_main_arg17 V0)
theorem val10_main_arg18 (V0 : Valuation τ sig (Elt F)) : val10 V0 (no_index (Proc.devRef .tc main_arg18)) = V0 (Proc.devRef .tc main_arg18) :=
  (val10_keep V0 main_arg18 (by decide)).trans (val9_main_arg18 V0)
theorem val10_main_arg19 (V0 : Valuation τ sig (Elt F)) : val10 V0 (no_index (Proc.devRef .tc main_arg19)) = V0 (Proc.devRef .tc main_arg19) :=
  (val10_keep V0 main_arg19 (by decide)).trans (val9_main_arg19 V0)
theorem val10_main_v103 (V0 : Valuation τ sig (Elt F)) : val10 V0 (no_index (Proc.devRef .tc main_v103)) = res_main_v103 V0 :=
  (val10_keep V0 main_v103 (by decide)).trans (val9_main_v103 V0)
theorem val10_main_v107 (V0 : Valuation τ sig (Elt F)) : val10 V0 (no_index (Proc.devRef .tc main_v107)) = res_main_v107 V0 :=
  (val10_keep V0 main_v107 (by decide)).trans (val9_main_v107 V0)
theorem val10_main_v121 (V0 : Valuation τ sig (Elt F)) : val10 V0 (no_index (Proc.devRef .tc main_v121)) = res_main_v121 V0 :=
  (val10_keep V0 main_v121 (by decide)).trans (val9_main_v121 V0)
theorem val10_main_v146 (V0 : Valuation τ sig (Elt F)) : val10 V0 (no_index (Proc.devRef .tc main_v146)) = res_main_v146 V0 :=
  (val10_keep V0 main_v146 (by decide)).trans (val9_main_v146 V0)
theorem val10_main_v149 (V0 : Valuation τ sig (Elt F)) : val10 V0 (no_index (Proc.devRef .tc main_v149)) = res_main_v149 V0 :=
  (val10_keep V0 main_v149 (by decide)).trans (val9_main_v149 V0)
theorem val10_main_v150 (V0 : Valuation τ sig (Elt F)) : val10 V0 (no_index (Proc.devRef .tc main_v150)) = res_main_v150 V0 := by
  unfold val10
  rw [read_max]
  simp only [val9_main_v121] <;> rfl

/-- The buffer contents after the first 11 segments. -/
def val11 (V0 : Valuation τ sig (Elt F)) : Valuation τ sig (Elt F) := after ops_std (val10 V0)
theorem val11_keep (V0 : Valuation τ sig (Elt F)) (r : Ref sig .tc) (h : r ∉ ops_std_W) :
    val11 V0 (Proc.devRef .tc r) = val10 V0 (Proc.devRef .tc r) :=
  after_of_writes_sub ops_std _ ops_std_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)
theorem val11_main_arg11 (V0 : Valuation τ sig (Elt F)) : val11 V0 (no_index (Proc.devRef .tc main_arg11)) = V0 (Proc.devRef .tc main_arg11) :=
  (val11_keep V0 main_arg11 (by decide)).trans (val10_main_arg11 V0)
theorem val11_main_arg12 (V0 : Valuation τ sig (Elt F)) : val11 V0 (no_index (Proc.devRef .tc main_arg12)) = V0 (Proc.devRef .tc main_arg12) :=
  (val11_keep V0 main_arg12 (by decide)).trans (val10_main_arg12 V0)
theorem val11_main_arg13 (V0 : Valuation τ sig (Elt F)) : val11 V0 (no_index (Proc.devRef .tc main_arg13)) = V0 (Proc.devRef .tc main_arg13) :=
  (val11_keep V0 main_arg13 (by decide)).trans (val10_main_arg13 V0)
theorem val11_main_arg14 (V0 : Valuation τ sig (Elt F)) : val11 V0 (no_index (Proc.devRef .tc main_arg14)) = V0 (Proc.devRef .tc main_arg14) :=
  (val11_keep V0 main_arg14 (by decide)).trans (val10_main_arg14 V0)
theorem val11_main_arg15 (V0 : Valuation τ sig (Elt F)) : val11 V0 (no_index (Proc.devRef .tc main_arg15)) = V0 (Proc.devRef .tc main_arg15) :=
  (val11_keep V0 main_arg15 (by decide)).trans (val10_main_arg15 V0)
theorem val11_main_arg16 (V0 : Valuation τ sig (Elt F)) : val11 V0 (no_index (Proc.devRef .tc main_arg16)) = V0 (Proc.devRef .tc main_arg16) :=
  (val11_keep V0 main_arg16 (by decide)).trans (val10_main_arg16 V0)
theorem val11_main_arg17 (V0 : Valuation τ sig (Elt F)) : val11 V0 (no_index (Proc.devRef .tc main_arg17)) = V0 (Proc.devRef .tc main_arg17) :=
  (val11_keep V0 main_arg17 (by decide)).trans (val10_main_arg17 V0)
theorem val11_main_arg18 (V0 : Valuation τ sig (Elt F)) : val11 V0 (no_index (Proc.devRef .tc main_arg18)) = V0 (Proc.devRef .tc main_arg18) :=
  (val11_keep V0 main_arg18 (by decide)).trans (val10_main_arg18 V0)
theorem val11_main_arg19 (V0 : Valuation τ sig (Elt F)) : val11 V0 (no_index (Proc.devRef .tc main_arg19)) = V0 (Proc.devRef .tc main_arg19) :=
  (val11_keep V0 main_arg19 (by decide)).trans (val10_main_arg19 V0)
theorem val11_main_v103 (V0 : Valuation τ sig (Elt F)) : val11 V0 (no_index (Proc.devRef .tc main_v103)) = res_main_v103 V0 :=
  (val11_keep V0 main_v103 (by decide)).trans (val10_main_v103 V0)
theorem val11_main_v107 (V0 : Valuation τ sig (Elt F)) : val11 V0 (no_index (Proc.devRef .tc main_v107)) = res_main_v107 V0 :=
  (val11_keep V0 main_v107 (by decide)).trans (val10_main_v107 V0)
theorem val11_main_v146 (V0 : Valuation τ sig (Elt F)) : val11 V0 (no_index (Proc.devRef .tc main_v146)) = res_main_v146 V0 :=
  (val11_keep V0 main_v146 (by decide)).trans (val10_main_v146 V0)
theorem val11_main_v149 (V0 : Valuation τ sig (Elt F)) : val11 V0 (no_index (Proc.devRef .tc main_v149)) = res_main_v149 V0 :=
  (val11_keep V0 main_v149 (by decide)).trans (val10_main_v149 V0)
theorem val11_main_v150 (V0 : Valuation τ sig (Elt F)) : val11 V0 (no_index (Proc.devRef .tc main_v150)) = res_main_v150 V0 :=
  (val11_keep V0 main_v150 (by decide)).trans (val10_main_v150 V0)
theorem val11_main_v151 (V0 : Valuation τ sig (Elt F)) : val11 V0 (no_index (Proc.devRef .tc main_v151)) = res_main_v151 V0 := by
  unfold val11
  rw [read_std]
  simp only [val10_main_v121] <;> rfl

/-- The buffer contents after the first 12 segments. -/
def val12 (V0 : Valuation τ sig (Elt F)) : Valuation τ sig (Elt F) := after ops_feat (val11 V0)
theorem val12_keep (V0 : Valuation τ sig (Elt F)) (r : Ref sig .tc) (h : r ∉ ops_feat_W) :
    val12 V0 (Proc.devRef .tc r) = val11 V0 (Proc.devRef .tc r) :=
  after_of_writes_sub ops_feat _ ops_feat_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_arg8 (V0 : Valuation τ sig (Elt F)) : val12 V0 (no_index (Proc.devRef .tc main_arg8)) = V0 (Proc.devRef .tc main_arg8) :=
  (val12_keep V0 main_arg8 (by decide)).trans (val11_main_arg8 V0)
theorem val12_main_arg9 (V0 : Valuation τ sig (Elt F)) : val12 V0 (no_index (Proc.devRef .tc main_arg9)) = V0 (Proc.devRef .tc main_arg9) :=
  (val12_keep V0 main_arg9 (by decide)).trans (val11_main_arg9 V0)
theorem val12_main_arg10 (V0 : Valuation τ sig (Elt F)) : val12 V0 (no_index (Proc.devRef .tc main_arg10)) = V0 (Proc.devRef .tc main_arg10) :=
  (val12_keep V0 main_arg10 (by decide)).trans (val11_main_arg10 V0)
theorem val12_main_arg11 (V0 : Valuation τ sig (Elt F)) : val12 V0 (no_index (Proc.devRef .tc main_arg11)) = V0 (Proc.devRef .tc main_arg11) :=
  (val12_keep V0 main_arg11 (by decide)).trans (val11_main_arg11 V0)
theorem val12_main_arg12 (V0 : Valuation τ sig (Elt F)) : val12 V0 (no_index (Proc.devRef .tc main_arg12)) = V0 (Proc.devRef .tc main_arg12) :=
  (val12_keep V0 main_arg12 (by decide)).trans (val11_main_arg12 V0)
theorem val12_main_arg13 (V0 : Valuation τ sig (Elt F)) : val12 V0 (no_index (Proc.devRef .tc main_arg13)) = V0 (Proc.devRef .tc main_arg13) :=
  (val12_keep V0 main_arg13 (by decide)).trans (val11_main_arg13 V0)
theorem val12_main_arg14 (V0 : Valuation τ sig (Elt F)) : val12 V0 (no_index (Proc.devRef .tc main_arg14)) = V0 (Proc.devRef .tc main_arg14) :=
  (val12_keep V0 main_arg14 (by decide)).trans (val11_main_arg14 V0)
theorem val12_main_arg15 (V0 : Valuation τ sig (Elt F)) : val12 V0 (no_index (Proc.devRef .tc main_arg15)) = V0 (Proc.devRef .tc main_arg15) :=
  (val12_keep V0 main_arg15 (by decide)).trans (val11_main_arg15 V0)
theorem val12_main_arg16 (V0 : Valuation τ sig (Elt F)) : val12 V0 (no_index (Proc.devRef .tc main_arg16)) = V0 (Proc.devRef .tc main_arg16) :=
  (val12_keep V0 main_arg16 (by decide)).trans (val11_main_arg16 V0)
theorem val12_main_arg17 (V0 : Valuation τ sig (Elt F)) : val12 V0 (no_index (Proc.devRef .tc main_arg17)) = V0 (Proc.devRef .tc main_arg17) :=
  (val12_keep V0 main_arg17 (by decide)).trans (val11_main_arg17 V0)
theorem val12_main_arg18 (V0 : Valuation τ sig (Elt F)) : val12 V0 (no_index (Proc.devRef .tc main_arg18)) = V0 (Proc.devRef .tc main_arg18) :=
  (val12_keep V0 main_arg18 (by decide)).trans (val11_main_arg18 V0)
theorem val12_main_arg19 (V0 : Valuation τ sig (Elt F)) : val12 V0 (no_index (Proc.devRef .tc main_arg19)) = V0 (Proc.devRef .tc main_arg19) :=
  (val12_keep V0 main_arg19 (by decide)).trans (val11_main_arg19 V0)
theorem val12_main_v157 (V0 : Valuation τ sig (Elt F)) : val12 V0 (no_index (Proc.devRef .tc main_v157)) = res_main_v157 V0 := by
  unfold val12
  rw [read_feat]
  simp only [val11_main_v103, val11_main_v107, val11_main_v146, val11_main_v149, val11_main_v150, val11_main_v151] <;> rfl

/-- The buffer contents after the first 13 segments. -/
def val13 (V0 : Valuation τ sig (Elt F)) : Valuation τ sig (Elt F) := after ops_mlp (val12 V0)
theorem val13_keep (V0 : Valuation τ sig (Elt F)) (r : Ref sig .tc) (h : r ∉ ops_mlp_W) :
    val13 V0 (Proc.devRef .tc r) = val12 V0 (Proc.devRef .tc r) :=
  after_of_writes_sub ops_mlp _ ops_mlp_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_arg7 (V0 : Valuation τ sig (Elt F)) : val13 V0 (no_index (Proc.devRef .tc main_arg7)) = V0 (Proc.devRef .tc main_arg7) :=
  (val13_keep V0 main_arg7 (by decide)).trans (val12_main_arg7 V0)
theorem val13_main_arg8 (V0 : Valuation τ sig (Elt F)) : val13 V0 (no_index (Proc.devRef .tc main_arg8)) = V0 (Proc.devRef .tc main_arg8) :=
  (val13_keep V0 main_arg8 (by decide)).trans (val12_main_arg8 V0)
theorem val13_main_arg9 (V0 : Valuation τ sig (Elt F)) : val13 V0 (no_index (Proc.devRef .tc main_arg9)) = V0 (Proc.devRef .tc main_arg9) :=
  (val13_keep V0 main_arg9 (by decide)).trans (val12_main_arg9 V0)
theorem val13_main_arg10 (V0 : Valuation τ sig (Elt F)) : val13 V0 (no_index (Proc.devRef .tc main_arg10)) = V0 (Proc.devRef .tc main_arg10) :=
  (val13_keep V0 main_arg10 (by decide)).trans (val12_main_arg10 V0)
theorem val13_main_arg11 (V0 : Valuation τ sig (Elt F)) : val13 V0 (no_index (Proc.devRef .tc main_arg11)) = V0 (Proc.devRef .tc main_arg11) :=
  (val13_keep V0 main_arg11 (by decide)).trans (val12_main_arg11 V0)
theorem val13_main_arg12 (V0 : Valuation τ sig (Elt F)) : val13 V0 (no_index (Proc.devRef .tc main_arg12)) = V0 (Proc.devRef .tc main_arg12) :=
  (val13_keep V0 main_arg12 (by decide)).trans (val12_main_arg12 V0)
theorem val13_main_arg13 (V0 : Valuation τ sig (Elt F)) : val13 V0 (no_index (Proc.devRef .tc main_arg13)) = V0 (Proc.devRef .tc main_arg13) :=
  (val13_keep V0 main_arg13 (by decide)).trans (val12_main_arg13 V0)
theorem val13_main_arg14 (V0 : Valuation τ sig (Elt F)) : val13 V0 (no_index (Proc.devRef .tc main_arg14)) = V0 (Proc.devRef .tc main_arg14) :=
  (val13_keep V0 main_arg14 (by decide)).trans (val12_main_arg14 V0)
theorem val13_main_arg15 (V0 : Valuation τ sig (Elt F)) : val13 V0 (no_index (Proc.devRef .tc main_arg15)) = V0 (Proc.devRef .tc main_arg15) :=
  (val13_keep V0 main_arg15 (by decide)).trans (val12_main_arg15 V0)
theorem val13_main_arg16 (V0 : Valuation τ sig (Elt F)) : val13 V0 (no_index (Proc.devRef .tc main_arg16)) = V0 (Proc.devRef .tc main_arg16) :=
  (val13_keep V0 main_arg16 (by decide)).trans (val12_main_arg16 V0)
theorem val13_main_arg17 (V0 : Valuation τ sig (Elt F)) : val13 V0 (no_index (Proc.devRef .tc main_arg17)) = V0 (Proc.devRef .tc main_arg17) :=
  (val13_keep V0 main_arg17 (by decide)).trans (val12_main_arg17 V0)
theorem val13_main_arg18 (V0 : Valuation τ sig (Elt F)) : val13 V0 (no_index (Proc.devRef .tc main_arg18)) = V0 (Proc.devRef .tc main_arg18) :=
  (val13_keep V0 main_arg18 (by decide)).trans (val12_main_arg18 V0)
theorem val13_main_arg19 (V0 : Valuation τ sig (Elt F)) : val13 V0 (no_index (Proc.devRef .tc main_arg19)) = V0 (Proc.devRef .tc main_arg19) :=
  (val13_keep V0 main_arg19 (by decide)).trans (val12_main_arg19 V0)
theorem val13_main_v174 (V0 : Valuation τ sig (Elt F)) : val13 V0 (no_index (Proc.devRef .tc main_v174)) = res_main_v174 V0 := by
  unfold val13
  rw [read_mlp]
  simp only [val12_main_v157, val12_main_arg14, val12_main_arg15, val12_main_arg16, val12_main_arg17, val12_main_arg18, val12_main_arg19] <;> rfl

theorem after_ops (V0 : Valuation τ sig (Elt F)) : after ops V0 = val13 V0 := by
  simp only [ops, StableHlo.after_append]
  rfl

/-- The named result is the reference function of the arguments' launch contents. -/
theorem res_main_v174_eq (V0 : Valuation τ sig (Elt F)) :
    res_main_v174 V0 = result (V0 (Proc.devRef .tc main_arg0)) (V0 (Proc.devRef .tc main_arg1)) (V0 (Proc.devRef .tc main_arg3)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) := rfl

end Cert.ReferenceIdeal.RefRun

end
-- ==== Proof.RefRun.lean ====
/-
  The reference program's run: on every device, from any memory with zero counters, every weakly
  fair execution of @main terminates with the result buffer at the reference function of the
  arguments' launch contents, and every argument unchanged.
-/
import proofs.«115078_j84482006712593_1_alg».proof.Proof.RefRunVals

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v174) = result (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v174).trans (by simp only [after_ops]; exact (val13_main_v174 (launchContents m c)).trans (res_main_v174_eq (launchContents m c))),
      (h c main_arg0).trans (by simp only [after_ops]; exact val13_main_arg0 (launchContents m c)),
      (h c main_arg1).trans (by simp only [after_ops]; exact val13_main_arg1 (launchContents m c)),
      (h c main_arg2).trans (by simp only [after_ops]; exact val13_main_arg2 (launchContents m c)),
      (h c main_arg3).trans (by simp only [after_ops]; exact val13_main_arg3 (launchContents m c)),
      (h c main_arg4).trans (by simp only [after_ops]; exact val13_main_arg4 (launchContents m c)),
      (h c main_arg5).trans (by simp only [after_ops]; exact val13_main_arg5 (launchContents m c)),
      (h c main_arg6).trans (by simp only [after_ops]; exact val13_main_arg6 (launchContents m c)),
      (h c main_arg7).trans (by simp only [after_ops]; exact val13_main_arg7 (launchContents m c)),
      (h c main_arg8).trans (by simp only [after_ops]; exact val13_main_arg8 (launchContents m c)),
      (h c main_arg9).trans (by simp only [after_ops]; exact val13_main_arg9 (launchContents m c)),
      (h c main_arg10).trans (by simp only [after_ops]; exact val13_main_arg10 (launchContents m c)),
      (h c main_arg11).trans (by simp only [after_ops]; exact val13_main_arg11 (launchContents m c)),
      (h c main_arg12).trans (by simp only [after_ops]; exact val13_main_arg12 (launchContents m c)),
      (h c main_arg13).trans (by simp only [after_ops]; exact val13_main_arg13 (launchContents m c)),
      (h c main_arg14).trans (by simp only [after_ops]; exact val13_main_arg14 (launchContents m c)),
      (h c main_arg15).trans (by simp only [after_ops]; exact val13_main_arg15 (launchContents m c)),
      (h c main_arg16).trans (by simp only [after_ops]; exact val13_main_arg16 (launchContents m c)),
      (h c main_arg17).trans (by simp only [after_ops]; exact val13_main_arg17 (launchContents m c)),
      (h c main_arg18).trans (by simp only [after_ops]; exact val13_main_arg18 (launchContents m c)),
      (h c main_arg19).trans (by simp only [after_ops]; exact val13_main_arg19 (launchContents m c))⟩)
    (run_seq scopedRefs_eq scopedSems_eq defs main (fun _ => ops) main_eq (fun _ => ops_sub) m ρ)

end Cert.ReferenceIdeal.RefRun

end
-- ==== Proof.RefSpecHost.lean ====
/-
  Host operations read by coordinates, at the exact-real instance: a sum along one axis of a rank-3 or rank-2 array
  (the initial value plus the sum over that axis), a maximum along the last axis of a rank-2 array (the fold of
  max from the initial value), the square root at an index, and reshapes that keep the row-major position:
  [a·b, c] as [a, b, c], [a, b, c] as [a, b·c], [a, 1] as [a], [a, n] as [a·n], and [a·w] as [a, w].
-/
import Idealize.ShloMosaic.PureOps.Ideal.Laws
import Idealize.ShloMosaic.Lib.ValueIdx
import Idealize.ShloMosaic.Lib.Pipeline.Value
import Idealize.ShloMosaic.Lib.IdealHost

noncomputable section

open scoped BigOperators

namespace Cert.ReferenceIdeal.RefSpec

open Idealize.ShloMosaic Idealize.ShloMosaic.ValueIdx

variable {α : Type}

/-- The host's square root at an index. -/
theorem hostSqrt_apply {s : Shape} {φ : FTy} (x : FVec Ideal s φ) (i : s.Idx) : Host.sqrt x i = Ideal.sqrt (x i) := rfl

/-- The host's sum of an `[a, b, c]` array along its middle axis: at `(i, k)` the initial value plus the sum over `j`. -/
theorem hostSum_axis1_of3 {a b c : ℕ} {u : Shape} (x : FVec Ideal ⟨3, ![a, b, c]⟩ .f32) (init : u.Idx → Ideal .f32)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduceAdd x init h' hu (ix2 i k) = init (Shape.Idx.first hu) + ∑ j : Fin b, x (ix3 i j k) := by
  rw [hostReduceAdd_apply, Ideal.hostReduceAdd_single h' h]
  refine congrArg (fun z => init (Shape.Idx.first hu) + z) (Finset.sum_congr rfl fun j _ => congrArg x ?_)
  funext d
  match d with
  | ⟨0, _⟩ => exact Fin.ext rfl
  | ⟨1, _⟩ => exact Fin.ext rfl
  | ⟨2, _⟩ => exact Fin.ext rfl

/-- The host's sum of an `[a, b, c]` array along its last axis: at `(i, j)` the initial value plus the sum over `k`. -/
theorem hostSum_axis2_of3 {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduceAdd x init h' hu (ix2 i j) = init (Shape.Idx.first hu) + ∑ k : Fin c, x (ix3 i j k) := by
  rw [hostReduceAdd_apply, Ideal.hostReduceAdd_single h' h]
  refine congrArg (fun z => init (Shape.Idx.first hu) + z) (Finset.sum_congr rfl fun k _ => congrArg x ?_)
  funext d
  match d with
  | ⟨0, _⟩ => exact Fin.ext rfl
  | ⟨1, _⟩ => exact Fin.ext rfl
  | ⟨2, _⟩ => exact Fin.ext rfl

/-- The host's sum of an `[a, b]` array along its last axis: at `i` the initial value plus the sum of row `i`. -/
theorem hostSum_axis1_of2 {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x init h' hu (ix1 i) = init (Shape.Idx.first hu) + ∑ k : Fin b, x (ix2 i k) := by
  rw [hostReduceAdd_apply, Ideal.hostReduceAdd_single h' h]
  refine congrArg (fun z => init (Shape.Idx.first hu) + z) (Finset.sum_congr rfl fun k _ => congrArg x ?_)
  funext d
  match d with
  | ⟨0, _⟩ => exact Fin.ext rfl
  | ⟨1, _⟩ => exact Fin.ext rfl

/-- An `[a·b, c]` array viewed as `[a, b, c]`: entry `(i, j, k)` is entry `(i·b + j, k)`. -/
theorem reshape_2to3_apply {m a b c : ℕ} (x : (⟨2, ![m, c]⟩ : Shape).Idx → α)
    (h : (⟨2, ![m, c]⟩ : Shape).ShapeCasts ⟨3, ![a, b, c]⟩) (i : Fin a) (j : Fin b) (k : Fin c) (r : Fin m)
    (hr : r.val = i.val * b + j.val) :
    shapeCast ⟨3, ![a, b, c]⟩ x h (ix3 i j k) = x (ix2 r k) :=
  shapeCast_apply x h (ix3 i j k) (ix2 r k) (by
    rw [Shape.rowMajor_val_two, Shape.rowMajor_val_three]
    show r.val * c + k.val = (i.val * b + j.val) * c + k.val
    rw [hr])

/-- An `[a, b, c]` array viewed as `[a, n]` with `n = b·c`: entry `(i, l)` is entry `(i, l / c, l % c)`. -/
theorem reshape_3to2_apply {a b c n : ℕ} (x : (⟨3, ![a, b, c]⟩ : Shape).Idx → α)
    (h : (⟨3, ![a, b, c]⟩ : Shape).ShapeCasts ⟨2, ![a, n]⟩) (hn : n = b * c) (i : Fin a) (l : Fin n) (j : Fin b)
    (k : Fin c) (hl : l.val = j.val * c + k.val) :
    shapeCast ⟨2, ![a, n]⟩ x h (ix2 i l) = x (ix3 i j k) :=
  shapeCast_apply x h (ix2 i l) (ix3 i j k) (by
    rw [Shape.rowMajor_val_two, Shape.rowMajor_val_three]
    show (i.val * b + j.val) * c + k.val = i.val * n + l.val
    rw [hl, hn, Nat.add_mul, Nat.mul_assoc, Nat.add_assoc])

/-- A column `[a, 1]` viewed as `[a]`: entry `i` is entry `(i, 0)`. -/
theorem reshape_col_to_vec_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h (ix1 i) (ix2 i (0 : Fin 1)) (by
    rw [Shape.rowMajor_val_two, Shape.rowMajor_val_one]
    show i.val * 1 + 0 = i.val
    rw [Nat.mul_one, Nat.add_zero])

/-- A vector `[a]` broadcast to the column `[a, 1]` reads, at `(e, u)`, the vector at `e`. -/
theorem vec_to_col_apply {A : ℕ} (w : (⟨1, ![A]⟩ : Shape).Idx → α)
    (h1 : (⟨1, ![A]⟩ : Shape).BroadcastsInDim ⟨2, ![A, 1]⟩ ![0]) (e : Fin A) (u : Fin 1) :
    broadcastInDim ⟨2, ![A, 1]⟩ ![0] h1 w (ix2 e u) = w (ix1 e) := by
  refine broadcastInDim_apply _ h1 w (ix2 e u) (ix1 e) fun a => ?_
  match a with
  | ⟨0, _⟩ =>
    show e.val = if A = 1 then 0 else e.val
    split
    · have := e.isLt; omega
    · rfl

/-- A column `[A, 1]` broadcast over `B` columns reads, at `(e, q)`, the column at `(e, 0)`. -/
theorem col_bcast_apply {A B : ℕ} (v : (⟨2, ![A, 1]⟩ : Shape).Idx → α)
    (h2 : (⟨2, ![A, 1]⟩ : Shape).BroadcastsInDim ⟨2, ![A, B]⟩ ![0, 1]) (e : Fin A) (q : Fin B) :
    broadcastInDim ⟨2, ![A, B]⟩ ![0, 1] h2 v (ix2 e q) = v (ix2 e (0 : Fin 1)) := by
  refine broadcastInDim_apply _ h2 v (ix2 e q) (ix2 e (0 : Fin 1)) fun a => ?_
  match a with
  | ⟨0, _⟩ =>
    show e.val = if A = 1 then 0 else e.val
    split
    · have := e.isLt; omega
    · rfl
  | ⟨1, _⟩ => show 0 = if (1 : Nat) = 1 then 0 else q.val; rw [if_pos rfl]

end Cert.ReferenceIdeal.RefSpec

end
-- ==== Proof.MathConsts.lean ====
/-
  The float constants of the two programs, as the extended reals their bit patterns denote, stated once.

  An f32 pattern with sign bit s, exponent field E (neither 0 nor 255) and fraction field T denotes the real
  (-1)^s · (2^23 + T) · 2^(E − 150). So 0x44000000 (E = 136, T = 0) is 2^9 = 512, 0x48800000 (E = 145) is
  2^18 = 262144, 0x3F800000 (E = 127) is 1, 0x41000000 (E = 130) is 8, 0x41700000 (E = 130, T = 7·2^20) is 15,
  and 0x2B8CBCCC (E = 87, T = 834764) is 9223372 · 2^(−63), a positive real (about 1e-12). The all-zero pattern
  is 0 and 0xFF800000 (sign set, E = 255, T = 0) is −∞, the bottom of the extended reals.
  A signed 32-bit integer converted to a float denotes the integer itself.
-/
import Idealize.ShloMosaic.PureOps.Ideal
import Idealize.ShloMosaic.PureOps.Ideal.Laws

noncomputable section

namespace Cert.SimStats

open Idealize.ShloMosaic

/-- `512.0` denotes the real `512`. -/
theorem ofBits_512 : Ideal.ofBits .f32 0x44000000#32 = ((512 : ℝ) : EReal) := by
  simp [Ideal.ofBits, Ideal.ieee, -EReal.coe_mul]; norm_num

/-- `262144.0` denotes the real `262144`. -/
theorem ofBits_262144 : Ideal.ofBits .f32 0x48800000#32 = ((262144 : ℝ) : EReal) := by
  simp [Ideal.ofBits, Ideal.ieee, -EReal.coe_mul]; norm_num

/-- `1.0` denotes the real `1`. -/
theorem ofBits_one : Ideal.ofBits .f32 0x3F800000#32 = ((1 : ℝ) : EReal) := by
  simp [Ideal.ofBits, Ideal.ieee, -EReal.coe_mul]; norm_num

/-- `8.0` denotes the real `8`. -/
theorem ofBits_8 : Ideal.ofBits .f32 0x41000000#32 = ((8 : ℝ) : EReal) := by
  simp [Ideal.ofBits, Ideal.ieee, -EReal.coe_mul]; norm_num

/-- `15.0` denotes the real `15`. -/
theorem ofBits_15 : Ideal.ofBits .f32 0x41700000#32 = ((15 : ℝ) : EReal) := by
  simp [Ideal.ofBits, Ideal.ieee, -EReal.coe_mul]; norm_num

/-- `+0.0` denotes the real `0`. -/
theorem ofBits_zero : Ideal.ofBits .f32 0x00000000#32 = ((0 : ℝ) : EReal) := by
  simp [Ideal.ofBits, Ideal.ieee]

/-- `-inf` denotes the bottom of the extended reals. -/
theorem ofBits_neg_inf : Ideal.ofBits .f32 0xFF800000#32 = (⊥ : EReal) := by
  simp [Ideal.ofBits, Ideal.ieee]

/-- The small positive constant under the norm (about `1e-12`) denotes a positive real. -/
theorem ofBits_eps : ∃ ε : ℝ, 0 < ε ∧ Ideal.ofBits .f32 0x2B8CBCCC#32 = (ε : EReal) := by
  refine ⟨(9223372 : ℝ) * (2 : ℝ) ^ (-63 : ℤ), by positivity, ?_⟩
  simp [Ideal.ofBits, Ideal.ieee, -EReal.coe_mul]

/-- The signed integer `0` converted to a float denotes the real `0`. -/
theorem sitofp_zero : FloatOps.sitofp (F := Ideal) .f32 (0#32 : BitVec 32) = ((0 : ℝ) : EReal) := by
  show (((0#32 : BitVec 32).toInt : ℝ) : EReal) = ((0 : ℝ) : EReal)
  norm_num

/-- The signed integer `15` converted to a float denotes the real `15`. -/
theorem sitofp_15 : FloatOps.sitofp (F := Ideal) .f32 (15#32 : BitVec 32) = ((15 : ℝ) : EReal) := by
  show (((15#32 : BitVec 32).toInt : ℝ) : EReal) = ((15 : ℝ) : EReal)
  have : (15#32 : BitVec 32).toInt = 15 := by decide
  rw [this]; norm_num

/-- The signed integer `262144` converted to a float denotes the real `262144`. -/
theorem sitofp_262144 : FloatOps.sitofp (F := Ideal) .f32 (262144#32 : BitVec 32) = ((262144 : ℝ) : EReal) := by
  show (((262144#32 : BitVec 32).toInt : ℝ) : EReal) = ((262144 : ℝ) : EReal)
  have : (262144#32 : BitVec 32).toInt = 262144 := by decide
  rw [this]; norm_num

end Cert.SimStats

end
-- ==== Proof.RefSpecSim.lean ====
/-
  The reference's similarity table read by coordinates, at the exact-real instance: entry (b, j) of the
  flattened [128, 262144] table is the inner product of the unit feature rows of node j / 512 of graph b's
  first embedding and node j % 512 of its second.
-/
import proofs.«115078_j84482006712593_1_alg».proof.Proof.RefRunStages
import proofs.«115078_j84482006712593_1_alg».proof.Proof.Spec
import proofs.«115078_j84482006712593_1_alg».proof.Proof.RefSpecHost
import proofs.«115078_j84482006712593_1_alg».proof.Proof.LibRank3
import proofs.«115078_j84482006712593_1_alg».proof.Proof.LibPointwise
import proofs.«115078_j84482006712593_1_alg».proof.Proof.MathConsts

noncomputable section

open scoped BigOperators

namespace Cert.ReferenceIdeal.RefSpec

open Cert.ReferenceIdeal Cert.ReferenceIdeal.Gen Idealize.ShloMosaic Idealize.ShloMosaic.ValueIdx

variable {α : Type}

/-- An `[A, B, 1]` array broadcast along its last axis reads, at `(p, q, r)`, the operand at `(p, q, 0)`. -/
theorem bcast_keep_last_apply {A B C : ℕ} (v : (⟨3, ![A, B, 1]⟩ : Shape).Idx → α)
    (h : (⟨3, ![A, B, 1]⟩ : Shape).BroadcastsInDim ⟨3, ![A, B, C]⟩ ![0, 1, 2]) (p : Fin A) (q : Fin B) (r : Fin C) :
    broadcastInDim ⟨3, ![A, B, C]⟩ ![0, 1, 2] h v (ix3 p q r) = v (ix3 p q (0 : Fin 1)) := by
  refine broadcastInDim_apply _ h v (ix3 p q r) (ix3 p q (0 : Fin 1)) fun a => ?_
  match a with
  | ⟨0, _⟩ =>
    show p.val = if A = 1 then 0 else p.val
    split
    · have := p.isLt; omega
    · rfl
  | ⟨1, _⟩ =>
    show q.val = if B = 1 then 0 else q.val
    split
    · have := q.isLt; omega
    · rfl
  | ⟨2, _⟩ => show 0 = if (1 : Nat) = 1 then 0 else r.val; rw [if_pos rfl]

/-- An `[A, B]` array given a trailing unit axis reads, at `(p, q, u)`, the operand at `(p, q)`. -/
theorem bcast_unit_last_apply {A B : ℕ} (w : (⟨2, ![A, B]⟩ : Shape).Idx → α)
    (h : (⟨2, ![A, B]⟩ : Shape).BroadcastsInDim ⟨3, ![A, B, 1]⟩ ![0, 1]) (p : Fin A) (q : Fin B) (u : Fin 1) :
    broadcastInDim ⟨3, ![A, B, 1]⟩ ![0, 1] h w (ix3 p q u) = w (ix2 p q) := by
  refine broadcastInDim_apply _ h w (ix3 p q u) (ix2 p q) fun a => ?_
  match a with
  | ⟨0, _⟩ =>
    show p.val = if A = 1 then 0 else p.val
    split
    · have := p.isLt; omega
    · rfl
  | ⟨1, _⟩ =>
    show q.val = if B = 1 then 0 else q.val
    split
    · have := q.isLt; omega
    · rfl

/-- Every feature row of a [128, 512, 64] array divided by the larger of its Euclidean length and the small constant. -/
def normRows (v : FVec Ideal S128x512x64 .f32) : FVec Ideal S128x512x64 .f32 :=
  Host.divf v (broadcastInDim S128x512x64 ![0, 1, 2] bcast_S128x512x1_S128x512x64_0_1_2
    (maximumf
      (Host.sqrt (broadcastInDim S128x512x1 ![0, 1] bcast_S128x512_S128x512x1_0_1
        (Host.reduceAdd (mulf v v) (constant (F := Ideal) S_ .f32 0x00000000#32) reducesTo_S128x512x64_S128x512_d2 h_S_)))
      (broadcastInDim S128x512x1 ![] bcast_S_S128x512x1 (constant (F := Ideal) S_ .f32 0x2B8CBCCC#32))))

theorem normRows_apply (v : FVec Ideal S128x512x64 .f32) (b : Fin 128) (n : Fin 512) (d : Fin 64) :
    normRows v (ix3 b n d)
      = Ideal.div (v (ix3 b n d)) (max (Ideal.sqrt (∑ d' : Fin 64, v (ix3 b n d') * v (ix3 b n d'))) Cert.SimGnn.eps) := by
  unfold normRows
  rw [hostDivf_apply, bcast_keep_last_apply, maximumf_apply, hostSqrt_apply, bcast_unit_last_apply,
    hostSum_axis2_of3 _ _ _ (by decide), broadcastInDim_scalar_apply, constant_apply, constant_apply,
    Cert.SimStats.ofBits_zero, EReal.coe_zero, zero_add]
  rfl

/-- The [65536, 64] node table viewed as [128, 512, 64]: graph `b`'s node `n`. -/
theorem simNodes_apply (h : (⟨S65536x64, .f32⟩ : BufTy).Contents (Elt Ideal)) (b : Fin 128) (n : Fin 512) (d : Fin 64) :
    shapeCast S128x512x64 h shapeCasts_S65536x64_S128x512x64 (ix3 b n d) = Cert.SimGnn.embOf h b n d :=
  reshape_2to3_apply h shapeCasts_S65536x64_S128x512x64 b n d
    (⟨b.val * 512 + n.val, by have := b.isLt; have := n.isLt; omega⟩ : Fin 65536) rfl

/-- A node's normalized row is its unit row. -/
theorem normRows_nodes_apply (h : (⟨S65536x64, .f32⟩ : BufTy).Contents (Elt Ideal)) (b : Fin 128) (n : Fin 512) (d : Fin 64) :
    normRows (shapeCast S128x512x64 h shapeCasts_S65536x64_S128x512x64) (ix3 b n d)
      = Cert.SimGnn.unitRow (Cert.SimGnn.embOf h b) n d := by
  rw [normRows_apply, simNodes_apply h b n d]
  show _ = Ideal.div (Cert.SimGnn.embOf h b n d)
    (max (Ideal.sqrt (∑ d' : Fin 64, Cert.SimGnn.embOf h b n d' * Cert.SimGnn.embOf h b n d')) Cert.SimGnn.eps)
  exact congrArg (fun z => Ideal.div (Cert.SimGnn.embOf h b n d) (max (Ideal.sqrt z) Cert.SimGnn.eps))
    (Finset.sum_congr rfl fun d' _ => by rw [simNodes_apply h b n d'])

theorem simFlat_eq (h1 h2 : (⟨S65536x64, .f32⟩ : BufTy).Contents (Elt Ideal)) :
    RefRun.simFlat (F := Ideal) h1 h2
      = shapeCast S128x262144
          (Host.dotGeneral dot_S128x512x64_S128x512x64_S128x512x512_2_2_1_1_0_0 none
            (normRows (shapeCast S128x512x64 h1 shapeCasts_S65536x64_S128x512x64))
            (normRows (shapeCast S128x512x64 h2 shapeCasts_S65536x64_S128x512x64)))
          shapeCasts_S128x512x512_S128x262144 := rfl

/-- Entry `(b, j)` of the flattened similarity table. -/
theorem simFlat_apply (h1 h2 : (⟨S65536x64, .f32⟩ : BufTy).Contents (Elt Ideal)) (b : Fin 128) (j : Fin 262144) :
    RefRun.simFlat (F := Ideal) h1 h2 (ix2 b j)
      = Cert.SimGnn.sim (Cert.SimGnn.embOf h1 b) (Cert.SimGnn.embOf h2 b)
          (⟨j.val / 512, by have := j.isLt; omega⟩ : Fin 512) (⟨j.val % 512, Nat.mod_lt _ (by norm_num)⟩ : Fin 512) := by
  rw [simFlat_eq, reshape_3to2_apply _ shapeCasts_S128x512x512_S128x262144 (by norm_num) b j
    (⟨j.val / 512, by have := j.isLt; omega⟩ : Fin 512) (⟨j.val % 512, Nat.mod_lt _ (by norm_num)⟩ : Fin 512)
    (by show j.val = j.val / 512 * 512 + j.val % 512; omega)]
  show FloatOps.dotGeneral dot_S128x512x64_S128x512x64_S128x512x512_2_2_1_1_0_0 none .single _ _ (ix3 b _ _) = _
  rw [BatchRhsTDot.dotGeneral_ix3 dot_S128x512x64_S128x512x64_S128x512x512_2_2_1_1_0_0 rfl rfl rfl rfl rfl rfl]
  unfold Cert.SimGnn.sim
  exact Finset.sum_congr rfl fun d _ => by rw [normRows_nodes_apply, normRows_nodes_apply]

end Cert.ReferenceIdeal.RefSpec

end
-- ==== Proof.LibRealImage.lean ====
/-
  GENERAL LEMMAS: real numbers inside the extended reals, under finite sums and maxima.
  • `coe_sum`: the image of a finite sum of reals is the sum of the images;
  • `coe_max`: the image of a maximum of two reals is the maximum of the images;
  • `sum_mul_real`: a finite sum of reals times a real is the sum of the products, computed on the extended reals
    (the distributive law, which fails there at infinities, holds when every term and the factor are real).
-/
import Mathlib.Data.EReal.Basic
import Mathlib.Data.EReal.Operations
import Mathlib.Algebra.BigOperators.Fin

open scoped BigOperators

namespace Cert.Lib.RealImage

/-- The image of a finite sum of reals is the sum of the images. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The image of a maximum of reals is the maximum of the images. -/
theorem coe_max (a b : ℝ) : ((max a b : ℝ) : EReal) = max (a : EReal) (b : EReal) :=
  EReal.coe_strictMono.monotone.map_max

/-- A sum of reals times a real is the sum of the products, on the extended reals. -/
theorem sum_mul_real {ι : Type*} (s : Finset ι) (h : ι → ℝ) (e : ℝ) :
    (∑ i ∈ s, (h i : EReal)) * (e : EReal) = ∑ i ∈ s, (h i : EReal) * (e : EReal) := by
  rw [← coe_sum, ← EReal.coe_mul, Finset.sum_mul, coe_sum]
  exact Finset.sum_congr rfl fun i _ => EReal.coe_mul _ _

end Cert.Lib.RealImage
-- ==== Proof.LibBatchVariance.lean ====
/-
  GENERAL LEMMAS: batch statistics over the reals, carried into the extended reals.
  • `var_real`: mean of squares minus squared mean is the mean squared deviation, for n reals and N = n ≠ 0;
  • `var_ereal`: the same identity computed on the extended reals, every entry the image of a real.

  For a column of n real numbers h with sum S, mean μ = S / N and n = N ≠ 0, the mean of the squares minus the
  square of the mean is the mean of the squared deviations:

      (∑ h²) / N − μ · μ  =  (∑ (h − μ)²) / N .

  Over the reals this is the expansion (h − μ)² = h² − 2 μ h + μ², summed, with ∑ h = μ N.  Over the extended reals
  the same identity holds when every h is (the image of) a real, because images of reals are closed under finite
  sums, products and differences; at an infinite entry it fails (∞ − ∞), which is why the entries are taken real.
  Division by N is written as multiplication by the real 1 / N.
-/
import Mathlib.Data.EReal.Basic
import Mathlib.Data.EReal.Operations
import Mathlib.Algebra.BigOperators.Fin
import Mathlib.Tactic.Ring
import Mathlib.Tactic.FieldSimp
import proofs.«115078_j84482006712593_1_alg».proof.Proof.LibRealImage

open scoped BigOperators

namespace Cert.Lib.BatchVariance

open Cert.Lib.RealImage

/-- Mean of squares minus squared mean is the mean squared deviation, over the reals. -/
theorem var_real {n : ℕ} (h : Fin n → ℝ) (N : ℝ) (hN : N ≠ 0) (hn : (n : ℝ) = N) :
    (∑ k, h k * h k) * (1 / N) - ((∑ k, h k) * (1 / N)) * ((∑ k, h k) * (1 / N))
      = (∑ k, (h k - (∑ k, h k) * (1 / N)) * (h k - (∑ k, h k) * (1 / N))) * (1 / N) := by
  obtain ⟨μ, hμ⟩ : ∃ μ, μ = (∑ k, h k) * (1 / N) := ⟨_, rfl⟩
  rw [← hμ]
  have e : ∑ k, (h k - μ) * (h k - μ) = (∑ k, h k * h k) - 2 * μ * (∑ k, h k) + n * (μ * μ) := by
    have : ∀ k, (h k - μ) * (h k - μ) = h k * h k - 2 * μ * h k + μ * μ := fun k => by ring
    simp only [this, Finset.sum_add_distrib, Finset.sum_sub_distrib, ← Finset.mul_sum, Finset.sum_const,
      Finset.card_univ, Fintype.card_fin, nsmul_eq_mul]
    ring
  have hS : (∑ k, h k) = μ * N := by rw [hμ]; field_simp
  rw [e, hn, hS]
  field_simp
  ring

/-- The same identity on the extended reals, every entry the image of a real. -/
theorem var_ereal {n : ℕ} (h : Fin n → ℝ) (N : ℝ) (hN : N ≠ 0) (hn : (n : ℝ) = N) :
    (∑ k, ((h k : EReal) * (h k : EReal))) * ((1 / N : ℝ) : EReal)
        - ((∑ k, (h k : EReal)) * ((1 / N : ℝ) : EReal)) * ((∑ k, (h k : EReal)) * ((1 / N : ℝ) : EReal))
      = (∑ k, ((h k : EReal) - (∑ k, (h k : EReal)) * ((1 / N : ℝ) : EReal))
            * ((h k : EReal) - (∑ k, (h k : EReal)) * ((1 / N : ℝ) : EReal))) * ((1 / N : ℝ) : EReal) := by
  have e1 : (∑ k, (h k : EReal)) = ((∑ k, h k : ℝ) : EReal) := (coe_sum _ _).symm
  have e2 : (∑ k, ((h k : EReal) * (h k : EReal))) = ((∑ k, h k * h k : ℝ) : EReal) := by
    rw [coe_sum]; exact Finset.sum_congr rfl fun k _ => (EReal.coe_mul _ _).symm
  rw [e1, e2, ← EReal.coe_mul, ← EReal.coe_mul, ← EReal.coe_mul, ← EReal.coe_sub]
  have e3 : (∑ k, ((h k : EReal) - (((∑ k, h k) * (1 / N) : ℝ) : EReal)) * ((h k : EReal) - (((∑ k, h k) * (1 / N) : ℝ) : EReal)))
      = ((∑ k, (h k - (∑ k, h k) * (1 / N)) * (h k - (∑ k, h k) * (1 / N)) : ℝ) : EReal) := by
    rw [coe_sum]; exact Finset.sum_congr rfl fun k _ => by rw [← EReal.coe_sub, ← EReal.coe_mul]
  rw [e3, ← EReal.coe_mul]
  exact congrArg _ (var_real h N hN hn)

end Cert.Lib.BatchVariance
-- ==== Proof.LibBlockDiagSum.lean ====
/-
  Sums over a long axis cut into equal blocks, and products against a block-diagonal matrix.

  An axis of `P * K` positions is `P` blocks of `K`: position `l` is place `l % K` of block `l / K`, and a sum over the
  axis is the double sum over blocks and places (`sum_div_mod`). A factor that is `d q * w i` with `d q` equal to one on a
  single block `κ` and to zero on the others — a column of a matrix that repeats a small matrix down its diagonal —
  kills every block but `κ` (`sum_diag`), so the long sum against it is the small sum over block `κ` (`sum_blockdiag`).
  Only `0 * a = 0`, `a * 0 = 0` and `1 * a = a` are used, no distributivity, so the statements hold on the extended reals
  with no hypothesis that anything is finite.
-/
import Mathlib.Algebra.BigOperators.Fin
import Mathlib.Data.EReal.Operations
import Mathlib.Logic.Equiv.Fin.Basic

namespace BlockDiagSum

open scoped BigOperators

/-- A sum over an axis of `P * K` positions, each position `l` read as the pair (`l / K`, `l % K`), is the double sum
    over the pairs. -/
theorem sum_div_mod {M : Type*} [AddCommMonoid M] (P K n : Nat) (hn : n = P * K) (F : Fin P → Fin K → M)
    (hq : ∀ l : Fin n, l.val / K < P) (hi : ∀ l : Fin n, l.val % K < K) :
    ∑ l : Fin n, F ⟨l.val / K, hq l⟩ ⟨l.val % K, hi l⟩ = ∑ q : Fin P, ∑ i : Fin K, F q i := by
  subst hn
  rw [← Fintype.sum_prod_type (f := fun qi : Fin P × Fin K => F qi.1 qi.2)]
  exact Fintype.sum_equiv finProdFinEquiv.symm _ _ (fun l => rfl)

/-- Against a block-diagonal factor only the diagonal block survives: with `d q = 1` for `q = κ` and `0` otherwise,
    the double sum of `a q i * (d q * w i)` is the single sum over block `κ`. -/
theorem sum_diag {P K : Nat} (a : Fin P → Fin K → EReal) (w : Fin K → EReal) (κ : Fin P) :
    ∑ q : Fin P, ∑ i : Fin K, a q i * ((if q.val = κ.val then (1 : EReal) else 0) * w i) = ∑ i : Fin K, a κ i * w i := by
  rw [Finset.sum_eq_single κ]
  · refine Finset.sum_congr rfl fun i _ => ?_
    rw [if_pos rfl, one_mul]
  · intro q _ hq
    have hne : q.val ≠ κ.val := fun h => hq (Fin.ext h)
    refine Finset.sum_eq_zero fun i _ => ?_
    rw [if_neg hne, zero_mul, mul_zero]
  · intro h; exact absurd (Finset.mem_univ κ) h

/-- The two together: a sum over the long axis against a block-diagonal factor is the sum over the one surviving
    block. -/
theorem sum_blockdiag (P K n : Nat) (hn : n = P * K) (a : Fin P → Fin K → EReal) (w : Fin K → EReal) (κ : Fin P)
    (hq : ∀ l : Fin n, l.val / K < P) (hi : ∀ l : Fin n, l.val % K < K) :
    ∑ l : Fin n, a ⟨l.val / K, hq l⟩ ⟨l.val % K, hi l⟩ * ((if l.val / K = κ.val then (1 : EReal) else 0) * w ⟨l.val % K, hi l⟩)
      = ∑ i : Fin K, a κ i * w i :=
  (sum_div_mod P K n hn (fun q i => a q i * ((if q.val = κ.val then (1 : EReal) else 0) * w i)) hq hi).trans (sum_diag a w κ)

end BlockDiagSum
-- ==== Proof.MathStd.lean ====
/-
  The standard deviation of finitely many real numbers, computed two ways on the extended reals.

  Let s be a family of n > 0 real numbers (given as extended reals that are images of reals), N the image of n,
  B = ∑ s, A = ∑ s·s, μ = B / N and C = ∑ (s − μ)·(s − μ). Over the reals

      A / N − μ · μ  =  C / N                    (mean of squares minus squared mean = mean squared deviation),

  and C / N ≥ 0, so clamping the left side below at 0 changes nothing:

      √ (max (A / N − μ·μ) 0)  =  √ (C / (N − 0)).

  All quotients are by the nonzero real n, so each is a product with the real 1/n and every intermediate value is
  the image of a real. The sums may be given in any form (a sum started from zero, a sum over rows of sums over
  columns): the core statement takes them as values A, B, C with equations, and `sum_two_stage` turns a sum over
  P·K flat positions into the double sum over (position / K, position % K).
  The comparison N − 0 > 0 holds for N the image of a positive real.
-/
import Idealize.ShloMosaic.PureOps.Ideal
import Mathlib.Data.EReal.Basic
import Mathlib.Data.EReal.Operations
import Mathlib.Data.EReal.Inv
import Mathlib.Algebra.BigOperators.Fin
import Mathlib.Algebra.Order.BigOperators.Group.Finset
import Mathlib.Tactic.Positivity
import proofs.«115078_j84482006712593_1_alg».proof.Proof.LibRealImage
import proofs.«115078_j84482006712593_1_alg».proof.Proof.LibBatchVariance
import proofs.«115078_j84482006712593_1_alg».proof.Proof.LibBlockDiagSum

noncomputable section

namespace Cert.SimStats

open Idealize.ShloMosaic
open scoped BigOperators
open Cert.Lib.RealImage

/-- Mean of squares minus squared mean is the mean squared deviation, for a family of reals over any finite type
    with `N` elements (the statement over `Fin n`, carried along an enumeration of the type). -/
theorem var_real_fintype {J : Type*} [Fintype J] (x : J → ℝ) (N : ℝ) (hN : N ≠ 0) (hn : (Fintype.card J : ℝ) = N) :
    (∑ j, x j * x j) * (1 / N) - ((∑ j, x j) * (1 / N)) * ((∑ j, x j) * (1 / N))
      = (∑ j, (x j - (∑ i, x i) * (1 / N)) * (x j - (∑ i, x i) * (1 / N))) * (1 / N) := by
  classical
  have e : J ≃ Fin (Fintype.card J) := Fintype.equivFin J
  have h1 : ∀ f : J → ℝ, ∑ j, f j = ∑ k : Fin (Fintype.card J), f (e.symm k) :=
    fun f => (Equiv.sum_comp e.symm f).symm
  have h2 := Cert.Lib.BatchVariance.var_real (fun k => x (e.symm k)) N hN hn
  rw [h1 (fun j => x j * x j), h1 x,
    h1 (fun j => (x j - (∑ k : Fin (Fintype.card J), x (e.symm k)) * (1 / N))
      * (x j - (∑ k : Fin (Fintype.card J), x (e.symm k)) * (1 / N)))]
  exact h2

/-- The core: with the three sums given as values, the clamped root of "mean of squares minus squared mean" is the
    root of the mean squared deviation. -/
theorem std_core {J : Type*} [Fintype J] (s : J → EReal) (hs : ∀ j, ∃ r : ℝ, s j = (r : EReal)) (n : ℕ)
    (hcard : Fintype.card J = n) (hpos : 0 < n) (N : EReal) (hN : N = ((n : ℝ) : EReal))
    (A B C : EReal) (hA : A = ∑ j, s j * s j) (hB : B = ∑ j, s j)
    (hC : C = ∑ j, (s j - Ideal.div B N) * (s j - Ideal.div B N)) :
    Ideal.sqrt (max (Ideal.div A N - Ideal.div B N * Ideal.div B N) 0) = Ideal.sqrt (Ideal.div C (N - 0)) := by
  choose x hx using hs
  have hn0 : (n : ℝ) ≠ 0 := by exact_mod_cast (Nat.pos_iff_ne_zero.mp hpos)
  have hnJ : (Fintype.card J : ℝ) = (n : ℝ) := by rw [hcard]
  have eB : B = ((∑ j, x j : ℝ) : EReal) := by
    rw [hB, coe_sum]; exact Finset.sum_congr rfl fun j _ => hx j
  have eA : A = ((∑ j, x j * x j : ℝ) : EReal) := by
    rw [hA, coe_sum]; exact Finset.sum_congr rfl fun j _ => by rw [hx j, EReal.coe_mul]
  have eBN : Ideal.div B N = (((∑ j, x j) * (1 / (n : ℝ)) : ℝ) : EReal) := by
    rw [hN, Ideal.div_coe hn0, eB, ← EReal.coe_mul]
  have eC : C = ((∑ j, (x j - (∑ i, x i) * (1 / (n : ℝ))) * (x j - (∑ i, x i) * (1 / (n : ℝ))) : ℝ) : EReal) := by
    rw [hC, eBN, coe_sum]
    exact Finset.sum_congr rfl fun j _ => by rw [hx j, ← EReal.coe_sub, ← EReal.coe_mul]
  have eAN : Ideal.div A N = (((∑ j, x j * x j) * (1 / (n : ℝ)) : ℝ) : EReal) := by
    rw [hN, Ideal.div_coe hn0, eA, ← EReal.coe_mul]
  have eCN : Ideal.div C N
      = (((∑ j, (x j - (∑ i, x i) * (1 / (n : ℝ))) * (x j - (∑ i, x i) * (1 / (n : ℝ)))) * (1 / (n : ℝ)) : ℝ) : EReal) := by
    rw [hN, Ideal.div_coe hn0, eC, ← EReal.coe_mul]
  rw [sub_zero, eAN, eBN, eCN, ← EReal.coe_mul, ← EReal.coe_sub, var_real_fintype x n hn0 hnJ]
  rw [max_eq_left]
  rw [EReal.coe_nonneg]
  exact mul_nonneg (Finset.sum_nonneg fun j _ => mul_self_nonneg _) (by positivity)

/-- The plain form: every sum written out. -/
theorem std_eq {J : Type*} [Fintype J] (s : J → EReal) (hs : ∀ j, ∃ r : ℝ, s j = (r : EReal)) (n : ℕ)
    (hcard : Fintype.card J = n) (hpos : 0 < n) (N : EReal) (hN : N = ((n : ℝ) : EReal)) :
    Ideal.sqrt (max (Ideal.div (∑ j, s j * s j) N - Ideal.div (∑ j, s j) N * Ideal.div (∑ j, s j) N) 0)
      = Ideal.sqrt (Ideal.div (∑ j, (s j - Ideal.div (∑ i, s i) N) * (s j - Ideal.div (∑ i, s i) N)) (N - 0)) :=
  std_core s hs n hcard hpos N hN _ _ _ rfl rfl rfl

/-- The same with every sum started from zero. -/
theorem std_eq_zero_add {J : Type*} [Fintype J] (s : J → EReal) (hs : ∀ j, ∃ r : ℝ, s j = (r : EReal)) (n : ℕ)
    (hcard : Fintype.card J = n) (hpos : 0 < n) (N : EReal) (hN : N = ((n : ℝ) : EReal)) :
    Ideal.sqrt (max (Ideal.div (0 + ∑ j, s j * s j) N
        - Ideal.div (0 + ∑ j, s j) N * Ideal.div (0 + ∑ j, s j) N) 0)
      = Ideal.sqrt (Ideal.div (0 + ∑ j, (s j - Ideal.div (0 + ∑ i, s i) N) * (s j - Ideal.div (0 + ∑ i, s i) N))
          (N - 0)) :=
  std_core s hs n hcard hpos N hN _ _ _ (zero_add _) (zero_add _) (zero_add _)

/-- A double sum over rows and columns is the sum over the flat positions, position `l` read as
    (`l / K`, `l % K`). -/
theorem sum_two_stage {M : Type*} [AddCommMonoid M] (P K n : ℕ) (hn : n = P * K) (f : Fin P → Fin K → M)
    (t : Fin n → M) (hq : ∀ l : Fin n, l.val / K < P) (hi : ∀ l : Fin n, l.val % K < K)
    (ht : ∀ l : Fin n, t l = f ⟨l.val / K, hq l⟩ ⟨l.val % K, hi l⟩) :
    ∑ p : Fin P, ∑ k : Fin K, f p k = ∑ l : Fin n, t l := by
  rw [← BlockDiagSum.sum_div_mod P K n hn f hq hi]
  exact Finset.sum_congr rfl fun l _ => (ht l).symm

/-- The two-stage form: on the left the sums run over rows then columns (no initial value), on the right over the
    flat positions, each started from zero. -/
theorem std_two_stage (P K n : ℕ) (hn : n = P * K) (hpos : 0 < n) (f : Fin P → Fin K → EReal) (t : Fin n → EReal)
    (htr : ∀ l, ∃ r : ℝ, t l = (r : EReal))
    (hq : ∀ l : Fin n, l.val / K < P) (hi : ∀ l : Fin n, l.val % K < K)
    (ht : ∀ l : Fin n, t l = f ⟨l.val / K, hq l⟩ ⟨l.val % K, hi l⟩)
    (N : EReal) (hN : N = ((n : ℝ) : EReal)) :
    Ideal.sqrt (max (Ideal.div (∑ p, ∑ k, f p k * f p k) N
        - Ideal.div (∑ p, ∑ k, f p k) N * Ideal.div (∑ p, ∑ k, f p k) N) 0)
      = Ideal.sqrt (Ideal.div (0 + ∑ l, (t l - Ideal.div (0 + ∑ i, t i) N) * (t l - Ideal.div (0 + ∑ i, t i) N))
          (N - 0)) := by
  have hB : ∑ p, ∑ k, f p k = ∑ l, t l := sum_two_stage P K n hn f t hq hi ht
  have hA : ∑ p, ∑ k, f p k * f p k = ∑ l, t l * t l :=
    sum_two_stage P K n hn (fun p k => f p k * f p k) (fun l => t l * t l) hq hi (fun l => by rw [ht l])
  rw [hA, hB, zero_add, zero_add]
  exact std_core t htr n (Fintype.card_fin n) hpos N hN _ _ _ rfl rfl rfl

/-- The count compared with zero: `N − 0 > 0` for `N` the image of a positive real. -/
theorem cmp_ogt_pos (N : EReal) (r : ℝ) (hr : 0 < r) (hN : N = (r : EReal)) : Ideal.cmp .ogt (N - 0) 0 = 1#1 := by
  rw [sub_zero, hN]
  show BitVec.ofBool (decide ((0 : EReal) < (r : EReal))) = 1#1
  rw [decide_eq_true (by exact_mod_cast hr)]
  rfl

end Cert.SimStats

end
-- ==== Proof.MathMax.lean ====
/-
  A maximum over P·K flat positions is the maximum over the rows of the maxima over the columns.

  A fold of `max` from the bottom element ⊥ over a finite set is the supremum of the values. Reading flat position l
  as the pair (l / K, l % K), every value at a flat position is a value at a pair and conversely, so the supremum
  over the flat positions and the supremum over rows of the suprema over columns bound each other.
-/
import Idealize.ShloMosaic.PureOps.Ideal
import Mathlib.Data.EReal.Basic
import Mathlib.Data.Finset.Fold
import Mathlib.Data.Finset.Lattice.Fold

noncomputable section

namespace Cert.SimStats

open Idealize.ShloMosaic

/-- A fold of `max` from ⊥ is the supremum. -/
theorem fold_max_bot_eq_sup {ι : Type*} (s : Finset ι) (f : ι → EReal) : s.fold max ⊥ f = s.sup f := rfl

/-- Every value is below the fold of `max` over a set containing its place. -/
theorem le_fold_max {ι : Type*} (s : Finset ι) (f : ι → EReal) (i : ι) (hi : i ∈ s) : f i ≤ s.fold max ⊥ f := by
  rw [fold_max_bot_eq_sup]; exact Finset.le_sup hi

/-- The fold of `max` from ⊥ is below any bound of the values. -/
theorem fold_max_le {ι : Type*} (s : Finset ι) (f : ι → EReal) (a : EReal) (h : ∀ i ∈ s, f i ≤ a) :
    s.fold max ⊥ f ≤ a := by
  rw [fold_max_bot_eq_sup]; exact Finset.sup_le h

/-- The maximum over the flat positions is the maximum over rows of the maxima over columns. -/
theorem fold_max_two_stage (P K n : ℕ) (hn : n = P * K) (f : Fin P → Fin K → EReal) (t : Fin n → EReal)
    (hq : ∀ l : Fin n, l.val / K < P) (hi : ∀ l : Fin n, l.val % K < K)
    (ht : ∀ l : Fin n, t l = f ⟨l.val / K, hq l⟩ ⟨l.val % K, hi l⟩) :
    (Finset.univ : Finset (Fin n)).fold max ⊥ t
      = (Finset.univ : Finset (Fin P)).fold max ⊥
          (fun p => (Finset.univ : Finset (Fin K)).fold max ⊥ (fun k => f p k)) := by
  subst hn
  apply le_antisymm
  · refine fold_max_le _ _ _ fun l _ => ?_
    rw [ht l]
    exact le_trans (le_fold_max Finset.univ (fun k => f ⟨l.val / K, hq l⟩ k) ⟨l.val % K, hi l⟩ (Finset.mem_univ _))
      (le_fold_max Finset.univ (fun p => (Finset.univ : Finset (Fin K)).fold max ⊥ (fun k => f p k))
        ⟨l.val / K, hq l⟩ (Finset.mem_univ _))
  · refine fold_max_le _ _ _ fun p _ => fold_max_le _ _ _ fun k _ => ?_
    have hlt : p.val * K + k.val < P * K := by
      have h1 : p.val * K + k.val < p.val * K + K := Nat.add_lt_add_left k.isLt _
      have h2 : p.val * K + K = (p.val + 1) * K := by rw [Nat.add_mul, Nat.one_mul]
      exact lt_of_lt_of_le (h2 ▸ h1) (Nat.mul_le_mul_right K p.isLt)
    have hKpos : 0 < K := lt_of_le_of_lt (Nat.zero_le _) k.isLt
    have hdiv : (p.val * K + k.val) / K = p.val := by
      rw [Nat.add_comm, Nat.add_mul_div_right _ _ hKpos, Nat.div_eq_of_lt k.isLt, Nat.zero_add]
    have hmod : (p.val * K + k.val) % K = k.val := by
      rw [Nat.add_comm, Nat.add_mul_mod_self_right, Nat.mod_eq_of_lt k.isLt]
    have e : f p k = t ⟨p.val * K + k.val, hlt⟩ := by
      rw [ht]
      congr 1
      · exact Fin.ext hdiv.symm
      · exact Fin.ext hmod.symm
    rw [e]
    exact le_fold_max Finset.univ t _ (Finset.mem_univ _)

end Cert.SimStats

end
-- ==== Proof.RefSpecStats.lean ====
/-
  The reference's per-graph statistics of the similarity table read by coordinates, at the exact-real instance:
  with row b of the flattened table given as a 512 × 512 table s (entry j is s (j / 512) (j % 512)), the mean is
  the double sum over the table divided by 262144, the maximum is the maximum over rows of the maxima over columns,
  and the deviation — the root of the mean squared deviation from the mean — is the root of "mean of squares minus
  squared mean" floored at zero, for a table of reals.
-/
import proofs.«115078_j84482006712593_1_alg».proof.Proof.RefRunStages
import proofs.«115078_j84482006712593_1_alg».proof.Proof.Spec
import proofs.«115078_j84482006712593_1_alg».proof.Proof.RefSpecHost
import proofs.«115078_j84482006712593_1_alg».proof.Proof.LibPointwise
import proofs.«115078_j84482006712593_1_alg».proof.Proof.MathConsts
import proofs.«115078_j84482006712593_1_alg».proof.Proof.MathStd
import proofs.«115078_j84482006712593_1_alg».proof.Proof.MathMax

noncomputable section

open scoped BigOperators

namespace Cert.ReferenceIdeal.RefSpec

open Cert.ReferenceIdeal Cert.ReferenceIdeal.Gen Idealize.ShloMosaic Idealize.ShloMosaic.ValueIdx

theorem flat_row_lt (l : Fin 262144) : l.val / 512 < 512 := by have := l.isLt; omega
theorem flat_col_lt (l : Fin 262144) : l.val % 512 < 512 := Nat.mod_lt _ (by norm_num)

/-- The count 262144 is the image of that real. -/
theorem cN_eq : Cert.SimGnn.cN = (((262144 : ℕ) : ℝ) : EReal) :=
  Cert.SimStats.ofBits_262144.trans (by norm_num)

/-- The zero word is zero. -/
theorem c0_zero : Cert.SimGnn.c0 = 0 := Cert.SimStats.ofBits_zero.trans EReal.coe_zero

/-- A row's sum started from the zero word. -/
theorem rowSum0_apply (x : FVec Ideal S128x262144 .f32) (b : Fin 128) :
    Host.reduceAdd x (constant (F := Ideal) S_ .f32 0x00000000#32) reducesTo_S128x262144_S128_d1 h_S_ (ix1 b)
      = 0 + ∑ k : Fin 262144, x (ix2 b k) := by
  rw [hostSum_axis1_of2 _ _ _ (by decide), constant_apply, Cert.SimStats.ofBits_zero, EReal.coe_zero]

theorem meanF_eq (flat : (⟨S128x262144, .f32⟩ : BufTy).Contents (Elt Ideal)) :
    RefRun.meanF (F := Ideal) flat
      = Host.divf (Host.reduceAdd flat (constant (F := Ideal) S_ .f32 0x00000000#32) reducesTo_S128x262144_S128_d1 h_S_)
          (broadcastInDim S128 ![] bcast_S_S128 (constant (F := Ideal) S_ .f32 0x48800000#32)) := rfl

/-- The mean of graph `b`'s similarities. -/
theorem meanF_apply (flat : (⟨S128x262144, .f32⟩ : BufTy).Contents (Elt Ideal)) (b : Fin 128) (s : Fin 512 → Fin 512 → EReal)
    (hflat : ∀ j : Fin 262144, flat (ix2 b j) = s ⟨j.val / 512, flat_row_lt j⟩ ⟨j.val % 512, flat_col_lt j⟩) :
    RefRun.meanF (F := Ideal) flat (ix1 b) = Ideal.div (∑ n : Fin 512, ∑ m : Fin 512, s n m) Cert.SimGnn.cN := by
  rw [meanF_eq, hostDivf_apply, rowSum0_apply, broadcastInDim_scalar_apply, constant_apply, zero_add,
    Cert.SimStats.sum_two_stage 512 512 262144 (by norm_num) s (fun l => flat (ix2 b l)) flat_row_lt flat_col_lt hflat]
  rfl

/-- The host's maximum of an `[a, b]` array along its last axis: at `i` the fold of max from the initial value over row `i`. -/
theorem hostMax_axis1_of2 {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x init h' hu (ix1 i)
      = (Finset.univ : Finset (Fin b)).fold max (init (Shape.Idx.first hu)) (fun k => x (ix2 i k)) := by
  rw [Host.reduce_eq_fold_single _ _ _ h' h hu (ix1 i)]
  refine congrArg (fun f => Finset.fold max (init (Shape.Idx.first hu)) f (Finset.univ : Finset (Fin b))) (funext fun k => congrArg x ?_)
  funext c
  match c with
  | ⟨0, _⟩ => exact Fin.ext rfl
  | ⟨1, _⟩ => exact Fin.ext rfl

theorem maxF_eq (flat : (⟨S128x262144, .f32⟩ : BufTy).Contents (Elt Ideal)) :
    RefRun.maxF (F := Ideal) flat
      = Host.reduce (FloatOps.maximumf (F := Ideal) (φ := .f32)) flat (constant (F := Ideal) S_ .f32 0xFF800000#32)
          reducesTo_S128x262144_S128_d1 h_S_ := rfl

/-- The maximum of graph `b`'s similarities. -/
theorem maxF_apply (flat : (⟨S128x262144, .f32⟩ : BufTy).Contents (Elt Ideal)) (b : Fin 128) (s : Fin 512 → Fin 512 → EReal)
    (hflat : ∀ j : Fin 262144, flat (ix2 b j) = s ⟨j.val / 512, flat_row_lt j⟩ ⟨j.val % 512, flat_col_lt j⟩) :
    RefRun.maxF (F := Ideal) flat (ix1 b)
      = (Finset.univ : Finset (Fin 512)).fold max Cert.SimGnn.cBot fun n =>
          (Finset.univ : Finset (Fin 512)).fold max Cert.SimGnn.cBot fun m => s n m := by
  rw [maxF_eq, hostMax_axis1_of2 _ _ _ (by decide), constant_apply,
    show Cert.SimGnn.cBot = (⊥ : EReal) from Cert.SimStats.ofBits_neg_inf, Cert.SimStats.ofBits_neg_inf]
  exact Cert.SimStats.fold_max_two_stage 512 512 262144 (by norm_num) s (fun l => flat (ix2 b l)) flat_row_lt flat_col_lt hflat

/-- The number of terms less the zero degrees of freedom, as a scalar array. -/
def cnt : FVec Ideal S_ .f32 :=
  subf (constant (F := Ideal) S_ .f32 0x48800000#32) (sitofp .f32 (constantI S_ 32 0#32))

theorem cnt_apply (i : S_.Idx) : cnt i = Cert.SimGnn.cN - 0 := by
  unfold cnt
  rw [subf_apply, constant_apply, sitofp_apply]
  show Ideal.ofBits .f32 0x48800000#32 - FloatOps.sitofp (F := Ideal) .f32 (0#32 : BitVec 32) = _
  rw [Cert.SimStats.sitofp_zero, EReal.coe_zero]
  rfl

/-- Each similarity less its graph's mean. -/
def devs (flat : FVec Ideal S128x262144 .f32) : FVec Ideal S128x262144 .f32 :=
  subf flat (broadcastInDim S128x262144 ![0, 1] bcast_S128x1_S128x262144_0_1
    (Host.divf
      (broadcastInDim S128x1 ![0] bcast_S128_S128x1_0
        (Host.reduceAdd flat (constant (F := Ideal) S_ .f32 0x00000000#32) reducesTo_S128x262144_S128_d1 h_S_))
      (broadcastInDim S128x1 ![] bcast_S_S128x1 (constant (F := Ideal) S_ .f32 0x48800000#32))))

theorem devs_apply (flat : FVec Ideal S128x262144 .f32) (b : Fin 128) (k : Fin 262144) :
    devs flat (ix2 b k) = flat (ix2 b k) - Ideal.div (0 + ∑ i : Fin 262144, flat (ix2 b i)) Cert.SimGnn.cN := by
  unfold devs
  rw [subf_apply, col_bcast_apply, hostDivf_apply, vec_to_col_apply, rowSum0_apply, broadcastInDim_scalar_apply, constant_apply]
  rfl

theorem stdF_eq (flat : (⟨S128x262144, .f32⟩ : BufTy).Contents (Elt Ideal)) :
    RefRun.stdF (F := Ideal) flat
      = Host.sqrt (select (broadcastInDim S128 ![] bcast_S_S128 (cmpf .ogt cnt (constant (F := Ideal) S_ .f32 0x00000000#32)))
          (Host.divf
            (Host.reduceAdd (mulf (devs flat) (devs flat)) (constant (F := Ideal) S_ .f32 0x00000000#32) reducesTo_S128x262144_S128_d1 h_S_)
            (broadcastInDim S128 ![] bcast_S_S128 cnt))
          (broadcastInDim S128 ![] bcast_S_S128 (id (constant (F := Ideal) S_ .f32 0x7FC00000#32)))) := rfl

/-- The deviation of graph `b`'s similarities, for a table of reals. -/
theorem stdF_apply (flat : (⟨S128x262144, .f32⟩ : BufTy).Contents (Elt Ideal)) (b : Fin 128) (s : Fin 512 → Fin 512 → EReal)
    (hflat : ∀ j : Fin 262144, flat (ix2 b j) = s ⟨j.val / 512, flat_row_lt j⟩ ⟨j.val % 512, flat_col_lt j⟩)
    (hreal : ∀ n m, ∃ r : ℝ, s n m = (r : EReal)) :
    RefRun.stdF (F := Ideal) flat (ix1 b)
      = Ideal.sqrt (max (Ideal.div (∑ n : Fin 512, ∑ m : Fin 512, s n m * s n m) Cert.SimGnn.cN
          - Ideal.div (∑ n : Fin 512, ∑ m : Fin 512, s n m) Cert.SimGnn.cN
            * Ideal.div (∑ n : Fin 512, ∑ m : Fin 512, s n m) Cert.SimGnn.cN) Cert.SimGnn.c0) := by
  have hc : FloatOps.cmpf (F := Ideal) (φ := .f32) .ogt (Cert.SimGnn.cN - 0) 0 = 1#1 :=
    Cert.SimStats.cmp_ogt_pos Cert.SimGnn.cN 262144 (by norm_num) Cert.SimStats.ofBits_262144
  have hs : (0 + ∑ k : Fin 262144, mulf (devs flat) (devs flat) (ix2 b k))
      = 0 + ∑ l : Fin 262144, (flat (ix2 b l) - Ideal.div (0 + ∑ i : Fin 262144, flat (ix2 b i)) Cert.SimGnn.cN)
          * (flat (ix2 b l) - Ideal.div (0 + ∑ i : Fin 262144, flat (ix2 b i)) Cert.SimGnn.cN) :=
    congrArg (fun z => 0 + z) (Finset.sum_congr rfl fun l _ => by rw [mulf_apply, devs_apply])
  rw [stdF_eq, hostSqrt_apply, select_apply, broadcastInDim_scalar_apply, cmpf_apply, cnt_apply, constant_apply,
    Cert.SimStats.ofBits_zero, EReal.coe_zero, hc, select_one, hostDivf_apply, rowSum0_apply,
    broadcastInDim_scalar_apply, cnt_apply, hs, c0_zero]
  exact (Cert.SimStats.std_two_stage 512 512 262144 (by norm_num) (by norm_num) s (fun l => flat (ix2 b l))
    (fun l => by rw [hflat l]; exact hreal _ _) flat_row_lt flat_col_lt hflat Cert.SimGnn.cN cN_eq).symm

end Cert.ReferenceIdeal.RefSpec

end
-- ==== Proof.MathUnitReal.lean ====
/-
  A row divided by its clamped Euclidean norm is a row of real numbers, whatever the row holds.

  Let h be a finite family of extended reals and ε a positive real. Put S = ∑ h·h, the sum of the squares, and
  u d = h d / max (√S) ε, with the quotient, root and product of the extended reals (x / ⊤ = x · 0 = 0).

  • If every entry of h is a real number then S is a nonnegative real, √S a nonnegative real, max (√S) ε a positive
    real, and u d a quotient of reals: a real.
  • Otherwise some entry is ⊤ or ⊥; its square is ⊤, every other square is ≥ 0, so S = ⊤, √S = ⊤, the maximum is ⊤,
    and u d = h d · ⊤⁻¹ = h d · 0 = 0: a real again.

  Hence a similarity ∑ u·v of two such rows is a finite sum of products of reals: a real. The statements come with
  and without a leading `0 +` in front of each sum (a reduction that starts from zero).
-/
import Idealize.ShloMosaic.PureOps.Ideal
import Mathlib.Data.EReal.Basic
import Mathlib.Data.EReal.Operations
import Mathlib.Data.EReal.Inv
import Mathlib.Algebra.BigOperators.Fin
import Mathlib.Algebra.Order.BigOperators.Group.Finset

noncomputable section

namespace Cert.SimStats

open Idealize.ShloMosaic
open scoped BigOperators

/-- A square is nonnegative on the extended reals (the square of either infinity is ⊤). -/
theorem mul_self_nonneg_ereal (x : EReal) : 0 ≤ x * x := by
  induction x using EReal.rec with
  | bot => rw [EReal.bot_mul_bot]; exact le_top
  | coe r => rw [← EReal.coe_mul]; exact_mod_cast mul_self_nonneg r
  | top => rw [EReal.top_mul_top]; exact le_top

/-- The square of an entry that is not a real is ⊤. -/
theorem mul_self_eq_top_of_not_real {x : EReal} (hx : x = ⊤ ∨ x = ⊥) : x * x = ⊤ := by
  rcases hx with rfl | rfl
  · exact EReal.top_mul_top
  · exact EReal.bot_mul_bot

/-- The image of a finite sum of reals is the sum of the images. -/
theorem coe_sum_real {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The image of a maximum of two reals is the maximum of the images. -/
theorem coe_max_real (a b : ℝ) : ((max a b : ℝ) : EReal) = max (a : EReal) (b : EReal) :=
  EReal.coe_strictMono.monotone.map_max

/-- Either every entry is a real, or the sum of the squares is ⊤. -/
theorem all_real_or_sum_sq_top {ι : Type*} [Fintype ι] (h : ι → EReal) :
    (∃ r : ι → ℝ, ∀ d, h d = (r d : EReal)) ∨ (∑ d, h d * h d = ⊤) := by
  classical
  by_cases hall : ∀ d, h d ≠ ⊤ ∧ h d ≠ ⊥
  · left
    exact ⟨fun d => (h d).toReal, fun d => (EReal.coe_toReal (hall d).1 (hall d).2).symm⟩
  · right
    obtain ⟨d0, hd0⟩ := not_forall.mp hall
    have hd0' : h d0 = ⊤ ∨ h d0 = ⊥ := by
      by_contra hcon
      exact hd0 ⟨fun ht => hcon (Or.inl ht), fun hb => hcon (Or.inr hb)⟩
    rw [← Finset.add_sum_erase Finset.univ (fun d => h d * h d) (Finset.mem_univ d0)]
    show h d0 * h d0 + _ = ⊤
    rw [mul_self_eq_top_of_not_real hd0']
    refine EReal.top_add_of_ne_bot (ne_of_gt (lt_of_lt_of_le EReal.bot_lt_zero ?_))
    exact Finset.sum_nonneg fun d _ => mul_self_nonneg_ereal (h d)

/-- Division by ⊤ is zero. -/
theorem div_top (x : EReal) : Ideal.div x ⊤ = 0 := by
  rw [Ideal.div, if_neg (by simp), EReal.inv_top, mul_zero]

/-- A row divided by its clamped norm is real: the sum of squares given as `S`. -/
theorem unit_row_real_of_eq {ι : Type*} [Fintype ι] (h : ι → EReal) (ε : ℝ) (hε : 0 < ε) (S : EReal)
    (hS : S = ∑ d', h d' * h d') (d : ι) :
    ∃ r : ℝ, Ideal.div (h d) (max (Ideal.sqrt S) (ε : EReal)) = (r : EReal) := by
  subst hS
  rcases all_real_or_sum_sq_top h with ⟨r, hr⟩ | htop
  · have hsum : ∑ d', h d' * h d' = ((∑ d', r d' * r d' : ℝ) : EReal) := by
      rw [coe_sum_real]
      exact Finset.sum_congr rfl fun d' _ => by rw [hr d', EReal.coe_mul]
    have hnn : 0 ≤ ∑ d', r d' * r d' := Finset.sum_nonneg fun d' _ => mul_self_nonneg (r d')
    rw [hsum, Ideal.sqrt_coe, if_neg (not_lt.mpr hnn), ← coe_max_real]
    have hpos : 0 < max (Real.sqrt (∑ d', r d' * r d')) ε := lt_max_of_lt_right hε
    rw [Ideal.div_coe (ne_of_gt hpos), hr d, ← EReal.coe_mul]
    exact ⟨_, rfl⟩
  · rw [htop, Ideal.sqrt_top, max_eq_left le_top, div_top]
    exact ⟨0, rfl⟩

/-- A row divided by its clamped norm is real, whatever the row holds. -/
theorem unit_row_real {ι : Type*} [Fintype ι] (h : ι → EReal) (ε : ℝ) (hε : 0 < ε) (d : ι) :
    ∃ r : ℝ, Ideal.div (h d) (max (Ideal.sqrt (∑ d', h d' * h d')) (ε : EReal)) = (r : EReal) :=
  unit_row_real_of_eq h ε hε _ rfl d

/-- The same with the sum of squares started from zero. -/
theorem unit_row_real_zero_add {ι : Type*} [Fintype ι] (h : ι → EReal) (ε : ℝ) (hε : 0 < ε) (d : ι) :
    ∃ r : ℝ, Ideal.div (h d) (max (Ideal.sqrt (0 + ∑ d', h d' * h d')) (ε : EReal)) = (r : EReal) :=
  unit_row_real_of_eq h ε hε _ (zero_add _) d

/-- The whole unit row as one real family (sum of squares started from zero). -/
theorem unit_row_real_family {ι : Type*} [Fintype ι] (h : ι → EReal) (ε : ℝ) (hε : 0 < ε) :
    ∃ r : ι → ℝ, ∀ d, Ideal.div (h d) (max (Ideal.sqrt (0 + ∑ d', h d' * h d')) (ε : EReal)) = (r d : EReal) :=
  ⟨fun d => (unit_row_real_zero_add h ε hε d).choose, fun d => (unit_row_real_zero_add h ε hε d).choose_spec⟩

/-- A finite sum of products of two real-valued families is real. -/
theorem sum_mul_real {ι : Type*} [Fintype ι] (u v : ι → EReal) (hu : ∀ d, ∃ r : ℝ, u d = (r : EReal))
    (hv : ∀ d, ∃ r : ℝ, v d = (r : EReal)) : ∃ r : ℝ, ∑ d, u d * v d = (r : EReal) := by
  choose a ha using hu
  choose b hb using hv
  refine ⟨∑ d, a d * b d, ?_⟩
  rw [coe_sum_real]
  exact Finset.sum_congr rfl fun d _ => by rw [ha d, hb d, EReal.coe_mul]

/-- The same with the sum started from zero. -/
theorem zero_add_sum_mul_real {ι : Type*} [Fintype ι] (u v : ι → EReal) (hu : ∀ d, ∃ r : ℝ, u d = (r : EReal))
    (hv : ∀ d, ∃ r : ℝ, v d = (r : EReal)) : ∃ r : ℝ, 0 + ∑ d, u d * v d = (r : EReal) := by
  rw [zero_add]; exact sum_mul_real u v hu hv

end Cert.SimStats

end
-- ==== Proof.RefSpecAssemble.lean ====
/-
  The reference's result read by coordinates, at the exact-real instance, from the readings of its stages: entry b
  of the result vector is the specification's output for graph pair b — the perceptron applied to the 147 features
  of the pair's two embeddings (the encoder's outputs, kept as given).
-/
import proofs.«115078_j84482006712593_1_alg».proof.Proof.RefSpecSim
import proofs.«115078_j84482006712593_1_alg».proof.Proof.RefSpecStats
import proofs.«115078_j84482006712593_1_alg».proof.Proof.MathUnitReal

noncomputable section

open scoped BigOperators

namespace Cert.ReferenceIdeal.RefSpec

open Cert.ReferenceIdeal Cert.ReferenceIdeal.Gen Idealize.ShloMosaic Idealize.ShloMosaic.ValueIdx

/-- A similarity is the image of a real number, whatever the embeddings hold. -/
theorem sim_real (h1 h2 : Cert.SimGnn.Emb) (n m : Fin 512) : ∃ r : ℝ, Cert.SimGnn.sim h1 h2 n m = (r : EReal) := by
  obtain ⟨ε, hε, he⟩ := Cert.SimStats.ofBits_eps
  unfold Cert.SimGnn.sim
  refine Cert.SimStats.sum_mul_real _ _ (fun d => ?_) (fun d => ?_)
  · unfold Cert.SimGnn.unitRow
    rw [show Cert.SimGnn.eps = (ε : EReal) from he]
    exact Cert.SimStats.unit_row_real (h1 n) ε hε d
  · unfold Cert.SimGnn.unitRow
    rw [show Cert.SimGnn.eps = (ε : EReal) from he]
    exact Cert.SimStats.unit_row_real (h2 m) ε hε d

/-- Everything after the encoder, given the readings of the mean rows, the histogram, the feature rows and the
    perceptron. -/
theorem tail_apply_of
    (hG : ∀ (h : (⟨S65536x64, .f32⟩ : BufTy).Contents (Elt Ideal)) (b : Fin 128) (d : Fin 64),
      RefRun.gmean (F := Ideal) h (ix2 b d) = Cert.SimGnn.gmean (Cert.SimGnn.embOf h b) d)
    (hH : ∀ (flat : (⟨S128x262144, .f32⟩ : BufTy).Contents (Elt Ideal)) (b : Fin 128) (k : Fin 16) (S : Fin 128 → Fin 512 → Fin 512 → EReal)
      (_ : ∀ (b' : Fin 128) (j : Fin 262144), flat (ix2 b' j) = S b' ⟨j.val / 512, flat_row_lt j⟩ ⟨j.val % 512, flat_col_lt j⟩),
      RefRun.histN (F := Ideal) flat (ix2 b k)
        = Ideal.div (∑ n : Fin 512, ∑ m : Fin 512, Cert.SimGnn.ind (BitVec.ofNat 32 k.val) (Cert.SimGnn.binOf (S b n m)))
            (max (∑ k' : Fin 16, ∑ n : Fin 512, ∑ m : Fin 512, Cert.SimGnn.ind (BitVec.ofNat 32 k'.val) (Cert.SimGnn.binOf (S b n m))) Cert.SimGnn.c1))
    (hF : ∀ (g1 g2 : (⟨S128x64, .f32⟩ : BufTy).Contents (Elt Ideal)) (hist : (⟨S128x16, .f32⟩ : BufTy).Contents (Elt Ideal)) (mean mx sd : (⟨S128, .f32⟩ : BufTy).Contents (Elt Ideal)) (b : Fin 128) (j : Fin 147),
      RefRun.feat (F := Ideal) g1 g2 hist mean mx sd (ix2 b j)
        = Cert.SimGnn.featOf (fun d => g1 (ix2 b d)) (fun d => g2 (ix2 b d)) (fun k => hist (ix2 b k)) (mean (ix1 b)) (mx (ix1 b)) (sd (ix1 b)) j)
    (hM : ∀ (f : (⟨S128x147, .f32⟩ : BufTy).Contents (Elt Ideal)) (w1 : (⟨S147x64, .f32⟩ : BufTy).Contents (Elt Ideal)) (b1 : (⟨S64, .f32⟩ : BufTy).Contents (Elt Ideal)) (w2 : (⟨S64x32, .f32⟩ : BufTy).Contents (Elt Ideal)) (b2 : (⟨S32, .f32⟩ : BufTy).Contents (Elt Ideal)) (w3 : (⟨S32x1, .f32⟩ : BufTy).Contents (Elt Ideal)) (b3 : (⟨S1, .f32⟩ : BufTy).Contents (Elt Ideal)) (b : Fin 128),
      RefRun.mlp (F := Ideal) f w1 b1 w2 b2 w3 b3 (ix1 b)
        = Cert.SimGnn.mlp (fun j => f (ix2 b j)) (fun j a => w1 (ix2 j a)) (fun a => b1 (ix1 a)) (fun a c => w2 (ix2 a c)) (fun c => b2 (ix1 c)) (fun c u => w3 (ix2 c u)) (fun u => b3 (ix1 u)))
    (h1 h2 : (⟨S65536x64, .f32⟩ : BufTy).Contents (Elt Ideal)) (w1 : (⟨S147x64, .f32⟩ : BufTy).Contents (Elt Ideal)) (b1 : (⟨S64, .f32⟩ : BufTy).Contents (Elt Ideal)) (w2 : (⟨S64x32, .f32⟩ : BufTy).Contents (Elt Ideal)) (b2 : (⟨S32, .f32⟩ : BufTy).Contents (Elt Ideal)) (w3 : (⟨S32x1, .f32⟩ : BufTy).Contents (Elt Ideal)) (b3 : (⟨S1, .f32⟩ : BufTy).Contents (Elt Ideal)) (b : Fin 128) :
    RefRun.mlp (F := Ideal)
        (RefRun.feat (RefRun.gmean h1) (RefRun.gmean h2) (RefRun.histN (RefRun.simFlat h1 h2)) (RefRun.meanF (RefRun.simFlat h1 h2))
          (RefRun.maxF (RefRun.simFlat h1 h2)) (RefRun.stdF (RefRun.simFlat h1 h2)))
        w1 b1 w2 b2 w3 b3 (ix1 b)
      = Cert.SimGnn.out (Cert.SimGnn.embOf h1 b) (Cert.SimGnn.embOf h2 b) (fun j a => w1 (ix2 j a)) (fun a => b1 (ix1 a)) (fun a c => w2 (ix2 a c)) (fun c => b2 (ix1 c)) (fun c u => w3 (ix2 c u)) (fun u => b3 (ix1 u)) := by
  have hflat : ∀ (b' : Fin 128) (j : Fin 262144), RefRun.simFlat (F := Ideal) h1 h2 (ix2 b' j)
      = (fun b'' => Cert.SimGnn.sim (Cert.SimGnn.embOf h1 b'') (Cert.SimGnn.embOf h2 b'')) b'
          ⟨j.val / 512, flat_row_lt j⟩ ⟨j.val % 512, flat_col_lt j⟩ := fun b' j => simFlat_apply h1 h2 b' j
  have e1 : (fun d => RefRun.gmean (F := Ideal) h1 (ix2 b d)) = Cert.SimGnn.gmean (Cert.SimGnn.embOf h1 b) :=
    funext fun d => hG h1 b d
  have e2 : (fun d => RefRun.gmean (F := Ideal) h2 (ix2 b d)) = Cert.SimGnn.gmean (Cert.SimGnn.embOf h2 b) :=
    funext fun d => hG h2 b d
  have e3 : (fun k => RefRun.histN (F := Ideal) (RefRun.simFlat h1 h2) (ix2 b k))
      = Cert.SimGnn.histN (Cert.SimGnn.embOf h1 b) (Cert.SimGnn.embOf h2 b) :=
    funext fun k => (hH (RefRun.simFlat h1 h2) b k _ hflat).trans rfl
  have e4 : RefRun.meanF (F := Ideal) (RefRun.simFlat h1 h2) (ix1 b)
      = Cert.SimGnn.mean (Cert.SimGnn.embOf h1 b) (Cert.SimGnn.embOf h2 b) :=
    (meanF_apply (RefRun.simFlat h1 h2) b _ (hflat b)).trans rfl
  have e5 : RefRun.maxF (F := Ideal) (RefRun.simFlat h1 h2) (ix1 b)
      = Cert.SimGnn.maxSim (Cert.SimGnn.embOf h1 b) (Cert.SimGnn.embOf h2 b) :=
    (maxF_apply (RefRun.simFlat h1 h2) b _ (hflat b)).trans rfl
  have e6 : RefRun.stdF (F := Ideal) (RefRun.simFlat h1 h2) (ix1 b)
      = Cert.SimGnn.std (Cert.SimGnn.embOf h1 b) (Cert.SimGnn.embOf h2 b) :=
    (stdF_apply (RefRun.simFlat h1 h2) b _ (hflat b) (sim_real _ _)).trans rfl
  rw [hM]
  unfold Cert.SimGnn.out
  refine congrArg (fun f => Cert.SimGnn.mlp f (fun j a => w1 (ix2 j a)) (fun a => b1 (ix1 a)) (fun a c => w2 (ix2 a c)) (fun c => b2 (ix1 c)) (fun c u => w3 (ix2 c u)) (fun u => b3 (ix1 u))) (funext fun j => ?_)
  rw [hF, e1, e2, e3, e4, e5, e6]
  rfl

/-- The result at graph pair `b`, given the same readings. -/
theorem result_apply_of
    (hG : ∀ (h : (⟨S65536x64, .f32⟩ : BufTy).Contents (Elt Ideal)) (b : Fin 128) (d : Fin 64),
      RefRun.gmean (F := Ideal) h (ix2 b d) = Cert.SimGnn.gmean (Cert.SimGnn.embOf h b) d)
    (hH : ∀ (flat : (⟨S128x262144, .f32⟩ : BufTy).Contents (Elt Ideal)) (b : Fin 128) (k : Fin 16) (S : Fin 128 → Fin 512 → Fin 512 → EReal)
      (_ : ∀ (b' : Fin 128) (j : Fin 262144), flat (ix2 b' j) = S b' ⟨j.val / 512, flat_row_lt j⟩ ⟨j.val % 512, flat_col_lt j⟩),
      RefRun.histN (F := Ideal) flat (ix2 b k)
        = Ideal.div (∑ n : Fin 512, ∑ m : Fin 512, Cert.SimGnn.ind (BitVec.ofNat 32 k.val) (Cert.SimGnn.binOf (S b n m)))
            (max (∑ k' : Fin 16, ∑ n : Fin 512, ∑ m : Fin 512, Cert.SimGnn.ind (BitVec.ofNat 32 k'.val) (Cert.SimGnn.binOf (S b n m))) Cert.SimGnn.c1))
    (hF : ∀ (g1 g2 : (⟨S128x64, .f32⟩ : BufTy).Contents (Elt Ideal)) (hist : (⟨S128x16, .f32⟩ : BufTy).Contents (Elt Ideal)) (mean mx sd : (⟨S128, .f32⟩ : BufTy).Contents (Elt Ideal)) (b : Fin 128) (j : Fin 147),
      RefRun.feat (F := Ideal) g1 g2 hist mean mx sd (ix2 b j)
        = Cert.SimGnn.featOf (fun d => g1 (ix2 b d)) (fun d => g2 (ix2 b d)) (fun k => hist (ix2 b k)) (mean (ix1 b)) (mx (ix1 b)) (sd (ix1 b)) j)
    (hM : ∀ (f : (⟨S128x147, .f32⟩ : BufTy).Contents (Elt Ideal)) (w1 : (⟨S147x64, .f32⟩ : BufTy).Contents (Elt Ideal)) (b1 : (⟨S64, .f32⟩ : BufTy).Contents (Elt Ideal)) (w2 : (⟨S64x32, .f32⟩ : BufTy).Contents (Elt Ideal)) (b2 : (⟨S32, .f32⟩ : BufTy).Contents (Elt Ideal)) (w3 : (⟨S32x1, .f32⟩ : BufTy).Contents (Elt Ideal)) (b3 : (⟨S1, .f32⟩ : BufTy).Contents (Elt Ideal)) (b : Fin 128),
      RefRun.mlp (F := Ideal) f w1 b1 w2 b2 w3 b3 (ix1 b)
        = Cert.SimGnn.mlp (fun j => f (ix2 b j)) (fun j a => w1 (ix2 j a)) (fun a => b1 (ix1 a)) (fun a c => w2 (ix2 a c)) (fun c => b2 (ix1 c)) (fun c u => w3 (ix2 c u)) (fun u => b3 (ix1 u)))
    (a0 : (⟨S65536x128, .f32⟩ : BufTy).Contents (Elt Ideal)) (a1 : (⟨S2x1048576, .i32⟩ : BufTy).Contents (Elt Ideal)) (a3 : (⟨S65536x128, .f32⟩ : BufTy).Contents (Elt Ideal)) (a4 : (⟨S2x1048576, .i32⟩ : BufTy).Contents (Elt Ideal)) (a6 : (⟨S128x64, .f32⟩ : BufTy).Contents (Elt Ideal)) (a7 : (⟨S64, .f32⟩ : BufTy).Contents (Elt Ideal)) (a8 : (⟨S64x64, .f32⟩ : BufTy).Contents (Elt Ideal)) (a9 : (⟨S64, .f32⟩ : BufTy).Contents (Elt Ideal)) (a10 : (⟨S64x64, .f32⟩ : BufTy).Contents (Elt Ideal)) (a11 : (⟨S64, .f32⟩ : BufTy).Contents (Elt Ideal)) (a12 : (⟨S64x64, .f32⟩ : BufTy).Contents (Elt Ideal)) (a13 : (⟨S64, .f32⟩ : BufTy).Contents (Elt Ideal)) (a14 : (⟨S147x64, .f32⟩ : BufTy).Contents (Elt Ideal)) (a15 : (⟨S64, .f32⟩ : BufTy).Contents (Elt Ideal)) (a16 : (⟨S64x32, .f32⟩ : BufTy).Contents (Elt Ideal)) (a17 : (⟨S32, .f32⟩ : BufTy).Contents (Elt Ideal)) (a18 : (⟨S32x1, .f32⟩ : BufTy).Contents (Elt Ideal)) (a19 : (⟨S1, .f32⟩ : BufTy).Contents (Elt Ideal)) (b : Fin 128) :
    RefRun.result (F := Ideal) a0 a1 a3 a4 a6 a7 a8 a9 a10 a11 a12 a13 a14 a15 a16 a17 a18 a19 (ix1 b)
      = Cert.SimGnn.out (Cert.SimGnn.embOf (RefRun.enc (F := Ideal) a0 a1 a6 a7 a8 a9 a10 a11 a12 a13) b) (Cert.SimGnn.embOf (RefRun.enc (F := Ideal) a3 a4 a6 a7 a8 a9 a10 a11 a12 a13) b) (fun j a => a14 (ix2 j a)) (fun a => a15 (ix1 a)) (fun a c => a16 (ix2 a c)) (fun c => a17 (ix1 c)) (fun c u => a18 (ix2 c u)) (fun u => a19 (ix1 u)) :=
  tail_apply_of hG hH hF hM (RefRun.enc (F := Ideal) a0 a1 a6 a7 a8 a9 a10 a11 a12 a13) (RefRun.enc (F := Ideal) a3 a4 a6 a7 a8 a9 a10 a11 a12 a13) a14 a15 a16 a17 a18 a19 b

end Cert.ReferenceIdeal.RefSpec

end
-- ==== Proof.RefSpecGmean.lean ====
/-
  The reference's per-graph mean row read by coordinates: the node table viewed as [128, 512, 64] (graph `b` owns
  rows 512·b … 512·b + 511), summed over the 512 nodes from zero, divided by 512.
-/
import proofs.«115078_j84482006712593_1_alg».proof.Proof.RefRunStages
import proofs.«115078_j84482006712593_1_alg».proof.Proof.Spec
import proofs.«115078_j84482006712593_1_alg».proof.Proof.RefSpecHost

noncomputable section

open scoped BigOperators

namespace Cert.ReferenceIdeal.RefSpec

open Cert.ReferenceIdeal Cert.ReferenceIdeal.Gen Idealize.ShloMosaic Idealize.SL.Sem Idealize.ShloMosaic.ValueIdx

/-- The node table viewed as [128, 512, 64], at graph `b`, node `n`, feature `d`. -/
theorem nodes_apply (h : (⟨S65536x64, .f32⟩ : BufTy).Contents (Elt Ideal)) (b : Fin 128) (n : Fin 512) (d : Fin 64) :
    shapeCast S128x512x64 h shapeCasts_S65536x64_S128x512x64 (ix3 b n d) = Cert.SimGnn.embOf h b n d :=
  reshape_2to3_apply h shapeCasts_S65536x64_S128x512x64 b n d _ rfl

/-- The mean-row stage at graph `b`, feature `d`. -/
theorem gmean_apply (h : (⟨S65536x64, .f32⟩ : BufTy).Contents (Elt Ideal)) (b : Fin 128) (d : Fin 64) :
    RefRun.gmean (F := Ideal) h (ix2 b d) = Cert.SimGnn.gmean (Cert.SimGnn.embOf h b) d := by
  unfold RefRun.gmean Cert.SimGnn.gmean
  rw [hostDivf_apply]
  refine congrArg₂ Ideal.div ?_ ?_
  · refine (hostSum_axis1_of3 _ _ reducesTo_S128x512x64_S128x64_d1 (by decide) h_S_ b d).trans ?_
    rw [constant_apply, Ideal.ofBits_zero_f32, zero_add]
    exact Finset.sum_congr rfl fun n _ => nodes_apply h b n d
  · rw [broadcastInDim_scalar_apply, constant_apply]
    rfl

end Cert.ReferenceIdeal.RefSpec

end
-- ==== Proof.RefSpecMlp.lean ====
/-
  The reference's last stage read at one graph: three affine layers, the first two followed by the positive part,
  the last of width one, its column viewed as a vector. Row `b` of each product depends on row `b` of its left
  operand only, so the value at graph `b` is the perceptron of the specification on feature row `b`.
-/
import proofs.«115078_j84482006712593_1_alg».proof.Proof.RefRunStages
import proofs.«115078_j84482006712593_1_alg».proof.Proof.Spec
import proofs.«115078_j84482006712593_1_alg».proof.Proof.LibDense
import proofs.«115078_j84482006712593_1_alg».proof.Proof.RefSpecHost

noncomputable section

namespace Cert.ReferenceIdeal.RefSpec

open Cert.ReferenceIdeal Cert.ReferenceIdeal.Gen Idealize.ShloMosaic Idealize.SL.Sem Idealize.ShloMosaic.ValueIdx

/-- The perceptron stage at graph `b`. -/
theorem mlp_apply (f : (⟨S128x147, .f32⟩ : BufTy).Contents (Elt Ideal)) (w1 : (⟨S147x64, .f32⟩ : BufTy).Contents (Elt Ideal)) (b1 : (⟨S64, .f32⟩ : BufTy).Contents (Elt Ideal)) (w2 : (⟨S64x32, .f32⟩ : BufTy).Contents (Elt Ideal))
    (b2 : (⟨S32, .f32⟩ : BufTy).Contents (Elt Ideal)) (w3 : (⟨S32x1, .f32⟩ : BufTy).Contents (Elt Ideal)) (b3 : (⟨S1, .f32⟩ : BufTy).Contents (Elt Ideal)) (b : Fin 128) :
    RefRun.mlp (F := Ideal) f w1 b1 w2 b2 w3 b3 (ix1 b)
      = Cert.SimGnn.mlp (fun j => f (ix2 b j)) (fun j a => w1 (ix2 j a)) (fun a => b1 (ix1 a))
          (fun a c => w2 (ix2 a c)) (fun c => b2 (ix1 c)) (fun c u => w3 (ix2 c u)) (fun u => b3 (ix1 u)) := by
  unfold RefRun.mlp Cert.SimGnn.mlp
  refine (reshape_col_to_vec_apply _ shapeCasts_S128x1_S128 b).trans ?_
  refine (Dense.hostDot_bias_apply dot_S128x32_S32x1_S128x1_1_0_0_1_n_n rfl _ w3 b3 bcast_S1_S1x1_1
    bcast_S1x1_S128x1_0_1 b (0 : Fin 1)).trans ?_
  refine congrArg (fun x => Dense.lin x (fun c u => w3 (ix2 c u)) (fun u => b3 (ix1 u)) (0 : Fin 1)) (funext fun c => ?_)
  refine (Dense.hostDot_bias_relu_apply dot_S128x64_S64x32_S128x32_1_0_0_1_n_n rfl _ w2 b2 bcast_S32_S1x32_1
    bcast_S1x32_S128x32_0_1 bcast_S_S128x32 b c).trans ?_
  refine congrArg (fun x => Dense.relu (Dense.lin x (fun a c => w2 (ix2 a c)) (fun c => b2 (ix1 c)) c)) (funext fun a => ?_)
  exact Dense.hostDot_bias_relu_apply dot_S128x147_S147x64_S128x64_1_0_0_1_n_n rfl f w1 b1 bcast_S64_S1x64_1
    bcast_S1x64_S128x64_0_1 bcast_S_S128x64 b a

end Cert.ReferenceIdeal.RefSpec

end
-- ==== Proof.RefSpecFeat.lean ====
/-
  The reference's feature rows read by coordinates: the two mean rows, the histogram row and the three statistics
  (each a vector over the graphs made a one-column block) laid side by side; column `j` of row `b` falls in exactly
  one block.
-/
import proofs.«115078_j84482006712593_1_alg».proof.Proof.RefRunStages
import proofs.«115078_j84482006712593_1_alg».proof.Proof.Spec
import proofs.«115078_j84482006712593_1_alg».proof.Proof.LibConcatCols
import proofs.«115078_j84482006712593_1_alg».proof.Proof.RefSpecHost

noncomputable section

namespace Cert.ReferenceIdeal.RefSpec

open Cert.ReferenceIdeal Cert.ReferenceIdeal.Gen Idealize.ShloMosaic Idealize.SL.Sem Idealize.ShloMosaic.ValueIdx

/-- The three statistics side by side, at row `b`, column `i`. -/
theorem stats3_apply (mean mx sd : (⟨S128, .f32⟩ : BufTy).Contents (Elt Ideal)) (b : Fin 128) (i : Fin 3) :
    concatenate S128x3 1 [⟨S128x1, (broadcastInDim S128x1 ![0] bcast_S128_S128x1_0 mean : (⟨S128x1, .f32⟩ : BufTy).Contents (Elt Ideal))⟩,
        ⟨S128x1, (broadcastInDim S128x1 ![0] bcast_S128_S128x1_0 mx : (⟨S128x1, .f32⟩ : BufTy).Contents (Elt Ideal))⟩,
        ⟨S128x1, (broadcastInDim S128x1 ![0] bcast_S128_S128x1_0 sd : (⟨S128x1, .f32⟩ : BufTy).Contents (Elt Ideal))⟩]
        concatenates_S128x1_S128x1_S128x1_S128x3_d1 (ix2 b i)
      = if i.val = 0 then mean (ix1 b) else if i.val = 1 then mx (ix1 b) else sd (ix1 b) := by
  have hi := i.isLt
  refine (ConcatCols.cols3_apply _ _ _ concatenates_S128x1_S128x1_S128x1_S128x3_d1 rfl b i).trans ?_
  by_cases h0 : i.val = 0
  · have c0 : i.val < 1 := by omega
    rw [dif_pos c0, if_pos h0]
    exact vec_to_col_apply mean bcast_S128_S128x1_0 b _
  · have c0 : ¬ i.val < 1 := by omega
    rw [dif_neg c0, if_neg h0]
    by_cases h1 : i.val = 1
    · have c1 : i.val < 1 + 1 := by omega
      rw [dif_pos c1, if_pos h1]
      exact vec_to_col_apply mx bcast_S128_S128x1_0 b _
    · have c1 : ¬ i.val < 1 + 1 := by omega
      rw [dif_neg c1, if_neg h1]
      exact vec_to_col_apply sd bcast_S128_S128x1_0 b _

/-- The feature stage at graph `b`, column `j`. -/
theorem feat_apply (g1 g2 : (⟨S128x64, .f32⟩ : BufTy).Contents (Elt Ideal)) (hist : (⟨S128x16, .f32⟩ : BufTy).Contents (Elt Ideal)) (mean mx sd : (⟨S128, .f32⟩ : BufTy).Contents (Elt Ideal)) (b : Fin 128)
    (j : Fin 147) :
    RefRun.feat (F := Ideal) g1 g2 hist mean mx sd (ix2 b j)
      = Cert.SimGnn.featOf (fun d => g1 (ix2 b d)) (fun d => g2 (ix2 b d)) (fun k => hist (ix2 b k)) (mean (ix1 b))
          (mx (ix1 b)) (sd (ix1 b)) j := by
  have hj := j.isLt
  unfold RefRun.feat Cert.SimGnn.featOf
  refine (ConcatCols.cols3_apply g1 g2 _ concatenates_S128x64_S128x64_S128x19_S128x147_d1 rfl b j).trans ?_
  by_cases h1 : j.val < 64
  · rw [dif_pos h1, dif_pos h1]
  · rw [dif_neg h1, dif_neg h1]
    by_cases h2 : j.val < 128
    · have c2 : j.val < 64 + 64 := h2
      rw [dif_pos c2, dif_pos h2]
    · have c2 : ¬ j.val < 64 + 64 := h2
      rw [dif_neg c2, dif_neg h2]
      refine (ConcatCols.cols2_apply hist _ concatenates_S128x16_S128x3_S128x19_d1 rfl b _).trans ?_
      by_cases h3 : j.val < 144
      · have c3 : j.val - (64 + 64) < 16 := by omega
        rw [dif_pos c3, dif_pos h3]
      · have c3 : ¬ j.val - (64 + 64) < 16 := by omega
        rw [dif_neg c3, dif_neg h3]
        refine (stats3_apply mean mx sd b _).trans ?_
        by_cases h4 : j.val = 144
        · have c4 : j.val - (64 + 64) - 16 = 0 := by omega
          rw [if_pos c4, if_pos h4]
        · have c4 : ¬ j.val - (64 + 64) - 16 = 0 := by omega
          rw [if_neg c4, if_neg h4]
          by_cases h5 : j.val = 145
          · have c5 : j.val - (64 + 64) - 16 = 1 := by omega
            rw [if_pos c5, if_pos h5]
          · have c5 : ¬ j.val - (64 + 64) - 16 = 1 := by omega
            rw [if_neg c5, if_neg h5]

end Cert.ReferenceIdeal.RefSpec

end
-- ==== Proof.RefSpecScatter.lean ====
/-
  A scatter of a flat list of updates into a flat array, keyed by one start index per update (the index array has
  one column): update `u` lands on cell `i` exactly when the start index read for `u`, as a signed integer, is `i`.
  The window has no axes (every update is one element), so the landing cell is the start index itself, and an index
  outside the array is dropped.
-/
import Idealize.ShloMosaic.PureOps.Ideal.Laws
import Idealize.ShloMosaic.Lib.ValueIdx

noncomputable section

namespace Cert.ReferenceIdeal.RefSpec

open Idealize.ShloMosaic Idealize.ShloMosaic.ValueIdx

variable {S U w : ℕ}

/-- The start of update `u`'s window on the one operand axis is the index read at row `u`, column 0. -/
theorem scatter1_start (d : ScatterDims ⟨1, ![S]⟩ ⟨2, ![U, 1]⟩ ⟨1, ![U]⟩) (hsd : d.scatterDimsToOperandDims = [0])
    (hiv : d.indexVectorDim = 1) (u : (⟨1, ![U]⟩ : Shape).Idx) (idx : IVec ⟨2, ![U, 1]⟩ w) :
    d.start u idx 0 = (idx (ix2 (u 0) (0 : Fin 1))).toInt := by
  have ha : (0 : Fin (⟨1, ![S]⟩ : Shape).rank) ∈ d.scatterDimsToOperandDims := by
    rw [hsd]; exact List.mem_singleton.mpr rfl
  have key : d.siIdx u ⟨d.scatterDimsToOperandDims.idxOf 0, List.idxOf_lt_length_iff.2 ha⟩ = ix2 (u 0) (0 : Fin 1) := by
    funext b
    apply Fin.ext
    have hb2 : b.val < 2 := b.isLt
    by_cases hb : b.val = d.indexVectorDim
    · have hb1 : b.val = 1 := hb.trans hiv
      have hbe : b = ⟨1, Nat.one_lt_two⟩ := Fin.ext hb1
      subst hbe
      simp only [ScatterDims.siIdx, dif_pos hb]
      show List.idxOf (0 : Fin (⟨1, ![S]⟩ : Shape).rank) d.scatterDimsToOperandDims = 0
      rw [hsd]; rfl
    · have hb0 : b.val = 0 := by rw [hiv] at hb; omega
      have hbe : b = ⟨0, Nat.zero_lt_two⟩ := Fin.ext hb0
      subst hbe
      simp only [ScatterDims.siIdx, dif_neg hb, ScatterDims.siCoord, Fin.val_cast]
      exact congrArg (fun x => (u x).val) (Fin.eq_zero _)
  unfold ScatterDims.start
  rw [dif_pos ha, key]
  rfl

/-- The window coordinate on the one operand axis is zero: the axis is an inserted one. -/
theorem scatter1_window (d : ScatterDims ⟨1, ![S]⟩ ⟨2, ![U, 1]⟩ ⟨1, ![U]⟩) (hins : d.insertedWindowDims = [0])
    (u : (⟨1, ![U]⟩ : Shape).Idx) : d.window u 0 = 0 := by
  have hk : (0 : Fin (⟨1, ![S]⟩ : Shape).rank) ∉ d.sKept := by
    show (0 : Fin 1) ∉ (List.finRange 1).filter (· ∉ d.insertedWindowDims)
    rw [hins]
    intro hmem
    have h2 := (List.mem_filter.mp hmem).2
    simp at h2
  unfold ScatterDims.window
  rw [dif_neg hk]

/-- Update `u` lands on cell `i` exactly when its start index, read signed, is `i`. -/
theorem scatter1_resultIdx_iff (d : ScatterDims ⟨1, ![S]⟩ ⟨2, ![U, 1]⟩ ⟨1, ![U]⟩)
    (hsd : d.scatterDimsToOperandDims = [0]) (hiv : d.indexVectorDim = 1) (hins : d.insertedWindowDims = [0])
    (u : (⟨1, ![U]⟩ : Shape).Idx) (idx : IVec ⟨2, ![U, 1]⟩ w) (i : (⟨1, ![S]⟩ : Shape).Idx) :
    d.resultIdx? u idx = some i ↔ (idx (ix2 (u 0) (0 : Fin 1))).toInt = ((i 0).val : ℤ) := by
  have hst := scatter1_start d hsd hiv u idx
  have hwn := scatter1_window d hins u
  have hlt : ((i 0).val : ℤ) < (((⟨1, ![S]⟩ : Shape).size 0 : ℕ) : ℤ) := by exact_mod_cast (i 0).isLt
  unfold ScatterDims.resultIdx?
  constructor
  · intro h
    split at h
    · rename_i hall
      have e := Option.some.inj h
      have e0 : (d.start u idx 0 + (d.window u 0 : ℤ)).toNat = (i 0).val := congrArg (fun f => (f 0).val) e
      have h0 := (hall 0).1
      rw [hst, hwn] at h0 e0
      omega
    · exact absurd h (by simp)
  · intro h
    have hall : ∀ a, 0 ≤ d.start u idx a + (d.window u a : ℤ)
        ∧ d.start u idx a + (d.window u a : ℤ) < (((⟨1, ![S]⟩ : Shape).size a : ℕ) : ℤ) := by
      intro a
      have ha : a = 0 := Fin.eq_zero a
      subst ha
      rw [hst, hwn, h]
      constructor
      · omega
      · omega
    rw [dif_pos hall]
    refine congrArg some (funext fun a => Fin.ext ?_)
    have ha : a = 0 := Fin.eq_zero a
    subst ha
    show (d.start u idx 0 + (d.window u 0 : ℤ)).toNat = (i 0).val
    rw [hst, hwn, h]
    omega

/-- The host's accumulating scatter of such a list, at the exact-real instance: cell `i` holds its initial value plus
    the sum of the updates whose start index is `i`. -/
theorem scatterAdd1_apply (d : ScatterDims ⟨1, ![S]⟩ ⟨2, ![U, 1]⟩ ⟨1, ![U]⟩)
    (hsd : d.scatterDimsToOperandDims = [0]) (hiv : d.indexVectorDim = 1) (hins : d.insertedWindowDims = [0])
    (x : FVec Ideal ⟨1, ![S]⟩ .f32) (idx : IVec ⟨2, ![U, 1]⟩ w) (upd : FVec Ideal ⟨1, ![U]⟩ .f32)
    (i : (⟨1, ![S]⟩ : Shape).Idx) :
    Host.scatterAdd d x idx upd i
      = x i + ∑ u ∈ Finset.univ.filter (fun u : (⟨1, ![U]⟩ : Shape).Idx =>
          (idx (ix2 (u 0) (0 : Fin 1))).toInt = ((i 0).val : ℤ)), upd u := by
  show Ideal.hostScatterAdd d x idx upd i = _
  unfold Ideal.hostScatterAdd
  refine congrArg (fun z => x i + z) (Finset.sum_congr (Finset.filter_congr fun u _ => ?_) fun _ _ => rfl)
  exact scatter1_resultIdx_iff d hsd hiv hins u idx i

end Cert.ReferenceIdeal.RefSpec

end
-- ==== Proof.MathHist.lean ====
/-
  Counting: a histogram bin as a cardinality, on both sides.

  • A sum of ones over a finite set is the number of its elements (as the image of a real in the extended reals);
    a sum of indicators (one where a condition holds, zero elsewhere) is the number of places where it holds; a
    double sum of indicators over rows and columns is the number of pairs where it holds.
  • Keys: with 0 ≤ v, k < W, the equation q·W + v = b·W + k holds exactly when q = b and v = k. So among the flat
    positions u < B·M, read as (u / M, u % M), those whose key (u / M)·W + c (u / M) (u % M) equals b·W + k are
    exactly the positions b·M + j with c b j = k: as many as the j < M with c b j = k. And the positions
    j < P·K with a property are as many as the pairs (n, m) with the property at n·K + m.
  • A value clamped into [0, 15] and converted to a signed 32-bit integer (toward zero) is a natural number below 16,
    read signed or unsigned alike; for b < 128 and v < 16 the 32-bit word b·16 + v reads, signed, as b·16 + v.
  • The indicator word: a one-bit comparison result zero-extended to 32 bits and converted to a float is 1 or 0.
-/
import Idealize.ShloMosaic.PureOps.Ideal
import Mathlib.Data.EReal.Basic
import Mathlib.Data.EReal.Operations
import Mathlib.Algebra.BigOperators.Fin
import Mathlib.Logic.Equiv.Fin.Basic
import Mathlib.Algebra.Order.Floor.Ring
import Mathlib.Tactic.Ring
import Mathlib.Tactic.NormNum

noncomputable section

namespace Cert.SimStats

open Idealize.ShloMosaic
open scoped BigOperators

/-! ### Sums of ones and of indicators -/

/-- A sum of ones over a finite set is its number of elements. -/
theorem sum_ones {ι : Type*} (s : Finset ι) : ∑ _j ∈ s, (1 : EReal) = ((s.card : ℝ) : EReal) := by
  have h : ((∑ _j ∈ s, (1 : ℝ) : ℝ) : EReal) = ∑ _j ∈ s, ((1 : ℝ) : EReal) :=
    map_sum (⟨⟨Real.toEReal, EReal.coe_zero⟩, EReal.coe_add⟩ : ℝ →+ EReal) (fun _ => (1 : ℝ)) s
  rw [show (1 : EReal) = ((1 : ℝ) : EReal) from EReal.coe_one.symm, ← h]
  congr 1
  rw [Finset.sum_const, nsmul_eq_mul, mul_one]

/-- The same started from zero. -/
theorem zero_add_sum_ones {ι : Type*} (s : Finset ι) : 0 + ∑ _j ∈ s, (1 : EReal) = ((s.card : ℝ) : EReal) := by
  rw [zero_add, sum_ones]

/-- A sum of indicators is the number of places where the condition holds. -/
theorem sum_indicator {ι : Type*} [Fintype ι] (p : ι → Prop) [DecidablePred p] :
    ∑ i, (if p i then (1 : EReal) else 0) = (((Finset.univ.filter p).card : ℝ) : EReal) := by
  rw [← sum_ones, Finset.sum_filter]

/-- A double sum of indicators is the number of pairs where the condition holds. -/
theorem sum_sum_indicator {α β : Type*} [Fintype α] [Fintype β] (p : α → β → Prop) [∀ a b, Decidable (p a b)] :
    ∑ a, ∑ b, (if p a b then (1 : EReal) else 0)
      = (((Finset.univ.filter fun q : α × β => p q.1 q.2).card : ℝ) : EReal) := by
  rw [← sum_indicator (fun q : α × β => p q.1 q.2), Fintype.sum_prod_type]

/-! ### Cardinalities carried along a map -/

/-- Two sets cut out of finite types have the same number of elements when a one-to-one map carries the second
    condition to the first and reaches every element of the first set. -/
theorem card_filter_of_map {U J : Type*} [Fintype U] [Fintype J] (pU : U → Prop) [DecidablePred pU] (pJ : J → Prop)
    [DecidablePred pJ] (e : J → U) (he : Function.Injective e) (hmap : ∀ j, pU (e j) ↔ pJ j)
    (hsurj : ∀ u, pU u → ∃ j, e j = u) :
    (Finset.univ.filter pU).card = (Finset.univ.filter pJ).card := by
  symm
  refine Finset.card_bij (fun j _ => e j) ?_ ?_ ?_
  · intro j hj
    simp only [Finset.mem_filter, Finset.mem_univ, true_and] at hj ⊢
    exact (hmap j).mpr hj
  · intro j _ j' _ h
    exact he h
  · intro u hu
    simp only [Finset.mem_filter, Finset.mem_univ, true_and] at hu
    obtain ⟨j, rfl⟩ := hsurj u hu
    exact ⟨j, by simp only [Finset.mem_filter, Finset.mem_univ, true_and]; exact (hmap j).mp hu, rfl⟩

/-- Along a bijection. -/
theorem card_filter_equiv {A B : Type*} [Fintype A] [Fintype B] (e : A ≃ B) (p : B → Prop) [DecidablePred p]
    (p' : A → Prop) [DecidablePred p'] (h : ∀ a, p' a ↔ p (e a)) :
    (Finset.univ.filter p').card = (Finset.univ.filter p).card := by
  symm
  exact card_filter_of_map p p' e e.injective (fun a => (h a).symm) (fun b _ => ⟨e.symm b, e.apply_symm_apply b⟩)

/-! ### Keys -/

/-- With both remainders below `W`, two keys agree exactly when quotients and remainders agree. -/
theorem key_eq_iff (W q v b k : ℕ) (hv : v < W) (hk : k < W) : q * W + v = b * W + k ↔ q = b ∧ v = k := by
  constructor
  · intro h
    have hW : 0 < W := lt_of_le_of_lt (Nat.zero_le _) hk
    have hm : (v + q * W) % W = (k + b * W) % W := by rw [add_comm v, add_comm k, h]
    rw [Nat.add_mul_mod_self_right, Nat.add_mul_mod_self_right, Nat.mod_eq_of_lt hv, Nat.mod_eq_of_lt hk] at hm
    subst hm
    have h' : q * W = b * W := Nat.add_right_cancel h
    exact ⟨Nat.eq_of_mul_eq_mul_right hW h', rfl⟩
  · rintro ⟨rfl, rfl⟩; rfl

/-- Among the flat positions `u < B·M`, read as (`u / M`, `u % M`), those whose key is `b·W + k` are as many as the
    `j < M` with `c b j = k`. -/
theorem card_flat_key (B M W n : ℕ) (hn : n = B * M) (c : ℕ → ℕ → ℕ) (hc : ∀ q r, q < B → r < M → c q r < W)
    (b k : ℕ) (hb : b < B) (hk : k < W)
    (pU : Fin n → Prop) [DecidablePred pU]
    (hpU : ∀ u : Fin n, pU u ↔ (u.val / M) * W + c (u.val / M) (u.val % M) = b * W + k)
    (pJ : Fin M → Prop) [DecidablePred pJ] (hpJ : ∀ j : Fin M, pJ j ↔ c b j.val = k) :
    (Finset.univ.filter pU).card = (Finset.univ.filter pJ).card := by
  subst hn
  have hM : ∀ j : Fin M, b * M + j.val < B * M := fun j => by
    have h1 : b * M + j.val < b * M + M := Nat.add_lt_add_left j.isLt _
    have h2 : b * M + M = (b + 1) * M := by ring
    exact lt_of_lt_of_le (h2 ▸ h1) (Nat.mul_le_mul_right M hb)
  have hdiv : ∀ j : Fin M, (b * M + j.val) / M = b := fun j => by
    have hMpos : 0 < M := lt_of_le_of_lt (Nat.zero_le _) j.isLt
    rw [add_comm, Nat.add_mul_div_right _ _ hMpos, Nat.div_eq_of_lt j.isLt, zero_add]
  have hmod : ∀ j : Fin M, (b * M + j.val) % M = j.val := fun j => by
    rw [add_comm, Nat.add_mul_mod_self_right, Nat.mod_eq_of_lt j.isLt]
  refine card_filter_of_map pU pJ (fun j => ⟨b * M + j.val, hM j⟩) ?_ ?_ ?_
  · intro j j' h
    have : b * M + j.val = b * M + j'.val := congrArg Fin.val h
    exact Fin.ext (Nat.add_left_cancel this)
  · intro j
    rw [hpU, hpJ]
    show (b * M + j.val) / M * W + c ((b * M + j.val) / M) ((b * M + j.val) % M) = b * W + k ↔ _
    rw [hdiv, hmod]
    constructor
    · intro h; exact Nat.add_left_cancel h
    · intro h; rw [h]
  · intro u hu
    rw [hpU] at hu
    have hult : u.val < B * M := u.isLt
    have hMpos : 0 < M := by
      rcases Nat.eq_zero_or_pos M with h0 | h0
      · exfalso; simp [h0] at hult
      · exact h0
    have hq : u.val / M < B := Nat.div_lt_of_lt_mul (by rw [Nat.mul_comm M B]; exact hult)
    have hr : u.val % M < M := Nat.mod_lt _ hMpos
    obtain ⟨hqb, _⟩ := (key_eq_iff W _ _ b k (hc _ _ hq hr) hk).mp hu
    refine ⟨⟨u.val % M, hr⟩, Fin.ext ?_⟩
    show b * M + u.val % M = u.val
    rw [← hqb, Nat.mul_comm]
    exact Nat.div_add_mod _ _

/-- The flat positions `j < P·K` with a property are as many as the pairs (`n`, `m`) with the property at
    `n·K + m`. -/
theorem card_flat_pairs (P K n : ℕ) (hn : n = P * K) (p : ℕ → Prop)
    (pJ : Fin n → Prop) [DecidablePred pJ] (hpJ : ∀ j : Fin n, pJ j ↔ p j.val)
    (pP : Fin P × Fin K → Prop) [DecidablePred pP] (hpP : ∀ q : Fin P × Fin K, pP q ↔ p (q.1.val * K + q.2.val)) :
    (Finset.univ.filter pJ).card = (Finset.univ.filter pP).card := by
  subst hn
  symm
  refine card_filter_equiv finProdFinEquiv pJ pP fun q => ?_
  rw [hpP, hpJ]
  have : (finProdFinEquiv q).val = q.1.val * K + q.2.val := by
    rw [finProdFinEquiv_apply_val]; ring
  rw [this]

/-! ### The bin as a word -/

/-- A value in [0, 15] converted to a signed 32-bit integer (toward zero) is the word of a natural number below 16. -/
theorem fptosi_of_mem (z : EReal) (h0 : 0 ≤ z) (h15 : z ≤ ((15 : ℝ) : EReal)) :
    ∃ v : ℕ, v < 16 ∧ Ideal.fptosi 32 z = BitVec.ofNat 32 v := by
  induction z using EReal.rec with
  | bot => exact absurd h0 (by simp)
  | top => exact absurd h15 (by simp)
  | coe r =>
    have hr0 : 0 ≤ r := by exact_mod_cast h0
    have hr15 : r ≤ 15 := by exact_mod_cast h15
    have hf0 : 0 ≤ ⌊r⌋ := Int.floor_nonneg.mpr hr0
    have hf15 : ⌊r⌋ ≤ 15 := by
      have h := Int.floor_le_floor hr15
      rwa [show ⌊(15 : ℝ)⌋ = 15 from by norm_num] at h
    obtain ⟨v, hv⟩ := Int.eq_ofNat_of_zero_le hf0
    refine ⟨v, by omega, ?_⟩
    rw [Ideal.fptosi, Ideal.toIntClamped_coe, if_pos hr0, hv]
    have hclamp : max (-((2 ^ (32 - 1) : ℕ) : ℤ)) (min (((2 ^ (32 - 1) : ℕ) : ℤ) - 1) (v : ℤ)) = (v : ℤ) := by
      have : ((2 ^ (32 - 1) : ℕ) : ℤ) = 2147483648 := by norm_num
      rw [this]; omega
    rw [hclamp, BitVec.ofInt_natCast]

/-- Read unsigned, the word is below 16. -/
theorem fptosi_toNat_lt (z : EReal) (h0 : 0 ≤ z) (h15 : z ≤ ((15 : ℝ) : EReal)) : (Ideal.fptosi 32 z).toNat < 16 := by
  obtain ⟨v, hv, e⟩ := fptosi_of_mem z h0 h15
  rw [e, BitVec.toNat_ofNat]
  omega

/-- Read signed, the word is the same natural number. -/
theorem fptosi_toInt_eq_toNat (z : EReal) (h0 : 0 ≤ z) (h15 : z ≤ ((15 : ℝ) : EReal)) :
    (Ideal.fptosi 32 z).toInt = ((Ideal.fptosi 32 z).toNat : ℤ) := by
  have h := fptosi_toNat_lt z h0 h15
  rw [BitVec.toInt_eq_toNat_cond, if_pos (by omega)]

/-- The clamp, whatever it is applied to, lands in [0, 15]. -/
theorem clamp_mem (lo hi y : EReal) (hlo : lo = 0) (hhi : hi = ((15 : ℝ) : EReal)) :
    0 ≤ min hi (max lo y) ∧ min hi (max lo y) ≤ ((15 : ℝ) : EReal) := by
  subst hlo hhi
  exact ⟨le_min (by exact_mod_cast (by norm_num : (0 : ℝ) ≤ 15)) (le_max_left _ _), min_le_left _ _⟩

/-- The bin of a value: clamped into [0, 15] and converted, a natural number below 16. -/
theorem bin_toNat_lt (lo hi y : EReal) (hlo : lo = 0) (hhi : hi = ((15 : ℝ) : EReal)) :
    (Ideal.fptosi 32 (min hi (max lo y))).toNat < 16 :=
  fptosi_toNat_lt _ (clamp_mem lo hi y hlo hhi).1 (clamp_mem lo hi y hlo hhi).2

/-- … read signed it is that natural number. -/
theorem bin_toInt (lo hi y : EReal) (hlo : lo = 0) (hhi : hi = ((15 : ℝ) : EReal)) :
    (Ideal.fptosi 32 (min hi (max lo y))).toInt = ((Ideal.fptosi 32 (min hi (max lo y))).toNat : ℤ) :=
  fptosi_toInt_eq_toNat _ (clamp_mem lo hi y hlo hhi).1 (clamp_mem lo hi y hlo hhi).2

/-! ### Words -/

/-- For `b < 128` and `v < 16` the 32-bit word `b·16 + v` reads, signed, as `b·16 + v`. -/
theorem key_toInt (b v : ℕ) (hb : b < 128) (hv : v < 16) :
    (BitVec.ofNat 32 b * 16#32 + BitVec.ofNat 32 v).toInt = (b : ℤ) * 16 + (v : ℤ) := by
  rw [BitVec.toInt_eq_toNat_cond]
  simp only [BitVec.toNat_add, BitVec.toNat_mul, BitVec.toNat_ofNat]
  split <;> omega

/-- … and unsigned likewise. -/
theorem key_toNat (b v : ℕ) (hb : b < 128) (hv : v < 16) :
    (BitVec.ofNat 32 b * 16#32 + BitVec.ofNat 32 v).toNat = b * 16 + v := by
  simp only [BitVec.toNat_add, BitVec.toNat_mul, BitVec.toNat_ofNat]
  omega

/-- Two words of natural numbers below 2^32 are equal exactly when the numbers are. -/
theorem ofNat_beq (a k : ℕ) (ha : a < 2 ^ 32) (hk : k < 2 ^ 32) :
    (BitVec.ofNat 32 a == BitVec.ofNat 32 k) = decide (a = k) := by
  rw [Bool.eq_iff_iff]
  simp only [beq_iff_eq, decide_eq_true_eq]
  constructor
  · intro h
    have := congrArg BitVec.toNat h
    simp only [BitVec.toNat_ofNat] at this
    omega
  · rintro rfl; rfl

/-- A word is the word of its unsigned reading. -/
theorem word_eq_ofNat_toNat (w : BitVec 32) : w = BitVec.ofNat 32 w.toNat := by
  simp

/-- The indicator: a one-bit comparison result, zero-extended to 32 bits and converted to a float, is 1 or 0. -/
theorem sitofp_setWidth_ofBool (p : Bool) :
    FloatOps.sitofp (F := Ideal) .f32 ((BitVec.ofBool p).setWidth 32) = if p then (1 : EReal) else 0 := by
  cases p
  · show ((((BitVec.ofBool false).setWidth 32).toInt : ℝ) : EReal) = 0
    have : ((BitVec.ofBool false).setWidth 32).toInt = 0 := by decide
    rw [this]; norm_num
  · show ((((BitVec.ofBool true).setWidth 32).toInt : ℝ) : EReal) = 1
    have : ((BitVec.ofBool true).setWidth 32).toInt = 1 := by decide
    rw [this]; norm_num

end Cert.SimStats

end
-- ==== Proof.MathIdx.lean ====
/-
  The counting and re-indexing statements over index sets given by coordinates.

  A rank-1 index set of extent n is the set of its one coordinate, a rank-2 index set the set of pairs of its two
  coordinates; sums and cardinalities are carried along these identifications. The last statement chains the
  two counting steps: among the flat positions u < B·(P·K), those whose key (u / M)·W + c (u / M) (u % M) is
  b·W + k are as many as the pairs (n, m) with c b (n·K + m) = k.
-/
import Idealize.ShloMosaic.Lib.ValueIdx
import proofs.«115078_j84482006712593_1_alg».proof.Proof.MathHist

noncomputable section

namespace Cert.SimStats

open Idealize.ShloMosaic Idealize.ShloMosaic.ValueIdx
open scoped BigOperators

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A subset of a rank-1 index set has as many elements as the matching set of coordinates. -/
theorem card_filter_idx1 {n : Nat} (p : (⟨1, ![n]⟩ : Shape).Idx → Prop) [DecidablePred p] (p' : Fin n → Prop)
    [DecidablePred p'] (h : ∀ a, p' a ↔ p (ix1 a)) :
    (Finset.univ.filter p).card = (Finset.univ.filter p').card :=
  (card_filter_equiv (idxEquiv1 (n := n)).symm p p' h).symm

/-- A subset of a rank-2 index set has as many elements as the matching set of coordinate pairs. -/
theorem card_filter_idx2 {n0 n1 : Nat} (p : (⟨2, ![n0, n1]⟩ : Shape).Idx → Prop) [DecidablePred p]
    (p' : Fin n0 × Fin n1 → Prop) [DecidablePred p'] (h : ∀ q, p' q ↔ p (ix2 q.1 q.2)) :
    (Finset.univ.filter p).card = (Finset.univ.filter p').card :=
  (card_filter_equiv (idxEquiv2 (n0 := n0) (n1 := n1)).symm p p' h).symm

/-- The two counting steps chained: flat positions with key `b·W + k` against pairs in row-major order. -/
theorem card_key_eq_pairs (B P K M W n : ℕ) (hM : M = P * K) (hn : n = B * M) (c : ℕ → ℕ → ℕ)
    (hc : ∀ q r, q < B → r < M → c q r < W) (b k : ℕ) (hb : b < B) (hk : k < W)
    (pU : Fin n → Prop) [DecidablePred pU]
    (hpU : ∀ u : Fin n, pU u ↔ (u.val / M) * W + c (u.val / M) (u.val % M) = b * W + k)
    (pP : Fin P × Fin K → Prop) [DecidablePred pP]
    (hpP : ∀ q : Fin P × Fin K, pP q ↔ c b (q.1.val * K + q.2.val) = k) :
    (Finset.univ.filter pU).card = (Finset.univ.filter pP).card := by
  rw [card_flat_key B M W n hn c hc b k hb hk pU hpU (fun j : Fin M => c b j.val = k) (fun _ => Iff.rfl)]
  exact card_flat_pairs P K M hM (fun l => c b l = k) (fun j : Fin M => c b j.val = k) (fun _ => Iff.rfl) pP hpP

/-- The same with the flat positions given as a rank-1 index set. -/
theorem card_key_eq_pairs_idx1 (B P K M W n : ℕ) (hM : M = P * K) (hn : n = B * M) (c : ℕ → ℕ → ℕ)
    (hc : ∀ q r, q < B → r < M → c q r < W) (b k : ℕ) (hb : b < B) (hk : k < W)
    (pU : (⟨1, ![n]⟩ : Shape).Idx → Prop) [DecidablePred pU]
    (hpU : ∀ u : (⟨1, ![n]⟩ : Shape).Idx,
      pU u ↔ ((u 0).val / M) * W + c ((u 0).val / M) ((u 0).val % M) = b * W + k)
    (pP : Fin P × Fin K → Prop) [DecidablePred pP]
    (hpP : ∀ q : Fin P × Fin K, pP q ↔ c b (q.1.val * K + q.2.val) = k) :
    (Finset.univ.filter pU).card = (Finset.univ.filter pP).card := by
  rw [card_filter_idx1 pU (fun a : Fin n => pU (ix1 a)) (fun _ => Iff.rfl)]
  exact card_key_eq_pairs B P K M W n hM hn c hc b k hb hk (fun a : Fin n => pU (ix1 a)) (fun a => hpU (ix1 a)) pP hpP

end Cert.SimStats

end
-- ==== Proof.RefSpecHist.lean ====
/-
  The reference's histogram stage read by coordinates.

  Every similarity gets a bin word (the clamped floor of (s + 1)·8, converted to a signed integer): a natural number
  below 16. The reference keys position (graph q, flat position r) by the word q·16 + bin and scatter-adds a one for
  each of the 128·262144 positions into 2048 cells started from zero: cell b·16 + k ends with the number of positions
  whose key is b·16 + k. Because every bin is below 16, those are the positions of graph b with bin k, as many as the
  pairs (n, m) of nodes with bin k at flat position n·512 + m. The specification counts the same pairs by summing,
  over n and m, the indicator "bin = k" (a comparison word made a float). The counts are then divided by the row
  total floored at one.
-/
import proofs.«115078_j84482006712593_1_alg».proof.Proof.RefRunStages
import proofs.«115078_j84482006712593_1_alg».proof.Proof.Spec
import proofs.«115078_j84482006712593_1_alg».proof.Proof.LibPointwise
import proofs.«115078_j84482006712593_1_alg».proof.Proof.RefSpecHost
import proofs.«115078_j84482006712593_1_alg».proof.Proof.RefSpecScatter
import proofs.«115078_j84482006712593_1_alg».proof.Proof.MathConsts
import proofs.«115078_j84482006712593_1_alg».proof.Proof.MathHist
import proofs.«115078_j84482006712593_1_alg».proof.Proof.MathIdx

noncomputable section

open scoped BigOperators

namespace Cert.ReferenceIdeal.RefSpec

open Cert.ReferenceIdeal Cert.ReferenceIdeal.Gen Idealize.ShloMosaic Idealize.SL.Sem Idealize.ShloMosaic.ValueIdx
open Cert.SimStats

variable {α : Type}

/-- A vector `[m]` viewed as `[a, w]`: entry `(i, j)` is entry `i·w + j`. -/
theorem reshape_vec_to_mat_apply {m a w : ℕ} (x : (⟨1, ![m]⟩ : Shape).Idx → α)
    (h : (⟨1, ![m]⟩ : Shape).ShapeCasts ⟨2, ![a, w]⟩) (i : Fin a) (j : Fin w) (r : Fin m)
    (hr : r.val = i.val * w + j.val) : shapeCast ⟨2, ![a, w]⟩ x h (ix2 i j) = x (ix1 r) :=
  shapeCast_apply x h (ix2 i j) (ix1 r) (by
    rw [Shape.rowMajor_val_one, Shape.rowMajor_val_two]
    show r.val = i.val * w + j.val
    exact hr)

/-- An `[a, n]` array viewed as the vector `[m]`: entry `q·n + r` is entry `(q, r)`. -/
theorem reshape_mat_to_vec_apply {a n m : ℕ} (x : (⟨2, ![a, n]⟩ : Shape).Idx → α)
    (h : (⟨2, ![a, n]⟩ : Shape).ShapeCasts ⟨1, ![m]⟩) (v : Fin m) (q : Fin a) (r : Fin n)
    (hv : v.val = q.val * n + r.val) : shapeCast ⟨1, ![m]⟩ x h (ix1 v) = x (ix2 q r) :=
  shapeCast_apply x h (ix1 v) (ix2 q r) (by
    rw [Shape.rowMajor_val_two, Shape.rowMajor_val_one]
    show q.val * n + r.val = v.val
    exact hv.symm)

/-! ### The bin word -/

/-- The clamp bounds of the specification are the reals 0 and 15. -/
theorem c0_eq : Cert.SimGnn.c0 = 0 := Ideal.ofBits_zero_f32
theorem c15_eq : Cert.SimGnn.c15 = ((15 : ℝ) : EReal) := ofBits_15

/-- Every bin word is below 16. -/
theorem binOf_toNat_lt (s : EReal) : (Cert.SimGnn.binOf s).toNat < 16 :=
  bin_toNat_lt _ _ _ c0_eq c15_eq

/-- The bin stage at an entry is the specification's bin of the entry. -/
theorem binIdx_apply (flat : (⟨S128x262144, .f32⟩ : BufTy).Contents (Elt Ideal)) (i : S128x262144.Idx) :
    RefRun.binIdx (F := Ideal) flat i = Cert.SimGnn.binOf (flat i) := by
  unfold RefRun.binIdx Cert.SimGnn.binOf
  show Ideal.fptosi 32 (min (broadcastInDim S128x262144 ![] bcast_S_S128x262144
        (sitofp (F := Ideal) .f32 (constantI S_ 32 15#32)) i)
      (max (broadcastInDim S128x262144 ![] bcast_S_S128x262144 (sitofp (F := Ideal) .f32 (constantI S_ 32 0#32)) i)
        (Ideal.liftRound Int.floor
          ((flat i + broadcastInDim S128x262144 ![] bcast_S_S128x262144 (constant (F := Ideal) S_ .f32 0x3F800000#32) i)
            * broadcastInDim S128x262144 ![] bcast_S_S128x262144 (constant (F := Ideal) S_ .f32 0x41000000#32) i)))) = _
  rw [broadcastInDim_scalar_apply, broadcastInDim_scalar_apply, broadcastInDim_scalar_apply, broadcastInDim_scalar_apply]
  show Ideal.fptosi 32 (min (FloatOps.sitofp (F := Ideal) .f32 (15#32 : BitVec 32))
      (max (FloatOps.sitofp (F := Ideal) .f32 (0#32 : BitVec 32))
        (Ideal.liftRound Int.floor ((flat i + Ideal.ofBits .f32 0x3F800000#32) * Ideal.ofBits .f32 0x41000000#32))))
    = Ideal.fptosi 32 (min (Ideal.ofBits .f32 0x41700000#32) (max (Ideal.ofBits .f32 0x00000000#32)
        (Ideal.liftRound Int.floor ((flat i + Ideal.ofBits .f32 0x3F800000#32) * Ideal.ofBits .f32 0x41000000#32))))
  rw [sitofp_15, sitofp_zero, ofBits_15, ofBits_zero]

/-- The indicator of "bin `k`" is one where the word is `k` and zero elsewhere. -/
theorem ind_eq (k w : BitVec 32) : Cert.SimGnn.ind k w = if (w == k) = true then (1 : EReal) else 0 := by
  unfold Cert.SimGnn.ind
  show FloatOps.sitofp (F := Ideal) .f32 ((BitVec.ofBool (w == k)).setWidth 32) = _
  rw [sitofp_setWidth_ofBool]

/-- A word below 2^32 … equals the word of `k` exactly when its unsigned reading is `k`. -/
theorem beq_ofNat_iff (w : BitVec 32) (k : ℕ) (hk : k < 16) : (w == BitVec.ofNat 32 k) = true ↔ w.toNat = k := by
  rw [beq_iff_eq]
  constructor
  · intro h; rw [h, BitVec.toNat_ofNat]; omega
  · intro h; rw [← h]; exact word_eq_ofNat_toNat w

/-! ### The keys -/

/-- The scatter index of flat position `v = q·262144 + r`: the column of graph offsets plus the bins. -/
theorem key_apply (col : (⟨S128x1, .i32⟩ : BufTy).Contents (Elt Ideal)) (bins : (⟨S128x262144, .i32⟩ : BufTy).Contents (Elt Ideal)) (v : Fin 33554432) (q : Fin 128)
    (r : Fin 262144) (hv : v.val = q.val * 262144 + r.val) :
    broadcastInDim S33554432x1 ![0] bcast_S33554432_S33554432x1_0
        (shapeCast S33554432 (addi (broadcastInDim S128x262144 ![0, 1] bcast_S128x1_S128x262144_0_1 col) bins)
          shapeCasts_S128x262144_S33554432) (ix2 v (0 : Fin 1))
      = col (ix2 q (0 : Fin 1)) + bins (ix2 q r) := by
  rw [vec_to_col_apply, reshape_mat_to_vec_apply _ shapeCasts_S128x262144_S33554432 v q r hv]
  show broadcastInDim S128x262144 ![0, 1] bcast_S128x1_S128x262144_0_1 col (ix2 q r) + bins (ix2 q r) = _
  rw [col_bcast_apply]

/-- The column of graph offsets: graph `q` times 16. -/
theorem offsets_apply (q : Fin 128) (u : Fin 1) :
    muli (broadcastInDim S128x1 ![0] bcast_S128_S128x1_0 (iotaInDim S128 32 0 : (⟨S128, .i32⟩ : BufTy).Contents (Elt Ideal)))
        (broadcastInDim S128x1 ![] bcast_S_S128x1 (constantI S_ 32 16#32 : (⟨S_, .i32⟩ : BufTy).Contents (Elt Ideal))) (ix2 q u)
      = BitVec.ofNat 32 q.val * 16#32 := by
  show broadcastInDim S128x1 ![0] bcast_S128_S128x1_0 (iotaInDim S128 32 0 : (⟨S128, .i32⟩ : BufTy).Contents (Elt Ideal)) (ix2 q u)
      * broadcastInDim S128x1 ![] bcast_S_S128x1 (constantI S_ 32 16#32 : (⟨S_, .i32⟩ : BufTy).Contents (Elt Ideal)) (ix2 q u) = _
  rw [vec_to_col_apply, broadcastInDim_scalar_apply]
  rfl

/-! ### The counts -/

/-- The count stage at graph `b`, bin `k`: the number of node pairs whose bin word reads `k`. -/
theorem histRaw_apply (bins : (⟨S128x262144, .i32⟩ : BufTy).Contents (Elt Ideal)) (hb16 : ∀ i, (bins i).toNat < 16) (b : Fin 128) (k : Fin 16) :
    RefRun.histRaw (F := Ideal) bins (ix2 b k)
      = (((Finset.univ.filter fun p : Fin 512 × Fin 512 =>
            (bins (ix2 b (⟨p.1.val * 512 + p.2.val, by have := p.1.isLt; have := p.2.isLt; omega⟩ : Fin 262144))).toNat
              = k.val).card : ℝ) : EReal) := by
  have hbl := b.isLt
  have hkl := k.isLt
  have hr : b.val * 16 + k.val < 2048 := by omega
  unfold RefRun.histRaw
  refine (reshape_vec_to_mat_apply _ shapeCasts_S2048_S128x16 b k ⟨b.val * 16 + k.val, hr⟩ rfl).trans ?_
  refine (scatterAdd1_apply scatter_S2048_S33554432x1_S33554432_n_0_0_1 rfl rfl rfl _ _ _
    (ix1 (⟨b.val * 16 + k.val, hr⟩ : Fin 2048))).trans ?_
  rw [broadcastInDim_scalar_apply, constant_apply, Ideal.ofBits_zero_f32]
  have hupd : ∀ u : S33554432.Idx,
      broadcastInDim S33554432 ![] bcast_S_S33554432 (constant (F := Ideal) S_ .f32 0x3F800000#32) u = (1 : EReal) :=
    fun u => by rw [broadcastInDim_scalar_apply, constant_apply, Ideal.ofBits_one_f32]
  rw [Finset.sum_congr rfl (fun u _ => hupd u), zero_add_sum_ones]
  refine congrArg (fun c : ℕ => ((c : ℝ) : EReal)) ?_
  -- the bins as a function of two natural numbers
  let c : ℕ → ℕ → ℕ := fun q r =>
    if h : q < 128 ∧ r < 262144 then (bins (ix2 (⟨q, h.1⟩ : Fin 128) (⟨r, h.2⟩ : Fin 262144))).toNat else 0
  have hc : ∀ q r, q < 128 → r < 262144 → c q r < 16 := fun q r hq hr' => by
    show (if h : q < 128 ∧ r < 262144 then (bins (ix2 (⟨q, h.1⟩ : Fin 128) (⟨r, h.2⟩ : Fin 262144))).toNat else 0) < 16
    rw [dif_pos ⟨hq, hr'⟩]; exact hb16 _
  refine card_key_eq_pairs_idx1 128 512 512 262144 16 33554432 (by norm_num) (by norm_num) c hc b.val k.val hbl hkl
    _ (fun u => ?_) _ (fun p => ?_)
  · -- a flat position's key
    have hu := (u 0).isLt
    have hq : (u 0).val / 262144 < 128 := Nat.div_lt_of_lt_mul (by
      show (u 0).val < 262144 * 128
      have : (u 0).val < 33554432 := hu
      omega)
    have hr' : (u 0).val % 262144 < 262144 := Nat.mod_lt _ (by norm_num)
    have hv : (u 0).val = (u 0).val / 262144 * 262144 + (u 0).val % 262144 := (Nat.div_add_mod' _ _).symm
    rw [key_apply _ bins (u 0) ⟨_, hq⟩ ⟨_, hr'⟩ hv, offsets_apply,
      word_eq_ofNat_toNat (bins (ix2 (⟨(u 0).val / 262144, hq⟩ : Fin 128) (⟨(u 0).val % 262144, hr'⟩ : Fin 262144))),
      key_toInt _ _ hq (hb16 _)]
    have hcv : c ((u 0).val / 262144) ((u 0).val % 262144)
        = (bins (ix2 (⟨(u 0).val / 262144, hq⟩ : Fin 128) (⟨(u 0).val % 262144, hr'⟩ : Fin 262144))).toNat := by
      show (if h : (u 0).val / 262144 < 128 ∧ (u 0).val % 262144 < 262144
        then (bins (ix2 (⟨(u 0).val / 262144, h.1⟩ : Fin 128) (⟨(u 0).val % 262144, h.2⟩ : Fin 262144))).toNat else 0) = _
      rw [dif_pos ⟨hq, hr'⟩]
    rw [hcv]
    show ((((u 0).val / 262144 : ℕ) : ℤ) * 16 + _ = ((b.val * 16 + k.val : ℕ) : ℤ)) ↔ _
    constructor
    · intro h; exact_mod_cast h
    · intro h; exact_mod_cast h
  · -- a pair's bin
    have h1 := p.1.isLt
    have h2 := p.2.isLt
    show _ ↔ (if h : b.val < 128 ∧ p.1.val * 512 + p.2.val < 262144
      then (bins (ix2 (⟨b.val, h.1⟩ : Fin 128) (⟨p.1.val * 512 + p.2.val, h.2⟩ : Fin 262144))).toNat else 0) = k.val
    rw [dif_pos ⟨hbl, by omega⟩]

/-- The count stage on the bin stage, against the specification's sum of indicators over the node pairs. -/
theorem histCount_apply (flat : (⟨S128x262144, .f32⟩ : BufTy).Contents (Elt Ideal)) (S : Fin 128 → Fin 512 → Fin 512 → EReal)
    (hflat : ∀ (b' : Fin 128) (j : Fin 262144), flat (ix2 b' j)
      = S b' ⟨j.val / 512, by have := j.isLt; omega⟩ ⟨j.val % 512, by omega⟩)
    (b : Fin 128) (k : Fin 16) :
    RefRun.histRaw (F := Ideal) (RefRun.binIdx (F := Ideal) flat) (ix2 b k)
      = ∑ n : Fin 512, ∑ m : Fin 512, Cert.SimGnn.ind (BitVec.ofNat 32 k.val) (Cert.SimGnn.binOf (S b n m)) := by
  rw [histRaw_apply _ (fun i => by rw [binIdx_apply]; exact binOf_toNat_lt _) b k]
  symm
  rw [Finset.sum_congr rfl (fun n _ => Finset.sum_congr rfl (fun m _ =>
    ind_eq (BitVec.ofNat 32 k.val) (Cert.SimGnn.binOf (S b n m))))]
  rw [sum_sum_indicator (fun n m => (Cert.SimGnn.binOf (S b n m) == BitVec.ofNat 32 k.val) = true)]
  refine congrArg (fun c : ℕ => ((c : ℝ) : EReal)) (congrArg Finset.card (Finset.filter_congr fun p _ => ?_))
  have h1 := p.1.isLt
  have h2 := p.2.isLt
  have hlt : p.1.val * 512 + p.2.val < 262144 := by omega
  have hfl : flat (ix2 b (⟨p.1.val * 512 + p.2.val, hlt⟩ : Fin 262144)) = S b p.1 p.2 := by
    rw [hflat]
    congr 1
    · exact Fin.ext (by show (p.1.val * 512 + p.2.val) / 512 = p.1.val; omega)
    · exact Fin.ext (by show (p.1.val * 512 + p.2.val) % 512 = p.2.val; omega)
  rw [binIdx_apply, hfl, beq_ofNat_iff _ _ k.isLt]

/-- The normalized-histogram stage at graph `b`, bin `k`. -/
theorem histN_apply (flat : (⟨S128x262144, .f32⟩ : BufTy).Contents (Elt Ideal)) (S : Fin 128 → Fin 512 → Fin 512 → EReal)
    (hflat : ∀ (b' : Fin 128) (j : Fin 262144), flat (ix2 b' j)
      = S b' ⟨j.val / 512, by have := j.isLt; omega⟩ ⟨j.val % 512, by omega⟩)
    (b : Fin 128) (k : Fin 16) :
    RefRun.histN (F := Ideal) flat (ix2 b k)
      = Ideal.div (∑ n : Fin 512, ∑ m : Fin 512, Cert.SimGnn.ind (BitVec.ofNat 32 k.val) (Cert.SimGnn.binOf (S b n m)))
          (max (∑ k' : Fin 16, ∑ n : Fin 512, ∑ m : Fin 512,
              Cert.SimGnn.ind (BitVec.ofNat 32 k'.val) (Cert.SimGnn.binOf (S b n m))) Cert.SimGnn.c1) := by
  unfold RefRun.histN RefRun.histB RefRun.histFin
  rw [hostDivf_apply, col_bcast_apply]
  refine congrArg₂ Ideal.div (histCount_apply flat S hflat b k) ?_
  unfold RefRun.histDen
  rw [maximumf_apply, vec_to_col_apply, broadcastInDim_scalar_apply, constant_apply]
  refine congrArg₂ max ?_ rfl
  refine (hostSum_axis1_of2 _ _ reducesTo_S128x16_S128_d1 (by decide) h_S_ b).trans ?_
  rw [constant_apply, Ideal.ofBits_zero_f32, zero_add]
  exact Finset.sum_congr rfl fun k' _ => histCount_apply flat S hflat b k'

end Cert.ReferenceIdeal.RefSpec

end
-- ==== Proof.RefSpec.lean ====
/-
  The reference's result read by coordinates, at the exact-real instance: entry b of the result vector is the
  specification's output for graph pair b, over the encoder's outputs for the two graph batches.
-/
import proofs.«115078_j84482006712593_1_alg».proof.Proof.RefSpecAssemble
import proofs.«115078_j84482006712593_1_alg».proof.Proof.RefSpecGmean
import proofs.«115078_j84482006712593_1_alg».proof.Proof.RefSpecMlp
import proofs.«115078_j84482006712593_1_alg».proof.Proof.RefSpecFeat
import proofs.«115078_j84482006712593_1_alg».proof.Proof.RefSpecHist

noncomputable section

namespace Cert.ReferenceIdeal.RefSpec

open Cert.ReferenceIdeal Cert.ReferenceIdeal.Gen Idealize.ShloMosaic Idealize.ShloMosaic.ValueIdx

/-- Everything after the encoder, at graph pair `b`, over any two node tables. -/
theorem tail_apply (h1 h2 : (⟨S65536x64, .f32⟩ : BufTy).Contents (Elt Ideal)) (w1 : (⟨S147x64, .f32⟩ : BufTy).Contents (Elt Ideal)) (b1 : (⟨S64, .f32⟩ : BufTy).Contents (Elt Ideal)) (w2 : (⟨S64x32, .f32⟩ : BufTy).Contents (Elt Ideal)) (b2 : (⟨S32, .f32⟩ : BufTy).Contents (Elt Ideal)) (w3 : (⟨S32x1, .f32⟩ : BufTy).Contents (Elt Ideal)) (b3 : (⟨S1, .f32⟩ : BufTy).Contents (Elt Ideal)) (b : Fin 128) :
    RefRun.mlp (F := Ideal)
        (RefRun.feat (RefRun.gmean h1) (RefRun.gmean h2) (RefRun.histN (RefRun.simFlat h1 h2)) (RefRun.meanF (RefRun.simFlat h1 h2))
          (RefRun.maxF (RefRun.simFlat h1 h2)) (RefRun.stdF (RefRun.simFlat h1 h2)))
        w1 b1 w2 b2 w3 b3 (ix1 b)
      = Cert.SimGnn.out (Cert.SimGnn.embOf h1 b) (Cert.SimGnn.embOf h2 b) (fun j a => w1 (ix2 j a)) (fun a => b1 (ix1 a)) (fun a c => w2 (ix2 a c)) (fun c => b2 (ix1 c)) (fun c u => w3 (ix2 c u)) (fun u => b3 (ix1 u)) :=
  tail_apply_of gmean_apply (fun flat b k S h => histN_apply flat S h b k) feat_apply mlp_apply h1 h2 w1 b1 w2 b2 w3 b3 b

/-- The reference's result at graph pair `b`. -/
theorem result_apply (a0 : (⟨S65536x128, .f32⟩ : BufTy).Contents (Elt Ideal)) (a1 : (⟨S2x1048576, .i32⟩ : BufTy).Contents (Elt Ideal)) (a3 : (⟨S65536x128, .f32⟩ : BufTy).Contents (Elt Ideal)) (a4 : (⟨S2x1048576, .i32⟩ : BufTy).Contents (Elt Ideal)) (a6 : (⟨S128x64, .f32⟩ : BufTy).Contents (Elt Ideal)) (a7 : (⟨S64, .f32⟩ : BufTy).Contents (Elt Ideal)) (a8 : (⟨S64x64, .f32⟩ : BufTy).Contents (Elt Ideal)) (a9 : (⟨S64, .f32⟩ : BufTy).Contents (Elt Ideal)) (a10 : (⟨S64x64, .f32⟩ : BufTy).Contents (Elt Ideal)) (a11 : (⟨S64, .f32⟩ : BufTy).Contents (Elt Ideal)) (a12 : (⟨S64x64, .f32⟩ : BufTy).Contents (Elt Ideal)) (a13 : (⟨S64, .f32⟩ : BufTy).Contents (Elt Ideal)) (a14 : (⟨S147x64, .f32⟩ : BufTy).Contents (Elt Ideal)) (a15 : (⟨S64, .f32⟩ : BufTy).Contents (Elt Ideal)) (a16 : (⟨S64x32, .f32⟩ : BufTy).Contents (Elt Ideal)) (a17 : (⟨S32, .f32⟩ : BufTy).Contents (Elt Ideal)) (a18 : (⟨S32x1, .f32⟩ : BufTy).Contents (Elt Ideal)) (a19 : (⟨S1, .f32⟩ : BufTy).Contents (Elt Ideal)) (b : Fin 128) :
    RefRun.result (F := Ideal) a0 a1 a3 a4 a6 a7 a8 a9 a10 a11 a12 a13 a14 a15 a16 a17 a18 a19 (ix1 b)
      = Cert.SimGnn.out (Cert.SimGnn.embOf (RefRun.enc (F := Ideal) a0 a1 a6 a7 a8 a9 a10 a11 a12 a13) b) (Cert.SimGnn.embOf (RefRun.enc (F := Ideal) a3 a4 a6 a7 a8 a9 a10 a11 a12 a13) b) (fun j a => a14 (ix2 j a)) (fun a => a15 (ix1 a)) (fun a c => a16 (ix2 a c)) (fun c => a17 (ix1 c)) (fun c u => a18 (ix2 c u)) (fun u => a19 (ix1 u)) :=
  result_apply_of gmean_apply (fun flat b k S h => histN_apply flat S h b k) feat_apply mlp_apply a0 a1 a3 a4 a6 a7 a8 a9 a10 a11 a12 a13 a14 a15 a16 a17 a18 a19 b

end Cert.ReferenceIdeal.RefSpec

end
-- ==== Proof.EncBridge.lean ====
/-
  The encoder is one function in both programs: the two printed texts name their shapes and dimension records in their own
  namespaces, and the records are field for field the same.
-/
import Idealize.ShloMosaic.PureOps.Ideal
import proofs.«115078_j84482006712593_1_alg».proof.Proof.KHost
import proofs.«115078_j84482006712593_1_alg».proof.Proof.RefRunStages

set_option maxRecDepth 16384

noncomputable section

namespace Cert.EncBridge

open Idealize.ShloMosaic

/-- The reference's encoder is the kernel program's. -/
theorem enc_eq (x : (⟨Cert.KernelIdeal.S65536x128, .f32⟩ : BufTy).Contents (Elt Ideal)) (e : (⟨Cert.KernelIdeal.S2x1048576, .i32⟩ : BufTy).Contents (Elt Ideal))
    (w1 : (⟨Cert.KernelIdeal.S128x64, .f32⟩ : BufTy).Contents (Elt Ideal)) (b1 : (⟨Cert.KernelIdeal.S64, .f32⟩ : BufTy).Contents (Elt Ideal))
    (w2 : (⟨Cert.KernelIdeal.S64x64, .f32⟩ : BufTy).Contents (Elt Ideal)) (b2 : (⟨Cert.KernelIdeal.S64, .f32⟩ : BufTy).Contents (Elt Ideal))
    (w3 : (⟨Cert.KernelIdeal.S64x64, .f32⟩ : BufTy).Contents (Elt Ideal)) (b3 : (⟨Cert.KernelIdeal.S64, .f32⟩ : BufTy).Contents (Elt Ideal))
    (w4 : (⟨Cert.KernelIdeal.S64x64, .f32⟩ : BufTy).Contents (Elt Ideal)) (b4 : (⟨Cert.KernelIdeal.S64, .f32⟩ : BufTy).Contents (Elt Ideal)) :
    Cert.ReferenceIdeal.RefRun.enc (F := Ideal) x e w1 b1 w2 b2 w3 b3 w4 b4 = Cert.KernelIdeal.KVal.enc (F := Ideal) x e w1 b1 w2 b2 w3 b3 w4 b4 := rfl

end Cert.EncBridge

end
-- ==== Proof.lean ====
/-
  The certificate's claims.

  Both idealized programs compute, for each of the 128 graph pairs, one number: the pair's two node-embedding tables
  (both programs obtain them from the arguments by the same encoder) are normalized row by row, the 512 × 512 cosine
  similarities are binned into a 16-bin histogram and summarized by their mean, maximum and standard deviation, and a
  three-layer perceptron maps these 147 features (with the graphs' mean embeddings) to the result. The kernel works on
  eight graph pairs per grid point with two-stage sums and the standard deviation as sqrt(max(E[s²] − E[s]², 0)); the
  reference works on all pairs at once, counts the histogram by a scatter-add of ones and takes the deviation from the
  centred squares. The similarities are real numbers whatever the inputs (a row with an infinite entry has infinite
  length and normalizes to zero), so the two deviations agree, the two histograms count the same sets, and the sums
  differ only in grouping.
-/
import proofs.«115078_j84482006712593_1_alg».proof.Defs
import proofs.«115078_j84482006712593_1_alg».proof.Proof.Gen.Kernel.Frame
import proofs.«115078_j84482006712593_1_alg».proof.Proof.Gen.Pre_finite_inputs
import proofs.«115078_j84482006712593_1_alg».proof.Proof.KRun
import proofs.«115078_j84482006712593_1_alg».proof.Proof.RefRun
import proofs.«115078_j84482006712593_1_alg».proof.Proof.RefSpec
import proofs.«115078_j84482006712593_1_alg».proof.Proof.EncBridge

set_option maxRecDepth 16384

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Entry `b` of either result is the specification's output for graph pair `b` of the same encoder outputs and weights. -/
theorem algebraic : Cert.algebraic_KernelIdeal_ReferenceIdeal := by
  intro m ρ m' ρ' _ hagree
  refine ⟨fun c => Cert.KernelIdeal.KVal.kres m c, Cert.KernelIdeal.KVal.krun m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13, h14, h15, h16, h17, h18, h19⟩ := hagree c
  rw [h0, h1, h3, h4, h6, h7, h8, h9, h10, h11, h12, h13, h14, h15, h16, h17, h18, h19]
  funext i
  obtain ⟨b, rfl⟩ : ∃ b : Fin 128, i = ix1 b := ⟨i 0, eq_ix1 i⟩
  refine (Cert.ReferenceIdeal.RefSpec.result_apply _ _ _ _ _ _ _ _ _ _ _ _ _ _ _ _ _ _ b).trans ?_
  rw [Cert.EncBridge.enc_eq, Cert.EncBridge.enc_eq]
  exact (Cert.KernelIdeal.KVal.kres_apply m c b).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
